-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1444) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S128x32 : Shape := ⟨2, ![128, 32]⟩
abbrev S128 : Shape := ⟨1, ![128]⟩
abbrev S9x128x128 : Shape := ⟨3, ![9, 128, 128]⟩
abbrev S9x128 : Shape := ⟨2, ![9, 128]⟩
abbrev S128x256 : Shape := ⟨2, ![128, 256]⟩
abbrev S7x16384x16 : Shape := ⟨3, ![7, 16384, 16]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S9x128x128 : S_.BroadcastsInDim S9x128x128 (![] : Fin 0 → Fin S9x128x128.rank)
  reducesTo_S9x128x128_S_d0_1_2 : S9x128x128.ReducesTo [0, 1, 2] S_
  bcast_S_S9x128 : S_.BroadcastsInDim S9x128 (![] : Fin 0 → Fin S9x128.rank)
  reducesTo_S9x128_S_d0_1 : S9x128.ReducesTo [0, 1] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S9x128x128 .f32) (main_arg8 : FVec F S9x128 .f32) (main_v33 : IVec S_ 1) : IVec S_ 1 :=
  let main_v34 : FVec F S9x128x128 .f32 := Host.absf main_arg7
  let main_cst_12 : FVec F S_ .f32 := constant S_ .f32 0x7F800000#32
  let main_v35 : FVec F S9x128x128 .f32 := broadcastInDim S9x128x128 ![] bcast_S_S9x128x128 main_cst_12
  let main_v36 : IVec S9x128x128 1 := cmpf .olt main_v34 main_v35
  let main_c_13 : IVec S_ 1 := constantI S_ 1 1#1
  let main_v37 : IVec S_ 1 := (fun x v => Host.reduce IntOp.andi x v reducesTo_S9x128x128_S_d0_1_2 h_S_) main_v36 main_c_13
  let main_v38 : IVec S_ 1 := andi main_v33 main_v37
  let main_v39 : FVec F S9x128 .f32 := Host.absf main_arg8
  let main_cst_14 : FVec F S_ .f32 := constant S_ .f32 0x7F800000#32
  let main_v40 : FVec F S9x128 .f32 := broadcastInDim S9x128 ![] bcast_S_S9x128 main_cst_14
  let main_v41 : IVec S9x128 1 := cmpf .olt main_v39 main_v40
  let main_c_15 : IVec S_ 1 := constantI S_ 1 1#1
  let main_v42 : IVec S_ 1 := (fun x v => Host.reduce IntOp.andi x v reducesTo_S9x128_S_d0_1 h_S_) main_v41 main_c_15
  let main_v43 : IVec S_ 1 := andi main_v38 main_v42
  main_v43

def fn_part1 {F : FTy → Type} [FloatOps F] (main_arg4 : FVec F S9x128 .f32) (main_arg5 : FVec F S128x256 .f32) (main_arg6 : FVec F S128 .f32) (main_arg7 : FVec F S9x128x128 .f32) (main_arg8 : FVec F S9x128 .f32) (main_v13 : IVec S_ 1) (main_v16 : IVec S9x128x128 1) : IVec S_ 1 :=
  let main_c_5 : IVec S_ 1 := constantI S_ 1 1#1
  let main_v17 : IVec S_ 1 := (fun x v => Host.reduce IntOp.andi x v reducesTo_S9x128x128_S_d0_1_2 h_S_) main_v16 main_c_5
  let main_v18 : IVec S_ 1 := andi main_v13 main_v17
  let main_v19 : FVec F S9x128 .f32 := Host.absf main_arg4
  let main_cst_6 : FVec F S_ .f32 := constant S_ .f32 0x7F800000#32
  let main_v20 : FVec F S9x128 .f32 := broadcastInDim S9x128 ![] bcast_S_S9x128 main_cst_6
  let main_v21 : IVec S9x128 1 := cmpf .olt main_v19 main_v20
  let main_c_7 : IVec S_ 1 := constantI S_ 1 1#1
  let main_v22 : IVec S_ 1 := (fun x v => Host.reduce IntOp.andi x v reducesTo_S9x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x32 .f32) (main_arg1 : FVec F S128x32 .f32) (main_arg2 : FVec F S128 .f32) (main_arg3 : FVec F S9x128x128 .f32) (main_arg4 : FVec F S9x128 .f32) (main_arg5 : FVec F S128x256 .f32) (main_arg6 : FVec F S128 .f32) (main_arg7 : FVec F S9x128x128 .f32) (main_arg8 : FVec F S9x128 .f32) (main_arg9 : IVec S7x16384x16 32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S9x128x128 .f32 := Host.absf main_arg3
  let main_cst_4 : FVec F S_ .f32 := constant S_ .f32 0x7F800000#32
  let main_v15 : FVec F S9x128x128 .f32 := broadcastInDim S9x128x128 ![] bcast_S_S9x128x128 main_cst_4
  let main_v16 : IVec S9x128x128 1 := cmpf .olt main_v14 main_v15
  fn_part1 (F := F) main_arg4 main_arg5 main_arg6 main_arg7 main_arg8 main_v13 main_v16
-- ==== Kernel.lean ====
abbrev S131072x32 : Shape := ⟨2, ![131072, 32]⟩
abbrev S128x32 : Shape := ⟨2, ![128, 32]⟩
abbrev S128 : Shape := ⟨1, ![128]⟩
abbrev S9x128x128 : Shape := ⟨3, ![9, 128, 128]⟩
abbrev S9x128 : Shape := ⟨2, ![9, 128]⟩
abbrev S128x256 : Shape := ⟨2, ![128, 256]⟩
abbrev S7x16384x16 : Shape := ⟨3, ![7, 16384, 16]⟩
abbrev S131072x128 : Shape := ⟨2, ![131072, 128]⟩
abbrev S4096x32 : Shape := ⟨2, ![4096, 32]⟩
abbrev S4096x128 : Shape := ⟨2, ![4096, 128]⟩
abbrev S32x128 : Shape := ⟨2, ![32, 128]⟩
abbrev S1x128 : Shape := ⟨2, ![1, 128]⟩
abbrev S8x16384x128 : Shape := ⟨3, ![8, 16384, 128]⟩
abbrev S1x16384x128 : Shape := ⟨3, ![1, 16384, 128]⟩
abbrev S16384x128 : Shape := ⟨2, ![16384, 128]⟩
abbrev S1x16384x16 : Shape := ⟨3, ![1, 16384, 16]⟩
abbrev S16384x16 : Shape := ⟨2, ![16384, 16]⟩
abbrev S_ : Shape := ⟨0, ![]⟩
abbrev S16384x16x1 : Shape := ⟨3, ![16384, 16, 1]⟩
abbrev S16384x16x128 : Shape := ⟨3, ![16384, 16, 128]⟩
abbrev S1024x128 : Shape := ⟨2, ![1024, 128]⟩
abbrev S1x128x128 : Shape := ⟨3, ![1, 128, 128]⟩
abbrev S128x128 : Shape := ⟨2, ![128, 128]⟩
abbrev S1024x256 : Shape := ⟨2, ![1024, 256]⟩
abbrev S256x128 : Shape := ⟨2, ![256, 128]⟩

abbrev nBuf : Space → Nat
  | .hbm => 130
  | .vmem => 90
  | .smem => 0
  | _ => 0

abbrev hbmTy0_0 (i : Nat) : BufTy := match i % 128 with
  | 0 => ⟨S131072x32, .f32⟩
  | 1 => ⟨S128x32, .f32⟩
  | 2 => ⟨S128, .f32⟩
  | 3 => ⟨S9x128x128, .f32⟩
  | 4 => ⟨S9x128, .f32⟩
  | 5 => ⟨S128x256, .f32⟩
  | 6 => ⟨S128, .f32⟩
  | 7 => ⟨S9x128x128, .f32⟩
  | 8 => ⟨S9x128, .f32⟩
  | 9 => ⟨S7x16384x16, .i32⟩
  | 10 => ⟨S131072x128, .f32⟩
  | 11 => ⟨S8x16384x128, .f32⟩
  | 12 => ⟨S9x128x128, .bf16⟩
  | 13 => ⟨S128x256, .bf16⟩
  | 14 => ⟨S9x128x128, .bf16⟩
  | 15 => ⟨S1x16384x128, .f32⟩
  | 16 => ⟨S16384x128, .f32⟩
  | 17 => ⟨S1x16384x16, .i32⟩
  | 18 => ⟨S16384x16, .i32⟩
  | 19 => ⟨S_, .i32⟩
  | 20 => ⟨S16384x16, .i32⟩
  | 21 => ⟨S16384x16, .i1⟩
  | 22 => ⟨S_, .i32⟩
  | 23 => ⟨S16384x16, .i32⟩
  | 24 => ⟨S16384x16, .i32⟩
  | 25 => ⟨S16384x16, .i32⟩
  | 26 => ⟨S16384x16x1, .i32⟩
  | 27 => ⟨S16384x16x128, .f32⟩
  | 28 => ⟨S_, .f32⟩
  | 29 => ⟨S16384x128, .f32⟩
  | 30 => ⟨S1x16384x128, .f32⟩
  | 31 => ⟨S16384x128, .f32⟩
  | 32 => ⟨S16384x128, .f32⟩
  | 33 => ⟨S1x16384x16, .i32⟩
  | 34 => ⟨S16384x16, .i32⟩
  | 35 => ⟨S_, .i32⟩
  | 36 => ⟨S16384x16, .i32⟩
  | 37 => ⟨S16384x16, .i1⟩
  | 38 => ⟨S_, .i32⟩
  | 39 => ⟨S16384x16, .i32⟩
  | 40 => ⟨S16384x16, .i32⟩
  | 41 => ⟨S16384x16, .i32⟩
  | 42 => ⟨S16384x16x1, .i32⟩
  | 43 => ⟨S16384x16x128, .f32⟩
  | 44 => ⟨S_, .f32⟩
  | 45 => ⟨S16384x128, .f32⟩
  | 46 => ⟨S1x16384x128, .f32⟩
  | 47 => ⟨S16384x128, .f32⟩
  | 48 => ⟨S16384x128, .f32⟩
  | 49 => ⟨S1x16384x16, .i32⟩
  | 50 => ⟨S16384x16, .i32⟩
  | 51 => ⟨S_, .i32⟩
  | 52 => ⟨S16384x16, .i32⟩
  | 53 => ⟨S16384x16, .i1⟩
  | 54 => ⟨S_, .i32⟩
  | 55 => ⟨S16384x16, .i32⟩
  | 56 => ⟨S16384x16, .i32⟩
  | 57 => ⟨S16384x16, .i32⟩
  | 58 => ⟨S16384x16x1, .i32⟩
  | 59 => ⟨S16384x16x128, .f32⟩
  | 60 => ⟨S_, .f32⟩
  | 61 => ⟨S16384x128, .f32⟩
  | 62 => ⟨S1x16384x128, .f32⟩
  | 63 => ⟨S16384x128, .f32⟩
  | 64 => ⟨S16384x128, .f32⟩
  | 65 => ⟨S1x16384x16, .i32⟩
  | 66 => ⟨S16384x16, .i32⟩
  | 67 => ⟨S_, .i32⟩
  | 68 => ⟨S16384x16, .i32⟩
  | 69 => ⟨S16384x16, .i1⟩
  | 70 => ⟨S_, .i32⟩
  | 71 => ⟨S16384x16, .i32⟩
  | 72 => ⟨S16384x16, .i32⟩
  | 73 => ⟨S16384x16, .i32⟩
  | 74 => ⟨S16384x16x1, .i32⟩
  | 75 => ⟨S16384x16x128, .f32⟩
  | 76 => ⟨S_, .f32⟩
  | 77 => ⟨S16384x128, .f32⟩
  | 78 => ⟨S1x16384x128, .f32⟩
  | 79 => ⟨S16384x128, .f32⟩
  | 80 => ⟨S16384x128, .f32⟩
  | 81 => ⟨S1x16384x16, .i32⟩
  | 82 => ⟨S16384x16, .i32⟩
  | 83 => ⟨S_, .i32⟩
  | 84 => ⟨S16384x16, .i32⟩
  | 85 => ⟨S16384x16, .i1⟩
  | 86 => ⟨S_, .i32⟩
  | 87 => ⟨S16384x16, .i32⟩
  | 88 => ⟨S16384x16, .i32⟩
  | 89 => ⟨S16384x16, .i32⟩
  | 90 => ⟨S16384x16x1, .i32⟩
  | 91 => ⟨S16384x16x128, .f32⟩
  | 92 => ⟨S_, .f32⟩
  | 93 => ⟨S16384x128, .f32⟩
  | 94 => ⟨S1x16384x128, .f32⟩
  | 95 => ⟨S16384x128, .f32⟩
  | 96 => ⟨S16384x128, .f32⟩
  | 97 => ⟨S1x16384x16, .i32⟩
  | 98 => ⟨S16384x16, .i32⟩
  | 99 => ⟨S_, .i32⟩
  | 100 => ⟨S16384x16, .i32⟩
  | 101 => ⟨S16384x16, .i1⟩
  | 102 => ⟨S_, .i32⟩
  | 103 => ⟨S16384x16, .i32⟩
  | 104 => ⟨S16384x16, .i32⟩
  | 105 => ⟨S16384x16, .i32⟩
  | 106 => ⟨S16384x16x1, .i32⟩
  | 107 => ⟨S16384x16x128, .f32⟩
  | 108 => ⟨S_, .f32⟩
  | 109 => ⟨S16384x128, .f32⟩
  | 110 => ⟨S1x16384x128, .f32⟩
  | 111 => ⟨S16384x128, .f32⟩
  | 112 => ⟨S16384x128, .f32⟩
  | 113 => ⟨S1x16384x16, .i32⟩
  | 114 => ⟨S16384x16, .i32⟩
  | 115 => ⟨S_, .i32⟩
  | 116 => ⟨S16384x16, .i32⟩
  | 117 => ⟨S16384x16, .i1⟩
  | 118 => ⟨S_, .i32⟩
  | 119 => ⟨S16384x16, .i32⟩
  | 120 => ⟨S16384x16, .i32⟩
  | 121 => ⟨S16384x16, .i32⟩
  | 122 => ⟨S16384x16x1, .i32⟩
  | 123 => ⟨S16384x16x128, .f32⟩
  | 124 => ⟨S_, .f32⟩
  | 125 => ⟨S16384x128, .f32⟩
  | 126 => ⟨S1x16384x128, .f32⟩
  | 127 => ⟨S16384x128, .f32⟩
  | _ => ⟨S131072x32, .f32⟩

abbrev hbmTy0_1 (i : Nat) : BufTy := match i % 128 with
  | 0 => ⟨S16384x128, .f32⟩
  | 1 => ⟨S131072x128, .f32⟩
  | _ => ⟨S131072x32, .f32⟩

abbrev hbmTy (i : Nat) : BufTy := match i / 128 with
  | 0 => hbmTy0_0 i
  | 1 => hbmTy0_1 i
  | _ => ⟨S131072x32, .f32⟩

abbrev bufTy : (tb : Table) → Fin (tcTables nBuf tb) → BufTy
  | .hbm, ⟨i, _⟩ => hbmTy i
  | .local _ .vmem, ⟨0, _⟩ => ⟨S4096x32, .f32⟩
  | .local _ .vmem, ⟨1, _⟩ => ⟨S4096x32, .f32⟩
  | .local _ .vmem, ⟨2, _⟩ => ⟨S128x32, .f32⟩
  | .local _ .vmem, ⟨3, _⟩ => ⟨S128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S9x128x128, .bf16⟩
  | .local _ .vmem, ⟨11, _⟩ => ⟨S9x128, .f32⟩
  | .local _ .vmem, ⟨12, _⟩ => ⟨S128x256, .bf16⟩
  | .local _ .vmem, ⟨13, _⟩ => ⟨S128, .f32⟩
  | .local _ .vmem, ⟨14, _⟩ => ⟨S9x128x128, .bf16⟩
  | .local _ .vmem, ⟨15, _⟩ => ⟨S9x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S9x128x128, .bf16⟩
  | .local _ .vmem, ⟨23, _⟩ => ⟨S9x128, .f32⟩
  | .local _ .vmem, ⟨24, _⟩ => ⟨S128x256, .bf16⟩
  | .local _ .vmem, ⟨25, _⟩ => ⟨S128, .f32⟩
  | .local _ .vmem, ⟨26, _⟩ => ⟨S9x128x128, .bf16⟩
  | .local _ .vmem, ⟨27, _⟩ => ⟨S9x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S9x128x128, .bf16⟩
  | .local _ .vmem, ⟨35, _⟩ => ⟨S9x128, .f32⟩
  | .local _ .vmem, ⟨36, _⟩ => ⟨S128x256, .bf16⟩
  | .local _ .vmem, ⟨37, _⟩ => ⟨S128, .f32⟩
  | .local _ .vmem, ⟨38, _⟩ => ⟨S9x128x128, .bf16⟩
  | .local _ .vmem, ⟨39, _⟩ => ⟨S9x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S9x128x128, .bf16⟩
  | .local _ .vmem, ⟨47, _⟩ => ⟨S9x128, .f32⟩
  | .local _ .vmem, ⟨48, _⟩ => ⟨S128x256, .bf16⟩
  | .local _ .vmem, ⟨49, _⟩ => ⟨S128, .f32⟩
  | .local _ .vmem, ⟨50, _⟩ => ⟨S9x128x128, .bf16⟩
  | .local _ .vmem, ⟨51, _⟩ => ⟨S9x128, .f32⟩
  | .local _ .vmem, ⟨52, _⟩ => ⟨S1024x128, .f32⟩
  | .local _ .vmem, ⟨53, _⟩ => ⟨S1024x128, .f32⟩
  | .local _ .vmem, ⟨54, _⟩ => ⟨S1024x128, .f32⟩
  | .local _ .vmem, ⟨55, _⟩ => ⟨S1024x128, .f32⟩
  | .local _ .vmem, ⟨56, _⟩ => ⟨S1024x128, .f32⟩
  | .local _ .vmem, ⟨57, _⟩ => ⟨S1024x128, .f32⟩
  | .local _ .vmem, ⟨58, _⟩ => ⟨S9x128x128, .bf16⟩
  | .local _ .vmem, ⟨59, _⟩ => ⟨S9x128, .f32⟩
  | .local _ .vmem, ⟨60, _⟩ => ⟨S128x256, .bf16⟩
  | .local _ .vmem, ⟨61, _⟩ => ⟨S128, .f32⟩
  | .local _ .vmem, ⟨62, _⟩ => ⟨S9x128x128, .bf16⟩
  | .local _ .vmem, ⟨63, _⟩ => ⟨S9x128, .f32⟩
  | .local _ .vmem, ⟨64, _⟩ => ⟨S1024x128, .f32⟩
  | .local _ .vmem, ⟨65, _⟩ => ⟨S1024x128, .f32⟩
  | .local _ .vmem, ⟨66, _⟩ => ⟨S1024x128, .f32⟩
  | .local _ .vmem, ⟨67, _⟩ => ⟨S1024x128, .f32⟩
  | .local _ .vmem, ⟨68, _⟩ => ⟨S1024x128, .f32⟩
  | .local _ .vmem, ⟨69, _⟩ => ⟨S1024x128, .f32⟩
  | .local _ .vmem, ⟨70, _⟩ => ⟨S9x128x128, .bf16⟩
  | .local _ .vmem, ⟨71, _⟩ => ⟨S9x128, .f32⟩
  | .local _ .vmem, ⟨72, _⟩ => ⟨S128x256, .bf16⟩
  | .local _ .vmem, ⟨73, _⟩ => ⟨S128, .f32⟩
  | .local _ .vmem, ⟨74, _⟩ => ⟨S9x128x128, .bf16⟩
  | .local _ .vmem, ⟨75, _⟩ => ⟨S9x128, .f32⟩
  | .local _ .vmem, ⟨76, _⟩ => ⟨S1024x128, .f32⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S1024x128, .f32⟩
  | .local _ .vmem, ⟨81, _⟩ => ⟨S1024x128, .f32⟩
  | .local _ .vmem, ⟨82, _⟩ => ⟨S9x128x128, .bf16⟩
  | .local _ .vmem, ⟨83, _⟩ => ⟨S9x128, .f32⟩
  | .local _ .vmem, ⟨84, _⟩ => ⟨S128x256, .bf16⟩
  | .local _ .vmem, ⟨85, _⟩ => ⟨S128, .f32⟩
  | .local _ .vmem, ⟨86, _⟩ => ⟨S9x128x128, .bf16⟩
  | .local _ .vmem, ⟨87, _⟩ => ⟨S9x128, .f32⟩
  | .local _ .vmem, ⟨88, _⟩ => ⟨S1024x128, .f32⟩
  | .local _ .vmem, ⟨89, _⟩ => ⟨S1024x128, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_c_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_16 : Ref sig .tc := ⟨.hbm, 115, rfl⟩
abbrev main_v87 : Ref sig .tc := ⟨.hbm, 116, rfl⟩
abbrev main_v88 : Ref sig .tc := ⟨.hbm, 117, rfl⟩
abbrev main_c_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg8_0 : Ref sig .tc := ⟨.vmem, 64, rfl⟩
abbrev cc5_stg8_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg7_0 : Ref sig .tc := ⟨.vmem, 75, rfl⟩
abbrev cc6_stg8_0 : Ref sig .tc := ⟨.vmem, 76, rfl⟩
abbrev cc6_stg8_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg7_0 : Ref sig .tc := ⟨.vmem, 87, rfl⟩
abbrev cc7_stg8_0 : Ref sig .tc := ⟨.vmem, 88, rfl⟩
abbrev cc7_stg8_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem8_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem8_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem7_0 : DmaSem sig := 63
abbrev cc5_sem8_0 : DmaSem sig := 64
abbrev cc5_sem8_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem7_0 : DmaSem sig := 75
abbrev cc6_sem8_0 : DmaSem sig := 76
abbrev cc6_sem8_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem3_0 : DmaSem sig := 83
abbrev cc7_sem4_0 : DmaSem sig := 84
abbrev cc7_sem5_0 : DmaSem sig := 85
abbrev cc7_sem6_0 : DmaSem sig := 86
abbrev cc7_sem7_0 : DmaSem sig := 87
abbrev cc7_sem8_0 : DmaSem sig := 88
abbrev cc7_sem8_1 : DmaSem sig := 89

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S9x128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S9x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S9x128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S9x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S9x128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S9x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S9x128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S9x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1024x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S9x128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S9x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S9x128x128 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S9x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S9x128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S9x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S9x128x128 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S9x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1024x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S9x128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S9x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S9x128x128 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S9x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S9x128x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S9x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S9x128x128 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S9x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S1024x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S131072x128_S8x16384x128 : S131072x128.ShapeCasts S8x16384x128
  slices_S8x16384x128_S1x16384x128_0_0_0 : S8x16384x128.Slices ![0, 0, 0] S1x16384x128
  shapeCasts_S1x16384x128_S16384x128 : S1x16384x128.ShapeCasts S16384x128
  slices_S7x16384x16_S1x16384x16_0_0_0 : S7x16384x16.Slices ![0, 0, 0] S1x16384x16
  shapeCasts_S1x16384x16_S16384x16 : S1x16384x16.ShapeCasts S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  reducesTo_S16384x16x128_S16384x128_d1 : S16384x16x128.ReducesTo [1] S16384x128
  h_S_ : 0 < S_.numel
  slices_S8x16384x128_S1x16384x128_1_0_0 : S8x16384x128.Slices ![1, 0, 0] S1x16384x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  transposes_S128x128_p1_0_S128x128 : S128x128.Transposes [1, 0] S128x128
  inb_S9x128_S1x128_0_0 : ∀ a, (![0, 0] : Fin 2 → Nat) a + S1x128.size a ≤ S9x128.size a
  h_S1x128 : 0 < S1x128.numel
  shapeCasts_S1x128_S128 : S1x128.ShapeCasts S128
  broadcasts_S1x128_S1024x128 : S1x128.Broadcasts S1024x128
  inb_S9x128x128_S1x128x128_1_0_0 : ∀ a, (![1, 0, 0] : Fin 3 → Nat) a + S1x128x128.size a ≤ S9x128x128.size a
  inb_S9x128_S1x128_1_0 : ∀ a, (![1, 0] : Fin 2 → Nat) a + S1x128.size a ≤ S9x128.size a
  inb_S9x128x128_S1x128x128_2_0_0 : ∀ a, (![2, 0, 0] : Fin 3 → Nat) a + S1x128x128.size a ≤ S9x128x128.size a
  inb_S9x128_S1x128_2_0 : ∀ a, (![2, 0] : Fin 2 → Nat) a + S1x128.size a ≤ S9x128.size a
  inb_S9x128x128_S1x128x128_3_0_0 : ∀ a, (![3, 0, 0] : Fin 3 → Nat) a + S1x128x128.size a ≤ S9x128x128.size a
  inb_S9x128_S1x128_3_0 : ∀ a, (![3, 0] : Fin 2 → Nat) a + S1x128.size a ≤ S9x128.size a
  inb_S9x128x128_S1x128x128_4_0_0 : ∀ a, (![4, 0, 0] : Fin 3 → Nat) a + S1x128x128.size a ≤ S9x128x128.size a
  inb_S9x128_S1x128_4_0 : ∀ a, (![4, 0] : Fin 2 → Nat) a + S1x128.size a ≤ S9x128.size a
  inb_S9x128x128_S1x128x128_5_0_0 : ∀ a, (![5, 0, 0] : Fin 3 → Nat) a + S1x128x128.size a ≤ S9x128x128.size a
  inb_S9x128_S1x128_5_0 : ∀ a, (![5, 0] : Fin 2 → Nat) a + S1x128.size a ≤ S9x128.size a
  inb_S9x128x128_S1x128x128_6_0_0 : ∀ a, (![6, 0, 0] : Fin 3 → Nat) a + S1x128x128.size a ≤ S9x128x128.size a
  inb_S9x128_S1x128_6_0 : ∀ a, (![6, 0] : Fin 2 → Nat) a + S1x128.size a ≤ S9x128.size a
  inb_S9x128x128_S1x128x128_7_0_0 : ∀ a, (![7, 0, 0] : Fin 3 → Nat) a + S1x128x128.size a ≤ S9x128x128.size a
  inb_S9x128_S1x128_7_0 : ∀ a, (![7, 0] : Fin 2 → Nat) a + S1x128.size a ≤ S9x128.size a
  inb_S9x128x128_S1x128x128_8_0_0 : ∀ a, (![8, 0, 0] : Fin 3 → Nat) a + S1x128x128.size a ≤ S9x128x128.size a
  inb_S9x128_S1x128_8_0 : ∀ a, (![8, 0] : Fin 2 → Nat) a + S1x128.size a ≤ S9x128.size a
  concatenates_S1024x128_S1024x128_S1024x256_d1 : Shape.Concatenates [S1024x128, S1024x128] S1024x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  slices_S7x16384x16_S1x16384x16_1_0_0 : S7x16384x16.Slices ![1, 0, 0] S1x16384x16
  slices_S8x16384x128_S1x16384x128_2_0_0 : S8x16384x128.Slices ![2, 0, 0] S1x16384x128
  slices_S7x16384x16_S1x16384x16_2_0_0 : S7x16384x16.Slices ![2, 0, 0] S1x16384x16
  slices_S8x16384x128_S1x16384x128_3_0_0 : S8x16384x128.Slices ![3, 0, 0] S1x16384x128
  slices_S7x16384x16_S1x16384x16_3_0_0 : S7x16384x16.Slices ![3, 0, 0] S1x16384x16
  slices_S8x16384x128_S1x16384x128_4_0_0 : S8x16384x128.Slices ![4, 0, 0] S1x16384x128
  slices_S7x16384x16_S1x16384x16_4_0_0 : S7x16384x16.Slices ![4, 0, 0] S1x16384x16
  slices_S8x16384x128_S1x16384x128_5_0_0 : S8x16384x128.Slices ![5, 0, 0] S1x16384x128
  slices_S7x16384x16_S1x16384x16_5_0_0 : S7x16384x16.Slices ![5, 0, 0] S1x16384x16
  slices_S8x16384x128_S1x16384x128_6_0_0 : S8x16384x128.Slices ![6, 0, 0] S1x16384x128
  slices_S7x16384x16_S1x16384x16_6_0_0 : S7x16384x16.Slices ![6, 0, 0] S1x16384x16
  slices_S8x16384x128_S1x16384x128_7_0_0 : S8x16384x128.Slices ![7, 0, 0] S1x16384x128
  concatenates_S16384x128_S16384x128_S16384x128_S16384x128_S16384x128_S16384x128_S16384x128_S16384x128_S131072x128_d0 : Shape.Concatenates [S16384x128, S16384x128, S16384x128, S16384x128, S16384x128, S16384x128, S16384x128, S16384x128] S131072x128 0
  dot_S4096x32_S32x128_S4096x128_1_0_0_1_n_n_wf : DotDims.WF S4096x32 S32x128 S4096x128 [1] [0] [0] [1] [] []
  gather_S16384x128_S16384x16x1_S16384x16x128_2_0_n_n_0_2_1128_wf : GatherDims.WF S16384x128 S16384x16x1 S16384x16x128 [2] [0] [] [0] [] 2 ![1, 128]
  dot_S1024x128_S128x128_S1024x128_1_0_0_1_n_n_wf : DotDims.WF S1024x128 S128x128 S1024x128 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S131072x32.size a
  hwx0_0 : ∀ i : grid0.Coords, EltTy.bits .f32 = 32 ∨ (Rect.block (s := S131072x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x128x128.size a ≤ S9x128x128.size a
  hwx1_2 : ∀ i : grid1.Coords, EltTy.bits .bf16 = 32 ∨ (Rect.block (s := S9x128x128) S9x128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128.size a ≤ S9x128.size a
  hwx1_3 : ∀ i : grid1.Coords, EltTy.bits .f32 = 32 ∨ (Rect.block (s := S9x128) S9x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x128x128.size a ≤ S9x128x128.size a
  hwx1_6 : ∀ i : grid1.Coords, EltTy.bits .bf16 = 32 ∨ (Rect.block (s := S9x128x128) S9x128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S9x128.size a ≤ S9x128.size a
  hwx1_7 : ∀ i : grid1.Coords, EltTy.bits .f32 = 32 ∨ (Rect.block (s := S9x128) S9x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S16384x128.size a
  hwx1_8 : ∀ i : grid1.Coords, EltTy.bits .f32 = 32 ∨ (Rect.block (s := S16384x128) S1024x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .f32 = 32 ∨ (Rect.block (s := S16384x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S16384x128.size a
  hwx2_1 : ∀ i : grid2.Coords, EltTy.bits .f32 = 32 ∨ (Rect.block (s := S16384x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x128x128.size a ≤ S9x128x128.size a
  hwx2_2 : ∀ i : grid2.Coords, EltTy.bits .bf16 = 32 ∨ (Rect.block (s := S9x128x128) S9x128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x128.size a ≤ S9x128.size a
  hwx2_3 : ∀ i : grid2.Coords, EltTy.bits .f32 = 32 ∨ (Rect.block (s := S9x128) S9x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .bf16 = 32 ∨ (Rect.block (s := S128x256) S128x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S9x128x128.size a ≤ S9x128x128.size a
  hwx2_6 : ∀ i : grid2.Coords, EltTy.bits .bf16 = 32 ∨ (Rect.block (s := S9x128x128) S9x128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S9x128.size a ≤ S9x128.size a
  hwx2_7 : ∀ i : grid2.Coords, EltTy.bits .f32 = 32 ∨ (Rect.block (s := S9x128) S9x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S16384x128.size a
  hwx2_8 : ∀ i : grid2.Coords, EltTy.bits .f32 = 32 ∨ (Rect.block (s := S16384x128) S1024x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S16384x128.size a
  hwx3_0 : ∀ i : grid3.Coords, EltTy.bits .f32 = 32 ∨ (Rect.block (s := S16384x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S16384x128.size a
  hwx3_1 : ∀ i : grid3.Coords, EltTy.bits .f32 = 32 ∨ (Rect.block (s := S16384x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S9x128x128.size a ≤ S9x128x128.size a
  hwx3_2 : ∀ i : grid3.Coords, EltTy.bits .bf16 = 32 ∨ (Rect.block (s := S9x128x128) S9x128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S9x128.size a ≤ S9x128.size a
  hwx3_3 : ∀ i : grid3.Coords, EltTy.bits .f32 = 32 ∨ (Rect.block (s := S9x128) S9x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .bf16 = 32 ∨ (Rect.block (s := S128x256) S128x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S9x128x128.size a ≤ S9x128x128.size a
  hwx3_6 : ∀ i : grid3.Coords, EltTy.bits .bf16 = 32 ∨ (Rect.block (s := S9x128x128) S9x128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S9x128.size a ≤ S9x128.size a
  hwx3_7 : ∀ i : grid3.Coords, EltTy.bits .f32 = 32 ∨ (Rect.block (s := S9x128) S9x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x128.size a ≤ S16384x128.size a
  hwx3_8 : ∀ i : grid3.Coords, EltTy.bits .f32 = 32 ∨ (Rect.block (s := S16384x128) S1024x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S16384x128.size a
  hwx4_0 : ∀ i : grid4.Coords, EltTy.bits .f32 = 32 ∨ (Rect.block (s := S16384x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S16384x128.size a
  hwx4_1 : ∀ i : grid4.Coords, EltTy.bits .f32 = 32 ∨ (Rect.block (s := S16384x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S9x128x128.size a ≤ S9x128x128.size a
  hwx4_2 : ∀ i : grid4.Coords, EltTy.bits .bf16 = 32 ∨ (Rect.block (s := S9x128x128) S9x128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S9x128.size a ≤ S9x128.size a
  hwx4_3 : ∀ i : grid4.Coords, EltTy.bits .f32 = 32 ∨ (Rect.block (s := S9x128) S9x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .bf16 = 32 ∨ (Rect.block (s := S128x256) S128x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S9x128x128.size a ≤ S9x128x128.size a
  hwx4_6 : ∀ i : grid4.Coords, EltTy.bits .bf16 = 32 ∨ (Rect.block (s := S9x128x128) S9x128x128.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S9x128.size a ≤ S9x128.size a
  hwx4_7 : ∀ i : grid4.Coords, EltTy.bits .f32 = 32 ∨ (Rect.block (s := S9x128) S9x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x128.size a ≤ S16384x128.size a
  hwx4_8 : ∀ i : grid4.Coords, EltTy.bits .f32 = 32 ∨ (Rect.block (s := S16384x128) S1024x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S16384x128.size a
  hwx5_0 : ∀ i : grid5.Coords, EltTy.bits .f32 = 32 ∨ (Rect.block (s := S16384x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S16384x128.size a
  hwx5_1 : ∀ i : grid5.Coords, EltTy.bits .f32 = 32 ∨ (Rect.block (s := S16384x128) S1024x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S9x128x128.size a ≤ S9x128x128.size a
  hwx5_2 : ∀ i : grid5.Coords, EltTy.bits .bf16 = 32 ∨ (Rect.block (s := S9x128x128) S9x128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S9x128.size a ≤ S9x128.size a
  hwx5_3 : ∀ i : grid5.Coords, EltTy.bits .f32 = 32 ∨ (Rect.block (s := S9x128) S9x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x256.size a ≤ S128x256.size a
  hwx5_4 : ∀ i : grid5.Coords, EltTy.bits .bf16 = 32 ∨ (Rect.block (s := S128x256) S128x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S9x128x128.size a ≤ S9x128x128.size a
  hwx5_6 : ∀ i : grid5.Coords, EltTy.bits .bf16 = 32 ∨ (Rect.block (s := S9x128x128) S9x128x128.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S9x128.size a ≤ S9x128.size a
  hwx5_7 : ∀ i : grid5.Coords, EltTy.bits .f32 = 32 ∨ (Rect.block (s := S9x128) S9x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x128.size a ≤ S16384x128.size a
  hwx5_8 : ∀ i : grid5.Coords, EltTy.bits .f32 = 32 ∨ (Rect.block (s := S16384x128) S1024x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S16384x128.size a
  hwx6_0 : ∀ i : grid6.Coords, EltTy.bits .f32 = 32 ∨ (Rect.block (s := S16384x128) S1024x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x128.size a ≤ S16384x128.size a
  hwx6_1 : ∀ i : grid6.Coords, EltTy.bits .f32 = 32 ∨ (Rect.block (s := S16384x128) S1024x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S9x128x128.size a ≤ S9x128x128.size a
  hwx6_2 : ∀ i : grid6.Coords, EltTy.bits .bf16 = 32 ∨ (Rect.block (s := S9x128x128) S9x128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S9x128.size a ≤ S9x128.size a
  hwx6_3 : ∀ i : grid6.Coords, EltTy.bits .f32 = 32 ∨ (Rect.block (s := S9x128) S9x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x256.size a ≤ S128x256.size a
  hwx6_4 : ∀ i : grid6.Coords, EltTy.bits .bf16 = 32 ∨ (Rect.block (s := S128x256) S128x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128.size a ≤ S128.size a
  hwx6_5 : ∀ i : grid6.Coords, EltTy.bits .f32 = 32 ∨ (Rect.block (s := S128) S128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S9x128x128.size a ≤ S9x128x128.size a
  hwx6_6 : ∀ i : grid6.Coords, EltTy.bits .bf16 = 32 ∨ (Rect.block (s := S9x128x128) S9x128x128.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S9x128.size a ≤ S9x128.size a
  hwx6_7 : ∀ i : grid6.Coords, EltTy.bits .f32 = 32 ∨ (Rect.block (s := S9x128) S9x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x128.size a ≤ S16384x128.size a
  hwx6_8 : ∀ i : grid6.Coords, EltTy.bits .f32 = 32 ∨ (Rect.block (s := S16384x128) S1024x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S16384x128.size a
  hwx7_0 : ∀ i : grid7.Coords, EltTy.bits .f32 = 32 ∨ (Rect.block (s := S16384x128) S1024x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S16384x128.size a
  hwx7_1 : ∀ i : grid7.Coords, EltTy.bits .f32 = 32 ∨ (Rect.block (s := S16384x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S9x128x128.size a ≤ S9x128x128.size a
  hwx7_2 : ∀ i : grid7.Coords, EltTy.bits .bf16 = 32 ∨ (Rect.block (s := S9x128x128) S9x128x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S9x128.size a ≤ S9x128.size a
  hwx7_3 : ∀ i : grid7.Coords, EltTy.bits .f32 = 32 ∨ (Rect.block (s := S9x128) S9x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x256.size a ≤ S128x256.size a
  hwx7_4 : ∀ i : grid7.Coords, EltTy.bits .bf16 = 32 ∨ (Rect.block (s := S128x256) S128x256.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S9x128x128.size a ≤ S9x128x128.size a
  hwx7_6 : ∀ i : grid7.Coords, EltTy.bits .bf16 = 32 ∨ (Rect.block (s := S9x128x128) S9x128x128.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S9x128.size a ≤ S9x128.size a
  hwx7_7 : ∀ i : grid7.Coords, EltTy.bits .f32 = 32 ∨ (Rect.block (s := S9x128) S9x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S1024x128.size a ≤ S16384x128.size a
  hwx7_8 : ∀ i : grid7.Coords, EltTy.bits .f32 = 32 ∨ (Rect.block (s := S16384x128) S1024x128.size (cc7_transform_8 i) (hinb7_8 i)).WholeWords (EltTy.packing .f32)

variable [Facts₀]

def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def gather_S16384x128_S16384x16x1_S16384x16x128_2_0_n_n_0_2_1128 : GatherDims S16384x128 S16384x16x1 S16384x16x128 where
  offsetDims := [2]
  collapsedSliceDims := [0]
  operandBatchingDims := []
  startIndicesBatchingDims := []
  startIndexMap := [0]
  indexVectorDim := 2
  sliceSizes := ![1, 128]
  wf := gather_S16384x128_S16384x16x1_S16384x16x128_2_0_n_n_0_2_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S9x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S9x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S9x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S9x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1024x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v29) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S9x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S9x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S9x128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S9x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32) S1024x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S9x128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S9x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v4) S9x128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg8) S9x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v45) S1024x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v55) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S9x128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg4) S9x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg6) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v4) S9x128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg8) S9x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v58) S1024x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v68) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S9x128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg4) S9x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S128x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg6) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v4) S9x128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg8) S9x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v71) S1024x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v81) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S1024x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v2) S9x128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg4) S9x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v3) S128x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg6) S128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v4) S9x128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg8) S9x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v84) S1024x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v94) S1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1024x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v2) S9x128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S9x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v3) S128x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg6) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v4) S9x128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg8) S9x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v97) S1024x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S131072x32 : Shape := ⟨2, ![131072, 32]⟩
abbrev S128x32 : Shape := ⟨2, ![128, 32]⟩
abbrev S128 : Shape := ⟨1, ![128]⟩
abbrev S9x128x128 : Shape := ⟨3, ![9, 128, 128]⟩
abbrev S9x128 : Shape := ⟨2, ![9, 128]⟩
abbrev S128x256 : Shape := ⟨2, ![128, 256]⟩
abbrev S7x16384x16 : Shape := ⟨3, ![7, 16384, 16]⟩
abbrev S32x128 : Shape := ⟨2, ![32, 128]⟩
abbrev S131072x128 : Shape := ⟨2, ![131072, 128]⟩
abbrev S1x128 : Shape := ⟨2, ![1, 128]⟩
abbrev S8x16384x128 : Shape := ⟨3, ![8, 16384, 128]⟩
abbrev S1x16384x128 : Shape := ⟨3, ![1, 16384, 128]⟩
abbrev S16384x128 : Shape := ⟨2, ![16384, 128]⟩
abbrev S1x16384x16 : Shape := ⟨3, ![1, 16384, 16]⟩
abbrev S16384x16 : Shape := ⟨2, ![16384, 16]⟩
abbrev S_ : Shape := ⟨0, ![]⟩
abbrev S16384x16x1 : Shape := ⟨3, ![16384, 16, 1]⟩
abbrev S16384x16x128 : Shape := ⟨3, ![16384, 16, 128]⟩
abbrev S1x128x128 : Shape := ⟨3, ![1, 128, 128]⟩
abbrev S128x128 : Shape := ⟨2, ![128, 128]⟩
abbrev S16384x256 : Shape := ⟨2, ![16384, 256]⟩
abbrev S256x128 : Shape := ⟨2, ![256, 128]⟩

abbrev nBuf : Space → Nat
  | .hbm => 1476
  | .vmem => 0
  | .smem => 0
  | _ => 0

abbrev hbmTy0_0 (i : Nat) : BufTy := match i % 128 with
  | 0 => ⟨S131072x32, .f32⟩
  | 1 => ⟨S128x32, .f32⟩
  | 2 => ⟨S128, .f32⟩
  | 3 => ⟨S9x128x128, .f32⟩
  | 4 => ⟨S9x128, .f32⟩
  | 5 => ⟨S128x256, .f32⟩
  | 6 => ⟨S128, .f32⟩
  | 7 => ⟨S9x128x128, .f32⟩
  | 8 => ⟨S9x128, .f32⟩
  | 9 => ⟨S7x16384x16, .i32⟩
  | 10 => ⟨S32x128, .f32⟩
  | 11 => ⟨S131072x128, .f32⟩
  | 12 => ⟨S1x128, .f32⟩
  | 13 => ⟨S131072x128, .f32⟩
  | 14 => ⟨S131072x128, .f32⟩
  | 15 => ⟨S131072x128, .f32⟩
  | 16 => ⟨S8x16384x128, .f32⟩
  | 17 => ⟨S1x16384x128, .f32⟩
  | 18 => ⟨S16384x128, .f32⟩
  | 19 => ⟨S1x16384x16, .i32⟩
  | 20 => ⟨S16384x16, .i32⟩
  | 21 => ⟨S_, .i32⟩
  | 22 => ⟨S16384x16, .i32⟩
  | 23 => ⟨S16384x16, .i1⟩
  | 24 => ⟨S_, .i32⟩
  | 25 => ⟨S16384x16, .i32⟩
  | 26 => ⟨S16384x16, .i32⟩
  | 27 => ⟨S16384x16, .i32⟩
  | 28 => ⟨S16384x16x1, .i32⟩
  | 29 => ⟨S16384x16x128, .f32⟩
  | 30 => ⟨S_, .f32⟩
  | 31 => ⟨S16384x128, .f32⟩
  | 32 => ⟨S1x128x128, .f32⟩
  | 33 => ⟨S128x128, .f32⟩
  | 34 => ⟨S128x128, .f32⟩
  | 35 => ⟨S16384x128, .f32⟩
  | 36 => ⟨S1x128, .f32⟩
  | 37 => ⟨S128, .f32⟩
  | 38 => ⟨S1x128, .f32⟩
  | 39 => ⟨S16384x128, .f32⟩
  | 40 => ⟨S16384x128, .f32⟩
  | 41 => ⟨S16384x128, .f32⟩
  | 42 => ⟨S1x128x128, .f32⟩
  | 43 => ⟨S128x128, .f32⟩
  | 44 => ⟨S128x128, .f32⟩
  | 45 => ⟨S16384x128, .f32⟩
  | 46 => ⟨S1x128, .f32⟩
  | 47 => ⟨S128, .f32⟩
  | 48 => ⟨S1x128, .f32⟩
  | 49 => ⟨S16384x128, .f32⟩
  | 50 => ⟨S16384x128, .f32⟩
  | 51 => ⟨S16384x128, .f32⟩
  | 52 => ⟨S16384x128, .f32⟩
  | 53 => ⟨S1x128x128, .f32⟩
  | 54 => ⟨S128x128, .f32⟩
  | 55 => ⟨S128x128, .f32⟩
  | 56 => ⟨S16384x128, .f32⟩
  | 57 => ⟨S1x128, .f32⟩
  | 58 => ⟨S128, .f32⟩
  | 59 => ⟨S1x128, .f32⟩
  | 60 => ⟨S16384x128, .f32⟩
  | 61 => ⟨S16384x128, .f32⟩
  | 62 => ⟨S16384x128, .f32⟩
  | 63 => ⟨S1x128x128, .f32⟩
  | 64 => ⟨S128x128, .f32⟩
  | 65 => ⟨S128x128, .f32⟩
  | 66 => ⟨S16384x128, .f32⟩
  | 67 => ⟨S1x128, .f32⟩
  | 68 => ⟨S128, .f32⟩
  | 69 => ⟨S1x128, .f32⟩
  | 70 => ⟨S16384x128, .f32⟩
  | 71 => ⟨S16384x128, .f32⟩
  | 72 => ⟨S16384x128, .f32⟩
  | 73 => ⟨S1x128x128, .f32⟩
  | 74 => ⟨S128x128, .f32⟩
  | 75 => ⟨S128x128, .f32⟩
  | 76 => ⟨S16384x128, .f32⟩
  | 77 => ⟨S1x128, .f32⟩
  | 78 => ⟨S128, .f32⟩
  | 79 => ⟨S1x128, .f32⟩
  | 80 => ⟨S16384x128, .f32⟩
  | 81 => ⟨S16384x128, .f32⟩
  | 82 => ⟨S16384x128, .f32⟩
  | 83 => ⟨S16384x128, .f32⟩
  | 84 => ⟨S1x128x128, .f32⟩
  | 85 => ⟨S128x128, .f32⟩
  | 86 => ⟨S128x128, .f32⟩
  | 87 => ⟨S16384x128, .f32⟩
  | 88 => ⟨S1x128, .f32⟩
  | 89 => ⟨S128, .f32⟩
  | 90 => ⟨S1x128, .f32⟩
  | 91 => ⟨S16384x128, .f32⟩
  | 92 => ⟨S16384x128, .f32⟩
  | 93 => ⟨S16384x128, .f32⟩
  | 94 => ⟨S1x128x128, .f32⟩
  | 95 => ⟨S128x128, .f32⟩
  | 96 => ⟨S128x128, .f32⟩
  | 97 => ⟨S16384x128, .f32⟩
  | 98 => ⟨S1x128, .f32⟩
  | 99 => ⟨S128, .f32⟩
  | 100 => ⟨S1x128, .f32⟩
  | 101 => ⟨S16384x128, .f32⟩
  | 102 => ⟨S16384x128, .f32⟩
  | 103 => ⟨S16384x128, .f32⟩
  | 104 => ⟨S1x128x128, .f32⟩
  | 105 => ⟨S128x128, .f32⟩
  | 106 => ⟨S128x128, .f32⟩
  | 107 => ⟨S16384x128, .f32⟩
  | 108 => ⟨S1x128, .f32⟩
  | 109 => ⟨S128, .f32⟩
  | 110 => ⟨S1x128, .f32⟩
  | 111 => ⟨S16384x128, .f32⟩
  | 112 => ⟨S16384x128, .f32⟩
  | 113 => ⟨S16384x128, .f32⟩
  | 114 => ⟨S16384x128, .f32⟩
  | 115 => ⟨S1x128x128, .f32⟩
  | 116 => ⟨S128x128, .f32⟩
  | 117 => ⟨S128x128, .f32⟩
  | 118 => ⟨S16384x128, .f32⟩
  | 119 => ⟨S1x128, .f32⟩
  | 120 => ⟨S128, .f32⟩
  | 121 => ⟨S1x128, .f32⟩
  | 122 => ⟨S16384x128, .f32⟩
  | 123 => ⟨S16384x128, .f32⟩
  | 124 => ⟨S16384x128, .f32⟩
  | 125 => ⟨S1x16384x128, .f32⟩
  | 126 => ⟨S16384x128, .f32⟩
  | 127 => ⟨S16384x256, .f32⟩
  | _ => ⟨S131072x32, .f32⟩

abbrev hbmTy0_1 (i : Nat) : BufTy := match i % 128 with
  | 0 => ⟨S256x128, .f32⟩
  | 1 => ⟨S16384x128, .f32⟩
  | 2 => ⟨S1x128, .f32⟩
  | 3 => ⟨S16384x128, .f32⟩
  | 4 => ⟨S16384x128, .f32⟩
  | 5 => ⟨S16384x128, .f32⟩
  | 6 => ⟨S1x128x128, .f32⟩
  | 7 => ⟨S128x128, .f32⟩
  | 8 => ⟨S128x128, .f32⟩
  | 9 => ⟨S16384x128, .f32⟩
  | 10 => ⟨S1x128, .f32⟩
  | 11 => ⟨S128, .f32⟩
  | 12 => ⟨S1x128, .f32⟩
  | 13 => ⟨S16384x128, .f32⟩
  | 14 => ⟨S16384x128, .f32⟩
  | 15 => ⟨S16384x128, .f32⟩
  | 16 => ⟨S1x128x128, .f32⟩
  | 17 => ⟨S128x128, .f32⟩
  | 18 => ⟨S128x128, .f32⟩
  | 19 => ⟨S16384x128, .f32⟩
  | 20 => ⟨S1x128, .f32⟩
  | 21 => ⟨S128, .f32⟩
  | 22 => ⟨S1x128, .f32⟩
  | 23 => ⟨S16384x128, .f32⟩
  | 24 => ⟨S16384x128, .f32⟩
  | 25 => ⟨S16384x128, .f32⟩
  | 26 => ⟨S16384x128, .f32⟩
  | 27 => ⟨S1x128x128, .f32⟩
  | 28 => ⟨S128x128, .f32⟩
  | 29 => ⟨S128x128, .f32⟩
  | 30 => ⟨S16384x128, .f32⟩
  | 31 => ⟨S1x128, .f32⟩
  | 32 => ⟨S128, .f32⟩
  | 33 => ⟨S1x128, .f32⟩
  | 34 => ⟨S16384x128, .f32⟩
  | 35 => ⟨S16384x128, .f32⟩
  | 36 => ⟨S16384x128, .f32⟩
  | 37 => ⟨S1x128x128, .f32⟩
  | 38 => ⟨S128x128, .f32⟩
  | 39 => ⟨S128x128, .f32⟩
  | 40 => ⟨S16384x128, .f32⟩
  | 41 => ⟨S1x128, .f32⟩
  | 42 => ⟨S128, .f32⟩
  | 43 => ⟨S1x128, .f32⟩
  | 44 => ⟨S16384x128, .f32⟩
  | 45 => ⟨S16384x128, .f32⟩
  | 46 => ⟨S16384x128, .f32⟩
  | 47 => ⟨S1x128x128, .f32⟩
  | 48 => ⟨S128x128, .f32⟩
  | 49 => ⟨S128x128, .f32⟩
  | 50 => ⟨S16384x128, .f32⟩
  | 51 => ⟨S1x128, .f32⟩
  | 52 => ⟨S128, .f32⟩
  | 53 => ⟨S1x128, .f32⟩
  | 54 => ⟨S16384x128, .f32⟩
  | 55 => ⟨S16384x128, .f32⟩
  | 56 => ⟨S16384x128, .f32⟩
  | 57 => ⟨S16384x128, .f32⟩
  | 58 => ⟨S1x128x128, .f32⟩
  | 59 => ⟨S128x128, .f32⟩
  | 60 => ⟨S128x128, .f32⟩
  | 61 => ⟨S16384x128, .f32⟩
  | 62 => ⟨S1x128, .f32⟩
  | 63 => ⟨S128, .f32⟩
  | 64 => ⟨S1x128, .f32⟩
  | 65 => ⟨S16384x128, .f32⟩
  | 66 => ⟨S16384x128, .f32⟩
  | 67 => ⟨S16384x128, .f32⟩
  | 68 => ⟨S1x128x128, .f32⟩
  | 69 => ⟨S128x128, .f32⟩
  | 70 => ⟨S128x128, .f32⟩
  | 71 => ⟨S16384x128, .f32⟩
  | 72 => ⟨S1x128, .f32⟩
  | 73 => ⟨S128, .f32⟩
  | 74 => ⟨S1x128, .f32⟩
  | 75 => ⟨S16384x128, .f32⟩
  | 76 => ⟨S16384x128, .f32⟩
  | 77 => ⟨S16384x128, .f32⟩
  | 78 => ⟨S1x128x128, .f32⟩
  | 79 => ⟨S128x128, .f32⟩
  | 80 => ⟨S128x128, .f32⟩
  | 81 => ⟨S16384x128, .f32⟩
  | 82 => ⟨S1x128, .f32⟩
  | 83 => ⟨S128, .f32⟩
  | 84 => ⟨S1x128, .f32⟩
  | 85 => ⟨S16384x128, .f32⟩
  | 86 => ⟨S16384x128, .f32⟩
  | 87 => ⟨S16384x128, .f32⟩
  | 88 => ⟨S16384x128, .f32⟩
  | 89 => ⟨S1x128x128, .f32⟩
  | 90 => ⟨S128x128, .f32⟩
  | 91 => ⟨S128x128, .f32⟩
  | 92 => ⟨S16384x128, .f32⟩
  | 93 => ⟨S1x128, .f32⟩
  | 94 => ⟨S128, .f32⟩
  | 95 => ⟨S1x128, .f32⟩
  | 96 => ⟨S16384x128, .f32⟩
  | 97 => ⟨S16384x128, .f32⟩
  | 98 => ⟨S16384x128, .f32⟩
  | 99 => ⟨S1x16384x16, .i32⟩
  | 100 => ⟨S16384x16, .i32⟩
  | 101 => ⟨S_, .i32⟩
  | 102 => ⟨S16384x16, .i32⟩
  | 103 => ⟨S16384x16, .i1⟩
  | 104 => ⟨S_, .i32⟩
  | 105 => ⟨S16384x16, .i32⟩
  | 106 => ⟨S16384x16, .i32⟩
  | 107 => ⟨S16384x16, .i32⟩
  | 108 => ⟨S16384x16x1, .i32⟩
  | 109 => ⟨S16384x16x128, .f32⟩
  | 110 => ⟨S_, .f32⟩
  | 111 => ⟨S16384x128, .f32⟩
  | 112 => ⟨S1x128x128, .f32⟩
  | 113 => ⟨S128x128, .f32⟩
  | 114 => ⟨S128x128, .f32⟩
  | 115 => ⟨S16384x128, .f32⟩
  | 116 => ⟨S1x128, .f32⟩
  | 117 => ⟨S128, .f32⟩
  | 118 => ⟨S1x128, .f32⟩
  | 119 => ⟨S16384x128, .f32⟩
  | 120 => ⟨S16384x128, .f32⟩
  | 121 => ⟨S16384x128, .f32⟩
  | 122 => ⟨S1x128x128, .f32⟩
  | 123 => ⟨S128x128, .f32⟩
  | 124 => ⟨S128x128, .f32⟩
  | 125 => ⟨S16384x128, .f32⟩
  | 126 => ⟨S1x128, .f32⟩
  | 127 => ⟨S128, .f32⟩
  | _ => ⟨S131072x32, .f32⟩

abbrev hbmTy0_2 (i : Nat) : BufTy := match i % 128 with
  | 0 => ⟨S1x128, .f32⟩
  | 1 => ⟨S16384x128, .f32⟩
  | 2 => ⟨S16384x128, .f32⟩
  | 3 => ⟨S16384x128, .f32⟩
  | 4 => ⟨S16384x128, .f32⟩
  | 5 => ⟨S1x128x128, .f32⟩
  | 6 => ⟨S128x128, .f32⟩
  | 7 => ⟨S128x128, .f32⟩
  | 8 => ⟨S16384x128, .f32⟩
  | 9 => ⟨S1x128, .f32⟩
  | 10 => ⟨S128, .f32⟩
  | 11 => ⟨S1x128, .f32⟩
  | 12 => ⟨S16384x128, .f32⟩
  | 13 => ⟨S16384x128, .f32⟩
  | 14 => ⟨S16384x128, .f32⟩
  | 15 => ⟨S1x128x128, .f32⟩
  | 16 => ⟨S128x128, .f32⟩
  | 17 => ⟨S128x128, .f32⟩
  | 18 => ⟨S16384x128, .f32⟩
  | 19 => ⟨S1x128, .f32⟩
  | 20 => ⟨S128, .f32⟩
  | 21 => ⟨S1x128, .f32⟩
  | 22 => ⟨S16384x128, .f32⟩
  | 23 => ⟨S16384x128, .f32⟩
  | 24 => ⟨S16384x128, .f32⟩
  | 25 => ⟨S1x128x128, .f32⟩
  | 26 => ⟨S128x128, .f32⟩
  | 27 => ⟨S128x128, .f32⟩
  | 28 => ⟨S16384x128, .f32⟩
  | 29 => ⟨S1x128, .f32⟩
  | 30 => ⟨S128, .f32⟩
  | 31 => ⟨S1x128, .f32⟩
  | 32 => ⟨S16384x128, .f32⟩
  | 33 => ⟨S16384x128, .f32⟩
  | 34 => ⟨S16384x128, .f32⟩
  | 35 => ⟨S16384x128, .f32⟩
  | 36 => ⟨S1x128x128, .f32⟩
  | 37 => ⟨S128x128, .f32⟩
  | 38 => ⟨S128x128, .f32⟩
  | 39 => ⟨S16384x128, .f32⟩
  | 40 => ⟨S1x128, .f32⟩
  | 41 => ⟨S128, .f32⟩
  | 42 => ⟨S1x128, .f32⟩
  | 43 => ⟨S16384x128, .f32⟩
  | 44 => ⟨S16384x128, .f32⟩
  | 45 => ⟨S16384x128, .f32⟩
  | 46 => ⟨S1x128x128, .f32⟩
  | 47 => ⟨S128x128, .f32⟩
  | 48 => ⟨S128x128, .f32⟩
  | 49 => ⟨S16384x128, .f32⟩
  | 50 => ⟨S1x128, .f32⟩
  | 51 => ⟨S128, .f32⟩
  | 52 => ⟨S1x128, .f32⟩
  | 53 => ⟨S16384x128, .f32⟩
  | 54 => ⟨S16384x128, .f32⟩
  | 55 => ⟨S16384x128, .f32⟩
  | 56 => ⟨S1x128x128, .f32⟩
  | 57 => ⟨S128x128, .f32⟩
  | 58 => ⟨S128x128, .f32⟩
  | 59 => ⟨S16384x128, .f32⟩
  | 60 => ⟨S1x128, .f32⟩
  | 61 => ⟨S128, .f32⟩
  | 62 => ⟨S1x128, .f32⟩
  | 63 => ⟨S16384x128, .f32⟩
  | 64 => ⟨S16384x128, .f32⟩
  | 65 => ⟨S16384x128, .f32⟩
  | 66 => ⟨S16384x128, .f32⟩
  | 67 => ⟨S1x128x128, .f32⟩
  | 68 => ⟨S128x128, .f32⟩
  | 69 => ⟨S128x128, .f32⟩
  | 70 => ⟨S16384x128, .f32⟩
  | 71 => ⟨S1x128, .f32⟩
  | 72 => ⟨S128, .f32⟩
  | 73 => ⟨S1x128, .f32⟩
  | 74 => ⟨S16384x128, .f32⟩
  | 75 => ⟨S16384x128, .f32⟩
  | 76 => ⟨S16384x128, .f32⟩
  | 77 => ⟨S1x16384x128, .f32⟩
  | 78 => ⟨S16384x128, .f32⟩
  | 79 => ⟨S16384x256, .f32⟩
  | 80 => ⟨S256x128, .f32⟩
  | 81 => ⟨S16384x128, .f32⟩
  | 82 => ⟨S1x128, .f32⟩
  | 83 => ⟨S16384x128, .f32⟩
  | 84 => ⟨S16384x128, .f32⟩
  | 85 => ⟨S16384x128, .f32⟩
  | 86 => ⟨S1x128x128, .f32⟩
  | 87 => ⟨S128x128, .f32⟩
  | 88 => ⟨S128x128, .f32⟩
  | 89 => ⟨S16384x128, .f32⟩
  | 90 => ⟨S1x128, .f32⟩
  | 91 => ⟨S128, .f32⟩
  | 92 => ⟨S1x128, .f32⟩
  | 93 => ⟨S16384x128, .f32⟩
  | 94 => ⟨S16384x128, .f32⟩
  | 95 => ⟨S16384x128, .f32⟩
  | 96 => ⟨S1x128x128, .f32⟩
  | 97 => ⟨S128x128, .f32⟩
  | 98 => ⟨S128x128, .f32⟩
  | 99 => ⟨S16384x128, .f32⟩
  | 100 => ⟨S1x128, .f32⟩
  | 101 => ⟨S128, .f32⟩
  | 102 => ⟨S1x128, .f32⟩
  | 103 => ⟨S16384x128, .f32⟩
  | 104 => ⟨S16384x128, .f32⟩
  | 105 => ⟨S16384x128, .f32⟩
  | 106 => ⟨S16384x128, .f32⟩
  | 107 => ⟨S1x128x128, .f32⟩
  | 108 => ⟨S128x128, .f32⟩
  | 109 => ⟨S128x128, .f32⟩
  | 110 => ⟨S16384x128, .f32⟩
  | 111 => ⟨S1x128, .f32⟩
  | 112 => ⟨S128, .f32⟩
  | 113 => ⟨S1x128, .f32⟩
  | 114 => ⟨S16384x128, .f32⟩
  | 115 => ⟨S16384x128, .f32⟩
  | 116 => ⟨S16384x128, .f32⟩
  | 117 => ⟨S1x128x128, .f32⟩
  | 118 => ⟨S128x128, .f32⟩
  | 119 => ⟨S128x128, .f32⟩
  | 120 => ⟨S16384x128, .f32⟩
  | 121 => ⟨S1x128, .f32⟩
  | 122 => ⟨S128, .f32⟩
  | 123 => ⟨S1x128, .f32⟩
  | 124 => ⟨S16384x128, .f32⟩
  | 125 => ⟨S16384x128, .f32⟩
  | 126 => ⟨S16384x128, .f32⟩
  | 127 => ⟨S1x128x128, .f32⟩
  | _ => ⟨S131072x32, .f32⟩

abbrev hbmTy0_3 (i : Nat) : BufTy := match i % 128 with
  | 0 => ⟨S128x128, .f32⟩
  | 1 => ⟨S128x128, .f32⟩
  | 2 => ⟨S16384x128, .f32⟩
  | 3 => ⟨S1x128, .f32⟩
  | 4 => ⟨S128, .f32⟩
  | 5 => ⟨S1x128, .f32⟩
  | 6 => ⟨S16384x128, .f32⟩
  | 7 => ⟨S16384x128, .f32⟩
  | 8 => ⟨S16384x128, .f32⟩
  | 9 => ⟨S16384x128, .f32⟩
  | 10 => ⟨S1x128x128, .f32⟩
  | 11 => ⟨S128x128, .f32⟩
  | 12 => ⟨S128x128, .f32⟩
  | 13 => ⟨S16384x128, .f32⟩
  | 14 => ⟨S1x128, .f32⟩
  | 15 => ⟨S128, .f32⟩
  | 16 => ⟨S1x128, .f32⟩
  | 17 => ⟨S16384x128, .f32⟩
  | 18 => ⟨S16384x128, .f32⟩
  | 19 => ⟨S16384x128, .f32⟩
  | 20 => ⟨S1x128x128, .f32⟩
  | 21 => ⟨S128x128, .f32⟩
  | 22 => ⟨S128x128, .f32⟩
  | 23 => ⟨S16384x128, .f32⟩
  | 24 => ⟨S1x128, .f32⟩
  | 25 => ⟨S128, .f32⟩
  | 26 => ⟨S1x128, .f32⟩
  | 27 => ⟨S16384x128, .f32⟩
  | 28 => ⟨S16384x128, .f32⟩
  | 29 => ⟨S16384x128, .f32⟩
  | 30 => ⟨S1x128x128, .f32⟩
  | 31 => ⟨S128x128, .f32⟩
  | 32 => ⟨S128x128, .f32⟩
  | 33 => ⟨S16384x128, .f32⟩
  | 34 => ⟨S1x128, .f32⟩
  | 35 => ⟨S128, .f32⟩
  | 36 => ⟨S1x128, .f32⟩
  | 37 => ⟨S16384x128, .f32⟩
  | 38 => ⟨S16384x128, .f32⟩
  | 39 => ⟨S16384x128, .f32⟩
  | 40 => ⟨S16384x128, .f32⟩
  | 41 => ⟨S1x128x128, .f32⟩
  | 42 => ⟨S128x128, .f32⟩
  | 43 => ⟨S128x128, .f32⟩
  | 44 => ⟨S16384x128, .f32⟩
  | 45 => ⟨S1x128, .f32⟩
  | 46 => ⟨S128, .f32⟩
  | 47 => ⟨S1x128, .f32⟩
  | 48 => ⟨S16384x128, .f32⟩
  | 49 => ⟨S16384x128, .f32⟩
  | 50 => ⟨S16384x128, .f32⟩
  | 51 => ⟨S1x16384x16, .i32⟩
  | 52 => ⟨S16384x16, .i32⟩
  | 53 => ⟨S_, .i32⟩
  | 54 => ⟨S16384x16, .i32⟩
  | 55 => ⟨S16384x16, .i1⟩
  | 56 => ⟨S_, .i32⟩
  | 57 => ⟨S16384x16, .i32⟩
  | 58 => ⟨S16384x16, .i32⟩
  | 59 => ⟨S16384x16, .i32⟩
  | 60 => ⟨S16384x16x1, .i32⟩
  | 61 => ⟨S16384x16x128, .f32⟩
  | 62 => ⟨S_, .f32⟩
  | 63 => ⟨S16384x128, .f32⟩
  | 64 => ⟨S1x128x128, .f32⟩
  | 65 => ⟨S128x128, .f32⟩
  | 66 => ⟨S128x128, .f32⟩
  | 67 => ⟨S16384x128, .f32⟩
  | 68 => ⟨S1x128, .f32⟩
  | 69 => ⟨S128, .f32⟩
  | 70 => ⟨S1x128, .f32⟩
  | 71 => ⟨S16384x128, .f32⟩
  | 72 => ⟨S16384x128, .f32⟩
  | 73 => ⟨S16384x128, .f32⟩
  | 74 => ⟨S1x128x128, .f32⟩
  | 75 => ⟨S128x128, .f32⟩
  | 76 => ⟨S128x128, .f32⟩
  | 77 => ⟨S16384x128, .f32⟩
  | 78 => ⟨S1x128, .f32⟩
  | 79 => ⟨S128, .f32⟩
  | 80 => ⟨S1x128, .f32⟩
  | 81 => ⟨S16384x128, .f32⟩
  | 82 => ⟨S16384x128, .f32⟩
  | 83 => ⟨S16384x128, .f32⟩
  | 84 => ⟨S16384x128, .f32⟩
  | 85 => ⟨S1x128x128, .f32⟩
  | 86 => ⟨S128x128, .f32⟩
  | 87 => ⟨S128x128, .f32⟩
  | 88 => ⟨S16384x128, .f32⟩
  | 89 => ⟨S1x128, .f32⟩
  | 90 => ⟨S128, .f32⟩
  | 91 => ⟨S1x128, .f32⟩
  | 92 => ⟨S16384x128, .f32⟩
  | 93 => ⟨S16384x128, .f32⟩
  | 94 => ⟨S16384x128, .f32⟩
  | 95 => ⟨S1x128x128, .f32⟩
  | 96 => ⟨S128x128, .f32⟩
  | 97 => ⟨S128x128, .f32⟩
  | 98 => ⟨S16384x128, .f32⟩
  | 99 => ⟨S1x128, .f32⟩
  | 100 => ⟨S128, .f32⟩
  | 101 => ⟨S1x128, .f32⟩
  | 102 => ⟨S16384x128, .f32⟩
  | 103 => ⟨S16384x128, .f32⟩
  | 104 => ⟨S16384x128, .f32⟩
  | 105 => ⟨S1x128x128, .f32⟩
  | 106 => ⟨S128x128, .f32⟩
  | 107 => ⟨S128x128, .f32⟩
  | 108 => ⟨S16384x128, .f32⟩
  | 109 => ⟨S1x128, .f32⟩
  | 110 => ⟨S128, .f32⟩
  | 111 => ⟨S1x128, .f32⟩
  | 112 => ⟨S16384x128, .f32⟩
  | 113 => ⟨S16384x128, .f32⟩
  | 114 => ⟨S16384x128, .f32⟩
  | 115 => ⟨S16384x128, .f32⟩
  | 116 => ⟨S1x128x128, .f32⟩
  | 117 => ⟨S128x128, .f32⟩
  | 118 => ⟨S128x128, .f32⟩
  | 119 => ⟨S16384x128, .f32⟩
  | 120 => ⟨S1x128, .f32⟩
  | 121 => ⟨S128, .f32⟩
  | 122 => ⟨S1x128, .f32⟩
  | 123 => ⟨S16384x128, .f32⟩
  | 124 => ⟨S16384x128, .f32⟩
  | 125 => ⟨S16384x128, .f32⟩
  | 126 => ⟨S1x128x128, .f32⟩
  | 127 => ⟨S128x128, .f32⟩
  | _ => ⟨S131072x32, .f32⟩

abbrev hbmTy0_4 (i : Nat) : BufTy := match i % 128 with
  | 0 => ⟨S128x128, .f32⟩
  | 1 => ⟨S16384x128, .f32⟩
  | 2 => ⟨S1x128, .f32⟩
  | 3 => ⟨S128, .f32⟩
  | 4 => ⟨S1x128, .f32⟩
  | 5 => ⟨S16384x128, .f32⟩
  | 6 => ⟨S16384x128, .f32⟩
  | 7 => ⟨S16384x128, .f32⟩
  | 8 => ⟨S1x128x128, .f32⟩
  | 9 => ⟨S128x128, .f32⟩
  | 10 => ⟨S128x128, .f32⟩
  | 11 => ⟨S16384x128, .f32⟩
  | 12 => ⟨S1x128, .f32⟩
  | 13 => ⟨S128, .f32⟩
  | 14 => ⟨S1x128, .f32⟩
  | 15 => ⟨S16384x128, .f32⟩
  | 16 => ⟨S16384x128, .f32⟩
  | 17 => ⟨S16384x128, .f32⟩
  | 18 => ⟨S16384x128, .f32⟩
  | 19 => ⟨S1x128x128, .f32⟩
  | 20 => ⟨S128x128, .f32⟩
  | 21 => ⟨S128x128, .f32⟩
  | 22 => ⟨S16384x128, .f32⟩
  | 23 => ⟨S1x128, .f32⟩
  | 24 => ⟨S128, .f32⟩
  | 25 => ⟨S1x128, .f32⟩
  | 26 => ⟨S16384x128, .f32⟩
  | 27 => ⟨S16384x128, .f32⟩
  | 28 => ⟨S16384x128, .f32⟩
  | 29 => ⟨S1x16384x128, .f32⟩
  | 30 => ⟨S16384x128, .f32⟩
  | 31 => ⟨S16384x256, .f32⟩
  | 32 => ⟨S256x128, .f32⟩
  | 33 => ⟨S16384x128, .f32⟩
  | 34 => ⟨S1x128, .f32⟩
  | 35 => ⟨S16384x128, .f32⟩
  | 36 => ⟨S16384x128, .f32⟩
  | 37 => ⟨S16384x128, .f32⟩
  | 38 => ⟨S1x128x128, .f32⟩
  | 39 => ⟨S128x128, .f32⟩
  | 40 => ⟨S128x128, .f32⟩
  | 41 => ⟨S16384x128, .f32⟩
  | 42 => ⟨S1x128, .f32⟩
  | 43 => ⟨S128, .f32⟩
  | 44 => ⟨S1x128, .f32⟩
  | 45 => ⟨S16384x128, .f32⟩
  | 46 => ⟨S16384x128, .f32⟩
  | 47 => ⟨S16384x128, .f32⟩
  | 48 => ⟨S1x128x128, .f32⟩
  | 49 => ⟨S128x128, .f32⟩
  | 50 => ⟨S128x128, .f32⟩
  | 51 => ⟨S16384x128, .f32⟩
  | 52 => ⟨S1x128, .f32⟩
  | 53 => ⟨S128, .f32⟩
  | 54 => ⟨S1x128, .f32⟩
  | 55 => ⟨S16384x128, .f32⟩
  | 56 => ⟨S16384x128, .f32⟩
  | 57 => ⟨S16384x128, .f32⟩
  | 58 => ⟨S16384x128, .f32⟩
  | 59 => ⟨S1x128x128, .f32⟩
  | 60 => ⟨S128x128, .f32⟩
  | 61 => ⟨S128x128, .f32⟩
  | 62 => ⟨S16384x128, .f32⟩
  | 63 => ⟨S1x128, .f32⟩
  | 64 => ⟨S128, .f32⟩
  | 65 => ⟨S1x128, .f32⟩
  | 66 => ⟨S16384x128, .f32⟩
  | 67 => ⟨S16384x128, .f32⟩
  | 68 => ⟨S16384x128, .f32⟩
  | 69 => ⟨S1x128x128, .f32⟩
  | 70 => ⟨S128x128, .f32⟩
  | 71 => ⟨S128x128, .f32⟩
  | 72 => ⟨S16384x128, .f32⟩
  | 73 => ⟨S1x128, .f32⟩
  | 74 => ⟨S128, .f32⟩
  | 75 => ⟨S1x128, .f32⟩
  | 76 => ⟨S16384x128, .f32⟩
  | 77 => ⟨S16384x128, .f32⟩
  | 78 => ⟨S16384x128, .f32⟩
  | 79 => ⟨S1x128x128, .f32⟩
  | 80 => ⟨S128x128, .f32⟩
  | 81 => ⟨S128x128, .f32⟩
  | 82 => ⟨S16384x128, .f32⟩
  | 83 => ⟨S1x128, .f32⟩
  | 84 => ⟨S128, .f32⟩
  | 85 => ⟨S1x128, .f32⟩
  | 86 => ⟨S16384x128, .f32⟩
  | 87 => ⟨S16384x128, .f32⟩
  | 88 => ⟨S16384x128, .f32⟩
  | 89 => ⟨S16384x128, .f32⟩
  | 90 => ⟨S1x128x128, .f32⟩
  | 91 => ⟨S128x128, .f32⟩
  | 92 => ⟨S128x128, .f32⟩
  | 93 => ⟨S16384x128, .f32⟩
  | 94 => ⟨S1x128, .f32⟩
  | 95 => ⟨S128, .f32⟩
  | 96 => ⟨S1x128, .f32⟩
  | 97 => ⟨S16384x128, .f32⟩
  | 98 => ⟨S16384x128, .f32⟩
  | 99 => ⟨S16384x128, .f32⟩
  | 100 => ⟨S1x128x128, .f32⟩
  | 101 => ⟨S128x128, .f32⟩
  | 102 => ⟨S128x128, .f32⟩
  | 103 => ⟨S16384x128, .f32⟩
  | 104 => ⟨S1x128, .f32⟩
  | 105 => ⟨S128, .f32⟩
  | 106 => ⟨S1x128, .f32⟩
  | 107 => ⟨S16384x128, .f32⟩
  | 108 => ⟨S16384x128, .f32⟩
  | 109 => ⟨S16384x128, .f32⟩
  | 110 => ⟨S1x128x128, .f32⟩
  | 111 => ⟨S128x128, .f32⟩
  | 112 => ⟨S128x128, .f32⟩
  | 113 => ⟨S16384x128, .f32⟩
  | 114 => ⟨S1x128, .f32⟩
  | 115 => ⟨S128, .f32⟩
  | 116 => ⟨S1x128, .f32⟩
  | 117 => ⟨S16384x128, .f32⟩
  | 118 => ⟨S16384x128, .f32⟩
  | 119 => ⟨S16384x128, .f32⟩
  | 120 => ⟨S16384x128, .f32⟩
  | 121 => ⟨S1x128x128, .f32⟩
  | 122 => ⟨S128x128, .f32⟩
  | 123 => ⟨S128x128, .f32⟩
  | 124 => ⟨S16384x128, .f32⟩
  | 125 => ⟨S1x128, .f32⟩
  | 126 => ⟨S128, .f32⟩
  | 127 => ⟨S1x128, .f32⟩
  | _ => ⟨S131072x32, .f32⟩

abbrev hbmTy0_5 (i : Nat) : BufTy := match i % 128 with
  | 0 => ⟨S16384x128, .f32⟩
  | 1 => ⟨S16384x128, .f32⟩
  | 2 => ⟨S16384x128, .f32⟩
  | 3 => ⟨S1x16384x16, .i32⟩
  | 4 => ⟨S16384x16, .i32⟩
  | 5 => ⟨S_, .i32⟩
  | 6 => ⟨S16384x16, .i32⟩
  | 7 => ⟨S16384x16, .i1⟩
  | 8 => ⟨S_, .i32⟩
  | 9 => ⟨S16384x16, .i32⟩
  | 10 => ⟨S16384x16, .i32⟩
  | 11 => ⟨S16384x16, .i32⟩
  | 12 => ⟨S16384x16x1, .i32⟩
  | 13 => ⟨S16384x16x128, .f32⟩
  | 14 => ⟨S_, .f32⟩
  | 15 => ⟨S16384x128, .f32⟩
  | 16 => ⟨S1x128x128, .f32⟩
  | 17 => ⟨S128x128, .f32⟩
  | 18 => ⟨S128x128, .f32⟩
  | 19 => ⟨S16384x128, .f32⟩
  | 20 => ⟨S1x128, .f32⟩
  | 21 => ⟨S128, .f32⟩
  | 22 => ⟨S1x128, .f32⟩
  | 23 => ⟨S16384x128, .f32⟩
  | 24 => ⟨S16384x128, .f32⟩
  | 25 => ⟨S16384x128, .f32⟩
  | 26 => ⟨S1x128x128, .f32⟩
  | 27 => ⟨S128x128, .f32⟩
  | 28 => ⟨S128x128, .f32⟩
  | 29 => ⟨S16384x128, .f32⟩
  | 30 => ⟨S1x128, .f32⟩
  | 31 => ⟨S128, .f32⟩
  | 32 => ⟨S1x128, .f32⟩
  | 33 => ⟨S16384x128, .f32⟩
  | 34 => ⟨S16384x128, .f32⟩
  | 35 => ⟨S16384x128, .f32⟩
  | 36 => ⟨S16384x128, .f32⟩
  | 37 => ⟨S1x128x128, .f32⟩
  | 38 => ⟨S128x128, .f32⟩
  | 39 => ⟨S128x128, .f32⟩
  | 40 => ⟨S16384x128, .f32⟩
  | 41 => ⟨S1x128, .f32⟩
  | 42 => ⟨S128, .f32⟩
  | 43 => ⟨S1x128, .f32⟩
  | 44 => ⟨S16384x128, .f32⟩
  | 45 => ⟨S16384x128, .f32⟩
  | 46 => ⟨S16384x128, .f32⟩
  | 47 => ⟨S1x128x128, .f32⟩
  | 48 => ⟨S128x128, .f32⟩
  | 49 => ⟨S128x128, .f32⟩
  | 50 => ⟨S16384x128, .f32⟩
  | 51 => ⟨S1x128, .f32⟩
  | 52 => ⟨S128, .f32⟩
  | 53 => ⟨S1x128, .f32⟩
  | 54 => ⟨S16384x128, .f32⟩
  | 55 => ⟨S16384x128, .f32⟩
  | 56 => ⟨S16384x128, .f32⟩
  | 57 => ⟨S1x128x128, .f32⟩
  | 58 => ⟨S128x128, .f32⟩
  | 59 => ⟨S128x128, .f32⟩
  | 60 => ⟨S16384x128, .f32⟩
  | 61 => ⟨S1x128, .f32⟩
  | 62 => ⟨S128, .f32⟩
  | 63 => ⟨S1x128, .f32⟩
  | 64 => ⟨S16384x128, .f32⟩
  | 65 => ⟨S16384x128, .f32⟩
  | 66 => ⟨S16384x128, .f32⟩
  | 67 => ⟨S16384x128, .f32⟩
  | 68 => ⟨S1x128x128, .f32⟩
  | 69 => ⟨S128x128, .f32⟩
  | 70 => ⟨S128x128, .f32⟩
  | 71 => ⟨S16384x128, .f32⟩
  | 72 => ⟨S1x128, .f32⟩
  | 73 => ⟨S128, .f32⟩
  | 74 => ⟨S1x128, .f32⟩
  | 75 => ⟨S16384x128, .f32⟩
  | 76 => ⟨S16384x128, .f32⟩
  | 77 => ⟨S16384x128, .f32⟩
  | 78 => ⟨S1x128x128, .f32⟩
  | 79 => ⟨S128x128, .f32⟩
  | 80 => ⟨S128x128, .f32⟩
  | 81 => ⟨S16384x128, .f32⟩
  | 82 => ⟨S1x128, .f32⟩
  | 83 => ⟨S128, .f32⟩
  | 84 => ⟨S1x128, .f32⟩
  | 85 => ⟨S16384x128, .f32⟩
  | 86 => ⟨S16384x128, .f32⟩
  | 87 => ⟨S16384x128, .f32⟩
  | 88 => ⟨S1x128x128, .f32⟩
  | 89 => ⟨S128x128, .f32⟩
  | 90 => ⟨S128x128, .f32⟩
  | 91 => ⟨S16384x128, .f32⟩
  | 92 => ⟨S1x128, .f32⟩
  | 93 => ⟨S128, .f32⟩
  | 94 => ⟨S1x128, .f32⟩
  | 95 => ⟨S16384x128, .f32⟩
  | 96 => ⟨S16384x128, .f32⟩
  | 97 => ⟨S16384x128, .f32⟩
  | 98 => ⟨S16384x128, .f32⟩
  | 99 => ⟨S1x128x128, .f32⟩
  | 100 => ⟨S128x128, .f32⟩
  | 101 => ⟨S128x128, .f32⟩
  | 102 => ⟨S16384x128, .f32⟩
  | 103 => ⟨S1x128, .f32⟩
  | 104 => ⟨S128, .f32⟩
  | 105 => ⟨S1x128, .f32⟩
  | 106 => ⟨S16384x128, .f32⟩
  | 107 => ⟨S16384x128, .f32⟩
  | 108 => ⟨S16384x128, .f32⟩
  | 109 => ⟨S1x16384x128, .f32⟩
  | 110 => ⟨S16384x128, .f32⟩
  | 111 => ⟨S16384x256, .f32⟩
  | 112 => ⟨S256x128, .f32⟩
  | 113 => ⟨S16384x128, .f32⟩
  | 114 => ⟨S1x128, .f32⟩
  | 115 => ⟨S16384x128, .f32⟩
  | 116 => ⟨S16384x128, .f32⟩
  | 117 => ⟨S16384x128, .f32⟩
  | 118 => ⟨S1x128x128, .f32⟩
  | 119 => ⟨S128x128, .f32⟩
  | 120 => ⟨S128x128, .f32⟩
  | 121 => ⟨S16384x128, .f32⟩
  | 122 => ⟨S1x128, .f32⟩
  | 123 => ⟨S128, .f32⟩
  | 124 => ⟨S1x128, .f32⟩
  | 125 => ⟨S16384x128, .f32⟩
  | 126 => ⟨S16384x128, .f32⟩
  | 127 => ⟨S16384x128, .f32⟩
  | _ => ⟨S131072x32, .f32⟩

abbrev hbmTy0_6 (i : Nat) : BufTy := match i % 128 with
  | 0 => ⟨S1x128x128, .f32⟩
  | 1 => ⟨S128x128, .f32⟩
  | 2 => ⟨S128x128, .f32⟩
  | 3 => ⟨S16384x128, .f32⟩
  | 4 => ⟨S1x128, .f32⟩
  | 5 => ⟨S128, .f32⟩
  | 6 => ⟨S1x128, .f32⟩
  | 7 => ⟨S16384x128, .f32⟩
  | 8 => ⟨S16384x128, .f32⟩
  | 9 => ⟨S16384x128, .f32⟩
  | 10 => ⟨S16384x128, .f32⟩
  | 11 => ⟨S1x128x128, .f32⟩
  | 12 => ⟨S128x128, .f32⟩
  | 13 => ⟨S128x128, .f32⟩
  | 14 => ⟨S16384x128, .f32⟩
  | 15 => ⟨S1x128, .f32⟩
  | 16 => ⟨S128, .f32⟩
  | 17 => ⟨S1x128, .f32⟩
  | 18 => ⟨S16384x128, .f32⟩
  | 19 => ⟨S16384x128, .f32⟩
  | 20 => ⟨S16384x128, .f32⟩
  | 21 => ⟨S1x128x128, .f32⟩
  | 22 => ⟨S128x128, .f32⟩
  | 23 => ⟨S128x128, .f32⟩
  | 24 => ⟨S16384x128, .f32⟩
  | 25 => ⟨S1x128, .f32⟩
  | 26 => ⟨S128, .f32⟩
  | 27 => ⟨S1x128, .f32⟩
  | 28 => ⟨S16384x128, .f32⟩
  | 29 => ⟨S16384x128, .f32⟩
  | 30 => ⟨S16384x128, .f32⟩
  | 31 => ⟨S1x128x128, .f32⟩
  | 32 => ⟨S128x128, .f32⟩
  | 33 => ⟨S128x128, .f32⟩
  | 34 => ⟨S16384x128, .f32⟩
  | 35 => ⟨S1x128, .f32⟩
  | 36 => ⟨S128, .f32⟩
  | 37 => ⟨S1x128, .f32⟩
  | 38 => ⟨S16384x128, .f32⟩
  | 39 => ⟨S16384x128, .f32⟩
  | 40 => ⟨S16384x128, .f32⟩
  | 41 => ⟨S16384x128, .f32⟩
  | 42 => ⟨S1x128x128, .f32⟩
  | 43 => ⟨S128x128, .f32⟩
  | 44 => ⟨S128x128, .f32⟩
  | 45 => ⟨S16384x128, .f32⟩
  | 46 => ⟨S1x128, .f32⟩
  | 47 => ⟨S128, .f32⟩
  | 48 => ⟨S1x128, .f32⟩
  | 49 => ⟨S16384x128, .f32⟩
  | 50 => ⟨S16384x128, .f32⟩
  | 51 => ⟨S16384x128, .f32⟩
  | 52 => ⟨S1x128x128, .f32⟩
  | 53 => ⟨S128x128, .f32⟩
  | 54 => ⟨S128x128, .f32⟩
  | 55 => ⟨S16384x128, .f32⟩
  | 56 => ⟨S1x128, .f32⟩
  | 57 => ⟨S128, .f32⟩
  | 58 => ⟨S1x128, .f32⟩
  | 59 => ⟨S16384x128, .f32⟩
  | 60 => ⟨S16384x128, .f32⟩
  | 61 => ⟨S16384x128, .f32⟩
  | 62 => ⟨S1x128x128, .f32⟩
  | 63 => ⟨S128x128, .f32⟩
  | 64 => ⟨S128x128, .f32⟩
  | 65 => ⟨S16384x128, .f32⟩
  | 66 => ⟨S1x128, .f32⟩
  | 67 => ⟨S128, .f32⟩
  | 68 => ⟨S1x128, .f32⟩
  | 69 => ⟨S16384x128, .f32⟩
  | 70 => ⟨S16384x128, .f32⟩
  | 71 => ⟨S16384x128, .f32⟩
  | 72 => ⟨S16384x128, .f32⟩
  | 73 => ⟨S1x128x128, .f32⟩
  | 74 => ⟨S128x128, .f32⟩
  | 75 => ⟨S128x128, .f32⟩
  | 76 => ⟨S16384x128, .f32⟩
  | 77 => ⟨S1x128, .f32⟩
  | 78 => ⟨S128, .f32⟩
  | 79 => ⟨S1x128, .f32⟩
  | 80 => ⟨S16384x128, .f32⟩
  | 81 => ⟨S16384x128, .f32⟩
  | 82 => ⟨S16384x128, .f32⟩
  | 83 => ⟨S1x16384x16, .i32⟩
  | 84 => ⟨S16384x16, .i32⟩
  | 85 => ⟨S_, .i32⟩
  | 86 => ⟨S16384x16, .i32⟩
  | 87 => ⟨S16384x16, .i1⟩
  | 88 => ⟨S_, .i32⟩
  | 89 => ⟨S16384x16, .i32⟩
  | 90 => ⟨S16384x16, .i32⟩
  | 91 => ⟨S16384x16, .i32⟩
  | 92 => ⟨S16384x16x1, .i32⟩
  | 93 => ⟨S16384x16x128, .f32⟩
  | 94 => ⟨S_, .f32⟩
  | 95 => ⟨S16384x128, .f32⟩
  | 96 => ⟨S1x128x128, .f32⟩
  | 97 => ⟨S128x128, .f32⟩
  | 98 => ⟨S128x128, .f32⟩
  | 99 => ⟨S16384x128, .f32⟩
  | 100 => ⟨S1x128, .f32⟩
  | 101 => ⟨S128, .f32⟩
  | 102 => ⟨S1x128, .f32⟩
  | 103 => ⟨S16384x128, .f32⟩
  | 104 => ⟨S16384x128, .f32⟩
  | 105 => ⟨S16384x128, .f32⟩
  | 106 => ⟨S1x128x128, .f32⟩
  | 107 => ⟨S128x128, .f32⟩
  | 108 => ⟨S128x128, .f32⟩
  | 109 => ⟨S16384x128, .f32⟩
  | 110 => ⟨S1x128, .f32⟩
  | 111 => ⟨S128, .f32⟩
  | 112 => ⟨S1x128, .f32⟩
  | 113 => ⟨S16384x128, .f32⟩
  | 114 => ⟨S16384x128, .f32⟩
  | 115 => ⟨S16384x128, .f32⟩
  | 116 => ⟨S16384x128, .f32⟩
  | 117 => ⟨S1x128x128, .f32⟩
  | 118 => ⟨S128x128, .f32⟩
  | 119 => ⟨S128x128, .f32⟩
  | 120 => ⟨S16384x128, .f32⟩
  | 121 => ⟨S1x128, .f32⟩
  | 122 => ⟨S128, .f32⟩
  | 123 => ⟨S1x128, .f32⟩
  | 124 => ⟨S16384x128, .f32⟩
  | 125 => ⟨S16384x128, .f32⟩
  | 126 => ⟨S16384x128, .f32⟩
  | 127 => ⟨S1x128x128, .f32⟩
  | _ => ⟨S131072x32, .f32⟩

abbrev hbmTy0_7 (i : Nat) : BufTy := match i % 128 with
  | 0 => ⟨S128x128, .f32⟩
  | 1 => ⟨S128x128, .f32⟩
  | 2 => ⟨S16384x128, .f32⟩
  | 3 => ⟨S1x128, .f32⟩
  | 4 => ⟨S128, .f32⟩
  | 5 => ⟨S1x128, .f32⟩
  | 6 => ⟨S16384x128, .f32⟩
  | 7 => ⟨S16384x128, .f32⟩
  | 8 => ⟨S16384x128, .f32⟩
  | 9 => ⟨S1x128x128, .f32⟩
  | 10 => ⟨S128x128, .f32⟩
  | 11 => ⟨S128x128, .f32⟩
  | 12 => ⟨S16384x128, .f32⟩
  | 13 => ⟨S1x128, .f32⟩
  | 14 => ⟨S128, .f32⟩
  | 15 => ⟨S1x128, .f32⟩
  | 16 => ⟨S16384x128, .f32⟩
  | 17 => ⟨S16384x128, .f32⟩
  | 18 => ⟨S16384x128, .f32⟩
  | 19 => ⟨S16384x128, .f32⟩
  | 20 => ⟨S1x128x128, .f32⟩
  | 21 => ⟨S128x128, .f32⟩
  | 22 => ⟨S128x128, .f32⟩
  | 23 => ⟨S16384x128, .f32⟩
  | 24 => ⟨S1x128, .f32⟩
  | 25 => ⟨S128, .f32⟩
  | 26 => ⟨S1x128, .f32⟩
  | 27 => ⟨S16384x128, .f32⟩
  | 28 => ⟨S16384x128, .f32⟩
  | 29 => ⟨S16384x128, .f32⟩
  | 30 => ⟨S1x128x128, .f32⟩
  | 31 => ⟨S128x128, .f32⟩
  | 32 => ⟨S128x128, .f32⟩
  | 33 => ⟨S16384x128, .f32⟩
  | 34 => ⟨S1x128, .f32⟩
  | 35 => ⟨S128, .f32⟩
  | 36 => ⟨S1x128, .f32⟩
  | 37 => ⟨S16384x128, .f32⟩
  | 38 => ⟨S16384x128, .f32⟩
  | 39 => ⟨S16384x128, .f32⟩
  | 40 => ⟨S1x128x128, .f32⟩
  | 41 => ⟨S128x128, .f32⟩
  | 42 => ⟨S128x128, .f32⟩
  | 43 => ⟨S16384x128, .f32⟩
  | 44 => ⟨S1x128, .f32⟩
  | 45 => ⟨S128, .f32⟩
  | 46 => ⟨S1x128, .f32⟩
  | 47 => ⟨S16384x128, .f32⟩
  | 48 => ⟨S16384x128, .f32⟩
  | 49 => ⟨S16384x128, .f32⟩
  | 50 => ⟨S16384x128, .f32⟩
  | 51 => ⟨S1x128x128, .f32⟩
  | 52 => ⟨S128x128, .f32⟩
  | 53 => ⟨S128x128, .f32⟩
  | 54 => ⟨S16384x128, .f32⟩
  | 55 => ⟨S1x128, .f32⟩
  | 56 => ⟨S128, .f32⟩
  | 57 => ⟨S1x128, .f32⟩
  | 58 => ⟨S16384x128, .f32⟩
  | 59 => ⟨S16384x128, .f32⟩
  | 60 => ⟨S16384x128, .f32⟩
  | 61 => ⟨S1x16384x128, .f32⟩
  | 62 => ⟨S16384x128, .f32⟩
  | 63 => ⟨S16384x256, .f32⟩
  | 64 => ⟨S256x128, .f32⟩
  | 65 => ⟨S16384x128, .f32⟩
  | 66 => ⟨S1x128, .f32⟩
  | 67 => ⟨S16384x128, .f32⟩
  | 68 => ⟨S16384x128, .f32⟩
  | 69 => ⟨S16384x128, .f32⟩
  | 70 => ⟨S1x128x128, .f32⟩
  | 71 => ⟨S128x128, .f32⟩
  | 72 => ⟨S128x128, .f32⟩
  | 73 => ⟨S16384x128, .f32⟩
  | 74 => ⟨S1x128, .f32⟩
  | 75 => ⟨S128, .f32⟩
  | 76 => ⟨S1x128, .f32⟩
  | 77 => ⟨S16384x128, .f32⟩
  | 78 => ⟨S16384x128, .f32⟩
  | 79 => ⟨S16384x128, .f32⟩
  | 80 => ⟨S1x128x128, .f32⟩
  | 81 => ⟨S128x128, .f32⟩
  | 82 => ⟨S128x128, .f32⟩
  | 83 => ⟨S16384x128, .f32⟩
  | 84 => ⟨S1x128, .f32⟩
  | 85 => ⟨S128, .f32⟩
  | 86 => ⟨S1x128, .f32⟩
  | 87 => ⟨S16384x128, .f32⟩
  | 88 => ⟨S16384x128, .f32⟩
  | 89 => ⟨S16384x128, .f32⟩
  | 90 => ⟨S16384x128, .f32⟩
  | 91 => ⟨S1x128x128, .f32⟩
  | 92 => ⟨S128x128, .f32⟩
  | 93 => ⟨S128x128, .f32⟩
  | 94 => ⟨S16384x128, .f32⟩
  | 95 => ⟨S1x128, .f32⟩
  | 96 => ⟨S128, .f32⟩
  | 97 => ⟨S1x128, .f32⟩
  | 98 => ⟨S16384x128, .f32⟩
  | 99 => ⟨S16384x128, .f32⟩
  | 100 => ⟨S16384x128, .f32⟩
  | 101 => ⟨S1x128x128, .f32⟩
  | 102 => ⟨S128x128, .f32⟩
  | 103 => ⟨S128x128, .f32⟩
  | 104 => ⟨S16384x128, .f32⟩
  | 105 => ⟨S1x128, .f32⟩
  | 106 => ⟨S128, .f32⟩
  | 107 => ⟨S1x128, .f32⟩
  | 108 => ⟨S16384x128, .f32⟩
  | 109 => ⟨S16384x128, .f32⟩
  | 110 => ⟨S16384x128, .f32⟩
  | 111 => ⟨S1x128x128, .f32⟩
  | 112 => ⟨S128x128, .f32⟩
  | 113 => ⟨S128x128, .f32⟩
  | 114 => ⟨S16384x128, .f32⟩
  | 115 => ⟨S1x128, .f32⟩
  | 116 => ⟨S128, .f32⟩
  | 117 => ⟨S1x128, .f32⟩
  | 118 => ⟨S16384x128, .f32⟩
  | 119 => ⟨S16384x128, .f32⟩
  | 120 => ⟨S16384x128, .f32⟩
  | 121 => ⟨S16384x128, .f32⟩
  | 122 => ⟨S1x128x128, .f32⟩
  | 123 => ⟨S128x128, .f32⟩
  | 124 => ⟨S128x128, .f32⟩
  | 125 => ⟨S16384x128, .f32⟩
  | 126 => ⟨S1x128, .f32⟩
  | 127 => ⟨S128, .f32⟩
  | _ => ⟨S131072x32, .f32⟩

abbrev hbmTy0_8 (i : Nat) : BufTy := match i % 128 with
  | 0 => ⟨S1x128, .f32⟩
  | 1 => ⟨S16384x128, .f32⟩
  | 2 => ⟨S16384x128, .f32⟩
  | 3 => ⟨S16384x128, .f32⟩
  | 4 => ⟨S1x128x128, .f32⟩
  | 5 => ⟨S128x128, .f32⟩
  | 6 => ⟨S128x128, .f32⟩
  | 7 => ⟨S16384x128, .f32⟩
  | 8 => ⟨S1x128, .f32⟩
  | 9 => ⟨S128, .f32⟩
  | 10 => ⟨S1x128, .f32⟩
  | 11 => ⟨S16384x128, .f32⟩
  | 12 => ⟨S16384x128, .f32⟩
  | 13 => ⟨S16384x128, .f32⟩
  | 14 => ⟨S1x128x128, .f32⟩
  | 15 => ⟨S128x128, .f32⟩
  | 16 => ⟨S128x128, .f32⟩
  | 17 => ⟨S16384x128, .f32⟩
  | 18 => ⟨S1x128, .f32⟩
  | 19 => ⟨S128, .f32⟩
  | 20 => ⟨S1x128, .f32⟩
  | 21 => ⟨S16384x128, .f32⟩
  | 22 => ⟨S16384x128, .f32⟩
  | 23 => ⟨S16384x128, .f32⟩
  | 24 => ⟨S16384x128, .f32⟩
  | 25 => ⟨S1x128x128, .f32⟩
  | 26 => ⟨S128x128, .f32⟩
  | 27 => ⟨S128x128, .f32⟩
  | 28 => ⟨S16384x128, .f32⟩
  | 29 => ⟨S1x128, .f32⟩
  | 30 => ⟨S128, .f32⟩
  | 31 => ⟨S1x128, .f32⟩
  | 32 => ⟨S16384x128, .f32⟩
  | 33 => ⟨S16384x128, .f32⟩
  | 34 => ⟨S16384x128, .f32⟩
  | 35 => ⟨S1x16384x16, .i32⟩
  | 36 => ⟨S16384x16, .i32⟩
  | 37 => ⟨S_, .i32⟩
  | 38 => ⟨S16384x16, .i32⟩
  | 39 => ⟨S16384x16, .i1⟩
  | 40 => ⟨S_, .i32⟩
  | 41 => ⟨S16384x16, .i32⟩
  | 42 => ⟨S16384x16, .i32⟩
  | 43 => ⟨S16384x16, .i32⟩
  | 44 => ⟨S16384x16x1, .i32⟩
  | 45 => ⟨S16384x16x128, .f32⟩
  | 46 => ⟨S_, .f32⟩
  | 47 => ⟨S16384x128, .f32⟩
  | 48 => ⟨S1x128x128, .f32⟩
  | 49 => ⟨S128x128, .f32⟩
  | 50 => ⟨S128x128, .f32⟩
  | 51 => ⟨S16384x128, .f32⟩
  | 52 => ⟨S1x128, .f32⟩
  | 53 => ⟨S128, .f32⟩
  | 54 => ⟨S1x128, .f32⟩
  | 55 => ⟨S16384x128, .f32⟩
  | 56 => ⟨S16384x128, .f32⟩
  | 57 => ⟨S16384x128, .f32⟩
  | 58 => ⟨S1x128x128, .f32⟩
  | 59 => ⟨S128x128, .f32⟩
  | 60 => ⟨S128x128, .f32⟩
  | 61 => ⟨S16384x128, .f32⟩
  | 62 => ⟨S1x128, .f32⟩
  | 63 => ⟨S128, .f32⟩
  | 64 => ⟨S1x128, .f32⟩
  | 65 => ⟨S16384x128, .f32⟩
  | 66 => ⟨S16384x128, .f32⟩
  | 67 => ⟨S16384x128, .f32⟩
  | 68 => ⟨S16384x128, .f32⟩
  | 69 => ⟨S1x128x128, .f32⟩
  | 70 => ⟨S128x128, .f32⟩
  | 71 => ⟨S128x128, .f32⟩
  | 72 => ⟨S16384x128, .f32⟩
  | 73 => ⟨S1x128, .f32⟩
  | 74 => ⟨S128, .f32⟩
  | 75 => ⟨S1x128, .f32⟩
  | 76 => ⟨S16384x128, .f32⟩
  | 77 => ⟨S16384x128, .f32⟩
  | 78 => ⟨S16384x128, .f32⟩
  | 79 => ⟨S1x128x128, .f32⟩
  | 80 => ⟨S128x128, .f32⟩
  | 81 => ⟨S128x128, .f32⟩
  | 82 => ⟨S16384x128, .f32⟩
  | 83 => ⟨S1x128, .f32⟩
  | 84 => ⟨S128, .f32⟩
  | 85 => ⟨S1x128, .f32⟩
  | 86 => ⟨S16384x128, .f32⟩
  | 87 => ⟨S16384x128, .f32⟩
  | 88 => ⟨S16384x128, .f32⟩
  | 89 => ⟨S1x128x128, .f32⟩
  | 90 => ⟨S128x128, .f32⟩
  | 91 => ⟨S128x128, .f32⟩
  | 92 => ⟨S16384x128, .f32⟩
  | 93 => ⟨S1x128, .f32⟩
  | 94 => ⟨S128, .f32⟩
  | 95 => ⟨S1x128, .f32⟩
  | 96 => ⟨S16384x128, .f32⟩
  | 97 => ⟨S16384x128, .f32⟩
  | 98 => ⟨S16384x128, .f32⟩
  | 99 => ⟨S16384x128, .f32⟩
  | 100 => ⟨S1x128x128, .f32⟩
  | 101 => ⟨S128x128, .f32⟩
  | 102 => ⟨S128x128, .f32⟩
  | 103 => ⟨S16384x128, .f32⟩
  | 104 => ⟨S1x128, .f32⟩
  | 105 => ⟨S128, .f32⟩
  | 106 => ⟨S1x128, .f32⟩
  | 107 => ⟨S16384x128, .f32⟩
  | 108 => ⟨S16384x128, .f32⟩
  | 109 => ⟨S16384x128, .f32⟩
  | 110 => ⟨S1x128x128, .f32⟩
  | 111 => ⟨S128x128, .f32⟩
  | 112 => ⟨S128x128, .f32⟩
  | 113 => ⟨S16384x128, .f32⟩
  | 114 => ⟨S1x128, .f32⟩
  | 115 => ⟨S128, .f32⟩
  | 116 => ⟨S1x128, .f32⟩
  | 117 => ⟨S16384x128, .f32⟩
  | 118 => ⟨S16384x128, .f32⟩
  | 119 => ⟨S16384x128, .f32⟩
  | 120 => ⟨S1x128x128, .f32⟩
  | 121 => ⟨S128x128, .f32⟩
  | 122 => ⟨S128x128, .f32⟩
  | 123 => ⟨S16384x128, .f32⟩
  | 124 => ⟨S1x128, .f32⟩
  | 125 => ⟨S128, .f32⟩
  | 126 => ⟨S1x128, .f32⟩
  | 127 => ⟨S16384x128, .f32⟩
  | _ => ⟨S131072x32, .f32⟩

abbrev hbmTy0_9 (i : Nat) : BufTy := match i % 128 with
  | 0 => ⟨S16384x128, .f32⟩
  | 1 => ⟨S16384x128, .f32⟩
  | 2 => ⟨S16384x128, .f32⟩
  | 3 => ⟨S1x128x128, .f32⟩
  | 4 => ⟨S128x128, .f32⟩
  | 5 => ⟨S128x128, .f32⟩
  | 6 => ⟨S16384x128, .f32⟩
  | 7 => ⟨S1x128, .f32⟩
  | 8 => ⟨S128, .f32⟩
  | 9 => ⟨S1x128, .f32⟩
  | 10 => ⟨S16384x128, .f32⟩
  | 11 => ⟨S16384x128, .f32⟩
  | 12 => ⟨S16384x128, .f32⟩
  | 13 => ⟨S1x16384x128, .f32⟩
  | 14 => ⟨S16384x128, .f32⟩
  | 15 => ⟨S16384x256, .f32⟩
  | 16 => ⟨S256x128, .f32⟩
  | 17 => ⟨S16384x128, .f32⟩
  | 18 => ⟨S1x128, .f32⟩
  | 19 => ⟨S16384x128, .f32⟩
  | 20 => ⟨S16384x128, .f32⟩
  | 21 => ⟨S16384x128, .f32⟩
  | 22 => ⟨S1x128x128, .f32⟩
  | 23 => ⟨S128x128, .f32⟩
  | 24 => ⟨S128x128, .f32⟩
  | 25 => ⟨S16384x128, .f32⟩
  | 26 => ⟨S1x128, .f32⟩
  | 27 => ⟨S128, .f32⟩
  | 28 => ⟨S1x128, .f32⟩
  | 29 => ⟨S16384x128, .f32⟩
  | 30 => ⟨S16384x128, .f32⟩
  | 31 => ⟨S16384x128, .f32⟩
  | 32 => ⟨S1x128x128, .f32⟩
  | 33 => ⟨S128x128, .f32⟩
  | 34 => ⟨S128x128, .f32⟩
  | 35 => ⟨S16384x128, .f32⟩
  | 36 => ⟨S1x128, .f32⟩
  | 37 => ⟨S128, .f32⟩
  | 38 => ⟨S1x128, .f32⟩
  | 39 => ⟨S16384x128, .f32⟩
  | 40 => ⟨S16384x128, .f32⟩
  | 41 => ⟨S16384x128, .f32⟩
  | 42 => ⟨S16384x128, .f32⟩
  | 43 => ⟨S1x128x128, .f32⟩
  | 44 => ⟨S128x128, .f32⟩
  | 45 => ⟨S128x128, .f32⟩
  | 46 => ⟨S16384x128, .f32⟩
  | 47 => ⟨S1x128, .f32⟩
  | 48 => ⟨S128, .f32⟩
  | 49 => ⟨S1x128, .f32⟩
  | 50 => ⟨S16384x128, .f32⟩
  | 51 => ⟨S16384x128, .f32⟩
  | 52 => ⟨S16384x128, .f32⟩
  | 53 => ⟨S1x128x128, .f32⟩
  | 54 => ⟨S128x128, .f32⟩
  | 55 => ⟨S128x128, .f32⟩
  | 56 => ⟨S16384x128, .f32⟩
  | 57 => ⟨S1x128, .f32⟩
  | 58 => ⟨S128, .f32⟩
  | 59 => ⟨S1x128, .f32⟩
  | 60 => ⟨S16384x128, .f32⟩
  | 61 => ⟨S16384x128, .f32⟩
  | 62 => ⟨S16384x128, .f32⟩
  | 63 => ⟨S1x128x128, .f32⟩
  | 64 => ⟨S128x128, .f32⟩
  | 65 => ⟨S128x128, .f32⟩
  | 66 => ⟨S16384x128, .f32⟩
  | 67 => ⟨S1x128, .f32⟩
  | 68 => ⟨S128, .f32⟩
  | 69 => ⟨S1x128, .f32⟩
  | 70 => ⟨S16384x128, .f32⟩
  | 71 => ⟨S16384x128, .f32⟩
  | 72 => ⟨S16384x128, .f32⟩
  | 73 => ⟨S16384x128, .f32⟩
  | 74 => ⟨S1x128x128, .f32⟩
  | 75 => ⟨S128x128, .f32⟩
  | 76 => ⟨S128x128, .f32⟩
  | 77 => ⟨S16384x128, .f32⟩
  | 78 => ⟨S1x128, .f32⟩
  | 79 => ⟨S128, .f32⟩
  | 80 => ⟨S1x128, .f32⟩
  | 81 => ⟨S16384x128, .f32⟩
  | 82 => ⟨S16384x128, .f32⟩
  | 83 => ⟨S16384x128, .f32⟩
  | 84 => ⟨S1x128x128, .f32⟩
  | 85 => ⟨S128x128, .f32⟩
  | 86 => ⟨S128x128, .f32⟩
  | 87 => ⟨S16384x128, .f32⟩
  | 88 => ⟨S1x128, .f32⟩
  | 89 => ⟨S128, .f32⟩
  | 90 => ⟨S1x128, .f32⟩
  | 91 => ⟨S16384x128, .f32⟩
  | 92 => ⟨S16384x128, .f32⟩
  | 93 => ⟨S16384x128, .f32⟩
  | 94 => ⟨S1x128x128, .f32⟩
  | 95 => ⟨S128x128, .f32⟩
  | 96 => ⟨S128x128, .f32⟩
  | 97 => ⟨S16384x128, .f32⟩
  | 98 => ⟨S1x128, .f32⟩
  | 99 => ⟨S128, .f32⟩
  | 100 => ⟨S1x128, .f32⟩
  | 101 => ⟨S16384x128, .f32⟩
  | 102 => ⟨S16384x128, .f32⟩
  | 103 => ⟨S16384x128, .f32⟩
  | 104 => ⟨S16384x128, .f32⟩
  | 105 => ⟨S1x128x128, .f32⟩
  | 106 => ⟨S128x128, .f32⟩
  | 107 => ⟨S128x128, .f32⟩
  | 108 => ⟨S16384x128, .f32⟩
  | 109 => ⟨S1x128, .f32⟩
  | 110 => ⟨S128, .f32⟩
  | 111 => ⟨S1x128, .f32⟩
  | 112 => ⟨S16384x128, .f32⟩
  | 113 => ⟨S16384x128, .f32⟩
  | 114 => ⟨S16384x128, .f32⟩
  | 115 => ⟨S1x16384x16, .i32⟩
  | 116 => ⟨S16384x16, .i32⟩
  | 117 => ⟨S_, .i32⟩
  | 118 => ⟨S16384x16, .i32⟩
  | 119 => ⟨S16384x16, .i1⟩
  | 120 => ⟨S_, .i32⟩
  | 121 => ⟨S16384x16, .i32⟩
  | 122 => ⟨S16384x16, .i32⟩
  | 123 => ⟨S16384x16, .i32⟩
  | 124 => ⟨S16384x16x1, .i32⟩
  | 125 => ⟨S16384x16x128, .f32⟩
  | 126 => ⟨S_, .f32⟩
  | 127 => ⟨S16384x128, .f32⟩
  | _ => ⟨S131072x32, .f32⟩

abbrev hbmTy0_10 (i : Nat) : BufTy := match i % 128 with
  | 0 => ⟨S1x128x128, .f32⟩
  | 1 => ⟨S128x128, .f32⟩
  | 2 => ⟨S128x128, .f32⟩
  | 3 => ⟨S16384x128, .f32⟩
  | 4 => ⟨S1x128, .f32⟩
  | 5 => ⟨S128, .f32⟩
  | 6 => ⟨S1x128, .f32⟩
  | 7 => ⟨S16384x128, .f32⟩
  | 8 => ⟨S16384x128, .f32⟩
  | 9 => ⟨S16384x128, .f32⟩
  | 10 => ⟨S1x128x128, .f32⟩
  | 11 => ⟨S128x128, .f32⟩
  | 12 => ⟨S128x128, .f32⟩
  | 13 => ⟨S16384x128, .f32⟩
  | 14 => ⟨S1x128, .f32⟩
  | 15 => ⟨S128, .f32⟩
  | 16 => ⟨S1x128, .f32⟩
  | 17 => ⟨S16384x128, .f32⟩
  | 18 => ⟨S16384x128, .f32⟩
  | 19 => ⟨S16384x128, .f32⟩
  | 20 => ⟨S16384x128, .f32⟩
  | 21 => ⟨S1x128x128, .f32⟩
  | 22 => ⟨S128x128, .f32⟩
  | 23 => ⟨S128x128, .f32⟩
  | 24 => ⟨S16384x128, .f32⟩
  | 25 => ⟨S1x128, .f32⟩
  | 26 => ⟨S128, .f32⟩
  | 27 => ⟨S1x128, .f32⟩
  | 28 => ⟨S16384x128, .f32⟩
  | 29 => ⟨S16384x128, .f32⟩
  | 30 => ⟨S16384x128, .f32⟩
  | 31 => ⟨S1x128x128, .f32⟩
  | 32 => ⟨S128x128, .f32⟩
  | 33 => ⟨S128x128, .f32⟩
  | 34 => ⟨S16384x128, .f32⟩
  | 35 => ⟨S1x128, .f32⟩
  | 36 => ⟨S128, .f32⟩
  | 37 => ⟨S1x128, .f32⟩
  | 38 => ⟨S16384x128, .f32⟩
  | 39 => ⟨S16384x128, .f32⟩
  | 40 => ⟨S16384x128, .f32⟩
  | 41 => ⟨S1x128x128, .f32⟩
  | 42 => ⟨S128x128, .f32⟩
  | 43 => ⟨S128x128, .f32⟩
  | 44 => ⟨S16384x128, .f32⟩
  | 45 => ⟨S1x128, .f32⟩
  | 46 => ⟨S128, .f32⟩
  | 47 => ⟨S1x128, .f32⟩
  | 48 => ⟨S16384x128, .f32⟩
  | 49 => ⟨S16384x128, .f32⟩
  | 50 => ⟨S16384x128, .f32⟩
  | 51 => ⟨S16384x128, .f32⟩
  | 52 => ⟨S1x128x128, .f32⟩
  | 53 => ⟨S128x128, .f32⟩
  | 54 => ⟨S128x128, .f32⟩
  | 55 => ⟨S16384x128, .f32⟩
  | 56 => ⟨S1x128, .f32⟩
  | 57 => ⟨S128, .f32⟩
  | 58 => ⟨S1x128, .f32⟩
  | 59 => ⟨S16384x128, .f32⟩
  | 60 => ⟨S16384x128, .f32⟩
  | 61 => ⟨S16384x128, .f32⟩
  | 62 => ⟨S1x128x128, .f32⟩
  | 63 => ⟨S128x128, .f32⟩
  | 64 => ⟨S128x128, .f32⟩
  | 65 => ⟨S16384x128, .f32⟩
  | 66 => ⟨S1x128, .f32⟩
  | 67 => ⟨S128, .f32⟩
  | 68 => ⟨S1x128, .f32⟩
  | 69 => ⟨S16384x128, .f32⟩
  | 70 => ⟨S16384x128, .f32⟩
  | 71 => ⟨S16384x128, .f32⟩
  | 72 => ⟨S1x128x128, .f32⟩
  | 73 => ⟨S128x128, .f32⟩
  | 74 => ⟨S128x128, .f32⟩
  | 75 => ⟨S16384x128, .f32⟩
  | 76 => ⟨S1x128, .f32⟩
  | 77 => ⟨S128, .f32⟩
  | 78 => ⟨S1x128, .f32⟩
  | 79 => ⟨S16384x128, .f32⟩
  | 80 => ⟨S16384x128, .f32⟩
  | 81 => ⟨S16384x128, .f32⟩
  | 82 => ⟨S16384x128, .f32⟩
  | 83 => ⟨S1x128x128, .f32⟩
  | 84 => ⟨S128x128, .f32⟩
  | 85 => ⟨S128x128, .f32⟩
  | 86 => ⟨S16384x128, .f32⟩
  | 87 => ⟨S1x128, .f32⟩
  | 88 => ⟨S128, .f32⟩
  | 89 => ⟨S1x128, .f32⟩
  | 90 => ⟨S16384x128, .f32⟩
  | 91 => ⟨S16384x128, .f32⟩
  | 92 => ⟨S16384x128, .f32⟩
  | 93 => ⟨S1x16384x128, .f32⟩
  | 94 => ⟨S16384x128, .f32⟩
  | 95 => ⟨S16384x256, .f32⟩
  | 96 => ⟨S256x128, .f32⟩
  | 97 => ⟨S16384x128, .f32⟩
  | 98 => ⟨S1x128, .f32⟩
  | 99 => ⟨S16384x128, .f32⟩
  | 100 => ⟨S16384x128, .f32⟩
  | 101 => ⟨S16384x128, .f32⟩
  | 102 => ⟨S1x128x128, .f32⟩
  | 103 => ⟨S128x128, .f32⟩
  | 104 => ⟨S128x128, .f32⟩
  | 105 => ⟨S16384x128, .f32⟩
  | 106 => ⟨S1x128, .f32⟩
  | 107 => ⟨S128, .f32⟩
  | 108 => ⟨S1x128, .f32⟩
  | 109 => ⟨S16384x128, .f32⟩
  | 110 => ⟨S16384x128, .f32⟩
  | 111 => ⟨S16384x128, .f32⟩
  | 112 => ⟨S1x128x128, .f32⟩
  | 113 => ⟨S128x128, .f32⟩
  | 114 => ⟨S128x128, .f32⟩
  | 115 => ⟨S16384x128, .f32⟩
  | 116 => ⟨S1x128, .f32⟩
  | 117 => ⟨S128, .f32⟩
  | 118 => ⟨S1x128, .f32⟩
  | 119 => ⟨S16384x128, .f32⟩
  | 120 => ⟨S16384x128, .f32⟩
  | 121 => ⟨S16384x128, .f32⟩
  | 122 => ⟨S16384x128, .f32⟩
  | 123 => ⟨S1x128x128, .f32⟩
  | 124 => ⟨S128x128, .f32⟩
  | 125 => ⟨S128x128, .f32⟩
  | 126 => ⟨S16384x128, .f32⟩
  | 127 => ⟨S1x128, .f32⟩
  | _ => ⟨S131072x32, .f32⟩

abbrev hbmTy0_11 (i : Nat) : BufTy := match i % 128 with
  | 0 => ⟨S128, .f32⟩
  | 1 => ⟨S1x128, .f32⟩
  | 2 => ⟨S16384x128, .f32⟩
  | 3 => ⟨S16384x128, .f32⟩
  | 4 => ⟨S16384x128, .f32⟩
  | 5 => ⟨S1x128x128, .f32⟩
  | 6 => ⟨S128x128, .f32⟩
  | 7 => ⟨S128x128, .f32⟩
  | 8 => ⟨S16384x128, .f32⟩
  | 9 => ⟨S1x128, .f32⟩
  | 10 => ⟨S128, .f32⟩
  | 11 => ⟨S1x128, .f32⟩
  | 12 => ⟨S16384x128, .f32⟩
  | 13 => ⟨S16384x128, .f32⟩
  | 14 => ⟨S16384x128, .f32⟩
  | 15 => ⟨S1x128x128, .f32⟩
  | 16 => ⟨S128x128, .f32⟩
  | 17 => ⟨S128x128, .f32⟩
  | 18 => ⟨S16384x128, .f32⟩
  | 19 => ⟨S1x128, .f32⟩
  | 20 => ⟨S128, .f32⟩
  | 21 => ⟨S1x128, .f32⟩
  | 22 => ⟨S16384x128, .f32⟩
  | 23 => ⟨S16384x128, .f32⟩
  | 24 => ⟨S16384x128, .f32⟩
  | 25 => ⟨S16384x128, .f32⟩
  | 26 => ⟨S1x128x128, .f32⟩
  | 27 => ⟨S128x128, .f32⟩
  | 28 => ⟨S128x128, .f32⟩
  | 29 => ⟨S16384x128, .f32⟩
  | 30 => ⟨S1x128, .f32⟩
  | 31 => ⟨S128, .f32⟩
  | 32 => ⟨S1x128, .f32⟩
  | 33 => ⟨S16384x128, .f32⟩
  | 34 => ⟨S16384x128, .f32⟩
  | 35 => ⟨S16384x128, .f32⟩
  | 36 => ⟨S1x128x128, .f32⟩
  | 37 => ⟨S128x128, .f32⟩
  | 38 => ⟨S128x128, .f32⟩
  | 39 => ⟨S16384x128, .f32⟩
  | 40 => ⟨S1x128, .f32⟩
  | 41 => ⟨S128, .f32⟩
  | 42 => ⟨S1x128, .f32⟩
  | 43 => ⟨S16384x128, .f32⟩
  | 44 => ⟨S16384x128, .f32⟩
  | 45 => ⟨S16384x128, .f32⟩
  | 46 => ⟨S1x128x128, .f32⟩
  | 47 => ⟨S128x128, .f32⟩
  | 48 => ⟨S128x128, .f32⟩
  | 49 => ⟨S16384x128, .f32⟩
  | 50 => ⟨S1x128, .f32⟩
  | 51 => ⟨S128, .f32⟩
  | 52 => ⟨S1x128, .f32⟩
  | 53 => ⟨S16384x128, .f32⟩
  | 54 => ⟨S16384x128, .f32⟩
  | 55 => ⟨S16384x128, .f32⟩
  | 56 => ⟨S16384x128, .f32⟩
  | 57 => ⟨S1x128x128, .f32⟩
  | 58 => ⟨S128x128, .f32⟩
  | 59 => ⟨S128x128, .f32⟩
  | 60 => ⟨S16384x128, .f32⟩
  | 61 => ⟨S1x128, .f32⟩
  | 62 => ⟨S128, .f32⟩
  | 63 => ⟨S1x128, .f32⟩
  | 64 => ⟨S16384x128, .f32⟩
  | 65 => ⟨S16384x128, .f32⟩
  | 66 => ⟨S16384x128, .f32⟩
  | 67 => ⟨S131072x128, .f32⟩
  | _ => ⟨S131072x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S131072x32, .f32⟩

abbrev bufTy : (tb : Table) → Fin (tcTables nBuf tb) → BufTy
  | .hbm, ⟨i, _⟩ => hbmTy i
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_c_1 : Ref sig .tc := ⟨.hbm, 229, rfl⟩
abbrev main_v216 : Ref sig .tc := ⟨.hbm, 230, rfl⟩
abbrev main_v217 : Ref sig .tc := ⟨.hbm, 231, rfl⟩
abbrev main_c_2 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_cst_3 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_v285 : Ref sig .tc := ⟨.hbm, 301, rfl⟩
abbrev main_v286 : Ref sig .tc := ⟨.hbm, 302, rfl⟩
abbrev main_v287 : Ref sig .tc := ⟨.hbm, 303, rfl⟩
abbrev main_v288 : Ref sig .tc := ⟨.hbm, 304, rfl⟩
abbrev main_v289 : Ref sig .tc := ⟨.hbm, 305, rfl⟩
abbrev main_v290 : Ref sig .tc := ⟨.hbm, 306, rfl⟩
abbrev main_v291 : Ref sig .tc := ⟨.hbm, 307, rfl⟩
abbrev main_v292 : Ref sig .tc := ⟨.hbm, 308, rfl⟩
abbrev main_v293 : Ref sig .tc := ⟨.hbm, 309, rfl⟩
abbrev main_v294 : Ref sig .tc := ⟨.hbm, 310, rfl⟩
abbrev main_v295 : Ref sig .tc := ⟨.hbm, 311, rfl⟩
abbrev main_v296 : Ref sig .tc := ⟨.hbm, 312, rfl⟩
abbrev main_v297 : Ref sig .tc := ⟨.hbm, 313, rfl⟩
abbrev main_v298 : Ref sig .tc := ⟨.hbm, 314, rfl⟩
abbrev main_v299 : Ref sig .tc := ⟨.hbm, 315, rfl⟩
abbrev main_v300 : Ref sig .tc := ⟨.hbm, 316, rfl⟩
abbrev main_v301 : Ref sig .tc := ⟨.hbm, 317, rfl⟩
abbrev main_v302 : Ref sig .tc := ⟨.hbm, 318, rfl⟩
abbrev main_v303 : Ref sig .tc := ⟨.hbm, 319, rfl⟩
abbrev main_v304 : Ref sig .tc := ⟨.hbm, 320, rfl⟩
abbrev main_v305 : Ref sig .tc := ⟨.hbm, 321, rfl⟩
abbrev main_v306 : Ref sig .tc := ⟨.hbm, 322, rfl⟩
abbrev main_v307 : Ref sig .tc := ⟨.hbm, 323, rfl⟩
abbrev main_v308 : Ref sig .tc := ⟨.hbm, 324, rfl⟩
abbrev main_v309 : Ref sig .tc := ⟨.hbm, 325, rfl⟩
abbrev main_v310 : Ref sig .tc := ⟨.hbm, 326, rfl⟩
abbrev main_v311 : Ref sig .tc := ⟨.hbm, 327, rfl⟩
abbrev main_v312 : Ref sig .tc := ⟨.hbm, 328, rfl⟩
abbrev main_v313 : Ref sig .tc := ⟨.hbm, 329, rfl⟩
abbrev main_v314 : Ref sig .tc := ⟨.hbm, 330, rfl⟩
abbrev main_v315 : Ref sig .tc := ⟨.hbm, 331, rfl⟩
abbrev main_v316 : Ref sig .tc := ⟨.hbm, 332, rfl⟩
abbrev main_v317 : Ref sig .tc := ⟨.hbm, 333, rfl⟩
abbrev main_v318 : Ref sig .tc := ⟨.hbm, 334, rfl⟩
abbrev main_v319 : Ref sig .tc := ⟨.hbm, 335, rfl⟩
abbrev main_v320 : Ref sig .tc := ⟨.hbm, 336, rfl⟩
abbrev main_v321 : Ref sig .tc := ⟨.hbm, 337, rfl⟩
abbrev main_v322 : Ref sig .tc := ⟨.hbm, 338, rfl⟩
abbrev main_v323 : Ref sig .tc := ⟨.hbm, 339, rfl⟩
abbrev main_v324 : Ref sig .tc := ⟨.hbm, 340, rfl⟩
abbrev main_v325 : Ref sig .tc := ⟨.hbm, 341, rfl⟩
abbrev main_v326 : Ref sig .tc := ⟨.hbm, 342, rfl⟩
abbrev main_v327 : Ref sig .tc := ⟨.hbm, 343, rfl⟩
abbrev main_v328 : Ref sig .tc := ⟨.hbm, 344, rfl⟩
abbrev main_v329 : Ref sig .tc := ⟨.hbm, 345, rfl⟩
abbrev main_v330 : Ref sig .tc := ⟨.hbm, 346, rfl⟩
abbrev main_v331 : Ref sig .tc := ⟨.hbm, 347, rfl⟩
abbrev main_v332 : Ref sig .tc := ⟨.hbm, 348, rfl⟩
abbrev main_v333 : Ref sig .tc := ⟨.hbm, 349, rfl⟩
abbrev main_v334 : Ref sig .tc := ⟨.hbm, 350, rfl⟩
abbrev main_v335 : Ref sig .tc := ⟨.hbm, 351, rfl⟩
abbrev main_v336 : Ref sig .tc := ⟨.hbm, 352, rfl⟩
abbrev main_v337 : Ref sig .tc := ⟨.hbm, 353, rfl⟩
abbrev main_v338 : Ref sig .tc := ⟨.hbm, 354, rfl⟩
abbrev main_v339 : Ref sig .tc := ⟨.hbm, 355, rfl⟩
abbrev main_v340 : Ref sig .tc := ⟨.hbm, 356, rfl⟩
abbrev main_v341 : Ref sig .tc := ⟨.hbm, 357, rfl⟩
abbrev main_v342 : Ref sig .tc := ⟨.hbm, 358, rfl⟩
abbrev main_v343 : Ref sig .tc := ⟨.hbm, 359, rfl⟩
abbrev main_v344 : Ref sig .tc := ⟨.hbm, 360, rfl⟩
abbrev main_v345 : Ref sig .tc := ⟨.hbm, 361, rfl⟩
abbrev main_v346 : Ref sig .tc := ⟨.hbm, 362, rfl⟩
abbrev main_v347 : Ref sig .tc := ⟨.hbm, 363, rfl⟩
abbrev main_v348 : Ref sig .tc := ⟨.hbm, 364, rfl⟩
abbrev main_v349 : Ref sig .tc := ⟨.hbm, 365, rfl⟩
abbrev main_v350 : Ref sig .tc := ⟨.hbm, 366, rfl⟩
abbrev main_v351 : Ref sig .tc := ⟨.hbm, 367, rfl⟩
abbrev main_v352 : Ref sig .tc := ⟨.hbm, 368, rfl⟩
abbrev main_v353 : Ref sig .tc := ⟨.hbm, 369, rfl⟩
abbrev main_v354 : Ref sig .tc := ⟨.hbm, 370, rfl⟩
abbrev main_v355 : Ref sig .tc := ⟨.hbm, 371, rfl⟩
abbrev main_v356 : Ref sig .tc := ⟨.hbm, 372, rfl⟩
abbrev main_v357 : Ref sig .tc := ⟨.hbm, 373, rfl⟩
abbrev main_v358 : Ref sig .tc := ⟨.hbm, 374, rfl⟩
abbrev main_v359 : Ref sig .tc := ⟨.hbm, 375, rfl⟩
abbrev main_v360 : Ref sig .tc := ⟨.hbm, 376, rfl⟩
abbrev main_v361 : Ref sig .tc := ⟨.hbm, 377, rfl⟩
abbrev main_v362 : Ref sig .tc := ⟨.hbm, 378, rfl⟩
abbrev main_v363 : Ref sig .tc := ⟨.hbm, 379, rfl⟩
abbrev main_v364 : Ref sig .tc := ⟨.hbm, 380, rfl⟩
abbrev main_v365 : Ref sig .tc := ⟨.hbm, 381, rfl⟩
abbrev main_v366 : Ref sig .tc := ⟨.hbm, 382, rfl⟩
abbrev main_v367 : Ref sig .tc := ⟨.hbm, 383, rfl⟩
abbrev main_v368 : Ref sig .tc := ⟨.hbm, 384, rfl⟩
abbrev main_v369 : Ref sig .tc := ⟨.hbm, 385, rfl⟩
abbrev main_v370 : Ref sig .tc := ⟨.hbm, 386, rfl⟩
abbrev main_v371 : Ref sig .tc := ⟨.hbm, 387, rfl⟩
abbrev main_v372 : Ref sig .tc := ⟨.hbm, 388, rfl⟩
abbrev main_v373 : Ref sig .tc := ⟨.hbm, 389, rfl⟩
abbrev main_v374 : Ref sig .tc := ⟨.hbm, 390, rfl⟩
abbrev main_v375 : Ref sig .tc := ⟨.hbm, 391, rfl⟩
abbrev main_v376 : Ref sig .tc := ⟨.hbm, 392, rfl⟩
abbrev main_v377 : Ref sig .tc := ⟨.hbm, 393, rfl⟩
abbrev main_v378 : Ref sig .tc := ⟨.hbm, 394, rfl⟩
abbrev main_v379 : Ref sig .tc := ⟨.hbm, 395, rfl⟩
abbrev main_v380 : Ref sig .tc := ⟨.hbm, 396, rfl⟩
abbrev main_v381 : Ref sig .tc := ⟨.hbm, 397, rfl⟩
abbrev main_v382 : Ref sig .tc := ⟨.hbm, 398, rfl⟩
abbrev main_v383 : Ref sig .tc := ⟨.hbm, 399, rfl⟩
abbrev main_v384 : Ref sig .tc := ⟨.hbm, 400, rfl⟩
abbrev main_v385 : Ref sig .tc := ⟨.hbm, 401, rfl⟩
abbrev main_v386 : Ref sig .tc := ⟨.hbm, 402, rfl⟩
abbrev main_v387 : Ref sig .tc := ⟨.hbm, 403, rfl⟩
abbrev main_v388 : Ref sig .tc := ⟨.hbm, 404, rfl⟩
abbrev main_v389 : Ref sig .tc := ⟨.hbm, 405, rfl⟩
abbrev main_v390 : Ref sig .tc := ⟨.hbm, 406, rfl⟩
abbrev main_v391 : Ref sig .tc := ⟨.hbm, 407, rfl⟩
abbrev main_v392 : Ref sig .tc := ⟨.hbm, 408, rfl⟩
abbrev main_v393 : Ref sig .tc := ⟨.hbm, 409, rfl⟩
abbrev main_v394 : Ref sig .tc := ⟨.hbm, 410, rfl⟩
abbrev main_v395 : Ref sig .tc := ⟨.hbm, 411, rfl⟩
abbrev main_v396 : Ref sig .tc := ⟨.hbm, 412, rfl⟩
abbrev main_v397 : Ref sig .tc := ⟨.hbm, 413, rfl⟩
abbrev main_v398 : Ref sig .tc := ⟨.hbm, 414, rfl⟩
abbrev main_v399 : Ref sig .tc := ⟨.hbm, 415, rfl⟩
abbrev main_v400 : Ref sig .tc := ⟨.hbm, 416, rfl⟩
abbrev main_v401 : Ref sig .tc := ⟨.hbm, 417, rfl⟩
abbrev main_v402 : Ref sig .tc := ⟨.hbm, 418, rfl⟩
abbrev main_v403 : Ref sig .tc := ⟨.hbm, 419, rfl⟩
abbrev main_v404 : Ref sig .tc := ⟨.hbm, 420, rfl⟩
abbrev main_v405 : Ref sig .tc := ⟨.hbm, 421, rfl⟩
abbrev main_v406 : Ref sig .tc := ⟨.hbm, 422, rfl⟩
abbrev main_v407 : Ref sig .tc := ⟨.hbm, 423, rfl⟩
abbrev main_v408 : Ref sig .tc := ⟨.hbm, 424, rfl⟩
abbrev main_v409 : Ref sig .tc := ⟨.hbm, 425, rfl⟩
abbrev main_v410 : Ref sig .tc := ⟨.hbm, 426, rfl⟩
abbrev main_v411 : Ref sig .tc := ⟨.hbm, 427, rfl⟩
abbrev main_v412 : Ref sig .tc := ⟨.hbm, 428, rfl⟩
abbrev main_v413 : Ref sig .tc := ⟨.hbm, 429, rfl⟩
abbrev main_v414 : Ref sig .tc := ⟨.hbm, 430, rfl⟩
abbrev main_v415 : Ref sig .tc := ⟨.hbm, 431, rfl⟩
abbrev main_v416 : Ref sig .tc := ⟨.hbm, 432, rfl⟩
abbrev main_v417 : Ref sig .tc := ⟨.hbm, 433, rfl⟩
abbrev main_v418 : Ref sig .tc := ⟨.hbm, 434, rfl⟩
abbrev main_v419 : Ref sig .tc := ⟨.hbm, 435, rfl⟩
abbrev main_v420 : Ref sig .tc := ⟨.hbm, 436, rfl⟩
abbrev main_c_4 : Ref sig .tc := ⟨.hbm, 437, rfl⟩
abbrev main_v421 : Ref sig .tc := ⟨.hbm, 438, rfl⟩
abbrev main_v422 : Ref sig .tc := ⟨.hbm, 439, rfl⟩
abbrev main_c_5 : Ref sig .tc := ⟨.hbm, 440, rfl⟩
abbrev main_v423 : Ref sig .tc := ⟨.hbm, 441, rfl⟩
abbrev main_v424 : Ref sig .tc := ⟨.hbm, 442, rfl⟩
abbrev main_v425 : Ref sig .tc := ⟨.hbm, 443, rfl⟩
abbrev main_v426 : Ref sig .tc := ⟨.hbm, 444, rfl⟩
abbrev main_v427 : Ref sig .tc := ⟨.hbm, 445, rfl⟩
abbrev main_cst_6 : Ref sig .tc := ⟨.hbm, 446, rfl⟩
abbrev main_v428 : Ref sig .tc := ⟨.hbm, 447, rfl⟩
abbrev main_v429 : Ref sig .tc := ⟨.hbm, 448, rfl⟩
abbrev main_v430 : Ref sig .tc := ⟨.hbm, 449, rfl⟩
abbrev main_v431 : Ref sig .tc := ⟨.hbm, 450, rfl⟩
abbrev main_v432 : Ref sig .tc := ⟨.hbm, 451, rfl⟩
abbrev main_v433 : Ref sig .tc := ⟨.hbm, 452, rfl⟩
abbrev main_v434 : Ref sig .tc := ⟨.hbm, 453, rfl⟩
abbrev main_v435 : Ref sig .tc := ⟨.hbm, 454, rfl⟩
abbrev main_v436 : Ref sig .tc := ⟨.hbm, 455, rfl⟩
abbrev main_v437 : Ref sig .tc := ⟨.hbm, 456, rfl⟩
abbrev main_v438 : Ref sig .tc := ⟨.hbm, 457, rfl⟩
abbrev main_v439 : Ref sig .tc := ⟨.hbm, 458, rfl⟩
abbrev main_v440 : Ref sig .tc := ⟨.hbm, 459, rfl⟩
abbrev main_v441 : Ref sig .tc := ⟨.hbm, 460, rfl⟩
abbrev main_v442 : Ref sig .tc := ⟨.hbm, 461, rfl⟩
abbrev main_v443 : Ref sig .tc := ⟨.hbm, 462, rfl⟩
abbrev main_v444 : Ref sig .tc := ⟨.hbm, 463, rfl⟩
abbrev main_v445 : Ref sig .tc := ⟨.hbm, 464, rfl⟩
abbrev main_v446 : Ref sig .tc := ⟨.hbm, 465, rfl⟩
abbrev main_v447 : Ref sig .tc := ⟨.hbm, 466, rfl⟩
abbrev main_v448 : Ref sig .tc := ⟨.hbm, 467, rfl⟩
abbrev main_v449 : Ref sig .tc := ⟨.hbm, 468, rfl⟩
abbrev main_v450 : Ref sig .tc := ⟨.hbm, 469, rfl⟩
abbrev main_v451 : Ref sig .tc := ⟨.hbm, 470, rfl⟩
abbrev main_v452 : Ref sig .tc := ⟨.hbm, 471, rfl⟩
abbrev main_v453 : Ref sig .tc := ⟨.hbm, 472, rfl⟩
abbrev main_v454 : Ref sig .tc := ⟨.hbm, 473, rfl⟩
abbrev main_v455 : Ref sig .tc := ⟨.hbm, 474, rfl⟩
abbrev main_v456 : Ref sig .tc := ⟨.hbm, 475, rfl⟩
abbrev main_v457 : Ref sig .tc := ⟨.hbm, 476, rfl⟩
abbrev main_v458 : Ref sig .tc := ⟨.hbm, 477, rfl⟩
abbrev main_v459 : Ref sig .tc := ⟨.hbm, 478, rfl⟩
abbrev main_v460 : Ref sig .tc := ⟨.hbm, 479, rfl⟩
abbrev main_v461 : Ref sig .tc := ⟨.hbm, 480, rfl⟩
abbrev main_v462 : Ref sig .tc := ⟨.hbm, 481, rfl⟩
abbrev main_v463 : Ref sig .tc := ⟨.hbm, 482, rfl⟩
abbrev main_v464 : Ref sig .tc := ⟨.hbm, 483, rfl⟩
abbrev main_v465 : Ref sig .tc := ⟨.hbm, 484, rfl⟩
abbrev main_v466 : Ref sig .tc := ⟨.hbm, 485, rfl⟩
abbrev main_v467 : Ref sig .tc := ⟨.hbm, 486, rfl⟩
abbrev main_v468 : Ref sig .tc := ⟨.hbm, 487, rfl⟩
abbrev main_v469 : Ref sig .tc := ⟨.hbm, 488, rfl⟩
abbrev main_v470 : Ref sig .tc := ⟨.hbm, 489, rfl⟩
abbrev main_v471 : Ref sig .tc := ⟨.hbm, 490, rfl⟩
abbrev main_v472 : Ref sig .tc := ⟨.hbm, 491, rfl⟩
abbrev main_v473 : Ref sig .tc := ⟨.hbm, 492, rfl⟩
abbrev main_v474 : Ref sig .tc := ⟨.hbm, 493, rfl⟩
abbrev main_v475 : Ref sig .tc := ⟨.hbm, 494, rfl⟩
abbrev main_v476 : Ref sig .tc := ⟨.hbm, 495, rfl⟩
abbrev main_v477 : Ref sig .tc := ⟨.hbm, 496, rfl⟩
abbrev main_v478 : Ref sig .tc := ⟨.hbm, 497, rfl⟩
abbrev main_v479 : Ref sig .tc := ⟨.hbm, 498, rfl⟩
abbrev main_v480 : Ref sig .tc := ⟨.hbm, 499, rfl⟩
abbrev main_v481 : Ref sig .tc := ⟨.hbm, 500, rfl⟩
abbrev main_v482 : Ref sig .tc := ⟨.hbm, 501, rfl⟩
abbrev main_v483 : Ref sig .tc := ⟨.hbm, 502, rfl⟩
abbrev main_v484 : Ref sig .tc := ⟨.hbm, 503, rfl⟩
abbrev main_v485 : Ref sig .tc := ⟨.hbm, 504, rfl⟩
abbrev main_v486 : Ref sig .tc := ⟨.hbm, 505, rfl⟩
abbrev main_v487 : Ref sig .tc := ⟨.hbm, 506, rfl⟩
abbrev main_v488 : Ref sig .tc := ⟨.hbm, 507, rfl⟩
abbrev main_v489 : Ref sig .tc := ⟨.hbm, 508, rfl⟩
abbrev main_v490 : Ref sig .tc := ⟨.hbm, 509, rfl⟩
abbrev main_v491 : Ref sig .tc := ⟨.hbm, 510, rfl⟩
abbrev main_v492 : Ref sig .tc := ⟨.hbm, 511, rfl⟩
abbrev main_v493 : Ref sig .tc := ⟨.hbm, 512, rfl⟩
abbrev main_v494 : Ref sig .tc := ⟨.hbm, 513, rfl⟩
abbrev main_v495 : Ref sig .tc := ⟨.hbm, 514, rfl⟩
abbrev main_v496 : Ref sig .tc := ⟨.hbm, 515, rfl⟩
abbrev main_v497 : Ref sig .tc := ⟨.hbm, 516, rfl⟩
abbrev main_v498 : Ref sig .tc := ⟨.hbm, 517, rfl⟩
abbrev main_v499 : Ref sig .tc := ⟨.hbm, 518, rfl⟩
abbrev main_v500 : Ref sig .tc := ⟨.hbm, 519, rfl⟩
abbrev main_v501 : Ref sig .tc := ⟨.hbm, 520, rfl⟩
abbrev main_v502 : Ref sig .tc := ⟨.hbm, 521, rfl⟩
abbrev main_v503 : Ref sig .tc := ⟨.hbm, 522, rfl⟩
abbrev main_v504 : Ref sig .tc := ⟨.hbm, 523, rfl⟩
abbrev main_v505 : Ref sig .tc := ⟨.hbm, 524, rfl⟩
abbrev main_v506 : Ref sig .tc := ⟨.hbm, 525, rfl⟩
abbrev main_v507 : Ref sig .tc := ⟨.hbm, 526, rfl⟩
abbrev main_v508 : Ref sig .tc := ⟨.hbm, 527, rfl⟩
abbrev main_v509 : Ref sig .tc := ⟨.hbm, 528, rfl⟩
abbrev main_v510 : Ref sig .tc := ⟨.hbm, 529, rfl⟩
abbrev main_v511 : Ref sig .tc := ⟨.hbm, 530, rfl⟩
abbrev main_v512 : Ref sig .tc := ⟨.hbm, 531, rfl⟩
abbrev main_v513 : Ref sig .tc := ⟨.hbm, 532, rfl⟩
abbrev main_v514 : Ref sig .tc := ⟨.hbm, 533, rfl⟩
abbrev main_v515 : Ref sig .tc := ⟨.hbm, 534, rfl⟩
abbrev main_v516 : Ref sig .tc := ⟨.hbm, 535, rfl⟩
abbrev main_v517 : Ref sig .tc := ⟨.hbm, 536, rfl⟩
abbrev main_v518 : Ref sig .tc := ⟨.hbm, 537, rfl⟩
abbrev main_v519 : Ref sig .tc := ⟨.hbm, 538, rfl⟩
abbrev main_v520 : Ref sig .tc := ⟨.hbm, 539, rfl⟩
abbrev main_v521 : Ref sig .tc := ⟨.hbm, 540, rfl⟩
abbrev main_v522 : Ref sig .tc := ⟨.hbm, 541, rfl⟩
abbrev main_v523 : Ref sig .tc := ⟨.hbm, 542, rfl⟩
abbrev main_v524 : Ref sig .tc := ⟨.hbm, 543, rfl⟩
abbrev main_v525 : Ref sig .tc := ⟨.hbm, 544, rfl⟩
abbrev main_v526 : Ref sig .tc := ⟨.hbm, 545, rfl⟩
abbrev main_v527 : Ref sig .tc := ⟨.hbm, 546, rfl⟩
abbrev main_v528 : Ref sig .tc := ⟨.hbm, 547, rfl⟩
abbrev main_v529 : Ref sig .tc := ⟨.hbm, 548, rfl⟩
abbrev main_v530 : Ref sig .tc := ⟨.hbm, 549, rfl⟩
abbrev main_v531 : Ref sig .tc := ⟨.hbm, 550, rfl⟩
abbrev main_v532 : Ref sig .tc := ⟨.hbm, 551, rfl⟩
abbrev main_v533 : Ref sig .tc := ⟨.hbm, 552, rfl⟩
abbrev main_v534 : Ref sig .tc := ⟨.hbm, 553, rfl⟩
abbrev main_v535 : Ref sig .tc := ⟨.hbm, 554, rfl⟩
abbrev main_v536 : Ref sig .tc := ⟨.hbm, 555, rfl⟩
abbrev main_v537 : Ref sig .tc := ⟨.hbm, 556, rfl⟩
abbrev main_v538 : Ref sig .tc := ⟨.hbm, 557, rfl⟩
abbrev main_v539 : Ref sig .tc := ⟨.hbm, 558, rfl⟩
abbrev main_v540 : Ref sig .tc := ⟨.hbm, 559, rfl⟩
abbrev main_v541 : Ref sig .tc := ⟨.hbm, 560, rfl⟩
abbrev main_v542 : Ref sig .tc := ⟨.hbm, 561, rfl⟩
abbrev main_v543 : Ref sig .tc := ⟨.hbm, 562, rfl⟩
abbrev main_v544 : Ref sig .tc := ⟨.hbm, 563, rfl⟩
abbrev main_v545 : Ref sig .tc := ⟨.hbm, 564, rfl⟩
abbrev main_v546 : Ref sig .tc := ⟨.hbm, 565, rfl⟩
abbrev main_v547 : Ref sig .tc := ⟨.hbm, 566, rfl⟩
abbrev main_v548 : Ref sig .tc := ⟨.hbm, 567, rfl⟩
abbrev main_v549 : Ref sig .tc := ⟨.hbm, 568, rfl⟩
abbrev main_v550 : Ref sig .tc := ⟨.hbm, 569, rfl⟩
abbrev main_v551 : Ref sig .tc := ⟨.hbm, 570, rfl⟩
abbrev main_v552 : Ref sig .tc := ⟨.hbm, 571, rfl⟩
abbrev main_v553 : Ref sig .tc := ⟨.hbm, 572, rfl⟩
abbrev main_v554 : Ref sig .tc := ⟨.hbm, 573, rfl⟩
abbrev main_v555 : Ref sig .tc := ⟨.hbm, 574, rfl⟩
abbrev main_v556 : Ref sig .tc := ⟨.hbm, 575, rfl⟩
abbrev main_v557 : Ref sig .tc := ⟨.hbm, 576, rfl⟩
abbrev main_v558 : Ref sig .tc := ⟨.hbm, 577, rfl⟩
abbrev main_v559 : Ref sig .tc := ⟨.hbm, 578, rfl⟩
abbrev main_v560 : Ref sig .tc := ⟨.hbm, 579, rfl⟩
abbrev main_v561 : Ref sig .tc := ⟨.hbm, 580, rfl⟩
abbrev main_v562 : Ref sig .tc := ⟨.hbm, 581, rfl⟩
abbrev main_v563 : Ref sig .tc := ⟨.hbm, 582, rfl⟩
abbrev main_v564 : Ref sig .tc := ⟨.hbm, 583, rfl⟩
abbrev main_v565 : Ref sig .tc := ⟨.hbm, 584, rfl⟩
abbrev main_v566 : Ref sig .tc := ⟨.hbm, 585, rfl⟩
abbrev main_v567 : Ref sig .tc := ⟨.hbm, 586, rfl⟩
abbrev main_v568 : Ref sig .tc := ⟨.hbm, 587, rfl⟩
abbrev main_v569 : Ref sig .tc := ⟨.hbm, 588, rfl⟩
abbrev main_v570 : Ref sig .tc := ⟨.hbm, 589, rfl⟩
abbrev main_v571 : Ref sig .tc := ⟨.hbm, 590, rfl⟩
abbrev main_v572 : Ref sig .tc := ⟨.hbm, 591, rfl⟩
abbrev main_v573 : Ref sig .tc := ⟨.hbm, 592, rfl⟩
abbrev main_v574 : Ref sig .tc := ⟨.hbm, 593, rfl⟩
abbrev main_v575 : Ref sig .tc := ⟨.hbm, 594, rfl⟩
abbrev main_v576 : Ref sig .tc := ⟨.hbm, 595, rfl⟩
abbrev main_v577 : Ref sig .tc := ⟨.hbm, 596, rfl⟩
abbrev main_v578 : Ref sig .tc := ⟨.hbm, 597, rfl⟩
abbrev main_v579 : Ref sig .tc := ⟨.hbm, 598, rfl⟩
abbrev main_v580 : Ref sig .tc := ⟨.hbm, 599, rfl⟩
abbrev main_v581 : Ref sig .tc := ⟨.hbm, 600, rfl⟩
abbrev main_v582 : Ref sig .tc := ⟨.hbm, 601, rfl⟩
abbrev main_v583 : Ref sig .tc := ⟨.hbm, 602, rfl⟩
abbrev main_v584 : Ref sig .tc := ⟨.hbm, 603, rfl⟩
abbrev main_v585 : Ref sig .tc := ⟨.hbm, 604, rfl⟩
abbrev main_v586 : Ref sig .tc := ⟨.hbm, 605, rfl⟩
abbrev main_v587 : Ref sig .tc := ⟨.hbm, 606, rfl⟩
abbrev main_v588 : Ref sig .tc := ⟨.hbm, 607, rfl⟩
abbrev main_v589 : Ref sig .tc := ⟨.hbm, 608, rfl⟩
abbrev main_v590 : Ref sig .tc := ⟨.hbm, 609, rfl⟩
abbrev main_v591 : Ref sig .tc := ⟨.hbm, 610, rfl⟩
abbrev main_v592 : Ref sig .tc := ⟨.hbm, 611, rfl⟩
abbrev main_v593 : Ref sig .tc := ⟨.hbm, 612, rfl⟩
abbrev main_v594 : Ref sig .tc := ⟨.hbm, 613, rfl⟩
abbrev main_v595 : Ref sig .tc := ⟨.hbm, 614, rfl⟩
abbrev main_v596 : Ref sig .tc := ⟨.hbm, 615, rfl⟩
abbrev main_v597 : Ref sig .tc := ⟨.hbm, 616, rfl⟩
abbrev main_v598 : Ref sig .tc := ⟨.hbm, 617, rfl⟩
abbrev main_v599 : Ref sig .tc := ⟨.hbm, 618, rfl⟩
abbrev main_v600 : Ref sig .tc := ⟨.hbm, 619, rfl⟩
abbrev main_v601 : Ref sig .tc := ⟨.hbm, 620, rfl⟩
abbrev main_v602 : Ref sig .tc := ⟨.hbm, 621, rfl⟩
abbrev main_v603 : Ref sig .tc := ⟨.hbm, 622, rfl⟩
abbrev main_v604 : Ref sig .tc := ⟨.hbm, 623, rfl⟩
abbrev main_v605 : Ref sig .tc := ⟨.hbm, 624, rfl⟩
abbrev main_v606 : Ref sig .tc := ⟨.hbm, 625, rfl⟩
abbrev main_v607 : Ref sig .tc := ⟨.hbm, 626, rfl⟩
abbrev main_v608 : Ref sig .tc := ⟨.hbm, 627, rfl⟩
abbrev main_v609 : Ref sig .tc := ⟨.hbm, 628, rfl⟩
abbrev main_v610 : Ref sig .tc := ⟨.hbm, 629, rfl⟩
abbrev main_v611 : Ref sig .tc := ⟨.hbm, 630, rfl⟩
abbrev main_v612 : Ref sig .tc := ⟨.hbm, 631, rfl⟩
abbrev main_v613 : Ref sig .tc := ⟨.hbm, 632, rfl⟩
abbrev main_v614 : Ref sig .tc := ⟨.hbm, 633, rfl⟩
abbrev main_v615 : Ref sig .tc := ⟨.hbm, 634, rfl⟩
abbrev main_v616 : Ref sig .tc := ⟨.hbm, 635, rfl⟩
abbrev main_v617 : Ref sig .tc := ⟨.hbm, 636, rfl⟩
abbrev main_v618 : Ref sig .tc := ⟨.hbm, 637, rfl⟩
abbrev main_v619 : Ref sig .tc := ⟨.hbm, 638, rfl⟩
abbrev main_v620 : Ref sig .tc := ⟨.hbm, 639, rfl⟩
abbrev main_v621 : Ref sig .tc := ⟨.hbm, 640, rfl⟩
abbrev main_v622 : Ref sig .tc := ⟨.hbm, 641, rfl⟩
abbrev main_v623 : Ref sig .tc := ⟨.hbm, 642, rfl⟩
abbrev main_v624 : Ref sig .tc := ⟨.hbm, 643, rfl⟩
abbrev main_v625 : Ref sig .tc := ⟨.hbm, 644, rfl⟩
abbrev main_c_7 : Ref sig .tc := ⟨.hbm, 645, rfl⟩
abbrev main_v626 : Ref sig .tc := ⟨.hbm, 646, rfl⟩
abbrev main_v627 : Ref sig .tc := ⟨.hbm, 647, rfl⟩
abbrev main_c_8 : Ref sig .tc := ⟨.hbm, 648, rfl⟩
abbrev main_v628 : Ref sig .tc := ⟨.hbm, 649, rfl⟩
abbrev main_v629 : Ref sig .tc := ⟨.hbm, 650, rfl⟩
abbrev main_v630 : Ref sig .tc := ⟨.hbm, 651, rfl⟩
abbrev main_v631 : Ref sig .tc := ⟨.hbm, 652, rfl⟩
abbrev main_v632 : Ref sig .tc := ⟨.hbm, 653, rfl⟩
abbrev main_cst_9 : Ref sig .tc := ⟨.hbm, 654, rfl⟩
abbrev main_v633 : Ref sig .tc := ⟨.hbm, 655, rfl⟩
abbrev main_v634 : Ref sig .tc := ⟨.hbm, 656, rfl⟩
abbrev main_v635 : Ref sig .tc := ⟨.hbm, 657, rfl⟩
abbrev main_v636 : Ref sig .tc := ⟨.hbm, 658, rfl⟩
abbrev main_v637 : Ref sig .tc := ⟨.hbm, 659, rfl⟩
abbrev main_v638 : Ref sig .tc := ⟨.hbm, 660, rfl⟩
abbrev main_v639 : Ref sig .tc := ⟨.hbm, 661, rfl⟩
abbrev main_v640 : Ref sig .tc := ⟨.hbm, 662, rfl⟩
abbrev main_v641 : Ref sig .tc := ⟨.hbm, 663, rfl⟩
abbrev main_v642 : Ref sig .tc := ⟨.hbm, 664, rfl⟩
abbrev main_v643 : Ref sig .tc := ⟨.hbm, 665, rfl⟩
abbrev main_v644 : Ref sig .tc := ⟨.hbm, 666, rfl⟩
abbrev main_v645 : Ref sig .tc := ⟨.hbm, 667, rfl⟩
abbrev main_v646 : Ref sig .tc := ⟨.hbm, 668, rfl⟩
abbrev main_v647 : Ref sig .tc := ⟨.hbm, 669, rfl⟩
abbrev main_v648 : Ref sig .tc := ⟨.hbm, 670, rfl⟩
abbrev main_v649 : Ref sig .tc := ⟨.hbm, 671, rfl⟩
abbrev main_v650 : Ref sig .tc := ⟨.hbm, 672, rfl⟩
abbrev main_v651 : Ref sig .tc := ⟨.hbm, 673, rfl⟩
abbrev main_v652 : Ref sig .tc := ⟨.hbm, 674, rfl⟩
abbrev main_v653 : Ref sig .tc := ⟨.hbm, 675, rfl⟩
abbrev main_v654 : Ref sig .tc := ⟨.hbm, 676, rfl⟩
abbrev main_v655 : Ref sig .tc := ⟨.hbm, 677, rfl⟩
abbrev main_v656 : Ref sig .tc := ⟨.hbm, 678, rfl⟩
abbrev main_v657 : Ref sig .tc := ⟨.hbm, 679, rfl⟩
abbrev main_v658 : Ref sig .tc := ⟨.hbm, 680, rfl⟩
abbrev main_v659 : Ref sig .tc := ⟨.hbm, 681, rfl⟩
abbrev main_v660 : Ref sig .tc := ⟨.hbm, 682, rfl⟩
abbrev main_v661 : Ref sig .tc := ⟨.hbm, 683, rfl⟩
abbrev main_v662 : Ref sig .tc := ⟨.hbm, 684, rfl⟩
abbrev main_v663 : Ref sig .tc := ⟨.hbm, 685, rfl⟩
abbrev main_v664 : Ref sig .tc := ⟨.hbm, 686, rfl⟩
abbrev main_v665 : Ref sig .tc := ⟨.hbm, 687, rfl⟩
abbrev main_v666 : Ref sig .tc := ⟨.hbm, 688, rfl⟩
abbrev main_v667 : Ref sig .tc := ⟨.hbm, 689, rfl⟩
abbrev main_v668 : Ref sig .tc := ⟨.hbm, 690, rfl⟩
abbrev main_v669 : Ref sig .tc := ⟨.hbm, 691, rfl⟩
abbrev main_v670 : Ref sig .tc := ⟨.hbm, 692, rfl⟩
abbrev main_v671 : Ref sig .tc := ⟨.hbm, 693, rfl⟩
abbrev main_v672 : Ref sig .tc := ⟨.hbm, 694, rfl⟩
abbrev main_v673 : Ref sig .tc := ⟨.hbm, 695, rfl⟩
abbrev main_v674 : Ref sig .tc := ⟨.hbm, 696, rfl⟩
abbrev main_v675 : Ref sig .tc := ⟨.hbm, 697, rfl⟩
abbrev main_v676 : Ref sig .tc := ⟨.hbm, 698, rfl⟩
abbrev main_v677 : Ref sig .tc := ⟨.hbm, 699, rfl⟩
abbrev main_v678 : Ref sig .tc := ⟨.hbm, 700, rfl⟩
abbrev main_v679 : Ref sig .tc := ⟨.hbm, 701, rfl⟩
abbrev main_v680 : Ref sig .tc := ⟨.hbm, 702, rfl⟩
abbrev main_v681 : Ref sig .tc := ⟨.hbm, 703, rfl⟩
abbrev main_v682 : Ref sig .tc := ⟨.hbm, 704, rfl⟩
abbrev main_v683 : Ref sig .tc := ⟨.hbm, 705, rfl⟩
abbrev main_v684 : Ref sig .tc := ⟨.hbm, 706, rfl⟩
abbrev main_v685 : Ref sig .tc := ⟨.hbm, 707, rfl⟩
abbrev main_v686 : Ref sig .tc := ⟨.hbm, 708, rfl⟩
abbrev main_v687 : Ref sig .tc := ⟨.hbm, 709, rfl⟩
abbrev main_v688 : Ref sig .tc := ⟨.hbm, 710, rfl⟩
abbrev main_v689 : Ref sig .tc := ⟨.hbm, 711, rfl⟩
abbrev main_v690 : Ref sig .tc := ⟨.hbm, 712, rfl⟩
abbrev main_v691 : Ref sig .tc := ⟨.hbm, 713, rfl⟩
abbrev main_v692 : Ref sig .tc := ⟨.hbm, 714, rfl⟩
abbrev main_v693 : Ref sig .tc := ⟨.hbm, 715, rfl⟩
abbrev main_v694 : Ref sig .tc := ⟨.hbm, 716, rfl⟩
abbrev main_v695 : Ref sig .tc := ⟨.hbm, 717, rfl⟩
abbrev main_v696 : Ref sig .tc := ⟨.hbm, 718, rfl⟩
abbrev main_v697 : Ref sig .tc := ⟨.hbm, 719, rfl⟩
abbrev main_v698 : Ref sig .tc := ⟨.hbm, 720, rfl⟩
abbrev main_v699 : Ref sig .tc := ⟨.hbm, 721, rfl⟩
abbrev main_v700 : Ref sig .tc := ⟨.hbm, 722, rfl⟩
abbrev main_v701 : Ref sig .tc := ⟨.hbm, 723, rfl⟩
abbrev main_v702 : Ref sig .tc := ⟨.hbm, 724, rfl⟩
abbrev main_v703 : Ref sig .tc := ⟨.hbm, 725, rfl⟩
abbrev main_v704 : Ref sig .tc := ⟨.hbm, 726, rfl⟩
abbrev main_v705 : Ref sig .tc := ⟨.hbm, 727, rfl⟩
abbrev main_v706 : Ref sig .tc := ⟨.hbm, 728, rfl⟩
abbrev main_v707 : Ref sig .tc := ⟨.hbm, 729, rfl⟩
abbrev main_v708 : Ref sig .tc := ⟨.hbm, 730, rfl⟩
abbrev main_v709 : Ref sig .tc := ⟨.hbm, 731, rfl⟩
abbrev main_v710 : Ref sig .tc := ⟨.hbm, 732, rfl⟩
abbrev main_v711 : Ref sig .tc := ⟨.hbm, 733, rfl⟩
abbrev main_v712 : Ref sig .tc := ⟨.hbm, 734, rfl⟩
abbrev main_v713 : Ref sig .tc := ⟨.hbm, 735, rfl⟩
abbrev main_v714 : Ref sig .tc := ⟨.hbm, 736, rfl⟩
abbrev main_v715 : Ref sig .tc := ⟨.hbm, 737, rfl⟩
abbrev main_v716 : Ref sig .tc := ⟨.hbm, 738, rfl⟩
abbrev main_v717 : Ref sig .tc := ⟨.hbm, 739, rfl⟩
abbrev main_v718 : Ref sig .tc := ⟨.hbm, 740, rfl⟩
abbrev main_v719 : Ref sig .tc := ⟨.hbm, 741, rfl⟩
abbrev main_v720 : Ref sig .tc := ⟨.hbm, 742, rfl⟩
abbrev main_v721 : Ref sig .tc := ⟨.hbm, 743, rfl⟩
abbrev main_v722 : Ref sig .tc := ⟨.hbm, 744, rfl⟩
abbrev main_v723 : Ref sig .tc := ⟨.hbm, 745, rfl⟩
abbrev main_v724 : Ref sig .tc := ⟨.hbm, 746, rfl⟩
abbrev main_v725 : Ref sig .tc := ⟨.hbm, 747, rfl⟩
abbrev main_v726 : Ref sig .tc := ⟨.hbm, 748, rfl⟩
abbrev main_v727 : Ref sig .tc := ⟨.hbm, 749, rfl⟩
abbrev main_v728 : Ref sig .tc := ⟨.hbm, 750, rfl⟩
abbrev main_v729 : Ref sig .tc := ⟨.hbm, 751, rfl⟩
abbrev main_v730 : Ref sig .tc := ⟨.hbm, 752, rfl⟩
abbrev main_v731 : Ref sig .tc := ⟨.hbm, 753, rfl⟩
abbrev main_v732 : Ref sig .tc := ⟨.hbm, 754, rfl⟩
abbrev main_v733 : Ref sig .tc := ⟨.hbm, 755, rfl⟩
abbrev main_v734 : Ref sig .tc := ⟨.hbm, 756, rfl⟩
abbrev main_v735 : Ref sig .tc := ⟨.hbm, 757, rfl⟩
abbrev main_v736 : Ref sig .tc := ⟨.hbm, 758, rfl⟩
abbrev main_v737 : Ref sig .tc := ⟨.hbm, 759, rfl⟩
abbrev main_v738 : Ref sig .tc := ⟨.hbm, 760, rfl⟩
abbrev main_v739 : Ref sig .tc := ⟨.hbm, 761, rfl⟩
abbrev main_v740 : Ref sig .tc := ⟨.hbm, 762, rfl⟩
abbrev main_v741 : Ref sig .tc := ⟨.hbm, 763, rfl⟩
abbrev main_v742 : Ref sig .tc := ⟨.hbm, 764, rfl⟩
abbrev main_v743 : Ref sig .tc := ⟨.hbm, 765, rfl⟩
abbrev main_v744 : Ref sig .tc := ⟨.hbm, 766, rfl⟩
abbrev main_v745 : Ref sig .tc := ⟨.hbm, 767, rfl⟩
abbrev main_v746 : Ref sig .tc := ⟨.hbm, 768, rfl⟩
abbrev main_v747 : Ref sig .tc := ⟨.hbm, 769, rfl⟩
abbrev main_v748 : Ref sig .tc := ⟨.hbm, 770, rfl⟩
abbrev main_v749 : Ref sig .tc := ⟨.hbm, 771, rfl⟩
abbrev main_v750 : Ref sig .tc := ⟨.hbm, 772, rfl⟩
abbrev main_v751 : Ref sig .tc := ⟨.hbm, 773, rfl⟩
abbrev main_v752 : Ref sig .tc := ⟨.hbm, 774, rfl⟩
abbrev main_v753 : Ref sig .tc := ⟨.hbm, 775, rfl⟩
abbrev main_v754 : Ref sig .tc := ⟨.hbm, 776, rfl⟩
abbrev main_v755 : Ref sig .tc := ⟨.hbm, 777, rfl⟩
abbrev main_v756 : Ref sig .tc := ⟨.hbm, 778, rfl⟩
abbrev main_v757 : Ref sig .tc := ⟨.hbm, 779, rfl⟩
abbrev main_v758 : Ref sig .tc := ⟨.hbm, 780, rfl⟩
abbrev main_v759 : Ref sig .tc := ⟨.hbm, 781, rfl⟩
abbrev main_v760 : Ref sig .tc := ⟨.hbm, 782, rfl⟩
abbrev main_v761 : Ref sig .tc := ⟨.hbm, 783, rfl⟩
abbrev main_v762 : Ref sig .tc := ⟨.hbm, 784, rfl⟩
abbrev main_v763 : Ref sig .tc := ⟨.hbm, 785, rfl⟩
abbrev main_v764 : Ref sig .tc := ⟨.hbm, 786, rfl⟩
abbrev main_v765 : Ref sig .tc := ⟨.hbm, 787, rfl⟩
abbrev main_v766 : Ref sig .tc := ⟨.hbm, 788, rfl⟩
abbrev main_v767 : Ref sig .tc := ⟨.hbm, 789, rfl⟩
abbrev main_v768 : Ref sig .tc := ⟨.hbm, 790, rfl⟩
abbrev main_v769 : Ref sig .tc := ⟨.hbm, 791, rfl⟩
abbrev main_v770 : Ref sig .tc := ⟨.hbm, 792, rfl⟩
abbrev main_v771 : Ref sig .tc := ⟨.hbm, 793, rfl⟩
abbrev main_v772 : Ref sig .tc := ⟨.hbm, 794, rfl⟩
abbrev main_v773 : Ref sig .tc := ⟨.hbm, 795, rfl⟩
abbrev main_v774 : Ref sig .tc := ⟨.hbm, 796, rfl⟩
abbrev main_v775 : Ref sig .tc := ⟨.hbm, 797, rfl⟩
abbrev main_v776 : Ref sig .tc := ⟨.hbm, 798, rfl⟩
abbrev main_v777 : Ref sig .tc := ⟨.hbm, 799, rfl⟩
abbrev main_v778 : Ref sig .tc := ⟨.hbm, 800, rfl⟩
abbrev main_v779 : Ref sig .tc := ⟨.hbm, 801, rfl⟩
abbrev main_v780 : Ref sig .tc := ⟨.hbm, 802, rfl⟩
abbrev main_v781 : Ref sig .tc := ⟨.hbm, 803, rfl⟩
abbrev main_v782 : Ref sig .tc := ⟨.hbm, 804, rfl⟩
abbrev main_v783 : Ref sig .tc := ⟨.hbm, 805, rfl⟩
abbrev main_v784 : Ref sig .tc := ⟨.hbm, 806, rfl⟩
abbrev main_v785 : Ref sig .tc := ⟨.hbm, 807, rfl⟩
abbrev main_v786 : Ref sig .tc := ⟨.hbm, 808, rfl⟩
abbrev main_v787 : Ref sig .tc := ⟨.hbm, 809, rfl⟩
abbrev main_v788 : Ref sig .tc := ⟨.hbm, 810, rfl⟩
abbrev main_v789 : Ref sig .tc := ⟨.hbm, 811, rfl⟩
abbrev main_v790 : Ref sig .tc := ⟨.hbm, 812, rfl⟩
abbrev main_v791 : Ref sig .tc := ⟨.hbm, 813, rfl⟩
abbrev main_v792 : Ref sig .tc := ⟨.hbm, 814, rfl⟩
abbrev main_v793 : Ref sig .tc := ⟨.hbm, 815, rfl⟩
abbrev main_v794 : Ref sig .tc := ⟨.hbm, 816, rfl⟩
abbrev main_v795 : Ref sig .tc := ⟨.hbm, 817, rfl⟩
abbrev main_v796 : Ref sig .tc := ⟨.hbm, 818, rfl⟩
abbrev main_v797 : Ref sig .tc := ⟨.hbm, 819, rfl⟩
abbrev main_v798 : Ref sig .tc := ⟨.hbm, 820, rfl⟩
abbrev main_v799 : Ref sig .tc := ⟨.hbm, 821, rfl⟩
abbrev main_v800 : Ref sig .tc := ⟨.hbm, 822, rfl⟩
abbrev main_v801 : Ref sig .tc := ⟨.hbm, 823, rfl⟩
abbrev main_v802 : Ref sig .tc := ⟨.hbm, 824, rfl⟩
abbrev main_v803 : Ref sig .tc := ⟨.hbm, 825, rfl⟩
abbrev main_v804 : Ref sig .tc := ⟨.hbm, 826, rfl⟩
abbrev main_v805 : Ref sig .tc := ⟨.hbm, 827, rfl⟩
abbrev main_v806 : Ref sig .tc := ⟨.hbm, 828, rfl⟩
abbrev main_v807 : Ref sig .tc := ⟨.hbm, 829, rfl⟩
abbrev main_v808 : Ref sig .tc := ⟨.hbm, 830, rfl⟩
abbrev main_v809 : Ref sig .tc := ⟨.hbm, 831, rfl⟩
abbrev main_v810 : Ref sig .tc := ⟨.hbm, 832, rfl⟩
abbrev main_v811 : Ref sig .tc := ⟨.hbm, 833, rfl⟩
abbrev main_v812 : Ref sig .tc := ⟨.hbm, 834, rfl⟩
abbrev main_v813 : Ref sig .tc := ⟨.hbm, 835, rfl⟩
abbrev main_v814 : Ref sig .tc := ⟨.hbm, 836, rfl⟩
abbrev main_v815 : Ref sig .tc := ⟨.hbm, 837, rfl⟩
abbrev main_v816 : Ref sig .tc := ⟨.hbm, 838, rfl⟩
abbrev main_v817 : Ref sig .tc := ⟨.hbm, 839, rfl⟩
abbrev main_v818 : Ref sig .tc := ⟨.hbm, 840, rfl⟩
abbrev main_v819 : Ref sig .tc := ⟨.hbm, 841, rfl⟩
abbrev main_v820 : Ref sig .tc := ⟨.hbm, 842, rfl⟩
abbrev main_v821 : Ref sig .tc := ⟨.hbm, 843, rfl⟩
abbrev main_v822 : Ref sig .tc := ⟨.hbm, 844, rfl⟩
abbrev main_v823 : Ref sig .tc := ⟨.hbm, 845, rfl⟩
abbrev main_v824 : Ref sig .tc := ⟨.hbm, 846, rfl⟩
abbrev main_v825 : Ref sig .tc := ⟨.hbm, 847, rfl⟩
abbrev main_v826 : Ref sig .tc := ⟨.hbm, 848, rfl⟩
abbrev main_v827 : Ref sig .tc := ⟨.hbm, 849, rfl⟩
abbrev main_v828 : Ref sig .tc := ⟨.hbm, 850, rfl⟩
abbrev main_v829 : Ref sig .tc := ⟨.hbm, 851, rfl⟩
abbrev main_v830 : Ref sig .tc := ⟨.hbm, 852, rfl⟩
abbrev main_c_10 : Ref sig .tc := ⟨.hbm, 853, rfl⟩
abbrev main_v831 : Ref sig .tc := ⟨.hbm, 854, rfl⟩
abbrev main_v832 : Ref sig .tc := ⟨.hbm, 855, rfl⟩
abbrev main_c_11 : Ref sig .tc := ⟨.hbm, 856, rfl⟩
abbrev main_v833 : Ref sig .tc := ⟨.hbm, 857, rfl⟩
abbrev main_v834 : Ref sig .tc := ⟨.hbm, 858, rfl⟩
abbrev main_v835 : Ref sig .tc := ⟨.hbm, 859, rfl⟩
abbrev main_v836 : Ref sig .tc := ⟨.hbm, 860, rfl⟩
abbrev main_v837 : Ref sig .tc := ⟨.hbm, 861, rfl⟩
abbrev main_cst_12 : Ref sig .tc := ⟨.hbm, 862, rfl⟩
abbrev main_v838 : Ref sig .tc := ⟨.hbm, 863, rfl⟩
abbrev main_v839 : Ref sig .tc := ⟨.hbm, 864, rfl⟩
abbrev main_v840 : Ref sig .tc := ⟨.hbm, 865, rfl⟩
abbrev main_v841 : Ref sig .tc := ⟨.hbm, 866, rfl⟩
abbrev main_v842 : Ref sig .tc := ⟨.hbm, 867, rfl⟩
abbrev main_v843 : Ref sig .tc := ⟨.hbm, 868, rfl⟩
abbrev main_v844 : Ref sig .tc := ⟨.hbm, 869, rfl⟩
abbrev main_v845 : Ref sig .tc := ⟨.hbm, 870, rfl⟩
abbrev main_v846 : Ref sig .tc := ⟨.hbm, 871, rfl⟩
abbrev main_v847 : Ref sig .tc := ⟨.hbm, 872, rfl⟩
abbrev main_v848 : Ref sig .tc := ⟨.hbm, 873, rfl⟩
abbrev main_v849 : Ref sig .tc := ⟨.hbm, 874, rfl⟩
abbrev main_v850 : Ref sig .tc := ⟨.hbm, 875, rfl⟩
abbrev main_v851 : Ref sig .tc := ⟨.hbm, 876, rfl⟩
abbrev main_v852 : Ref sig .tc := ⟨.hbm, 877, rfl⟩
abbrev main_v853 : Ref sig .tc := ⟨.hbm, 878, rfl⟩
abbrev main_v854 : Ref sig .tc := ⟨.hbm, 879, rfl⟩
abbrev main_v855 : Ref sig .tc := ⟨.hbm, 880, rfl⟩
abbrev main_v856 : Ref sig .tc := ⟨.hbm, 881, rfl⟩
abbrev main_v857 : Ref sig .tc := ⟨.hbm, 882, rfl⟩
abbrev main_v858 : Ref sig .tc := ⟨.hbm, 883, rfl⟩
abbrev main_v859 : Ref sig .tc := ⟨.hbm, 884, rfl⟩
abbrev main_v860 : Ref sig .tc := ⟨.hbm, 885, rfl⟩
abbrev main_v861 : Ref sig .tc := ⟨.hbm, 886, rfl⟩
abbrev main_v862 : Ref sig .tc := ⟨.hbm, 887, rfl⟩
abbrev main_v863 : Ref sig .tc := ⟨.hbm, 888, rfl⟩
abbrev main_v864 : Ref sig .tc := ⟨.hbm, 889, rfl⟩
abbrev main_v865 : Ref sig .tc := ⟨.hbm, 890, rfl⟩
abbrev main_v866 : Ref sig .tc := ⟨.hbm, 891, rfl⟩
abbrev main_v867 : Ref sig .tc := ⟨.hbm, 892, rfl⟩
abbrev main_v868 : Ref sig .tc := ⟨.hbm, 893, rfl⟩
abbrev main_v869 : Ref sig .tc := ⟨.hbm, 894, rfl⟩
abbrev main_v870 : Ref sig .tc := ⟨.hbm, 895, rfl⟩
abbrev main_v871 : Ref sig .tc := ⟨.hbm, 896, rfl⟩
abbrev main_v872 : Ref sig .tc := ⟨.hbm, 897, rfl⟩
abbrev main_v873 : Ref sig .tc := ⟨.hbm, 898, rfl⟩
abbrev main_v874 : Ref sig .tc := ⟨.hbm, 899, rfl⟩
abbrev main_v875 : Ref sig .tc := ⟨.hbm, 900, rfl⟩
abbrev main_v876 : Ref sig .tc := ⟨.hbm, 901, rfl⟩
abbrev main_v877 : Ref sig .tc := ⟨.hbm, 902, rfl⟩
abbrev main_v878 : Ref sig .tc := ⟨.hbm, 903, rfl⟩
abbrev main_v879 : Ref sig .tc := ⟨.hbm, 904, rfl⟩
abbrev main_v880 : Ref sig .tc := ⟨.hbm, 905, rfl⟩
abbrev main_v881 : Ref sig .tc := ⟨.hbm, 906, rfl⟩
abbrev main_v882 : Ref sig .tc := ⟨.hbm, 907, rfl⟩
abbrev main_v883 : Ref sig .tc := ⟨.hbm, 908, rfl⟩
abbrev main_v884 : Ref sig .tc := ⟨.hbm, 909, rfl⟩
abbrev main_v885 : Ref sig .tc := ⟨.hbm, 910, rfl⟩
abbrev main_v886 : Ref sig .tc := ⟨.hbm, 911, rfl⟩
abbrev main_v887 : Ref sig .tc := ⟨.hbm, 912, rfl⟩
abbrev main_v888 : Ref sig .tc := ⟨.hbm, 913, rfl⟩
abbrev main_v889 : Ref sig .tc := ⟨.hbm, 914, rfl⟩
abbrev main_v890 : Ref sig .tc := ⟨.hbm, 915, rfl⟩
abbrev main_v891 : Ref sig .tc := ⟨.hbm, 916, rfl⟩
abbrev main_v892 : Ref sig .tc := ⟨.hbm, 917, rfl⟩
abbrev main_v893 : Ref sig .tc := ⟨.hbm, 918, rfl⟩
abbrev main_v894 : Ref sig .tc := ⟨.hbm, 919, rfl⟩
abbrev main_v895 : Ref sig .tc := ⟨.hbm, 920, rfl⟩
abbrev main_v896 : Ref sig .tc := ⟨.hbm, 921, rfl⟩
abbrev main_v897 : Ref sig .tc := ⟨.hbm, 922, rfl⟩
abbrev main_v898 : Ref sig .tc := ⟨.hbm, 923, rfl⟩
abbrev main_v899 : Ref sig .tc := ⟨.hbm, 924, rfl⟩
abbrev main_v900 : Ref sig .tc := ⟨.hbm, 925, rfl⟩
abbrev main_v901 : Ref sig .tc := ⟨.hbm, 926, rfl⟩
abbrev main_v902 : Ref sig .tc := ⟨.hbm, 927, rfl⟩
abbrev main_v903 : Ref sig .tc := ⟨.hbm, 928, rfl⟩
abbrev main_v904 : Ref sig .tc := ⟨.hbm, 929, rfl⟩
abbrev main_v905 : Ref sig .tc := ⟨.hbm, 930, rfl⟩
abbrev main_v906 : Ref sig .tc := ⟨.hbm, 931, rfl⟩
abbrev main_v907 : Ref sig .tc := ⟨.hbm, 932, rfl⟩
abbrev main_v908 : Ref sig .tc := ⟨.hbm, 933, rfl⟩
abbrev main_v909 : Ref sig .tc := ⟨.hbm, 934, rfl⟩
abbrev main_v910 : Ref sig .tc := ⟨.hbm, 935, rfl⟩
abbrev main_v911 : Ref sig .tc := ⟨.hbm, 936, rfl⟩
abbrev main_v912 : Ref sig .tc := ⟨.hbm, 937, rfl⟩
abbrev main_v913 : Ref sig .tc := ⟨.hbm, 938, rfl⟩
abbrev main_v914 : Ref sig .tc := ⟨.hbm, 939, rfl⟩
abbrev main_v915 : Ref sig .tc := ⟨.hbm, 940, rfl⟩
abbrev main_v916 : Ref sig .tc := ⟨.hbm, 941, rfl⟩
abbrev main_v917 : Ref sig .tc := ⟨.hbm, 942, rfl⟩
abbrev main_v918 : Ref sig .tc := ⟨.hbm, 943, rfl⟩
abbrev main_v919 : Ref sig .tc := ⟨.hbm, 944, rfl⟩
abbrev main_v920 : Ref sig .tc := ⟨.hbm, 945, rfl⟩
abbrev main_v921 : Ref sig .tc := ⟨.hbm, 946, rfl⟩
abbrev main_v922 : Ref sig .tc := ⟨.hbm, 947, rfl⟩
abbrev main_v923 : Ref sig .tc := ⟨.hbm, 948, rfl⟩
abbrev main_v924 : Ref sig .tc := ⟨.hbm, 949, rfl⟩
abbrev main_v925 : Ref sig .tc := ⟨.hbm, 950, rfl⟩
abbrev main_v926 : Ref sig .tc := ⟨.hbm, 951, rfl⟩
abbrev main_v927 : Ref sig .tc := ⟨.hbm, 952, rfl⟩
abbrev main_v928 : Ref sig .tc := ⟨.hbm, 953, rfl⟩
abbrev main_v929 : Ref sig .tc := ⟨.hbm, 954, rfl⟩
abbrev main_v930 : Ref sig .tc := ⟨.hbm, 955, rfl⟩
abbrev main_v931 : Ref sig .tc := ⟨.hbm, 956, rfl⟩
abbrev main_v932 : Ref sig .tc := ⟨.hbm, 957, rfl⟩
abbrev main_v933 : Ref sig .tc := ⟨.hbm, 958, rfl⟩
abbrev main_v934 : Ref sig .tc := ⟨.hbm, 959, rfl⟩
abbrev main_v935 : Ref sig .tc := ⟨.hbm, 960, rfl⟩
abbrev main_v936 : Ref sig .tc := ⟨.hbm, 961, rfl⟩
abbrev main_v937 : Ref sig .tc := ⟨.hbm, 962, rfl⟩
abbrev main_v938 : Ref sig .tc := ⟨.hbm, 963, rfl⟩
abbrev main_v939 : Ref sig .tc := ⟨.hbm, 964, rfl⟩
abbrev main_v940 : Ref sig .tc := ⟨.hbm, 965, rfl⟩
abbrev main_v941 : Ref sig .tc := ⟨.hbm, 966, rfl⟩
abbrev main_v942 : Ref sig .tc := ⟨.hbm, 967, rfl⟩
abbrev main_v943 : Ref sig .tc := ⟨.hbm, 968, rfl⟩
abbrev main_v944 : Ref sig .tc := ⟨.hbm, 969, rfl⟩
abbrev main_v945 : Ref sig .tc := ⟨.hbm, 970, rfl⟩
abbrev main_v946 : Ref sig .tc := ⟨.hbm, 971, rfl⟩
abbrev main_v947 : Ref sig .tc := ⟨.hbm, 972, rfl⟩
abbrev main_v948 : Ref sig .tc := ⟨.hbm, 973, rfl⟩
abbrev main_v949 : Ref sig .tc := ⟨.hbm, 974, rfl⟩
abbrev main_v950 : Ref sig .tc := ⟨.hbm, 975, rfl⟩
abbrev main_v951 : Ref sig .tc := ⟨.hbm, 976, rfl⟩
abbrev main_v952 : Ref sig .tc := ⟨.hbm, 977, rfl⟩
abbrev main_v953 : Ref sig .tc := ⟨.hbm, 978, rfl⟩
abbrev main_v954 : Ref sig .tc := ⟨.hbm, 979, rfl⟩
abbrev main_v955 : Ref sig .tc := ⟨.hbm, 980, rfl⟩
abbrev main_v956 : Ref sig .tc := ⟨.hbm, 981, rfl⟩
abbrev main_v957 : Ref sig .tc := ⟨.hbm, 982, rfl⟩
abbrev main_v958 : Ref sig .tc := ⟨.hbm, 983, rfl⟩
abbrev main_v959 : Ref sig .tc := ⟨.hbm, 984, rfl⟩
abbrev main_v960 : Ref sig .tc := ⟨.hbm, 985, rfl⟩
abbrev main_v961 : Ref sig .tc := ⟨.hbm, 986, rfl⟩
abbrev main_v962 : Ref sig .tc := ⟨.hbm, 987, rfl⟩
abbrev main_v963 : Ref sig .tc := ⟨.hbm, 988, rfl⟩
abbrev main_v964 : Ref sig .tc := ⟨.hbm, 989, rfl⟩
abbrev main_v965 : Ref sig .tc := ⟨.hbm, 990, rfl⟩
abbrev main_v966 : Ref sig .tc := ⟨.hbm, 991, rfl⟩
abbrev main_v967 : Ref sig .tc := ⟨.hbm, 992, rfl⟩
abbrev main_v968 : Ref sig .tc := ⟨.hbm, 993, rfl⟩
abbrev main_v969 : Ref sig .tc := ⟨.hbm, 994, rfl⟩
abbrev main_v970 : Ref sig .tc := ⟨.hbm, 995, rfl⟩
abbrev main_v971 : Ref sig .tc := ⟨.hbm, 996, rfl⟩
abbrev main_v972 : Ref sig .tc := ⟨.hbm, 997, rfl⟩
abbrev main_v973 : Ref sig .tc := ⟨.hbm, 998, rfl⟩
abbrev main_v974 : Ref sig .tc := ⟨.hbm, 999, rfl⟩
abbrev main_v975 : Ref sig .tc := ⟨.hbm, 1000, rfl⟩
abbrev main_v976 : Ref sig .tc := ⟨.hbm, 1001, rfl⟩
abbrev main_v977 : Ref sig .tc := ⟨.hbm, 1002, rfl⟩
abbrev main_v978 : Ref sig .tc := ⟨.hbm, 1003, rfl⟩
abbrev main_v979 : Ref sig .tc := ⟨.hbm, 1004, rfl⟩
abbrev main_v980 : Ref sig .tc := ⟨.hbm, 1005, rfl⟩
abbrev main_v981 : Ref sig .tc := ⟨.hbm, 1006, rfl⟩
abbrev main_v982 : Ref sig .tc := ⟨.hbm, 1007, rfl⟩
abbrev main_v983 : Ref sig .tc := ⟨.hbm, 1008, rfl⟩
abbrev main_v984 : Ref sig .tc := ⟨.hbm, 1009, rfl⟩
abbrev main_v985 : Ref sig .tc := ⟨.hbm, 1010, rfl⟩
abbrev main_v986 : Ref sig .tc := ⟨.hbm, 1011, rfl⟩
abbrev main_v987 : Ref sig .tc := ⟨.hbm, 1012, rfl⟩
abbrev main_v988 : Ref sig .tc := ⟨.hbm, 1013, rfl⟩
abbrev main_v989 : Ref sig .tc := ⟨.hbm, 1014, rfl⟩
abbrev main_v990 : Ref sig .tc := ⟨.hbm, 1015, rfl⟩
abbrev main_v991 : Ref sig .tc := ⟨.hbm, 1016, rfl⟩
abbrev main_v992 : Ref sig .tc := ⟨.hbm, 1017, rfl⟩
abbrev main_v993 : Ref sig .tc := ⟨.hbm, 1018, rfl⟩
abbrev main_v994 : Ref sig .tc := ⟨.hbm, 1019, rfl⟩
abbrev main_v995 : Ref sig .tc := ⟨.hbm, 1020, rfl⟩
abbrev main_v996 : Ref sig .tc := ⟨.hbm, 1021, rfl⟩
abbrev main_v997 : Ref sig .tc := ⟨.hbm, 1022, rfl⟩
abbrev main_v998 : Ref sig .tc := ⟨.hbm, 1023, rfl⟩
abbrev main_v999 : Ref sig .tc := ⟨.hbm, 1024, rfl⟩
abbrev main_v1000 : Ref sig .tc := ⟨.hbm, 1025, rfl⟩
abbrev main_v1001 : Ref sig .tc := ⟨.hbm, 1026, rfl⟩
abbrev main_v1002 : Ref sig .tc := ⟨.hbm, 1027, rfl⟩
abbrev main_v1003 : Ref sig .tc := ⟨.hbm, 1028, rfl⟩
abbrev main_v1004 : Ref sig .tc := ⟨.hbm, 1029, rfl⟩
abbrev main_v1005 : Ref sig .tc := ⟨.hbm, 1030, rfl⟩
abbrev main_v1006 : Ref sig .tc := ⟨.hbm, 1031, rfl⟩
abbrev main_v1007 : Ref sig .tc := ⟨.hbm, 1032, rfl⟩
abbrev main_v1008 : Ref sig .tc := ⟨.hbm, 1033, rfl⟩
abbrev main_v1009 : Ref sig .tc := ⟨.hbm, 1034, rfl⟩
abbrev main_v1010 : Ref sig .tc := ⟨.hbm, 1035, rfl⟩
abbrev main_v1011 : Ref sig .tc := ⟨.hbm, 1036, rfl⟩
abbrev main_v1012 : Ref sig .tc := ⟨.hbm, 1037, rfl⟩
abbrev main_v1013 : Ref sig .tc := ⟨.hbm, 1038, rfl⟩
abbrev main_v1014 : Ref sig .tc := ⟨.hbm, 1039, rfl⟩
abbrev main_v1015 : Ref sig .tc := ⟨.hbm, 1040, rfl⟩
abbrev main_v1016 : Ref sig .tc := ⟨.hbm, 1041, rfl⟩
abbrev main_v1017 : Ref sig .tc := ⟨.hbm, 1042, rfl⟩
abbrev main_v1018 : Ref sig .tc := ⟨.hbm, 1043, rfl⟩
abbrev main_v1019 : Ref sig .tc := ⟨.hbm, 1044, rfl⟩
abbrev main_v1020 : Ref sig .tc := ⟨.hbm, 1045, rfl⟩
abbrev main_v1021 : Ref sig .tc := ⟨.hbm, 1046, rfl⟩
abbrev main_v1022 : Ref sig .tc := ⟨.hbm, 1047, rfl⟩
abbrev main_v1023 : Ref sig .tc := ⟨.hbm, 1048, rfl⟩
abbrev main_v1024 : Ref sig .tc := ⟨.hbm, 1049, rfl⟩
abbrev main_v1025 : Ref sig .tc := ⟨.hbm, 1050, rfl⟩
abbrev main_v1026 : Ref sig .tc := ⟨.hbm, 1051, rfl⟩
abbrev main_v1027 : Ref sig .tc := ⟨.hbm, 1052, rfl⟩
abbrev main_v1028 : Ref sig .tc := ⟨.hbm, 1053, rfl⟩
abbrev main_v1029 : Ref sig .tc := ⟨.hbm, 1054, rfl⟩
abbrev main_v1030 : Ref sig .tc := ⟨.hbm, 1055, rfl⟩
abbrev main_v1031 : Ref sig .tc := ⟨.hbm, 1056, rfl⟩
abbrev main_v1032 : Ref sig .tc := ⟨.hbm, 1057, rfl⟩
abbrev main_v1033 : Ref sig .tc := ⟨.hbm, 1058, rfl⟩
abbrev main_v1034 : Ref sig .tc := ⟨.hbm, 1059, rfl⟩
abbrev main_v1035 : Ref sig .tc := ⟨.hbm, 1060, rfl⟩
abbrev main_c_13 : Ref sig .tc := ⟨.hbm, 1061, rfl⟩
abbrev main_v1036 : Ref sig .tc := ⟨.hbm, 1062, rfl⟩
abbrev main_v1037 : Ref sig .tc := ⟨.hbm, 1063, rfl⟩
abbrev main_c_14 : Ref sig .tc := ⟨.hbm, 1064, rfl⟩
abbrev main_v1038 : Ref sig .tc := ⟨.hbm, 1065, rfl⟩
abbrev main_v1039 : Ref sig .tc := ⟨.hbm, 1066, rfl⟩
abbrev main_v1040 : Ref sig .tc := ⟨.hbm, 1067, rfl⟩
abbrev main_v1041 : Ref sig .tc := ⟨.hbm, 1068, rfl⟩
abbrev main_v1042 : Ref sig .tc := ⟨.hbm, 1069, rfl⟩
abbrev main_cst_15 : Ref sig .tc := ⟨.hbm, 1070, rfl⟩
abbrev main_v1043 : Ref sig .tc := ⟨.hbm, 1071, rfl⟩
abbrev main_v1044 : Ref sig .tc := ⟨.hbm, 1072, rfl⟩
abbrev main_v1045 : Ref sig .tc := ⟨.hbm, 1073, rfl⟩
abbrev main_v1046 : Ref sig .tc := ⟨.hbm, 1074, rfl⟩
abbrev main_v1047 : Ref sig .tc := ⟨.hbm, 1075, rfl⟩
abbrev main_v1048 : Ref sig .tc := ⟨.hbm, 1076, rfl⟩
abbrev main_v1049 : Ref sig .tc := ⟨.hbm, 1077, rfl⟩
abbrev main_v1050 : Ref sig .tc := ⟨.hbm, 1078, rfl⟩
abbrev main_v1051 : Ref sig .tc := ⟨.hbm, 1079, rfl⟩
abbrev main_v1052 : Ref sig .tc := ⟨.hbm, 1080, rfl⟩
abbrev main_v1053 : Ref sig .tc := ⟨.hbm, 1081, rfl⟩
abbrev main_v1054 : Ref sig .tc := ⟨.hbm, 1082, rfl⟩
abbrev main_v1055 : Ref sig .tc := ⟨.hbm, 1083, rfl⟩
abbrev main_v1056 : Ref sig .tc := ⟨.hbm, 1084, rfl⟩
abbrev main_v1057 : Ref sig .tc := ⟨.hbm, 1085, rfl⟩
abbrev main_v1058 : Ref sig .tc := ⟨.hbm, 1086, rfl⟩
abbrev main_v1059 : Ref sig .tc := ⟨.hbm, 1087, rfl⟩
abbrev main_v1060 : Ref sig .tc := ⟨.hbm, 1088, rfl⟩
abbrev main_v1061 : Ref sig .tc := ⟨.hbm, 1089, rfl⟩
abbrev main_v1062 : Ref sig .tc := ⟨.hbm, 1090, rfl⟩
abbrev main_v1063 : Ref sig .tc := ⟨.hbm, 1091, rfl⟩
abbrev main_v1064 : Ref sig .tc := ⟨.hbm, 1092, rfl⟩
abbrev main_v1065 : Ref sig .tc := ⟨.hbm, 1093, rfl⟩
abbrev main_v1066 : Ref sig .tc := ⟨.hbm, 1094, rfl⟩
abbrev main_v1067 : Ref sig .tc := ⟨.hbm, 1095, rfl⟩
abbrev main_v1068 : Ref sig .tc := ⟨.hbm, 1096, rfl⟩
abbrev main_v1069 : Ref sig .tc := ⟨.hbm, 1097, rfl⟩
abbrev main_v1070 : Ref sig .tc := ⟨.hbm, 1098, rfl⟩
abbrev main_v1071 : Ref sig .tc := ⟨.hbm, 1099, rfl⟩
abbrev main_v1072 : Ref sig .tc := ⟨.hbm, 1100, rfl⟩
abbrev main_v1073 : Ref sig .tc := ⟨.hbm, 1101, rfl⟩
abbrev main_v1074 : Ref sig .tc := ⟨.hbm, 1102, rfl⟩
abbrev main_v1075 : Ref sig .tc := ⟨.hbm, 1103, rfl⟩
abbrev main_v1076 : Ref sig .tc := ⟨.hbm, 1104, rfl⟩
abbrev main_v1077 : Ref sig .tc := ⟨.hbm, 1105, rfl⟩
abbrev main_v1078 : Ref sig .tc := ⟨.hbm, 1106, rfl⟩
abbrev main_v1079 : Ref sig .tc := ⟨.hbm, 1107, rfl⟩
abbrev main_v1080 : Ref sig .tc := ⟨.hbm, 1108, rfl⟩
abbrev main_v1081 : Ref sig .tc := ⟨.hbm, 1109, rfl⟩
abbrev main_v1082 : Ref sig .tc := ⟨.hbm, 1110, rfl⟩
abbrev main_v1083 : Ref sig .tc := ⟨.hbm, 1111, rfl⟩
abbrev main_v1084 : Ref sig .tc := ⟨.hbm, 1112, rfl⟩
abbrev main_v1085 : Ref sig .tc := ⟨.hbm, 1113, rfl⟩
abbrev main_v1086 : Ref sig .tc := ⟨.hbm, 1114, rfl⟩
abbrev main_v1087 : Ref sig .tc := ⟨.hbm, 1115, rfl⟩
abbrev main_v1088 : Ref sig .tc := ⟨.hbm, 1116, rfl⟩
abbrev main_v1089 : Ref sig .tc := ⟨.hbm, 1117, rfl⟩
abbrev main_v1090 : Ref sig .tc := ⟨.hbm, 1118, rfl⟩
abbrev main_v1091 : Ref sig .tc := ⟨.hbm, 1119, rfl⟩
abbrev main_v1092 : Ref sig .tc := ⟨.hbm, 1120, rfl⟩
abbrev main_v1093 : Ref sig .tc := ⟨.hbm, 1121, rfl⟩
abbrev main_v1094 : Ref sig .tc := ⟨.hbm, 1122, rfl⟩
abbrev main_v1095 : Ref sig .tc := ⟨.hbm, 1123, rfl⟩
abbrev main_v1096 : Ref sig .tc := ⟨.hbm, 1124, rfl⟩
abbrev main_v1097 : Ref sig .tc := ⟨.hbm, 1125, rfl⟩
abbrev main_v1098 : Ref sig .tc := ⟨.hbm, 1126, rfl⟩
abbrev main_v1099 : Ref sig .tc := ⟨.hbm, 1127, rfl⟩
abbrev main_v1100 : Ref sig .tc := ⟨.hbm, 1128, rfl⟩
abbrev main_v1101 : Ref sig .tc := ⟨.hbm, 1129, rfl⟩
abbrev main_v1102 : Ref sig .tc := ⟨.hbm, 1130, rfl⟩
abbrev main_v1103 : Ref sig .tc := ⟨.hbm, 1131, rfl⟩
abbrev main_v1104 : Ref sig .tc := ⟨.hbm, 1132, rfl⟩
abbrev main_v1105 : Ref sig .tc := ⟨.hbm, 1133, rfl⟩
abbrev main_v1106 : Ref sig .tc := ⟨.hbm, 1134, rfl⟩
abbrev main_v1107 : Ref sig .tc := ⟨.hbm, 1135, rfl⟩
abbrev main_v1108 : Ref sig .tc := ⟨.hbm, 1136, rfl⟩
abbrev main_v1109 : Ref sig .tc := ⟨.hbm, 1137, rfl⟩
abbrev main_v1110 : Ref sig .tc := ⟨.hbm, 1138, rfl⟩
abbrev main_v1111 : Ref sig .tc := ⟨.hbm, 1139, rfl⟩
abbrev main_v1112 : Ref sig .tc := ⟨.hbm, 1140, rfl⟩
abbrev main_v1113 : Ref sig .tc := ⟨.hbm, 1141, rfl⟩
abbrev main_v1114 : Ref sig .tc := ⟨.hbm, 1142, rfl⟩
abbrev main_v1115 : Ref sig .tc := ⟨.hbm, 1143, rfl⟩
abbrev main_v1116 : Ref sig .tc := ⟨.hbm, 1144, rfl⟩
abbrev main_v1117 : Ref sig .tc := ⟨.hbm, 1145, rfl⟩
abbrev main_v1118 : Ref sig .tc := ⟨.hbm, 1146, rfl⟩
abbrev main_v1119 : Ref sig .tc := ⟨.hbm, 1147, rfl⟩
abbrev main_v1120 : Ref sig .tc := ⟨.hbm, 1148, rfl⟩
abbrev main_v1121 : Ref sig .tc := ⟨.hbm, 1149, rfl⟩
abbrev main_v1122 : Ref sig .tc := ⟨.hbm, 1150, rfl⟩
abbrev main_v1123 : Ref sig .tc := ⟨.hbm, 1151, rfl⟩
abbrev main_v1124 : Ref sig .tc := ⟨.hbm, 1152, rfl⟩
abbrev main_v1125 : Ref sig .tc := ⟨.hbm, 1153, rfl⟩
abbrev main_v1126 : Ref sig .tc := ⟨.hbm, 1154, rfl⟩
abbrev main_v1127 : Ref sig .tc := ⟨.hbm, 1155, rfl⟩
abbrev main_v1128 : Ref sig .tc := ⟨.hbm, 1156, rfl⟩
abbrev main_v1129 : Ref sig .tc := ⟨.hbm, 1157, rfl⟩
abbrev main_v1130 : Ref sig .tc := ⟨.hbm, 1158, rfl⟩
abbrev main_v1131 : Ref sig .tc := ⟨.hbm, 1159, rfl⟩
abbrev main_v1132 : Ref sig .tc := ⟨.hbm, 1160, rfl⟩
abbrev main_v1133 : Ref sig .tc := ⟨.hbm, 1161, rfl⟩
abbrev main_v1134 : Ref sig .tc := ⟨.hbm, 1162, rfl⟩
abbrev main_v1135 : Ref sig .tc := ⟨.hbm, 1163, rfl⟩
abbrev main_v1136 : Ref sig .tc := ⟨.hbm, 1164, rfl⟩
abbrev main_v1137 : Ref sig .tc := ⟨.hbm, 1165, rfl⟩
abbrev main_v1138 : Ref sig .tc := ⟨.hbm, 1166, rfl⟩
abbrev main_v1139 : Ref sig .tc := ⟨.hbm, 1167, rfl⟩
abbrev main_v1140 : Ref sig .tc := ⟨.hbm, 1168, rfl⟩
abbrev main_v1141 : Ref sig .tc := ⟨.hbm, 1169, rfl⟩
abbrev main_v1142 : Ref sig .tc := ⟨.hbm, 1170, rfl⟩
abbrev main_v1143 : Ref sig .tc := ⟨.hbm, 1171, rfl⟩
abbrev main_v1144 : Ref sig .tc := ⟨.hbm, 1172, rfl⟩
abbrev main_v1145 : Ref sig .tc := ⟨.hbm, 1173, rfl⟩
abbrev main_v1146 : Ref sig .tc := ⟨.hbm, 1174, rfl⟩
abbrev main_v1147 : Ref sig .tc := ⟨.hbm, 1175, rfl⟩
abbrev main_v1148 : Ref sig .tc := ⟨.hbm, 1176, rfl⟩
abbrev main_v1149 : Ref sig .tc := ⟨.hbm, 1177, rfl⟩
abbrev main_v1150 : Ref sig .tc := ⟨.hbm, 1178, rfl⟩
abbrev main_v1151 : Ref sig .tc := ⟨.hbm, 1179, rfl⟩
abbrev main_v1152 : Ref sig .tc := ⟨.hbm, 1180, rfl⟩
abbrev main_v1153 : Ref sig .tc := ⟨.hbm, 1181, rfl⟩
abbrev main_v1154 : Ref sig .tc := ⟨.hbm, 1182, rfl⟩
abbrev main_v1155 : Ref sig .tc := ⟨.hbm, 1183, rfl⟩
abbrev main_v1156 : Ref sig .tc := ⟨.hbm, 1184, rfl⟩
abbrev main_v1157 : Ref sig .tc := ⟨.hbm, 1185, rfl⟩
abbrev main_v1158 : Ref sig .tc := ⟨.hbm, 1186, rfl⟩
abbrev main_v1159 : Ref sig .tc := ⟨.hbm, 1187, rfl⟩
abbrev main_v1160 : Ref sig .tc := ⟨.hbm, 1188, rfl⟩
abbrev main_v1161 : Ref sig .tc := ⟨.hbm, 1189, rfl⟩
abbrev main_v1162 : Ref sig .tc := ⟨.hbm, 1190, rfl⟩
abbrev main_v1163 : Ref sig .tc := ⟨.hbm, 1191, rfl⟩
abbrev main_v1164 : Ref sig .tc := ⟨.hbm, 1192, rfl⟩
abbrev main_v1165 : Ref sig .tc := ⟨.hbm, 1193, rfl⟩
abbrev main_v1166 : Ref sig .tc := ⟨.hbm, 1194, rfl⟩
abbrev main_v1167 : Ref sig .tc := ⟨.hbm, 1195, rfl⟩
abbrev main_v1168 : Ref sig .tc := ⟨.hbm, 1196, rfl⟩
abbrev main_v1169 : Ref sig .tc := ⟨.hbm, 1197, rfl⟩
abbrev main_v1170 : Ref sig .tc := ⟨.hbm, 1198, rfl⟩
abbrev main_v1171 : Ref sig .tc := ⟨.hbm, 1199, rfl⟩
abbrev main_v1172 : Ref sig .tc := ⟨.hbm, 1200, rfl⟩
abbrev main_v1173 : Ref sig .tc := ⟨.hbm, 1201, rfl⟩
abbrev main_v1174 : Ref sig .tc := ⟨.hbm, 1202, rfl⟩
abbrev main_v1175 : Ref sig .tc := ⟨.hbm, 1203, rfl⟩
abbrev main_v1176 : Ref sig .tc := ⟨.hbm, 1204, rfl⟩
abbrev main_v1177 : Ref sig .tc := ⟨.hbm, 1205, rfl⟩
abbrev main_v1178 : Ref sig .tc := ⟨.hbm, 1206, rfl⟩
abbrev main_v1179 : Ref sig .tc := ⟨.hbm, 1207, rfl⟩
abbrev main_v1180 : Ref sig .tc := ⟨.hbm, 1208, rfl⟩
abbrev main_v1181 : Ref sig .tc := ⟨.hbm, 1209, rfl⟩
abbrev main_v1182 : Ref sig .tc := ⟨.hbm, 1210, rfl⟩
abbrev main_v1183 : Ref sig .tc := ⟨.hbm, 1211, rfl⟩
abbrev main_v1184 : Ref sig .tc := ⟨.hbm, 1212, rfl⟩
abbrev main_v1185 : Ref sig .tc := ⟨.hbm, 1213, rfl⟩
abbrev main_v1186 : Ref sig .tc := ⟨.hbm, 1214, rfl⟩
abbrev main_v1187 : Ref sig .tc := ⟨.hbm, 1215, rfl⟩
abbrev main_v1188 : Ref sig .tc := ⟨.hbm, 1216, rfl⟩
abbrev main_v1189 : Ref sig .tc := ⟨.hbm, 1217, rfl⟩
abbrev main_v1190 : Ref sig .tc := ⟨.hbm, 1218, rfl⟩
abbrev main_v1191 : Ref sig .tc := ⟨.hbm, 1219, rfl⟩
abbrev main_v1192 : Ref sig .tc := ⟨.hbm, 1220, rfl⟩
abbrev main_v1193 : Ref sig .tc := ⟨.hbm, 1221, rfl⟩
abbrev main_v1194 : Ref sig .tc := ⟨.hbm, 1222, rfl⟩
abbrev main_v1195 : Ref sig .tc := ⟨.hbm, 1223, rfl⟩
abbrev main_v1196 : Ref sig .tc := ⟨.hbm, 1224, rfl⟩
abbrev main_v1197 : Ref sig .tc := ⟨.hbm, 1225, rfl⟩
abbrev main_v1198 : Ref sig .tc := ⟨.hbm, 1226, rfl⟩
abbrev main_v1199 : Ref sig .tc := ⟨.hbm, 1227, rfl⟩
abbrev main_v1200 : Ref sig .tc := ⟨.hbm, 1228, rfl⟩
abbrev main_v1201 : Ref sig .tc := ⟨.hbm, 1229, rfl⟩
abbrev main_v1202 : Ref sig .tc := ⟨.hbm, 1230, rfl⟩
abbrev main_v1203 : Ref sig .tc := ⟨.hbm, 1231, rfl⟩
abbrev main_v1204 : Ref sig .tc := ⟨.hbm, 1232, rfl⟩
abbrev main_v1205 : Ref sig .tc := ⟨.hbm, 1233, rfl⟩
abbrev main_v1206 : Ref sig .tc := ⟨.hbm, 1234, rfl⟩
abbrev main_v1207 : Ref sig .tc := ⟨.hbm, 1235, rfl⟩
abbrev main_v1208 : Ref sig .tc := ⟨.hbm, 1236, rfl⟩
abbrev main_v1209 : Ref sig .tc := ⟨.hbm, 1237, rfl⟩
abbrev main_v1210 : Ref sig .tc := ⟨.hbm, 1238, rfl⟩
abbrev main_v1211 : Ref sig .tc := ⟨.hbm, 1239, rfl⟩
abbrev main_v1212 : Ref sig .tc := ⟨.hbm, 1240, rfl⟩
abbrev main_v1213 : Ref sig .tc := ⟨.hbm, 1241, rfl⟩
abbrev main_v1214 : Ref sig .tc := ⟨.hbm, 1242, rfl⟩
abbrev main_v1215 : Ref sig .tc := ⟨.hbm, 1243, rfl⟩
abbrev main_v1216 : Ref sig .tc := ⟨.hbm, 1244, rfl⟩
abbrev main_v1217 : Ref sig .tc := ⟨.hbm, 1245, rfl⟩
abbrev main_v1218 : Ref sig .tc := ⟨.hbm, 1246, rfl⟩
abbrev main_v1219 : Ref sig .tc := ⟨.hbm, 1247, rfl⟩
abbrev main_v1220 : Ref sig .tc := ⟨.hbm, 1248, rfl⟩
abbrev main_v1221 : Ref sig .tc := ⟨.hbm, 1249, rfl⟩
abbrev main_v1222 : Ref sig .tc := ⟨.hbm, 1250, rfl⟩
abbrev main_v1223 : Ref sig .tc := ⟨.hbm, 1251, rfl⟩
abbrev main_v1224 : Ref sig .tc := ⟨.hbm, 1252, rfl⟩
abbrev main_v1225 : Ref sig .tc := ⟨.hbm, 1253, rfl⟩
abbrev main_v1226 : Ref sig .tc := ⟨.hbm, 1254, rfl⟩
abbrev main_v1227 : Ref sig .tc := ⟨.hbm, 1255, rfl⟩
abbrev main_v1228 : Ref sig .tc := ⟨.hbm, 1256, rfl⟩
abbrev main_v1229 : Ref sig .tc := ⟨.hbm, 1257, rfl⟩
abbrev main_v1230 : Ref sig .tc := ⟨.hbm, 1258, rfl⟩
abbrev main_v1231 : Ref sig .tc := ⟨.hbm, 1259, rfl⟩
abbrev main_v1232 : Ref sig .tc := ⟨.hbm, 1260, rfl⟩
abbrev main_v1233 : Ref sig .tc := ⟨.hbm, 1261, rfl⟩
abbrev main_v1234 : Ref sig .tc := ⟨.hbm, 1262, rfl⟩
abbrev main_v1235 : Ref sig .tc := ⟨.hbm, 1263, rfl⟩
abbrev main_v1236 : Ref sig .tc := ⟨.hbm, 1264, rfl⟩
abbrev main_v1237 : Ref sig .tc := ⟨.hbm, 1265, rfl⟩
abbrev main_v1238 : Ref sig .tc := ⟨.hbm, 1266, rfl⟩
abbrev main_v1239 : Ref sig .tc := ⟨.hbm, 1267, rfl⟩
abbrev main_v1240 : Ref sig .tc := ⟨.hbm, 1268, rfl⟩
abbrev main_c_16 : Ref sig .tc := ⟨.hbm, 1269, rfl⟩
abbrev main_v1241 : Ref sig .tc := ⟨.hbm, 1270, rfl⟩
abbrev main_v1242 : Ref sig .tc := ⟨.hbm, 1271, rfl⟩
abbrev main_c_17 : Ref sig .tc := ⟨.hbm, 1272, rfl⟩
abbrev main_v1243 : Ref sig .tc := ⟨.hbm, 1273, rfl⟩
abbrev main_v1244 : Ref sig .tc := ⟨.hbm, 1274, rfl⟩
abbrev main_v1245 : Ref sig .tc := ⟨.hbm, 1275, rfl⟩
abbrev main_v1246 : Ref sig .tc := ⟨.hbm, 1276, rfl⟩
abbrev main_v1247 : Ref sig .tc := ⟨.hbm, 1277, rfl⟩
abbrev main_cst_18 : Ref sig .tc := ⟨.hbm, 1278, rfl⟩
abbrev main_v1248 : Ref sig .tc := ⟨.hbm, 1279, rfl⟩
abbrev main_v1249 : Ref sig .tc := ⟨.hbm, 1280, rfl⟩
abbrev main_v1250 : Ref sig .tc := ⟨.hbm, 1281, rfl⟩
abbrev main_v1251 : Ref sig .tc := ⟨.hbm, 1282, rfl⟩
abbrev main_v1252 : Ref sig .tc := ⟨.hbm, 1283, rfl⟩
abbrev main_v1253 : Ref sig .tc := ⟨.hbm, 1284, rfl⟩
abbrev main_v1254 : Ref sig .tc := ⟨.hbm, 1285, rfl⟩
abbrev main_v1255 : Ref sig .tc := ⟨.hbm, 1286, rfl⟩
abbrev main_v1256 : Ref sig .tc := ⟨.hbm, 1287, rfl⟩
abbrev main_v1257 : Ref sig .tc := ⟨.hbm, 1288, rfl⟩
abbrev main_v1258 : Ref sig .tc := ⟨.hbm, 1289, rfl⟩
abbrev main_v1259 : Ref sig .tc := ⟨.hbm, 1290, rfl⟩
abbrev main_v1260 : Ref sig .tc := ⟨.hbm, 1291, rfl⟩
abbrev main_v1261 : Ref sig .tc := ⟨.hbm, 1292, rfl⟩
abbrev main_v1262 : Ref sig .tc := ⟨.hbm, 1293, rfl⟩
abbrev main_v1263 : Ref sig .tc := ⟨.hbm, 1294, rfl⟩
abbrev main_v1264 : Ref sig .tc := ⟨.hbm, 1295, rfl⟩
abbrev main_v1265 : Ref sig .tc := ⟨.hbm, 1296, rfl⟩
abbrev main_v1266 : Ref sig .tc := ⟨.hbm, 1297, rfl⟩
abbrev main_v1267 : Ref sig .tc := ⟨.hbm, 1298, rfl⟩
abbrev main_v1268 : Ref sig .tc := ⟨.hbm, 1299, rfl⟩
abbrev main_v1269 : Ref sig .tc := ⟨.hbm, 1300, rfl⟩
abbrev main_v1270 : Ref sig .tc := ⟨.hbm, 1301, rfl⟩
abbrev main_v1271 : Ref sig .tc := ⟨.hbm, 1302, rfl⟩
abbrev main_v1272 : Ref sig .tc := ⟨.hbm, 1303, rfl⟩
abbrev main_v1273 : Ref sig .tc := ⟨.hbm, 1304, rfl⟩
abbrev main_v1274 : Ref sig .tc := ⟨.hbm, 1305, rfl⟩
abbrev main_v1275 : Ref sig .tc := ⟨.hbm, 1306, rfl⟩
abbrev main_v1276 : Ref sig .tc := ⟨.hbm, 1307, rfl⟩
abbrev main_v1277 : Ref sig .tc := ⟨.hbm, 1308, rfl⟩
abbrev main_v1278 : Ref sig .tc := ⟨.hbm, 1309, rfl⟩
abbrev main_v1279 : Ref sig .tc := ⟨.hbm, 1310, rfl⟩
abbrev main_v1280 : Ref sig .tc := ⟨.hbm, 1311, rfl⟩
abbrev main_v1281 : Ref sig .tc := ⟨.hbm, 1312, rfl⟩
abbrev main_v1282 : Ref sig .tc := ⟨.hbm, 1313, rfl⟩
abbrev main_v1283 : Ref sig .tc := ⟨.hbm, 1314, rfl⟩
abbrev main_v1284 : Ref sig .tc := ⟨.hbm, 1315, rfl⟩
abbrev main_v1285 : Ref sig .tc := ⟨.hbm, 1316, rfl⟩
abbrev main_v1286 : Ref sig .tc := ⟨.hbm, 1317, rfl⟩
abbrev main_v1287 : Ref sig .tc := ⟨.hbm, 1318, rfl⟩
abbrev main_v1288 : Ref sig .tc := ⟨.hbm, 1319, rfl⟩
abbrev main_v1289 : Ref sig .tc := ⟨.hbm, 1320, rfl⟩
abbrev main_v1290 : Ref sig .tc := ⟨.hbm, 1321, rfl⟩
abbrev main_v1291 : Ref sig .tc := ⟨.hbm, 1322, rfl⟩
abbrev main_v1292 : Ref sig .tc := ⟨.hbm, 1323, rfl⟩
abbrev main_v1293 : Ref sig .tc := ⟨.hbm, 1324, rfl⟩
abbrev main_v1294 : Ref sig .tc := ⟨.hbm, 1325, rfl⟩
abbrev main_v1295 : Ref sig .tc := ⟨.hbm, 1326, rfl⟩
abbrev main_v1296 : Ref sig .tc := ⟨.hbm, 1327, rfl⟩
abbrev main_v1297 : Ref sig .tc := ⟨.hbm, 1328, rfl⟩
abbrev main_v1298 : Ref sig .tc := ⟨.hbm, 1329, rfl⟩
abbrev main_v1299 : Ref sig .tc := ⟨.hbm, 1330, rfl⟩
abbrev main_v1300 : Ref sig .tc := ⟨.hbm, 1331, rfl⟩
abbrev main_v1301 : Ref sig .tc := ⟨.hbm, 1332, rfl⟩
abbrev main_v1302 : Ref sig .tc := ⟨.hbm, 1333, rfl⟩
abbrev main_v1303 : Ref sig .tc := ⟨.hbm, 1334, rfl⟩
abbrev main_v1304 : Ref sig .tc := ⟨.hbm, 1335, rfl⟩
abbrev main_v1305 : Ref sig .tc := ⟨.hbm, 1336, rfl⟩
abbrev main_v1306 : Ref sig .tc := ⟨.hbm, 1337, rfl⟩
abbrev main_v1307 : Ref sig .tc := ⟨.hbm, 1338, rfl⟩
abbrev main_v1308 : Ref sig .tc := ⟨.hbm, 1339, rfl⟩
abbrev main_v1309 : Ref sig .tc := ⟨.hbm, 1340, rfl⟩
abbrev main_v1310 : Ref sig .tc := ⟨.hbm, 1341, rfl⟩
abbrev main_v1311 : Ref sig .tc := ⟨.hbm, 1342, rfl⟩
abbrev main_v1312 : Ref sig .tc := ⟨.hbm, 1343, rfl⟩
abbrev main_v1313 : Ref sig .tc := ⟨.hbm, 1344, rfl⟩
abbrev main_v1314 : Ref sig .tc := ⟨.hbm, 1345, rfl⟩
abbrev main_v1315 : Ref sig .tc := ⟨.hbm, 1346, rfl⟩
abbrev main_v1316 : Ref sig .tc := ⟨.hbm, 1347, rfl⟩
abbrev main_v1317 : Ref sig .tc := ⟨.hbm, 1348, rfl⟩
abbrev main_v1318 : Ref sig .tc := ⟨.hbm, 1349, rfl⟩
abbrev main_v1319 : Ref sig .tc := ⟨.hbm, 1350, rfl⟩
abbrev main_v1320 : Ref sig .tc := ⟨.hbm, 1351, rfl⟩
abbrev main_v1321 : Ref sig .tc := ⟨.hbm, 1352, rfl⟩
abbrev main_v1322 : Ref sig .tc := ⟨.hbm, 1353, rfl⟩
abbrev main_v1323 : Ref sig .tc := ⟨.hbm, 1354, rfl⟩
abbrev main_v1324 : Ref sig .tc := ⟨.hbm, 1355, rfl⟩
abbrev main_v1325 : Ref sig .tc := ⟨.hbm, 1356, rfl⟩
abbrev main_v1326 : Ref sig .tc := ⟨.hbm, 1357, rfl⟩
abbrev main_v1327 : Ref sig .tc := ⟨.hbm, 1358, rfl⟩
abbrev main_v1328 : Ref sig .tc := ⟨.hbm, 1359, rfl⟩
abbrev main_v1329 : Ref sig .tc := ⟨.hbm, 1360, rfl⟩
abbrev main_v1330 : Ref sig .tc := ⟨.hbm, 1361, rfl⟩
abbrev main_v1331 : Ref sig .tc := ⟨.hbm, 1362, rfl⟩
abbrev main_v1332 : Ref sig .tc := ⟨.hbm, 1363, rfl⟩
abbrev main_v1333 : Ref sig .tc := ⟨.hbm, 1364, rfl⟩
abbrev main_v1334 : Ref sig .tc := ⟨.hbm, 1365, rfl⟩
abbrev main_v1335 : Ref sig .tc := ⟨.hbm, 1366, rfl⟩
abbrev main_v1336 : Ref sig .tc := ⟨.hbm, 1367, rfl⟩
abbrev main_v1337 : Ref sig .tc := ⟨.hbm, 1368, rfl⟩
abbrev main_v1338 : Ref sig .tc := ⟨.hbm, 1369, rfl⟩
abbrev main_v1339 : Ref sig .tc := ⟨.hbm, 1370, rfl⟩
abbrev main_v1340 : Ref sig .tc := ⟨.hbm, 1371, rfl⟩
abbrev main_v1341 : Ref sig .tc := ⟨.hbm, 1372, rfl⟩
abbrev main_v1342 : Ref sig .tc := ⟨.hbm, 1373, rfl⟩
abbrev main_v1343 : Ref sig .tc := ⟨.hbm, 1374, rfl⟩
abbrev main_v1344 : Ref sig .tc := ⟨.hbm, 1375, rfl⟩
abbrev main_v1345 : Ref sig .tc := ⟨.hbm, 1376, rfl⟩
abbrev main_v1346 : Ref sig .tc := ⟨.hbm, 1377, rfl⟩
abbrev main_v1347 : Ref sig .tc := ⟨.hbm, 1378, rfl⟩
abbrev main_v1348 : Ref sig .tc := ⟨.hbm, 1379, rfl⟩
abbrev main_v1349 : Ref sig .tc := ⟨.hbm, 1380, rfl⟩
abbrev main_v1350 : Ref sig .tc := ⟨.hbm, 1381, rfl⟩
abbrev main_v1351 : Ref sig .tc := ⟨.hbm, 1382, rfl⟩
abbrev main_v1352 : Ref sig .tc := ⟨.hbm, 1383, rfl⟩
abbrev main_v1353 : Ref sig .tc := ⟨.hbm, 1384, rfl⟩
abbrev main_v1354 : Ref sig .tc := ⟨.hbm, 1385, rfl⟩
abbrev main_v1355 : Ref sig .tc := ⟨.hbm, 1386, rfl⟩
abbrev main_v1356 : Ref sig .tc := ⟨.hbm, 1387, rfl⟩
abbrev main_v1357 : Ref sig .tc := ⟨.hbm, 1388, rfl⟩
abbrev main_v1358 : Ref sig .tc := ⟨.hbm, 1389, rfl⟩
abbrev main_v1359 : Ref sig .tc := ⟨.hbm, 1390, rfl⟩
abbrev main_v1360 : Ref sig .tc := ⟨.hbm, 1391, rfl⟩
abbrev main_v1361 : Ref sig .tc := ⟨.hbm, 1392, rfl⟩
abbrev main_v1362 : Ref sig .tc := ⟨.hbm, 1393, rfl⟩
abbrev main_v1363 : Ref sig .tc := ⟨.hbm, 1394, rfl⟩
abbrev main_v1364 : Ref sig .tc := ⟨.hbm, 1395, rfl⟩
abbrev main_v1365 : Ref sig .tc := ⟨.hbm, 1396, rfl⟩
abbrev main_v1366 : Ref sig .tc := ⟨.hbm, 1397, rfl⟩
abbrev main_v1367 : Ref sig .tc := ⟨.hbm, 1398, rfl⟩
abbrev main_v1368 : Ref sig .tc := ⟨.hbm, 1399, rfl⟩
abbrev main_v1369 : Ref sig .tc := ⟨.hbm, 1400, rfl⟩
abbrev main_v1370 : Ref sig .tc := ⟨.hbm, 1401, rfl⟩
abbrev main_v1371 : Ref sig .tc := ⟨.hbm, 1402, rfl⟩
abbrev main_v1372 : Ref sig .tc := ⟨.hbm, 1403, rfl⟩
abbrev main_v1373 : Ref sig .tc := ⟨.hbm, 1404, rfl⟩
abbrev main_v1374 : Ref sig .tc := ⟨.hbm, 1405, rfl⟩
abbrev main_v1375 : Ref sig .tc := ⟨.hbm, 1406, rfl⟩
abbrev main_v1376 : Ref sig .tc := ⟨.hbm, 1407, rfl⟩
abbrev main_v1377 : Ref sig .tc := ⟨.hbm, 1408, rfl⟩
abbrev main_v1378 : Ref sig .tc := ⟨.hbm, 1409, rfl⟩
abbrev main_v1379 : Ref sig .tc := ⟨.hbm, 1410, rfl⟩
abbrev main_v1380 : Ref sig .tc := ⟨.hbm, 1411, rfl⟩
abbrev main_v1381 : Ref sig .tc := ⟨.hbm, 1412, rfl⟩
abbrev main_v1382 : Ref sig .tc := ⟨.hbm, 1413, rfl⟩
abbrev main_v1383 : Ref sig .tc := ⟨.hbm, 1414, rfl⟩
abbrev main_v1384 : Ref sig .tc := ⟨.hbm, 1415, rfl⟩
abbrev main_v1385 : Ref sig .tc := ⟨.hbm, 1416, rfl⟩
abbrev main_v1386 : Ref sig .tc := ⟨.hbm, 1417, rfl⟩
abbrev main_v1387 : Ref sig .tc := ⟨.hbm, 1418, rfl⟩
abbrev main_v1388 : Ref sig .tc := ⟨.hbm, 1419, rfl⟩
abbrev main_v1389 : Ref sig .tc := ⟨.hbm, 1420, rfl⟩
abbrev main_v1390 : Ref sig .tc := ⟨.hbm, 1421, rfl⟩
abbrev main_v1391 : Ref sig .tc := ⟨.hbm, 1422, rfl⟩
abbrev main_v1392 : Ref sig .tc := ⟨.hbm, 1423, rfl⟩
abbrev main_v1393 : Ref sig .tc := ⟨.hbm, 1424, rfl⟩
abbrev main_v1394 : Ref sig .tc := ⟨.hbm, 1425, rfl⟩
abbrev main_v1395 : Ref sig .tc := ⟨.hbm, 1426, rfl⟩
abbrev main_v1396 : Ref sig .tc := ⟨.hbm, 1427, rfl⟩
abbrev main_v1397 : Ref sig .tc := ⟨.hbm, 1428, rfl⟩
abbrev main_v1398 : Ref sig .tc := ⟨.hbm, 1429, rfl⟩
abbrev main_v1399 : Ref sig .tc := ⟨.hbm, 1430, rfl⟩
abbrev main_v1400 : Ref sig .tc := ⟨.hbm, 1431, rfl⟩
abbrev main_v1401 : Ref sig .tc := ⟨.hbm, 1432, rfl⟩
abbrev main_v1402 : Ref sig .tc := ⟨.hbm, 1433, rfl⟩
abbrev main_v1403 : Ref sig .tc := ⟨.hbm, 1434, rfl⟩
abbrev main_v1404 : Ref sig .tc := ⟨.hbm, 1435, rfl⟩
abbrev main_v1405 : Ref sig .tc := ⟨.hbm, 1436, rfl⟩
abbrev main_v1406 : Ref sig .tc := ⟨.hbm, 1437, rfl⟩
abbrev main_v1407 : Ref sig .tc := ⟨.hbm, 1438, rfl⟩
abbrev main_v1408 : Ref sig .tc := ⟨.hbm, 1439, rfl⟩
abbrev main_v1409 : Ref sig .tc := ⟨.hbm, 1440, rfl⟩
abbrev main_v1410 : Ref sig .tc := ⟨.hbm, 1441, rfl⟩
abbrev main_v1411 : Ref sig .tc := ⟨.hbm, 1442, rfl⟩
abbrev main_v1412 : Ref sig .tc := ⟨.hbm, 1443, rfl⟩
abbrev main_v1413 : Ref sig .tc := ⟨.hbm, 1444, rfl⟩
abbrev main_v1414 : Ref sig .tc := ⟨.hbm, 1445, rfl⟩
abbrev main_v1415 : Ref sig .tc := ⟨.hbm, 1446, rfl⟩
abbrev main_v1416 : Ref sig .tc := ⟨.hbm, 1447, rfl⟩
abbrev main_v1417 : Ref sig .tc := ⟨.hbm, 1448, rfl⟩
abbrev main_v1418 : Ref sig .tc := ⟨.hbm, 1449, rfl⟩
abbrev main_v1419 : Ref sig .tc := ⟨.hbm, 1450, rfl⟩
abbrev main_v1420 : Ref sig .tc := ⟨.hbm, 1451, rfl⟩
abbrev main_v1421 : Ref sig .tc := ⟨.hbm, 1452, rfl⟩
abbrev main_v1422 : Ref sig .tc := ⟨.hbm, 1453, rfl⟩
abbrev main_v1423 : Ref sig .tc := ⟨.hbm, 1454, rfl⟩
abbrev main_v1424 : Ref sig .tc := ⟨.hbm, 1455, rfl⟩
abbrev main_v1425 : Ref sig .tc := ⟨.hbm, 1456, rfl⟩
abbrev main_v1426 : Ref sig .tc := ⟨.hbm, 1457, rfl⟩
abbrev main_v1427 : Ref sig .tc := ⟨.hbm, 1458, rfl⟩
abbrev main_v1428 : Ref sig .tc := ⟨.hbm, 1459, rfl⟩
abbrev main_v1429 : Ref sig .tc := ⟨.hbm, 1460, rfl⟩
abbrev main_v1430 : Ref sig .tc := ⟨.hbm, 1461, rfl⟩
abbrev main_v1431 : Ref sig .tc := ⟨.hbm, 1462, rfl⟩
abbrev main_v1432 : Ref sig .tc := ⟨.hbm, 1463, rfl⟩
abbrev main_v1433 : Ref sig .tc := ⟨.hbm, 1464, rfl⟩
abbrev main_v1434 : Ref sig .tc := ⟨.hbm, 1465, rfl⟩
abbrev main_v1435 : Ref sig .tc := ⟨.hbm, 1466, rfl⟩
abbrev main_v1436 : Ref sig .tc := ⟨.hbm, 1467, rfl⟩
abbrev main_v1437 : Ref sig .tc := ⟨.hbm, 1468, rfl⟩
abbrev main_v1438 : Ref sig .tc := ⟨.hbm, 1469, rfl⟩
abbrev main_v1439 : Ref sig .tc := ⟨.hbm, 1470, rfl⟩
abbrev main_v1440 : Ref sig .tc := ⟨.hbm, 1471, rfl⟩
abbrev main_v1441 : Ref sig .tc := ⟨.hbm, 1472, rfl⟩
abbrev main_v1442 : Ref sig .tc := ⟨.hbm, 1473, rfl⟩
abbrev main_v1443 : Ref sig .tc := ⟨.hbm, 1474, rfl⟩
abbrev main_v1444 : Ref sig .tc := ⟨.hbm, 1475, rfl⟩

abbrev nD : Nat := 1
abbrev τ : Topo := Topo.v7x

variable {F : FTy → Type} [FloatOps F]

class Facts₀ : Prop where
  transposes_S128x32_S32x128_1_0 : S128x32.Transposes [1, 0] S32x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S8x16384x128 : S131072x128.ShapeCasts S8x16384x128
  slices_S8x16384x128_S1x16384x128_0_0_0 : S8x16384x128.Slices ![0, 0, 0] S1x16384x128
  shapeCasts_S1x16384x128_S16384x128 : S1x16384x128.ShapeCasts S16384x128
  slices_S7x16384x16_S1x16384x16_0_0_0 : S7x16384x16.Slices ![0, 0, 0] S1x16384x16
  shapeCasts_S1x16384x16_S16384x16 : S1x16384x16.ShapeCasts S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  reducesTo_S16384x16x128_S16384x128_d1 : S16384x16x128.ReducesTo [1] S16384x128
  h_S_ : 0 < S_.numel
  slices_S9x128x128_S1x128x128_0_0_0 : S9x128x128.Slices ![0, 0, 0] S1x128x128
  shapeCasts_S1x128x128_S128x128 : S1x128x128.ShapeCasts S128x128
  transposes_S128x128_S128x128_1_0 : S128x128.Transposes [1, 0] S128x128
  slices_S9x128_S1x128_0_0 : S9x128.Slices ![0, 0] S1x128
  shapeCasts_S1x128_S128 : S1x128.ShapeCasts S128
  bcast_S1x128_S16384x128_0_1 : S1x128.BroadcastsInDim S16384x128 (![0, 1] : Fin 2 → Fin S16384x128.rank)
  slices_S9x128x128_S1x128x128_1_0_0 : S9x128x128.Slices ![1, 0, 0] S1x128x128
  slices_S9x128_S1x128_1_0 : S9x128.Slices ![1, 0] S1x128
  slices_S9x128x128_S1x128x128_2_0_0 : S9x128x128.Slices ![2, 0, 0] S1x128x128
  slices_S9x128_S1x128_2_0 : S9x128.Slices ![2, 0] S1x128
  slices_S9x128x128_S1x128x128_3_0_0 : S9x128x128.Slices ![3, 0, 0] S1x128x128
  slices_S9x128_S1x128_3_0 : S9x128.Slices ![3, 0] S1x128
  slices_S9x128x128_S1x128x128_4_0_0 : S9x128x128.Slices ![4, 0, 0] S1x128x128
  slices_S9x128_S1x128_4_0 : S9x128.Slices ![4, 0] S1x128
  slices_S9x128x128_S1x128x128_5_0_0 : S9x128x128.Slices ![5, 0, 0] S1x128x128
  slices_S9x128_S1x128_5_0 : S9x128.Slices ![5, 0] S1x128
  slices_S9x128x128_S1x128x128_6_0_0 : S9x128x128.Slices ![6, 0, 0] S1x128x128
  slices_S9x128_S1x128_6_0 : S9x128.Slices ![6, 0] S1x128
  slices_S9x128x128_S1x128x128_7_0_0 : S9x128x128.Slices ![7, 0, 0] S1x128x128
  slices_S9x128_S1x128_7_0 : S9x128.Slices ![7, 0] S1x128
  slices_S9x128x128_S1x128x128_8_0_0 : S9x128x128.Slices ![8, 0, 0] S1x128x128
  slices_S9x128_S1x128_8_0 : S9x128.Slices ![8, 0] S1x128
  slices_S8x16384x128_S1x16384x128_1_0_0 : S8x16384x128.Slices ![1, 0, 0] S1x16384x128
  concatenates_S16384x128_S16384x128_S16384x256_d1 : Shape.Concatenates [S16384x128, S16384x128] S16384x256 1
  transposes_S128x256_S256x128_1_0 : S128x256.Transposes [1, 0] S256x128
  slices_S7x16384x16_S1x16384x16_1_0_0 : S7x16384x16.Slices ![1, 0, 0] S1x16384x16
  slices_S8x16384x128_S1x16384x128_2_0_0 : S8x16384x128.Slices ![2, 0, 0] S1x16384x128
  slices_S7x16384x16_S1x16384x16_2_0_0 : S7x16384x16.Slices ![2, 0, 0] S1x16384x16
  slices_S8x16384x128_S1x16384x128_3_0_0 : S8x16384x128.Slices ![3, 0, 0] S1x16384x128
  slices_S7x16384x16_S1x16384x16_3_0_0 : S7x16384x16.Slices ![3, 0, 0] S1x16384x16
  slices_S8x16384x128_S1x16384x128_4_0_0 : S8x16384x128.Slices ![4, 0, 0] S1x16384x128
  slices_S7x16384x16_S1x16384x16_4_0_0 : S7x16384x16.Slices ![4, 0, 0] S1x16384x16
  slices_S8x16384x128_S1x16384x128_5_0_0 : S8x16384x128.Slices ![5, 0, 0] S1x16384x128
  slices_S7x16384x16_S1x16384x16_5_0_0 : S7x16384x16.Slices ![5, 0, 0] S1x16384x16
  slices_S8x16384x128_S1x16384x128_6_0_0 : S8x16384x128.Slices ![6, 0, 0] S1x16384x128
  slices_S7x16384x16_S1x16384x16_6_0_0 : S7x16384x16.Slices ![6, 0, 0] S1x16384x16
  slices_S8x16384x128_S1x16384x128_7_0_0 : S8x16384x128.Slices ![7, 0, 0] S1x16384x128
  concatenates_S16384x128_S16384x128_S16384x128_S16384x128_S16384x128_S16384x128_S16384x128_S16384x128_S131072x128_d0 : Shape.Concatenates [S16384x128, S16384x128, S16384x128, S16384x128, S16384x128, S16384x128, S16384x128, S16384x128] S131072x128 0
  dot_S131072x32_S32x128_S131072x128_1_0_0_1_n_n_wf : DotDims.WF S131072x32 S32x128 S131072x128 [1] [0] [0] [1] [] []
  gather_S16384x128_S16384x16x1_S16384x16x128_2_0_n_n_0_2_1128_wf : GatherDims.WF S16384x128 S16384x16x1 S16384x16x128 [2] [0] [] [0] [] 2 ![1, 128]
  dot_S16384x128_S128x128_S16384x128_1_0_0_1_n_n_wf : DotDims.WF S16384x128 S128x128 S16384x128 [1] [0] [0] [1] [] []
  dot_S16384x256_S256x128_S16384x128_1_0_0_1_n_n_wf : DotDims.WF S16384x256 S256x128 S16384x128 [1] [0] [0] [1] [] []

variable [Facts₀]

def dot_S131072x32_S32x128_S131072x128_1_0_0_1_n_n : DotDims S131072x32 S32x128 S131072x128 where
  lhsContracting := [1]
  rhsContracting := [0]
  lhsNonContracting := [0]
  rhsNonContracting := [1]
  lhsBatch := []
  rhsBatch := []
  wf := dot_S131072x32_S32x128_S131072x128_1_0_0_1_n_n_wf
def gather_S16384x128_S16384x16x1_S16384x16x128_2_0_n_n_0_2_1128 : GatherDims S16384x128 S16384x16x1 S16384x16x128 where
  offsetDims := [2]
  collapsedSliceDims := [0]
  operandBatchingDims := []
  startIndicesBatchingDims := []
  startIndexMap := [0]
  indexVectorDim := 2
  sliceSizes := ![1, 128]
  wf := gather_S16384x128_S16384x16x1_S16384x16x128_2_0_n_n_0_2_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.K.Region0.lean ====
/- REGION 0 of @main (the embedding kernel, pipeline 0): its class-A half at a PARAMETER `V`, the
   TensorCore's buffer contents when the region is entered. Four windows: the node features' row blocks
   (fetched at every point), the embedding weight and bias (one block each, fetched once), and the output's
   row blocks. The body reads the three input blocks whole and stores `tanh (x · Wᵀ + b)` over the whole
   output block. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (its block index never moves: unfetched, the buffer still holds the block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S4096x32 := Rect.unit (s := S4096x32) ![0, 0] S4096x32.size inb_S4096x32_S4096x32_0_0
abbrev r0_1 : Rect S128x32 := Rect.unit (s := S128x32) ![0, 0] S128x32.size inb_S128x32_S128x32_0_0
abbrev r0_2 : Rect S128 := Rect.unit (s := S128) ![0] S128.size inb_S128_S128_0
abbrev r0_3 : Rect S4096x128 := Rect.unit (s := S4096x128) ![0, 0] S4096x128.size inb_S4096x128_S4096x128_0_0

/-! ## What the body leaves in the output window's buffer -/

/-- Window 3's staging buffer after the body, from the input windows' blocks: its one store as a piece. -/
def out0_3 (x0 : Vec F S4096x32 .f32) (x1 : Vec F S128x32 .f32) (x2 : Vec F S128 .f32) : Vec F S4096x128 .f32 :=
  View.canon [⟨r0_3, k0_pay1 (View.ld x0 r0_0) (View.ld x1 r0_1) (View.ld x2 r0_2)⟩]

/-- The store tiles the buffer, so it covers it. -/
theorem cover0_3 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S4096x32 .f32) (harg1 : arg1.IsWhole) (arg2 : Memref sig .tc .vmem S128x32 .f32) (harg2 : arg2.IsWhole) (arg3 : Memref sig .tc .vmem S128 .f32) (harg3 : arg3.IsWhole) (arg4 : Memref sig .tc .vmem S4096x128 .f32) (harg4 : arg4.IsWhole)
    (x0 : Vec F S4096x32 .f32) (x1 : Vec F S128x32 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the class-A
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main (custom_call 1, `cc1__mlp_step_kernel`, pipeline 1) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): unfetched, the block index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- the whole `[1024,128]` block (messages, next level, output) -/
abbrev r1_x : Rect S1024x128 := Rect.unit (s := S1024x128) ![0, 0] S1024x128.size inb_S1024x128_S1024x128_0_0
/-- layer `i`'s `[1,128,128]` slice of a `[9,128,128]` weight stack -/
abbrev r1_w0 : Rect S9x128x128 := Rect.unit (s := S9x128x128) ![0, 0, 0] S1x128x128.size inb_S9x128x128_S1x128x128_0_0_0
abbrev r1_w1 : Rect S9x128x128 := Rect.unit (s := S9x128x128) ![1, 0, 0] S1x128x128.size inb_S9x128x128_S1x128x128_1_0_0
abbrev r1_w2 : Rect S9x128x128 := Rect.unit (s := S9x128x128) ![2, 0, 0] S1x128x128.size inb_S9x128x128_S1x128x128_2_0_0
abbrev r1_w3 : Rect S9x128x128 := Rect.unit (s := S9x128x128) ![3, 0, 0] S1x128x128.size inb_S9x128x128_S1x128x128_3_0_0
abbrev r1_w4 : Rect S9x128x128 := Rect.unit (s := S9x128x128) ![4, 0, 0] S1x128x128.size inb_S9x128x128_S1x128x128_4_0_0
abbrev r1_w5 : Rect S9x128x128 := Rect.unit (s := S9x128x128) ![5, 0, 0] S1x128x128.size inb_S9x128x128_S1x128x128_5_0_0
abbrev r1_w6 : Rect S9x128x128 := Rect.unit (s := S9x128x128) ![6, 0, 0] S1x128x128.size inb_S9x128x128_S1x128x128_6_0_0
abbrev r1_w7 : Rect S9x128x128 := Rect.unit (s := S9x128x128) ![7, 0, 0] S1x128x128.size inb_S9x128x128_S1x128x128_7_0_0
abbrev r1_w8 : Rect S9x128x128 := Rect.unit (s := S9x128x128) ![8, 0, 0] S1x128x128.size inb_S9x128x128_S1x128x128_8_0_0
/-- layer `i`'s `[1,128]` slice of a `[9,128]` bias stack -/
abbrev r1_b0 : Rect S9x128 := Rect.unit (s := S9x128) ![0, 0] S1x128.size inb_S9x128_S1x128_0_0
abbrev r1_b1 : Rect S9x128 := Rect.unit (s := S9x128) ![1, 0] S1x128.size inb_S9x128_S1x128_1_0
abbrev r1_b2 : Rect S9x128 := Rect.unit (s := S9x128) ![2, 0] S1x128.size inb_S9x128_S1x128_2_0
abbrev r1_b3 : Rect S9x128 := Rect.unit (s := S9x128) ![3, 0] S1x128.size inb_S9x128_S1x128_3_0
abbrev r1_b4 : Rect S9x128 := Rect.unit (s := S9x128) ![4, 0] S1x128.size inb_S9x128_S1x128_4_0
abbrev r1_b5 : Rect S9x128 := Rect.unit (s := S9x128) ![5, 0] S1x128.size inb_S9x128_S1x128_5_0
abbrev r1_b6 : Rect S9x128 := Rect.unit (s := S9x128) ![6, 0] S1x128.size inb_S9x128_S1x128_6_0
abbrev r1_b7 : Rect S9x128 := Rect.unit (s := S9x128) ![7, 0] S1x128.size inb_S9x128_S1x128_7_0
abbrev r1_b8 : Rect S9x128 := Rect.unit (s := S9x128) ![8, 0] S1x128.size inb_S9x128_S1x128_8_0
/-- the whole `[128,256]` weight and the whole `[128]` bias of the combining layer -/
abbrev r1_n : Rect S128x256 := Rect.unit (s := S128x256) ![0, 0] S128x256.size inb_S128x256_S128x256_0_0
abbrev r1_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v1_35 (x0 : Vec F S1024x128 .f32) (x2 : Vec F S9x128x128 .bf16) (x3 : Vec F S9x128 .f32) : FVec F S1024x128 .f32 :=
  k1_pay2 (View.ld x0 r1_x) (View.ld x2 r1_w0) (View.ld x3 r1_b0) (View.ld x2 r1_w1) (View.ld x3 r1_b1) (View.ld x2 r1_w2) (View.ld x3 r1_b2)
/-- after layers 3..5 -/
def v1_69 (x0 : Vec F S1024x128 .f32) (x2 : Vec F S9x128x128 .bf16) (x3 : Vec F S9x128 .f32) : FVec F S1024x128 .f32 :=
  k1_pay3 (v1_35 x0 x2 x3) (View.ld x2 r1_w3) (View.ld x3 r1_b3) (View.ld x2 r1_w4) (View.ld x3 r1_b4) (View.ld x2 r1_w5) (View.ld x3 r1_b5)
/-- layer 6's product, before its bias -/
def v1_74 (x0 : Vec F S1024x128 .f32) (x2 : Vec F S9x128x128 .bf16) (x3 : Vec F S9x128 .f32) : FVec F S1024x128 .f32 :=
  k1_pay4 (v1_35 x0 x2 x3) (View.ld x2 r1_w3) (View.ld x3 r1_b3) (View.ld x2 r1_w4) (View.ld x3 r1_b4) (View.ld x2 r1_w5) (View.ld x3 r1_b5) (View.ld x2 r1_w6)
/-- after the message stack's layers 6..8 and the combining layer with the next level's block -/
def v1_116 (x0 x1 : Vec F S1024x128 .f32) (x2 : Vec F S9x128x128 .bf16) (x3 : Vec F S9x128 .f32) (x4 : Vec F S128x256 .bf16) (x5 : Vec F S128 .f32) : FVec F S1024x128 .f32 :=
  k1_pay5 (v1_69 x0 x2 x3) (v1_74 x0 x2 x3) (View.ld x3 r1_b6) (View.ld x2 r1_w7) (View.ld x3 r1_b7) (View.ld x2 r1_w8) (View.ld x3 r1_b8) (View.ld x1 r1_x) (View.ld x4 r1_n) (View.ld x5 r1_c)
/-- after the node stack's layers 0..2, -/
def v1_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay6 (v1_116 x0 x1 x2 x3 x4 x5) (View.ld x6 r1_w0) (View.ld x7 r1_b0) (View.ld x6 r1_w1) (View.ld x7 r1_b1) (View.ld x6 r1_w2) (View.ld x7 r1_b2)
/-- the same, narrowed, -/
def v1_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k1_pay7 (v1_116 x0 x1 x2 x3 x4 x5) (View.ld x6 r1_w0) (View.ld x7 r1_b0) (View.ld x6 r1_w1) (View.ld x7 r1_b1) (View.ld x6 r1_w2) (View.ld x7 r1_b2)
/-- and layer 3's weight, transposed -/
def v1_154 (x6 : Vec F S9x128x128 .bf16) : FVec F S128x128 .bf16 :=
  k1_pay8 (View.ld x6 r1_w3)
/-- after the node stack's layers 3..5 -/
def v1_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay9 (v1_150 x0 x1 x2 x3 x4 x5 x6 x7) (v1_153 x0 x1 x2 x3 x4 x5 x6 x7) (v1_154 x6) (constant S1024x128 .f32 0x00000000#32) (View.ld x7 r1_b3) (View.ld x6 r1_w4) (View.ld x7 r1_b4) (View.ld x6 r1_w5) (View.ld x7 r1_b5)
/-- layer 6's sum, before its `tanh` -/
def v1_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay10 (v1_150 x0 x1 x2 x3 x4 x5 x6 x7) (v1_153 x0 x1 x2 x3 x4 x5 x6 x7) (v1_154 x6) (constant S1024x128 .f32 0x00000000#32) (View.ld x7 r1_b3) (View.ld x6 r1_w4) (View.ld x7 r1_b4) (View.ld x6 r1_w5) (View.ld x7 r1_b5) (View.ld x6 r1_w6) (View.ld x7 r1_b6)

/-- Window 8's staging buffer after the body, from the input windows' blocks: its one store, of the whole block. -/
def out1_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r1_x, k1_pay1 (v1_184 x0 x1 x2 x3 x4 x5 x6 x7) (v1_194 x0 x1 x2 x3 x4 x5 x6 x7) (View.ld x6 r1_w7) (View.ld x7 r1_b7) (View.ld x6 r1_w8) (View.ld x7 r1_b8)⟩]

/-- The store tiles the buffer (checked by evaluation), so it covers it. -/
theorem cover1_8 (p0 : Vec F S1024x128 .f32) (y : S1024x128.Idx) :
    ∃ pc ∈ ([⟨r1_x, p0⟩] : List (View.Piece (Elt F) S1024x128 .f32)), y ∈ pc.1.set :=
  View.cover_of_tiled [⟨r1_x, p0⟩] S1024x128.size (by rfl) y

/-! ## The body's triple -/

set_option maxHeartbeats 4000000 in
/-- The kernel body on whole staging memrefs, the inputs' at read contents `xW` and the output's at anything, runs to
    the continuation holding the inputs' as they were and the output's at `out1_8` of the inputs'. -/
theorem sound_kernel1 (c : Dev nD) (E : Set ℕ) (i : grid1.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__mlp_step_kernel i arg0 harg0 arg1 harg1 arg2 harg2 arg3 harg3 arg4 harg4 arg5 harg5 arg6 harg6 arg7 harg7 arg8 harg8) K := by
  simp only [cc1__mlp_step_kernel_eq_skeleton, k1_part1_eq_skeleton, k1_part2_eq_skeleton, k1_part3_eq_skeleton, k1_part4_eq_skeleton, k1_part5_eq_skeleton]
  unfold cc1__mlp_step_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Region2.lean ====
/- Region 2 of @main (custom_call 2, `cc2__mlp_step_kernel`, pipeline 2) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- the whole `[1024,128]` block (messages, next level, output) -/
abbrev r2_x : Rect S1024x128 := Rect.unit (s := S1024x128) ![0, 0] S1024x128.size inb_S1024x128_S1024x128_0_0
/-- layer `i`'s `[1,128,128]` slice of a `[9,128,128]` weight stack -/
abbrev r2_w0 : Rect S9x128x128 := Rect.unit (s := S9x128x128) ![0, 0, 0] S1x128x128.size inb_S9x128x128_S1x128x128_0_0_0
abbrev r2_w1 : Rect S9x128x128 := Rect.unit (s := S9x128x128) ![1, 0, 0] S1x128x128.size inb_S9x128x128_S1x128x128_1_0_0
abbrev r2_w2 : Rect S9x128x128 := Rect.unit (s := S9x128x128) ![2, 0, 0] S1x128x128.size inb_S9x128x128_S1x128x128_2_0_0
abbrev r2_w3 : Rect S9x128x128 := Rect.unit (s := S9x128x128) ![3, 0, 0] S1x128x128.size inb_S9x128x128_S1x128x128_3_0_0
abbrev r2_w4 : Rect S9x128x128 := Rect.unit (s := S9x128x128) ![4, 0, 0] S1x128x128.size inb_S9x128x128_S1x128x128_4_0_0
abbrev r2_w5 : Rect S9x128x128 := Rect.unit (s := S9x128x128) ![5, 0, 0] S1x128x128.size inb_S9x128x128_S1x128x128_5_0_0
abbrev r2_w6 : Rect S9x128x128 := Rect.unit (s := S9x128x128) ![6, 0, 0] S1x128x128.size inb_S9x128x128_S1x128x128_6_0_0
abbrev r2_w7 : Rect S9x128x128 := Rect.unit (s := S9x128x128) ![7, 0, 0] S1x128x128.size inb_S9x128x128_S1x128x128_7_0_0
abbrev r2_w8 : Rect S9x128x128 := Rect.unit (s := S9x128x128) ![8, 0, 0] S1x128x128.size inb_S9x128x128_S1x128x128_8_0_0
/-- layer `i`'s `[1,128]` slice of a `[9,128]` bias stack -/
abbrev r2_b0 : Rect S9x128 := Rect.unit (s := S9x128) ![0, 0] S1x128.size inb_S9x128_S1x128_0_0
abbrev r2_b1 : Rect S9x128 := Rect.unit (s := S9x128) ![1, 0] S1x128.size inb_S9x128_S1x128_1_0
abbrev r2_b2 : Rect S9x128 := Rect.unit (s := S9x128) ![2, 0] S1x128.size inb_S9x128_S1x128_2_0
abbrev r2_b3 : Rect S9x128 := Rect.unit (s := S9x128) ![3, 0] S1x128.size inb_S9x128_S1x128_3_0
abbrev r2_b4 : Rect S9x128 := Rect.unit (s := S9x128) ![4, 0] S1x128.size inb_S9x128_S1x128_4_0
abbrev r2_b5 : Rect S9x128 := Rect.unit (s := S9x128) ![5, 0] S1x128.size inb_S9x128_S1x128_5_0
abbrev r2_b6 : Rect S9x128 := Rect.unit (s := S9x128) ![6, 0] S1x128.size inb_S9x128_S1x128_6_0
abbrev r2_b7 : Rect S9x128 := Rect.unit (s := S9x128) ![7, 0] S1x128.size inb_S9x128_S1x128_7_0
abbrev r2_b8 : Rect S9x128 := Rect.unit (s := S9x128) ![8, 0] S1x128.size inb_S9x128_S1x128_8_0
/-- the whole `[128,256]` weight and the whole `[128]` bias of the combining layer -/
abbrev r2_n : Rect S128x256 := Rect.unit (s := S128x256) ![0, 0] S128x256.size inb_S128x256_S128x256_0_0
abbrev r2_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v2_35 (x0 : Vec F S1024x128 .f32) (x2 : Vec F S9x128x128 .bf16) (x3 : Vec F S9x128 .f32) : FVec F S1024x128 .f32 :=
  k2_pay2 (View.ld x0 r2_x) (View.ld x2 r2_w0) (View.ld x3 r2_b0) (View.ld x2 r2_w1) (View.ld x3 r2_b1) (View.ld x2 r2_w2) (View.ld x3 r2_b2)
/-- after layers 3..5 -/
def v2_69 (x0 : Vec F S1024x128 .f32) (x2 : Vec F S9x128x128 .bf16) (x3 : Vec F S9x128 .f32) : FVec F S1024x128 .f32 :=
  k2_pay3 (v2_35 x0 x2 x3) (View.ld x2 r2_w3) (View.ld x3 r2_b3) (View.ld x2 r2_w4) (View.ld x3 r2_b4) (View.ld x2 r2_w5) (View.ld x3 r2_b5)
/-- layer 6's product, before its bias -/
def v2_74 (x0 : Vec F S1024x128 .f32) (x2 : Vec F S9x128x128 .bf16) (x3 : Vec F S9x128 .f32) : FVec F S1024x128 .f32 :=
  k2_pay4 (v2_35 x0 x2 x3) (View.ld x2 r2_w3) (View.ld x3 r2_b3) (View.ld x2 r2_w4) (View.ld x3 r2_b4) (View.ld x2 r2_w5) (View.ld x3 r2_b5) (View.ld x2 r2_w6)
/-- after the message stack's layers 6..8 and the combining layer with the next level's block -/
def v2_116 (x0 x1 : Vec F S1024x128 .f32) (x2 : Vec F S9x128x128 .bf16) (x3 : Vec F S9x128 .f32) (x4 : Vec F S128x256 .bf16) (x5 : Vec F S128 .f32) : FVec F S1024x128 .f32 :=
  k2_pay5 (v2_69 x0 x2 x3) (v2_74 x0 x2 x3) (View.ld x3 r2_b6) (View.ld x2 r2_w7) (View.ld x3 r2_b7) (View.ld x2 r2_w8) (View.ld x3 r2_b8) (View.ld x1 r2_x) (View.ld x4 r2_n) (View.ld x5 r2_c)
/-- after the node stack's layers 0..2, -/
def v2_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay6 (v2_116 x0 x1 x2 x3 x4 x5) (View.ld x6 r2_w0) (View.ld x7 r2_b0) (View.ld x6 r2_w1) (View.ld x7 r2_b1) (View.ld x6 r2_w2) (View.ld x7 r2_b2)
/-- the same, narrowed, -/
def v2_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k2_pay7 (v2_116 x0 x1 x2 x3 x4 x5) (View.ld x6 r2_w0) (View.ld x7 r2_b0) (View.ld x6 r2_w1) (View.ld x7 r2_b1) (View.ld x6 r2_w2) (View.ld x7 r2_b2)
/-- and layer 3's weight, transposed -/
def v2_154 (x6 : Vec F S9x128x128 .bf16) : FVec F S128x128 .bf16 :=
  k2_pay8 (View.ld x6 r2_w3)
/-- after the node stack's layers 3..5 -/
def v2_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay9 (v2_150 x0 x1 x2 x3 x4 x5 x6 x7) (v2_153 x0 x1 x2 x3 x4 x5 x6 x7) (v2_154 x6) (constant S1024x128 .f32 0x00000000#32) (View.ld x7 r2_b3) (View.ld x6 r2_w4) (View.ld x7 r2_b4) (View.ld x6 r2_w5) (View.ld x7 r2_b5)
/-- layer 6's sum, before its `tanh` -/
def v2_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay10 (v2_150 x0 x1 x2 x3 x4 x5 x6 x7) (v2_153 x0 x1 x2 x3 x4 x5 x6 x7) (v2_154 x6) (constant S1024x128 .f32 0x00000000#32) (View.ld x7 r2_b3) (View.ld x6 r2_w4) (View.ld x7 r2_b4) (View.ld x6 r2_w5) (View.ld x7 r2_b5) (View.ld x6 r2_w6) (View.ld x7 r2_b6)

/-- Window 8's staging buffer after the body, from the input windows' blocks: its one store, of the whole block. -/
def out2_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r2_x, k2_pay1 (v2_184 x0 x1 x2 x3 x4 x5 x6 x7) (v2_194 x0 x1 x2 x3 x4 x5 x6 x7) (View.ld x6 r2_w7) (View.ld x7 r2_b7) (View.ld x6 r2_w8) (View.ld x7 r2_b8)⟩]

/-- The store tiles the buffer (checked by evaluation), so it covers it. -/
theorem cover2_8 (p0 : Vec F S1024x128 .f32) (y : S1024x128.Idx) :
    ∃ pc ∈ ([⟨r2_x, p0⟩] : List (View.Piece (Elt F) S1024x128 .f32)), y ∈ pc.1.set :=
  View.cover_of_tiled [⟨r2_x, p0⟩] S1024x128.size (by rfl) y

/-! ## The body's triple -/

set_option maxHeartbeats 4000000 in
/-- The kernel body on whole staging memrefs, the inputs' at read contents `xW` and the output's at anything, runs to
    the continuation holding the inputs' as they were and the output's at `out2_8` of the inputs'. -/
theorem sound_kernel2 (c : Dev nD) (E : Set ℕ) (i : grid2.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7)) -∗ K ⟨⟩))
      ⊢ wp frame (wpE (defs₀ (F := F)) Variants.none c none) E (cc2__mlp_step_kernel i arg0 harg0 arg1 harg1 arg2 harg2 arg3 harg3 arg4 harg4 arg5 harg5 arg6 harg6 arg7 harg7 arg8 harg8) K := by
  simp only [cc2__mlp_step_kernel_eq_skeleton, k2_part1_eq_skeleton, k2_part2_eq_skeleton, k2_part3_eq_skeleton, k2_part4_eq_skeleton, k2_part5_eq_skeleton]
  unfold cc2__mlp_step_kernel_skel
  simp only [k2_part1_eq_skeleton, k2_part2_eq_skeleton, k2_part3_eq_skeleton, k2_part4_eq_skeleton, k2_part5_eq_skeleton]
  unfold k2_part1_skel k2_part2_skel k2_part3_skel k2_part4_skel k2_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point
    `t` each input's buffer at its block and the output's at `out2_8` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.K.Region3.lean ====
/- Region 3 of @main (custom_call 3, `cc3__mlp_step_kernel`, pipeline 3) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): unfetched, the block index
    has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): unfetched, the block index
    has not moved; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): unfetched, the block index
    has not moved; the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- the whole `[1024,128]` block (messages, next level, output) -/
abbrev r3_x : Rect S1024x128 := Rect.unit (s := S1024x128) ![0, 0] S1024x128.size inb_S1024x128_S1024x128_0_0
/-- layer `i`'s `[1,128,128]` slice of a `[9,128,128]` weight stack -/
abbrev r3_w0 : Rect S9x128x128 := Rect.unit (s := S9x128x128) ![0, 0, 0] S1x128x128.size inb_S9x128x128_S1x128x128_0_0_0
abbrev r3_w1 : Rect S9x128x128 := Rect.unit (s := S9x128x128) ![1, 0, 0] S1x128x128.size inb_S9x128x128_S1x128x128_1_0_0
abbrev r3_w2 : Rect S9x128x128 := Rect.unit (s := S9x128x128) ![2, 0, 0] S1x128x128.size inb_S9x128x128_S1x128x128_2_0_0
abbrev r3_w3 : Rect S9x128x128 := Rect.unit (s := S9x128x128) ![3, 0, 0] S1x128x128.size inb_S9x128x128_S1x128x128_3_0_0
abbrev r3_w4 : Rect S9x128x128 := Rect.unit (s := S9x128x128) ![4, 0, 0] S1x128x128.size inb_S9x128x128_S1x128x128_4_0_0
abbrev r3_w5 : Rect S9x128x128 := Rect.unit (s := S9x128x128) ![5, 0, 0] S1x128x128.size inb_S9x128x128_S1x128x128_5_0_0
abbrev r3_w6 : Rect S9x128x128 := Rect.unit (s := S9x128x128) ![6, 0, 0] S1x128x128.size inb_S9x128x128_S1x128x128_6_0_0
abbrev r3_w7 : Rect S9x128x128 := Rect.unit (s := S9x128x128) ![7, 0, 0] S1x128x128.size inb_S9x128x128_S1x128x128_7_0_0
abbrev r3_w8 : Rect S9x128x128 := Rect.unit (s := S9x128x128) ![8, 0, 0] S1x128x128.size inb_S9x128x128_S1x128x128_8_0_0
/-- layer `i`'s `[1,128]` slice of a `[9,128]` bias stack -/
abbrev r3_b0 : Rect S9x128 := Rect.unit (s := S9x128) ![0, 0] S1x128.size inb_S9x128_S1x128_0_0
abbrev r3_b1 : Rect S9x128 := Rect.unit (s := S9x128) ![1, 0] S1x128.size inb_S9x128_S1x128_1_0
abbrev r3_b2 : Rect S9x128 := Rect.unit (s := S9x128) ![2, 0] S1x128.size inb_S9x128_S1x128_2_0
abbrev r3_b3 : Rect S9x128 := Rect.unit (s := S9x128) ![3, 0] S1x128.size inb_S9x128_S1x128_3_0
abbrev r3_b4 : Rect S9x128 := Rect.unit (s := S9x128) ![4, 0] S1x128.size inb_S9x128_S1x128_4_0
abbrev r3_b5 : Rect S9x128 := Rect.unit (s := S9x128) ![5, 0] S1x128.size inb_S9x128_S1x128_5_0
abbrev r3_b6 : Rect S9x128 := Rect.unit (s := S9x128) ![6, 0] S1x128.size inb_S9x128_S1x128_6_0
abbrev r3_b7 : Rect S9x128 := Rect.unit (s := S9x128) ![7, 0] S1x128.size inb_S9x128_S1x128_7_0
abbrev r3_b8 : Rect S9x128 := Rect.unit (s := S9x128) ![8, 0] S1x128.size inb_S9x128_S1x128_8_0
/-- the whole `[128,256]` weight and the whole `[128]` bias of the combining layer -/
abbrev r3_n : Rect S128x256 := Rect.unit (s := S128x256) ![0, 0] S128x256.size inb_S128x256_S128x256_0_0
abbrev r3_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v3_35 (x0 : Vec F S1024x128 .f32) (x2 : Vec F S9x128x128 .bf16) (x3 : Vec F S9x128 .f32) : FVec F S1024x128 .f32 :=
  k3_pay2 (View.ld x0 r3_x) (View.ld x2 r3_w0) (View.ld x3 r3_b0) (View.ld x2 r3_w1) (View.ld x3 r3_b1) (View.ld x2 r3_w2) (View.ld x3 r3_b2)
/-- after layers 3..5 -/
def v3_69 (x0 : Vec F S1024x128 .f32) (x2 : Vec F S9x128x128 .bf16) (x3 : Vec F S9x128 .f32) : FVec F S1024x128 .f32 :=
  k3_pay3 (v3_35 x0 x2 x3) (View.ld x2 r3_w3) (View.ld x3 r3_b3) (View.ld x2 r3_w4) (View.ld x3 r3_b4) (View.ld x2 r3_w5) (View.ld x3 r3_b5)
/-- layer 6's product, before its bias -/
def v3_74 (x0 : Vec F S1024x128 .f32) (x2 : Vec F S9x128x128 .bf16) (x3 : Vec F S9x128 .f32) : FVec F S1024x128 .f32 :=
  k3_pay4 (v3_35 x0 x2 x3) (View.ld x2 r3_w3) (View.ld x3 r3_b3) (View.ld x2 r3_w4) (View.ld x3 r3_b4) (View.ld x2 r3_w5) (View.ld x3 r3_b5) (View.ld x2 r3_w6)
/-- after the message stack's layers 6..8 and the combining layer with the next level's block -/
def v3_116 (x0 x1 : Vec F S1024x128 .f32) (x2 : Vec F S9x128x128 .bf16) (x3 : Vec F S9x128 .f32) (x4 : Vec F S128x256 .bf16) (x5 : Vec F S128 .f32) : FVec F S1024x128 .f32 :=
  k3_pay5 (v3_69 x0 x2 x3) (v3_74 x0 x2 x3) (View.ld x3 r3_b6) (View.ld x2 r3_w7) (View.ld x3 r3_b7) (View.ld x2 r3_w8) (View.ld x3 r3_b8) (View.ld x1 r3_x) (View.ld x4 r3_n) (View.ld x5 r3_c)
/-- after the node stack's layers 0..2, -/
def v3_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay6 (v3_116 x0 x1 x2 x3 x4 x5) (View.ld x6 r3_w0) (View.ld x7 r3_b0) (View.ld x6 r3_w1) (View.ld x7 r3_b1) (View.ld x6 r3_w2) (View.ld x7 r3_b2)
/-- the same, narrowed, -/
def v3_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k3_pay7 (v3_116 x0 x1 x2 x3 x4 x5) (View.ld x6 r3_w0) (View.ld x7 r3_b0) (View.ld x6 r3_w1) (View.ld x7 r3_b1) (View.ld x6 r3_w2) (View.ld x7 r3_b2)
/-- and layer 3's weight, transposed -/
def v3_154 (x6 : Vec F S9x128x128 .bf16) : FVec F S128x128 .bf16 :=
  k3_pay8 (View.ld x6 r3_w3)
/-- after the node stack's layers 3..5 -/
def v3_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay9 (v3_150 x0 x1 x2 x3 x4 x5 x6 x7) (v3_153 x0 x1 x2 x3 x4 x5 x6 x7) (v3_154 x6) (constant S1024x128 .f32 0x00000000#32) (View.ld x7 r3_b3) (View.ld x6 r3_w4) (View.ld x7 r3_b4) (View.ld x6 r3_w5) (View.ld x7 r3_b5)
/-- layer 6's sum, before its `tanh` -/
def v3_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay10 (v3_150 x0 x1 x2 x3 x4 x5 x6 x7) (v3_153 x0 x1 x2 x3 x4 x5 x6 x7) (v3_154 x6) (constant S1024x128 .f32 0x00000000#32) (View.ld x7 r3_b3) (View.ld x6 r3_w4) (View.ld x7 r3_b4) (View.ld x6 r3_w5) (View.ld x7 r3_b5) (View.ld x6 r3_w6) (View.ld x7 r3_b6)

/-- Window 8's staging buffer after the body, from the input windows' blocks: its one store, of the whole block. -/
def out3_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r3_x, k3_pay1 (v3_184 x0 x1 x2 x3 x4 x5 x6 x7) (v3_194 x0 x1 x2 x3 x4 x5 x6 x7) (View.ld x6 r3_w7) (View.ld x7 r3_b7) (View.ld x6 r3_w8) (View.ld x7 r3_b8)⟩]

/-- The store tiles the buffer (checked by evaluation), so it covers it. -/
theorem cover3_8 (p0 : Vec F S1024x128 .f32) (y : S1024x128.Idx) :
    ∃ pc ∈ ([⟨r3_x, p0⟩] : List (View.Piece (Elt F) S1024x128 .f32)), y ∈ pc.1.set :=
  View.cover_of_tiled [⟨r3_x, p0⟩] S1024x128.size (by rfl) y

/-! ## The body's triple -/

set_option maxHeartbeats 4000000 in
/-- The kernel body on whole staging memrefs, the inputs' at read contents `xW` and the output's at anything, runs to
    the continuation holding the inputs' as they were and the output's at `out3_8` of the inputs'. -/
theorem sound_kernel3 (c : Dev nD) (E : Set ℕ) (i : grid3.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out3_8 x0 x1 x2 x3 x4 x5 x6 x7)) -∗ K ⟨⟩))
      ⊢ wp frame (wpE (defs₀ (F := F)) Variants.none c none) E (cc3__mlp_step_kernel i arg0 harg0 arg1 harg1 arg2 harg2 arg3 harg3 arg4 harg4 arg5 harg5 arg6 harg6 arg7 harg7 arg8 harg8) K := by
  simp only [cc3__mlp_step_kernel_eq_skeleton, k3_part1_eq_skeleton, k3_part2_eq_skeleton, k3_part3_eq_skeleton, k3_part4_eq_skeleton, k3_part5_eq_skeleton]
  unfold cc3__mlp_step_kernel_skel
  simp only [k3_part1_eq_skeleton, k3_part2_eq_skeleton, k3_part3_eq_skeleton, k3_part4_eq_skeleton, k3_part5_eq_skeleton]
  unfold k3_part1_skel k3_part2_skel k3_part3_skel k3_part4_skel k3_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The proof data of pipeline 3 on core `c`: the arrays as the region finds them (`V`); after the body at point
    `t` each input's buffer at its block and the output's at `out3_8` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand
-- ==== Proof.K.Region4.lean ====
/- Region 4 of @main (custom_call 4, `cc4__mlp_step_kernel`, pipeline 4) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): unfetched, the block index
    has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): unfetched, the block index
    has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof
    data whose array is `V`'s (`hA`) and whose body leaves the block in place (`hafter`): unfetched, the block index
    has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any proof
    data whose array is `V`'s (`hA`) and whose body leaves the block in place (`hafter`): unfetched, the block index
    has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any proof
    data whose array is `V`'s (`hA`) and whose body leaves the block in place (`hafter`): unfetched, the block index
    has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any proof
    data whose array is `V`'s (`hA`) and whose body leaves the block in place (`hafter`): unfetched, the block index
    has not moved; the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- the whole `[1024,128]` block (messages, next level, output) -/
abbrev r4_x : Rect S1024x128 := Rect.unit (s := S1024x128) ![0, 0] S1024x128.size inb_S1024x128_S1024x128_0_0
/-- layer `i`'s `[1,128,128]` slice of a `[9,128,128]` weight stack -/
abbrev r4_w0 : Rect S9x128x128 := Rect.unit (s := S9x128x128) ![0, 0, 0] S1x128x128.size inb_S9x128x128_S1x128x128_0_0_0
abbrev r4_w1 : Rect S9x128x128 := Rect.unit (s := S9x128x128) ![1, 0, 0] S1x128x128.size inb_S9x128x128_S1x128x128_1_0_0
abbrev r4_w2 : Rect S9x128x128 := Rect.unit (s := S9x128x128) ![2, 0, 0] S1x128x128.size inb_S9x128x128_S1x128x128_2_0_0
abbrev r4_w3 : Rect S9x128x128 := Rect.unit (s := S9x128x128) ![3, 0, 0] S1x128x128.size inb_S9x128x128_S1x128x128_3_0_0
abbrev r4_w4 : Rect S9x128x128 := Rect.unit (s := S9x128x128) ![4, 0, 0] S1x128x128.size inb_S9x128x128_S1x128x128_4_0_0
abbrev r4_w5 : Rect S9x128x128 := Rect.unit (s := S9x128x128) ![5, 0, 0] S1x128x128.size inb_S9x128x128_S1x128x128_5_0_0
abbrev r4_w6 : Rect S9x128x128 := Rect.unit (s := S9x128x128) ![6, 0, 0] S1x128x128.size inb_S9x128x128_S1x128x128_6_0_0
abbrev r4_w7 : Rect S9x128x128 := Rect.unit (s := S9x128x128) ![7, 0, 0] S1x128x128.size inb_S9x128x128_S1x128x128_7_0_0
abbrev r4_w8 : Rect S9x128x128 := Rect.unit (s := S9x128x128) ![8, 0, 0] S1x128x128.size inb_S9x128x128_S1x128x128_8_0_0
/-- layer `i`'s `[1,128]` slice of a `[9,128]` bias stack -/
abbrev r4_b0 : Rect S9x128 := Rect.unit (s := S9x128) ![0, 0] S1x128.size inb_S9x128_S1x128_0_0
abbrev r4_b1 : Rect S9x128 := Rect.unit (s := S9x128) ![1, 0] S1x128.size inb_S9x128_S1x128_1_0
abbrev r4_b2 : Rect S9x128 := Rect.unit (s := S9x128) ![2, 0] S1x128.size inb_S9x128_S1x128_2_0
abbrev r4_b3 : Rect S9x128 := Rect.unit (s := S9x128) ![3, 0] S1x128.size inb_S9x128_S1x128_3_0
abbrev r4_b4 : Rect S9x128 := Rect.unit (s := S9x128) ![4, 0] S1x128.size inb_S9x128_S1x128_4_0
abbrev r4_b5 : Rect S9x128 := Rect.unit (s := S9x128) ![5, 0] S1x128.size inb_S9x128_S1x128_5_0
abbrev r4_b6 : Rect S9x128 := Rect.unit (s := S9x128) ![6, 0] S1x128.size inb_S9x128_S1x128_6_0
abbrev r4_b7 : Rect S9x128 := Rect.unit (s := S9x128) ![7, 0] S1x128.size inb_S9x128_S1x128_7_0
abbrev r4_b8 : Rect S9x128 := Rect.unit (s := S9x128) ![8, 0] S1x128.size inb_S9x128_S1x128_8_0
/-- the whole `[128,256]` weight and the whole `[128]` bias of the combining layer -/
abbrev r4_n : Rect S128x256 := Rect.unit (s := S128x256) ![0, 0] S128x256.size inb_S128x256_S128x256_0_0
abbrev r4_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v4_35 (x0 : Vec F S1024x128 .f32) (x2 : Vec F S9x128x128 .bf16) (x3 : Vec F S9x128 .f32) : FVec F S1024x128 .f32 :=
  k4_pay2 (View.ld x0 r4_x) (View.ld x2 r4_w0) (View.ld x3 r4_b0) (View.ld x2 r4_w1) (View.ld x3 r4_b1) (View.ld x2 r4_w2) (View.ld x3 r4_b2)
/-- after layers 3..5 -/
def v4_69 (x0 : Vec F S1024x128 .f32) (x2 : Vec F S9x128x128 .bf16) (x3 : Vec F S9x128 .f32) : FVec F S1024x128 .f32 :=
  k4_pay3 (v4_35 x0 x2 x3) (View.ld x2 r4_w3) (View.ld x3 r4_b3) (View.ld x2 r4_w4) (View.ld x3 r4_b4) (View.ld x2 r4_w5) (View.ld x3 r4_b5)
/-- layer 6's product, before its bias -/
def v4_74 (x0 : Vec F S1024x128 .f32) (x2 : Vec F S9x128x128 .bf16) (x3 : Vec F S9x128 .f32) : FVec F S1024x128 .f32 :=
  k4_pay4 (v4_35 x0 x2 x3) (View.ld x2 r4_w3) (View.ld x3 r4_b3) (View.ld x2 r4_w4) (View.ld x3 r4_b4) (View.ld x2 r4_w5) (View.ld x3 r4_b5) (View.ld x2 r4_w6)
/-- after the message stack's layers 6..8 and the combining layer with the next level's block -/
def v4_116 (x0 x1 : Vec F S1024x128 .f32) (x2 : Vec F S9x128x128 .bf16) (x3 : Vec F S9x128 .f32) (x4 : Vec F S128x256 .bf16) (x5 : Vec F S128 .f32) : FVec F S1024x128 .f32 :=
  k4_pay5 (v4_69 x0 x2 x3) (v4_74 x0 x2 x3) (View.ld x3 r4_b6) (View.ld x2 r4_w7) (View.ld x3 r4_b7) (View.ld x2 r4_w8) (View.ld x3 r4_b8) (View.ld x1 r4_x) (View.ld x4 r4_n) (View.ld x5 r4_c)
/-- after the node stack's layers 0..2, -/
def v4_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay6 (v4_116 x0 x1 x2 x3 x4 x5) (View.ld x6 r4_w0) (View.ld x7 r4_b0) (View.ld x6 r4_w1) (View.ld x7 r4_b1) (View.ld x6 r4_w2) (View.ld x7 r4_b2)
/-- the same, narrowed, -/
def v4_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k4_pay7 (v4_116 x0 x1 x2 x3 x4 x5) (View.ld x6 r4_w0) (View.ld x7 r4_b0) (View.ld x6 r4_w1) (View.ld x7 r4_b1) (View.ld x6 r4_w2) (View.ld x7 r4_b2)
/-- and layer 3's weight, transposed -/
def v4_154 (x6 : Vec F S9x128x128 .bf16) : FVec F S128x128 .bf16 :=
  k4_pay8 (View.ld x6 r4_w3)
/-- after the node stack's layers 3..5 -/
def v4_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay9 (v4_150 x0 x1 x2 x3 x4 x5 x6 x7) (v4_153 x0 x1 x2 x3 x4 x5 x6 x7) (v4_154 x6) (constant S1024x128 .f32 0x00000000#32) (View.ld x7 r4_b3) (View.ld x6 r4_w4) (View.ld x7 r4_b4) (View.ld x6 r4_w5) (View.ld x7 r4_b5)
/-- layer 6's sum, before its `tanh` -/
def v4_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay10 (v4_150 x0 x1 x2 x3 x4 x5 x6 x7) (v4_153 x0 x1 x2 x3 x4 x5 x6 x7) (v4_154 x6) (constant S1024x128 .f32 0x00000000#32) (View.ld x7 r4_b3) (View.ld x6 r4_w4) (View.ld x7 r4_b4) (View.ld x6 r4_w5) (View.ld x7 r4_b5) (View.ld x6 r4_w6) (View.ld x7 r4_b6)

/-- Window 8's staging buffer after the body, from the input windows' blocks: its one store, of the whole block. -/
def out4_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r4_x, k4_pay1 (v4_184 x0 x1 x2 x3 x4 x5 x6 x7) (v4_194 x0 x1 x2 x3 x4 x5 x6 x7) (View.ld x6 r4_w7) (View.ld x7 r4_b7) (View.ld x6 r4_w8) (View.ld x7 r4_b8)⟩]

/-- The store tiles the buffer (checked by evaluation), so it covers it. -/
theorem cover4_8 (p0 : Vec F S1024x128 .f32) (y : S1024x128.Idx) :
    ∃ pc ∈ ([⟨r4_x, p0⟩] : List (View.Piece (Elt F) S1024x128 .f32)), y ∈ pc.1.set :=
  View.cover_of_tiled [⟨r4_x, p0⟩] S1024x128.size (by rfl) y

/-! ## The body's triple -/

set_option maxHeartbeats 4000000 in
/-- The kernel body on whole staging memrefs, the inputs' at read contents `xW` and the output's at anything, runs to
    the continuation holding the inputs' as they were and the output's at `out4_8` of the inputs'. -/
theorem sound_kernel4 (c : Dev nD) (E : Set ℕ) (i : grid4.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out4_8 x0 x1 x2 x3 x4 x5 x6 x7)) -∗ K ⟨⟩))
      ⊢ wp frame (wpE (defs₀ (F := F)) Variants.none c none) E (cc4__mlp_step_kernel i arg0 harg0 arg1 harg1 arg2 harg2 arg3 harg3 arg4 harg4 arg5 harg5 arg6 harg6 arg7 harg7 arg8 harg8) K := by
  simp only [cc4__mlp_step_kernel_eq_skeleton, k4_part1_eq_skeleton, k4_part2_eq_skeleton, k4_part3_eq_skeleton, k4_part4_eq_skeleton, k4_part5_eq_skeleton]
  unfold cc4__mlp_step_kernel_skel
  simp only [k4_part1_eq_skeleton, k4_part2_eq_skeleton, k4_part3_eq_skeleton, k4_part4_eq_skeleton, k4_part5_eq_skeleton]
  unfold k4_part1_skel k4_part2_skel k4_part3_skel k4_part4_skel k4_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_8 _)

/-! ## The pipeline's proof data -/

/-- The proof data of pipeline 4 on core `c`: the arrays as the region finds them (`V`); after the body at point
    `t` each input's buffer at its block and the output's at `out4_8` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.K.Region5.lean ====
/- Region 5 of @main (custom_call 5, `cc5__mlp_step_kernel`, pipeline 5) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is `V`'s (`hA`) and whose body leaves the block in place (`hafter`): unfetched, the block index
    has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof
    data whose array is `V`'s (`hA`) and whose body leaves the block in place (`hafter`): unfetched, the block index
    has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof
    data whose array is `V`'s (`hA`) and whose body leaves the block in place (`hafter`): unfetched, the block index
    has not moved; the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- the whole `[1024,128]` block (messages, next level, output) -/
abbrev r5_x : Rect S1024x128 := Rect.unit (s := S1024x128) ![0, 0] S1024x128.size inb_S1024x128_S1024x128_0_0
/-- layer `i`'s `[1,128,128]` slice of a `[9,128,128]` weight stack -/
abbrev r5_w0 : Rect S9x128x128 := Rect.unit (s := S9x128x128) ![0, 0, 0] S1x128x128.size inb_S9x128x128_S1x128x128_0_0_0
abbrev r5_w1 : Rect S9x128x128 := Rect.unit (s := S9x128x128) ![1, 0, 0] S1x128x128.size inb_S9x128x128_S1x128x128_1_0_0
abbrev r5_w2 : Rect S9x128x128 := Rect.unit (s := S9x128x128) ![2, 0, 0] S1x128x128.size inb_S9x128x128_S1x128x128_2_0_0
abbrev r5_w3 : Rect S9x128x128 := Rect.unit (s := S9x128x128) ![3, 0, 0] S1x128x128.size inb_S9x128x128_S1x128x128_3_0_0
abbrev r5_w4 : Rect S9x128x128 := Rect.unit (s := S9x128x128) ![4, 0, 0] S1x128x128.size inb_S9x128x128_S1x128x128_4_0_0
abbrev r5_w5 : Rect S9x128x128 := Rect.unit (s := S9x128x128) ![5, 0, 0] S1x128x128.size inb_S9x128x128_S1x128x128_5_0_0
abbrev r5_w6 : Rect S9x128x128 := Rect.unit (s := S9x128x128) ![6, 0, 0] S1x128x128.size inb_S9x128x128_S1x128x128_6_0_0
abbrev r5_w7 : Rect S9x128x128 := Rect.unit (s := S9x128x128) ![7, 0, 0] S1x128x128.size inb_S9x128x128_S1x128x128_7_0_0
abbrev r5_w8 : Rect S9x128x128 := Rect.unit (s := S9x128x128) ![8, 0, 0] S1x128x128.size inb_S9x128x128_S1x128x128_8_0_0
/-- layer `i`'s `[1,128]` slice of a `[9,128]` bias stack -/
abbrev r5_b0 : Rect S9x128 := Rect.unit (s := S9x128) ![0, 0] S1x128.size inb_S9x128_S1x128_0_0
abbrev r5_b1 : Rect S9x128 := Rect.unit (s := S9x128) ![1, 0] S1x128.size inb_S9x128_S1x128_1_0
abbrev r5_b2 : Rect S9x128 := Rect.unit (s := S9x128) ![2, 0] S1x128.size inb_S9x128_S1x128_2_0
abbrev r5_b3 : Rect S9x128 := Rect.unit (s := S9x128) ![3, 0] S1x128.size inb_S9x128_S1x128_3_0
abbrev r5_b4 : Rect S9x128 := Rect.unit (s := S9x128) ![4, 0] S1x128.size inb_S9x128_S1x128_4_0
abbrev r5_b5 : Rect S9x128 := Rect.unit (s := S9x128) ![5, 0] S1x128.size inb_S9x128_S1x128_5_0
abbrev r5_b6 : Rect S9x128 := Rect.unit (s := S9x128) ![6, 0] S1x128.size inb_S9x128_S1x128_6_0
abbrev r5_b7 : Rect S9x128 := Rect.unit (s := S9x128) ![7, 0] S1x128.size inb_S9x128_S1x128_7_0
abbrev r5_b8 : Rect S9x128 := Rect.unit (s := S9x128) ![8, 0] S1x128.size inb_S9x128_S1x128_8_0
/-- the whole `[128,256]` weight and the whole `[128]` bias of the combining layer -/
abbrev r5_n : Rect S128x256 := Rect.unit (s := S128x256) ![0, 0] S128x256.size inb_S128x256_S128x256_0_0
abbrev r5_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v5_35 (x0 : Vec F S1024x128 .f32) (x2 : Vec F S9x128x128 .bf16) (x3 : Vec F S9x128 .f32) : FVec F S1024x128 .f32 :=
  k5_pay2 (View.ld x0 r5_x) (View.ld x2 r5_w0) (View.ld x3 r5_b0) (View.ld x2 r5_w1) (View.ld x3 r5_b1) (View.ld x2 r5_w2) (View.ld x3 r5_b2)
/-- after layers 3..5 -/
def v5_69 (x0 : Vec F S1024x128 .f32) (x2 : Vec F S9x128x128 .bf16) (x3 : Vec F S9x128 .f32) : FVec F S1024x128 .f32 :=
  k5_pay3 (v5_35 x0 x2 x3) (View.ld x2 r5_w3) (View.ld x3 r5_b3) (View.ld x2 r5_w4) (View.ld x3 r5_b4) (View.ld x2 r5_w5) (View.ld x3 r5_b5)
/-- layer 6's product, before its bias -/
def v5_74 (x0 : Vec F S1024x128 .f32) (x2 : Vec F S9x128x128 .bf16) (x3 : Vec F S9x128 .f32) : FVec F S1024x128 .f32 :=
  k5_pay4 (v5_35 x0 x2 x3) (View.ld x2 r5_w3) (View.ld x3 r5_b3) (View.ld x2 r5_w4) (View.ld x3 r5_b4) (View.ld x2 r5_w5) (View.ld x3 r5_b5) (View.ld x2 r5_w6)
/-- after the message stack's layers 6..8 and the combining layer with the next level's block -/
def v5_116 (x0 x1 : Vec F S1024x128 .f32) (x2 : Vec F S9x128x128 .bf16) (x3 : Vec F S9x128 .f32) (x4 : Vec F S128x256 .bf16) (x5 : Vec F S128 .f32) : FVec F S1024x128 .f32 :=
  k5_pay5 (v5_69 x0 x2 x3) (v5_74 x0 x2 x3) (View.ld x3 r5_b6) (View.ld x2 r5_w7) (View.ld x3 r5_b7) (View.ld x2 r5_w8) (View.ld x3 r5_b8) (View.ld x1 r5_x) (View.ld x4 r5_n) (View.ld x5 r5_c)
/-- after the node stack's layers 0..2, -/
def v5_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay6 (v5_116 x0 x1 x2 x3 x4 x5) (View.ld x6 r5_w0) (View.ld x7 r5_b0) (View.ld x6 r5_w1) (View.ld x7 r5_b1) (View.ld x6 r5_w2) (View.ld x7 r5_b2)
/-- the same, narrowed, -/
def v5_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k5_pay7 (v5_116 x0 x1 x2 x3 x4 x5) (View.ld x6 r5_w0) (View.ld x7 r5_b0) (View.ld x6 r5_w1) (View.ld x7 r5_b1) (View.ld x6 r5_w2) (View.ld x7 r5_b2)
/-- and layer 3's weight, transposed -/
def v5_154 (x6 : Vec F S9x128x128 .bf16) : FVec F S128x128 .bf16 :=
  k5_pay8 (View.ld x6 r5_w3)
/-- after the node stack's layers 3..5 -/
def v5_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay9 (v5_150 x0 x1 x2 x3 x4 x5 x6 x7) (v5_153 x0 x1 x2 x3 x4 x5 x6 x7) (v5_154 x6) (constant S1024x128 .f32 0x00000000#32) (View.ld x7 r5_b3) (View.ld x6 r5_w4) (View.ld x7 r5_b4) (View.ld x6 r5_w5) (View.ld x7 r5_b5)
/-- layer 6's sum, before its `tanh` -/
def v5_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay10 (v5_150 x0 x1 x2 x3 x4 x5 x6 x7) (v5_153 x0 x1 x2 x3 x4 x5 x6 x7) (v5_154 x6) (constant S1024x128 .f32 0x00000000#32) (View.ld x7 r5_b3) (View.ld x6 r5_w4) (View.ld x7 r5_b4) (View.ld x6 r5_w5) (View.ld x7 r5_b5) (View.ld x6 r5_w6) (View.ld x7 r5_b6)

/-- Window 8's staging buffer after the body, from the input windows' blocks: its one store, of the whole block. -/
def out5_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r5_x, k5_pay1 (v5_184 x0 x1 x2 x3 x4 x5 x6 x7) (v5_194 x0 x1 x2 x3 x4 x5 x6 x7) (View.ld x6 r5_w7) (View.ld x7 r5_b7) (View.ld x6 r5_w8) (View.ld x7 r5_b8)⟩]

/-- The store tiles the buffer (checked by evaluation), so it covers it. -/
theorem cover5_8 (p0 : Vec F S1024x128 .f32) (y : S1024x128.Idx) :
    ∃ pc ∈ ([⟨r5_x, p0⟩] : List (View.Piece (Elt F) S1024x128 .f32)), y ∈ pc.1.set :=
  View.cover_of_tiled [⟨r5_x, p0⟩] S1024x128.size (by rfl) y

/-! ## The body's triple -/

set_option maxHeartbeats 4000000 in
/-- The kernel body on whole staging memrefs, the inputs' at read contents `xW` and the output's at anything, runs to
    the continuation holding the inputs' as they were and the output's at `out5_8` of the inputs'. -/
theorem sound_kernel5 (c : Dev nD) (E : Set ℕ) (i : grid5.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7)) -∗ K ⟨⟩))
      ⊢ wp frame (wpE (defs₀ (F := F)) Variants.none c none) E (cc5__mlp_step_kernel i arg0 harg0 arg1 harg1 arg2 harg2 arg3 harg3 arg4 harg4 arg5 harg5 arg6 harg6 arg7 harg7 arg8 harg8) K := by
  simp only [cc5__mlp_step_kernel_eq_skeleton, k5_part1_eq_skeleton, k5_part2_eq_skeleton, k5_part3_eq_skeleton, k5_part4_eq_skeleton, k5_part5_eq_skeleton]
  unfold cc5__mlp_step_kernel_skel
  simp only [k5_part1_eq_skeleton, k5_part2_eq_skeleton, k5_part3_eq_skeleton, k5_part4_eq_skeleton, k5_part5_eq_skeleton]
  unfold k5_part1_skel k5_part2_skel k5_part3_skel k5_part4_skel k5_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5_8 _)

/-! ## The pipeline's proof data -/

/-- The proof data of pipeline 5 on core `c`: the arrays as the region finds them (`V`); after the body at point
    `t` each input's buffer at its block and the output's at `out5_8` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand
-- ==== Proof.K.Region6.lean ====
/- Region 6 of @main (custom_call 6, `cc6__mlp_step_kernel`, pipeline 6) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof
    data whose array is `V`'s (`hA`) and whose body leaves the block in place (`hafter`): unfetched, the block index
    has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof
    data whose array is `V`'s (`hA`) and whose body leaves the block in place (`hafter`): unfetched, the block index
    has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for any proof
    data whose array is `V`'s (`hA`) and whose body leaves the block in place (`hafter`): unfetched, the block index
    has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not, for any proof
    data whose array is `V`'s (`hA`) and whose body leaves the block in place (`hafter`): unfetched, the block index
    has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not, for any proof
    data whose array is `V`'s (`hA`) and whose body leaves the block in place (`hafter`): unfetched, the block index
    has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not, for any proof
    data whose array is `V`'s (`hA`) and whose body leaves the block in place (`hafter`): unfetched, the block index
    has not moved; the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not, for any proof
    data whose array is `V`'s (`hA`) and whose body leaves the block in place (`hafter`): unfetched, the block index
    has not moved; the window is uncut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- the whole `[1024,128]` block (messages, next level, output) -/
abbrev r6_x : Rect S1024x128 := Rect.unit (s := S1024x128) ![0, 0] S1024x128.size inb_S1024x128_S1024x128_0_0
/-- layer `i`'s `[1,128,128]` slice of a `[9,128,128]` weight stack -/
abbrev r6_w0 : Rect S9x128x128 := Rect.unit (s := S9x128x128) ![0, 0, 0] S1x128x128.size inb_S9x128x128_S1x128x128_0_0_0
abbrev r6_w1 : Rect S9x128x128 := Rect.unit (s := S9x128x128) ![1, 0, 0] S1x128x128.size inb_S9x128x128_S1x128x128_1_0_0
abbrev r6_w2 : Rect S9x128x128 := Rect.unit (s := S9x128x128) ![2, 0, 0] S1x128x128.size inb_S9x128x128_S1x128x128_2_0_0
abbrev r6_w3 : Rect S9x128x128 := Rect.unit (s := S9x128x128) ![3, 0, 0] S1x128x128.size inb_S9x128x128_S1x128x128_3_0_0
abbrev r6_w4 : Rect S9x128x128 := Rect.unit (s := S9x128x128) ![4, 0, 0] S1x128x128.size inb_S9x128x128_S1x128x128_4_0_0
abbrev r6_w5 : Rect S9x128x128 := Rect.unit (s := S9x128x128) ![5, 0, 0] S1x128x128.size inb_S9x128x128_S1x128x128_5_0_0
abbrev r6_w6 : Rect S9x128x128 := Rect.unit (s := S9x128x128) ![6, 0, 0] S1x128x128.size inb_S9x128x128_S1x128x128_6_0_0
abbrev r6_w7 : Rect S9x128x128 := Rect.unit (s := S9x128x128) ![7, 0, 0] S1x128x128.size inb_S9x128x128_S1x128x128_7_0_0
abbrev r6_w8 : Rect S9x128x128 := Rect.unit (s := S9x128x128) ![8, 0, 0] S1x128x128.size inb_S9x128x128_S1x128x128_8_0_0
/-- layer `i`'s `[1,128]` slice of a `[9,128]` bias stack -/
abbrev r6_b0 : Rect S9x128 := Rect.unit (s := S9x128) ![0, 0] S1x128.size inb_S9x128_S1x128_0_0
abbrev r6_b1 : Rect S9x128 := Rect.unit (s := S9x128) ![1, 0] S1x128.size inb_S9x128_S1x128_1_0
abbrev r6_b2 : Rect S9x128 := Rect.unit (s := S9x128) ![2, 0] S1x128.size inb_S9x128_S1x128_2_0
abbrev r6_b3 : Rect S9x128 := Rect.unit (s := S9x128) ![3, 0] S1x128.size inb_S9x128_S1x128_3_0
abbrev r6_b4 : Rect S9x128 := Rect.unit (s := S9x128) ![4, 0] S1x128.size inb_S9x128_S1x128_4_0
abbrev r6_b5 : Rect S9x128 := Rect.unit (s := S9x128) ![5, 0] S1x128.size inb_S9x128_S1x128_5_0
abbrev r6_b6 : Rect S9x128 := Rect.unit (s := S9x128) ![6, 0] S1x128.size inb_S9x128_S1x128_6_0
abbrev r6_b7 : Rect S9x128 := Rect.unit (s := S9x128) ![7, 0] S1x128.size inb_S9x128_S1x128_7_0
abbrev r6_b8 : Rect S9x128 := Rect.unit (s := S9x128) ![8, 0] S1x128.size inb_S9x128_S1x128_8_0
/-- the whole `[128,256]` weight and the whole `[128]` bias of the combining layer -/
abbrev r6_n : Rect S128x256 := Rect.unit (s := S128x256) ![0, 0] S128x256.size inb_S128x256_S128x256_0_0
abbrev r6_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v6_35 (x0 : Vec F S1024x128 .f32) (x2 : Vec F S9x128x128 .bf16) (x3 : Vec F S9x128 .f32) : FVec F S1024x128 .f32 :=
  k6_pay2 (View.ld x0 r6_x) (View.ld x2 r6_w0) (View.ld x3 r6_b0) (View.ld x2 r6_w1) (View.ld x3 r6_b1) (View.ld x2 r6_w2) (View.ld x3 r6_b2)
/-- after layers 3..5 -/
def v6_69 (x0 : Vec F S1024x128 .f32) (x2 : Vec F S9x128x128 .bf16) (x3 : Vec F S9x128 .f32) : FVec F S1024x128 .f32 :=
  k6_pay3 (v6_35 x0 x2 x3) (View.ld x2 r6_w3) (View.ld x3 r6_b3) (View.ld x2 r6_w4) (View.ld x3 r6_b4) (View.ld x2 r6_w5) (View.ld x3 r6_b5)
/-- layer 6's product, before its bias -/
def v6_74 (x0 : Vec F S1024x128 .f32) (x2 : Vec F S9x128x128 .bf16) (x3 : Vec F S9x128 .f32) : FVec F S1024x128 .f32 :=
  k6_pay4 (v6_35 x0 x2 x3) (View.ld x2 r6_w3) (View.ld x3 r6_b3) (View.ld x2 r6_w4) (View.ld x3 r6_b4) (View.ld x2 r6_w5) (View.ld x3 r6_b5) (View.ld x2 r6_w6)
/-- after the message stack's layers 6..8 and the combining layer with the next level's block -/
def v6_116 (x0 x1 : Vec F S1024x128 .f32) (x2 : Vec F S9x128x128 .bf16) (x3 : Vec F S9x128 .f32) (x4 : Vec F S128x256 .bf16) (x5 : Vec F S128 .f32) : FVec F S1024x128 .f32 :=
  k6_pay5 (v6_69 x0 x2 x3) (v6_74 x0 x2 x3) (View.ld x3 r6_b6) (View.ld x2 r6_w7) (View.ld x3 r6_b7) (View.ld x2 r6_w8) (View.ld x3 r6_b8) (View.ld x1 r6_x) (View.ld x4 r6_n) (View.ld x5 r6_c)
/-- after the node stack's layers 0..2, -/
def v6_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay6 (v6_116 x0 x1 x2 x3 x4 x5) (View.ld x6 r6_w0) (View.ld x7 r6_b0) (View.ld x6 r6_w1) (View.ld x7 r6_b1) (View.ld x6 r6_w2) (View.ld x7 r6_b2)
/-- the same, narrowed, -/
def v6_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k6_pay7 (v6_116 x0 x1 x2 x3 x4 x5) (View.ld x6 r6_w0) (View.ld x7 r6_b0) (View.ld x6 r6_w1) (View.ld x7 r6_b1) (View.ld x6 r6_w2) (View.ld x7 r6_b2)
/-- and layer 3's weight, transposed -/
def v6_154 (x6 : Vec F S9x128x128 .bf16) : FVec F S128x128 .bf16 :=
  k6_pay8 (View.ld x6 r6_w3)
/-- after the node stack's layers 3..5 -/
def v6_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay9 (v6_150 x0 x1 x2 x3 x4 x5 x6 x7) (v6_153 x0 x1 x2 x3 x4 x5 x6 x7) (v6_154 x6) (constant S1024x128 .f32 0x00000000#32) (View.ld x7 r6_b3) (View.ld x6 r6_w4) (View.ld x7 r6_b4) (View.ld x6 r6_w5) (View.ld x7 r6_b5)
/-- layer 6's sum, before its `tanh` -/
def v6_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay10 (v6_150 x0 x1 x2 x3 x4 x5 x6 x7) (v6_153 x0 x1 x2 x3 x4 x5 x6 x7) (v6_154 x6) (constant S1024x128 .f32 0x00000000#32) (View.ld x7 r6_b3) (View.ld x6 r6_w4) (View.ld x7 r6_b4) (View.ld x6 r6_w5) (View.ld x7 r6_b5) (View.ld x6 r6_w6) (View.ld x7 r6_b6)

/-- Window 8's staging buffer after the body, from the input windows' blocks: its one store, of the whole block. -/
def out6_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r6_x, k6_pay1 (v6_184 x0 x1 x2 x3 x4 x5 x6 x7) (v6_194 x0 x1 x2 x3 x4 x5 x6 x7) (View.ld x6 r6_w7) (View.ld x7 r6_b7) (View.ld x6 r6_w8) (View.ld x7 r6_b8)⟩]

/-- The store tiles the buffer (checked by evaluation), so it covers it. -/
theorem cover6_8 (p0 : Vec F S1024x128 .f32) (y : S1024x128.Idx) :
    ∃ pc ∈ ([⟨r6_x, p0⟩] : List (View.Piece (Elt F) S1024x128 .f32)), y ∈ pc.1.set :=
  View.cover_of_tiled [⟨r6_x, p0⟩] S1024x128.size (by rfl) y

/-! ## The body's triple -/

set_option maxHeartbeats 4000000 in
/-- The kernel body on whole staging memrefs, the inputs' at read contents `xW` and the output's at anything, runs to
    the continuation holding the inputs' as they were and the output's at `out6_8` of the inputs'. -/
theorem sound_kernel6 (c : Dev nD) (E : Set ℕ) (i : grid6.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6_8 x0 x1 x2 x3 x4 x5 x6 x7)) -∗ K ⟨⟩))
      ⊢ wp frame (wpE (defs₀ (F := F)) Variants.none c none) E (cc6__mlp_step_kernel i arg0 harg0 arg1 harg1 arg2 harg2 arg3 harg3 arg4 harg4 arg5 harg5 arg6 harg6 arg7 harg7 arg8 harg8) K := by
  simp only [cc6__mlp_step_kernel_eq_skeleton, k6_part1_eq_skeleton, k6_part2_eq_skeleton, k6_part3_eq_skeleton, k6_part4_eq_skeleton, k6_part5_eq_skeleton]
  unfold cc6__mlp_step_kernel_skel
  simp only [k6_part1_eq_skeleton, k6_part2_eq_skeleton, k6_part3_eq_skeleton, k6_part4_eq_skeleton, k6_part5_eq_skeleton]
  unfold k6_part1_skel k6_part2_skel k6_part3_skel k6_part4_skel k6_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover6_8 _)

/-! ## The pipeline's proof data -/

/-- The proof data of pipeline 6 on core `c`: the arrays as the region finds them (`V`); after the body at point
    `t` each input's buffer at its block and the output's at `out6_8` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Hand
-- ==== Proof.K.Region7.lean ====
/- Region 7 of @main (custom_call 7, `cc7__mlp_step_kernel`, pipeline 7) at the contents `V` the TensorCore's
   buffers hold when the region is entered: each window's block at a point, the buffer the body leaves in the output
   window as a function of the input blocks, the body's triple, the pipeline's proof data and the body obligation. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof
    data whose array is `V`'s (`hA`) and whose body leaves the block in place (`hafter`): unfetched, the block index
    has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof
    data whose array is `V`'s (`hA`) and whose body leaves the block in place (`hafter`): unfetched, the block index
    has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof
    data whose array is `V`'s (`hA`) and whose body leaves the block in place (`hafter`): unfetched, the block index
    has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof
    data whose array is `V`'s (`hA`) and whose body leaves the block in place (`hafter`): unfetched, the block index
    has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof
    data whose array is `V`'s (`hA`) and whose body leaves the block in place (`hafter`): unfetched, the block index
    has not moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof
    data whose array is `V`'s (`hA`) and whose body leaves the block in place (`hafter`): unfetched, the block index
    has not moved; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof
    data whose array is `V`'s (`hA`) and whose body leaves the block in place (`hafter`): unfetched, the block index
    has not moved; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- the whole `[1024,128]` block (messages, next level, output) -/
abbrev r7_x : Rect S1024x128 := Rect.unit (s := S1024x128) ![0, 0] S1024x128.size inb_S1024x128_S1024x128_0_0
/-- layer `i`'s `[1,128,128]` slice of a `[9,128,128]` weight stack -/
abbrev r7_w0 : Rect S9x128x128 := Rect.unit (s := S9x128x128) ![0, 0, 0] S1x128x128.size inb_S9x128x128_S1x128x128_0_0_0
abbrev r7_w1 : Rect S9x128x128 := Rect.unit (s := S9x128x128) ![1, 0, 0] S1x128x128.size inb_S9x128x128_S1x128x128_1_0_0
abbrev r7_w2 : Rect S9x128x128 := Rect.unit (s := S9x128x128) ![2, 0, 0] S1x128x128.size inb_S9x128x128_S1x128x128_2_0_0
abbrev r7_w3 : Rect S9x128x128 := Rect.unit (s := S9x128x128) ![3, 0, 0] S1x128x128.size inb_S9x128x128_S1x128x128_3_0_0
abbrev r7_w4 : Rect S9x128x128 := Rect.unit (s := S9x128x128) ![4, 0, 0] S1x128x128.size inb_S9x128x128_S1x128x128_4_0_0
abbrev r7_w5 : Rect S9x128x128 := Rect.unit (s := S9x128x128) ![5, 0, 0] S1x128x128.size inb_S9x128x128_S1x128x128_5_0_0
abbrev r7_w6 : Rect S9x128x128 := Rect.unit (s := S9x128x128) ![6, 0, 0] S1x128x128.size inb_S9x128x128_S1x128x128_6_0_0
abbrev r7_w7 : Rect S9x128x128 := Rect.unit (s := S9x128x128) ![7, 0, 0] S1x128x128.size inb_S9x128x128_S1x128x128_7_0_0
abbrev r7_w8 : Rect S9x128x128 := Rect.unit (s := S9x128x128) ![8, 0, 0] S1x128x128.size inb_S9x128x128_S1x128x128_8_0_0
/-- layer `i`'s `[1,128]` slice of a `[9,128]` bias stack -/
abbrev r7_b0 : Rect S9x128 := Rect.unit (s := S9x128) ![0, 0] S1x128.size inb_S9x128_S1x128_0_0
abbrev r7_b1 : Rect S9x128 := Rect.unit (s := S9x128) ![1, 0] S1x128.size inb_S9x128_S1x128_1_0
abbrev r7_b2 : Rect S9x128 := Rect.unit (s := S9x128) ![2, 0] S1x128.size inb_S9x128_S1x128_2_0
abbrev r7_b3 : Rect S9x128 := Rect.unit (s := S9x128) ![3, 0] S1x128.size inb_S9x128_S1x128_3_0
abbrev r7_b4 : Rect S9x128 := Rect.unit (s := S9x128) ![4, 0] S1x128.size inb_S9x128_S1x128_4_0
abbrev r7_b5 : Rect S9x128 := Rect.unit (s := S9x128) ![5, 0] S1x128.size inb_S9x128_S1x128_5_0
abbrev r7_b6 : Rect S9x128 := Rect.unit (s := S9x128) ![6, 0] S1x128.size inb_S9x128_S1x128_6_0
abbrev r7_b7 : Rect S9x128 := Rect.unit (s := S9x128) ![7, 0] S1x128.size inb_S9x128_S1x128_7_0
abbrev r7_b8 : Rect S9x128 := Rect.unit (s := S9x128) ![8, 0] S1x128.size inb_S9x128_S1x128_8_0
/-- the whole `[128,256]` weight and the whole `[128]` bias of the combining layer -/
abbrev r7_n : Rect S128x256 := Rect.unit (s := S128x256) ![0, 0] S128x256.size inb_S128x256_S128x256_0_0
abbrev r7_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v7_35 (x0 : Vec F S1024x128 .f32) (x2 : Vec F S9x128x128 .bf16) (x3 : Vec F S9x128 .f32) : FVec F S1024x128 .f32 :=
  k7_pay2 (View.ld x0 r7_x) (View.ld x2 r7_w0) (View.ld x3 r7_b0) (View.ld x2 r7_w1) (View.ld x3 r7_b1) (View.ld x2 r7_w2) (View.ld x3 r7_b2)
/-- after layers 3..5 -/
def v7_69 (x0 : Vec F S1024x128 .f32) (x2 : Vec F S9x128x128 .bf16) (x3 : Vec F S9x128 .f32) : FVec F S1024x128 .f32 :=
  k7_pay3 (v7_35 x0 x2 x3) (View.ld x2 r7_w3) (View.ld x3 r7_b3) (View.ld x2 r7_w4) (View.ld x3 r7_b4) (View.ld x2 r7_w5) (View.ld x3 r7_b5)
/-- layer 6's product, before its bias -/
def v7_74 (x0 : Vec F S1024x128 .f32) (x2 : Vec F S9x128x128 .bf16) (x3 : Vec F S9x128 .f32) : FVec F S1024x128 .f32 :=
  k7_pay4 (v7_35 x0 x2 x3) (View.ld x2 r7_w3) (View.ld x3 r7_b3) (View.ld x2 r7_w4) (View.ld x3 r7_b4) (View.ld x2 r7_w5) (View.ld x3 r7_b5) (View.ld x2 r7_w6)
/-- after the message stack's layers 6..8 and the combining layer with the next level's block -/
def v7_116 (x0 x1 : Vec F S1024x128 .f32) (x2 : Vec F S9x128x128 .bf16) (x3 : Vec F S9x128 .f32) (x4 : Vec F S128x256 .bf16) (x5 : Vec F S128 .f32) : FVec F S1024x128 .f32 :=
  k7_pay5 (v7_69 x0 x2 x3) (v7_74 x0 x2 x3) (View.ld x3 r7_b6) (View.ld x2 r7_w7) (View.ld x3 r7_b7) (View.ld x2 r7_w8) (View.ld x3 r7_b8) (View.ld x1 r7_x) (View.ld x4 r7_n) (View.ld x5 r7_c)
/-- after the node stack's layers 0..2, -/
def v7_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay6 (v7_116 x0 x1 x2 x3 x4 x5) (View.ld x6 r7_w0) (View.ld x7 r7_b0) (View.ld x6 r7_w1) (View.ld x7 r7_b1) (View.ld x6 r7_w2) (View.ld x7 r7_b2)
/-- the same, narrowed, -/
def v7_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k7_pay7 (v7_116 x0 x1 x2 x3 x4 x5) (View.ld x6 r7_w0) (View.ld x7 r7_b0) (View.ld x6 r7_w1) (View.ld x7 r7_b1) (View.ld x6 r7_w2) (View.ld x7 r7_b2)
/-- and layer 3's weight, transposed -/
def v7_154 (x6 : Vec F S9x128x128 .bf16) : FVec F S128x128 .bf16 :=
  k7_pay8 (View.ld x6 r7_w3)
/-- after the node stack's layers 3..5 -/
def v7_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay9 (v7_150 x0 x1 x2 x3 x4 x5 x6 x7) (v7_153 x0 x1 x2 x3 x4 x5 x6 x7) (v7_154 x6) (constant S1024x128 .f32 0x00000000#32) (View.ld x7 r7_b3) (View.ld x6 r7_w4) (View.ld x7 r7_b4) (View.ld x6 r7_w5) (View.ld x7 r7_b5)
/-- layer 6's sum, before its `tanh` -/
def v7_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay10 (v7_150 x0 x1 x2 x3 x4 x5 x6 x7) (v7_153 x0 x1 x2 x3 x4 x5 x6 x7) (v7_154 x6) (constant S1024x128 .f32 0x00000000#32) (View.ld x7 r7_b3) (View.ld x6 r7_w4) (View.ld x7 r7_b4) (View.ld x6 r7_w5) (View.ld x7 r7_b5) (View.ld x6 r7_w6) (View.ld x7 r7_b6)

/-- Window 8's staging buffer after the body, from the input windows' blocks: its one store, of the whole block. -/
def out7_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r7_x, k7_pay1 (v7_184 x0 x1 x2 x3 x4 x5 x6 x7) (v7_194 x0 x1 x2 x3 x4 x5 x6 x7) (View.ld x6 r7_w7) (View.ld x7 r7_b7) (View.ld x6 r7_w8) (View.ld x7 r7_b8)⟩]

/-- The store tiles the buffer (checked by evaluation), so it covers it. -/
theorem cover7_8 (p0 : Vec F S1024x128 .f32) (y : S1024x128.Idx) :
    ∃ pc ∈ ([⟨r7_x, p0⟩] : List (View.Piece (Elt F) S1024x128 .f32)), y ∈ pc.1.set :=
  View.cover_of_tiled [⟨r7_x, p0⟩] S1024x128.size (by rfl) y

/-! ## The body's triple -/

set_option maxHeartbeats 4000000 in
/-- The kernel body on whole staging memrefs, the inputs' at read contents `xW` and the output's at anything, runs to
    the continuation holding the inputs' as they were and the output's at `out7_8` of the inputs'. -/
theorem sound_kernel7 (c : Dev nD) (E : Set ℕ) (i : grid7.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out7_8 x0 x1 x2 x3 x4 x5 x6 x7)) -∗ K ⟨⟩))
      ⊢ wp frame (wpE (defs₀ (F := F)) Variants.none c none) E (cc7__mlp_step_kernel i arg0 harg0 arg1 harg1 arg2 harg2 arg3 harg3 arg4 harg4 arg5 harg5 arg6 harg6 arg7 harg7 arg8 harg8) K := by
  simp only [cc7__mlp_step_kernel_eq_skeleton, k7_part1_eq_skeleton, k7_part2_eq_skeleton, k7_part3_eq_skeleton, k7_part4_eq_skeleton, k7_part5_eq_skeleton]
  unfold cc7__mlp_step_kernel_skel
  simp only [k7_part1_eq_skeleton, k7_part2_eq_skeleton, k7_part3_eq_skeleton, k7_part4_eq_skeleton, k7_part5_eq_skeleton]
  unfold k7_part1_skel k7_part2_skel k7_part3_skel k7_part4_skel k7_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

/-! ## The pipeline's proof data -/

/-- The proof data of pipeline 7 on core `c`: the arrays as the region finds them (`V`); after the body at point
    `t` each input's buffer at its block and the output's at `out7_8` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Hand
-- ==== Proof.K.Frame.lean ====
/- THE RUN of @main: eight kernel regions, each followed by a stretch of host operations (the last stretch the
   concatenation of the eight level arrays). The buffer contents at every boundary as a fold from the launch
   memory; each region's proof data at its entry contents; the regions and stretches as segments; the run; and
   from it the contents of every unscoped buffer at the end, and the argument arrays unchanged. -/
import proofs.«122000_j45174466019872_2_alg».proof.Proof.Gen.Kernel.Launch
import proofs.«122000_j45174466019872_2_alg».proof.Proof.Gen.Kernel.Skeleton
import proofs.«122000_j45174466019872_2_alg».proof.Proof.Gen.Kernel.Points
import proofs.«122000_j45174466019872_2_alg».proof.Proof.Gen.Kernel.Regions
import proofs.«122000_j45174466019872_2_alg».proof.Proof.K.Region0
import proofs.«122000_j45174466019872_2_alg».proof.Proof.K.Region1
import proofs.«122000_j45174466019872_2_alg».proof.Proof.K.Region2
import proofs.«122000_j45174466019872_2_alg».proof.Proof.K.Region3
import proofs.«122000_j45174466019872_2_alg».proof.Proof.K.Region4
import proofs.«122000_j45174466019872_2_alg».proof.Proof.K.Region5
import proofs.«122000_j45174466019872_2_alg».proof.Proof.K.Region6
import proofs.«122000_j45174466019872_2_alg».proof.Proof.K.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main

Boundary `2K` is region `K`'s entry, boundary `2K+1` its exit, boundary `2K+2` what the host stretch after it leaves. -/

/-- Core `c`'s buffers at launch (region 0's entry). -/
abbrev W0 : Dev nD → Valuation τ sig (Elt F) := fun c b => (s₀ m ρ).mem ((c : Dev nD), b)
/-- The same read at the TensorCore's references (what region 0's proof data take). -/
abbrev B0 : (c : Dev nD) → (b : Ref sig .tc) → Buf (Elt F) ((c : Thread nD τ).loc b) := fun c b => W0 m ρ c b

/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's output array at its exit: the write-backs of all its points folded. -/
theorem W1_out (c : Dev nD) :
    W1 m ρ c (Proc.devRef .tc main_v0) = (dat0 (B0 m ρ) c).arrAt 3 cfg0.N := W1_arr m ρ c 3
/-- Every other buffer is at region 0's exit what it was at its entry: an input window's array is never written
    back, and no other buffer is an array of the region. -/
theorem W1_other (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    have hw : (cfg0.win w).isOut = false :=
      (by decide : ∀ w : Fin 4, Pipeline.arrRef spec0 w ≠ main_v0 → (cfg0.win w).isOut = false) w hb
    exact (W1_arr m ρ c w).trans (((dat0 (B0 m ρ) c).arrAt_in w hw _).trans (A_eq0 (B0 m ρ) c w))
  · exact W1_of_ne m ρ c b fun w e => h ⟨w, e⟩
/-- The same read at the TensorCore's references (region 0's exit contents). -/
abbrev B1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (B0 m ρ) c).arrAt w cfg0.N = B1 m ρ c (Pipeline.arrRef spec0 w) :=
  (W1_arr m ρ c w).symm
theorem hrest0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents through the stretch. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
/-- The same read at the TensorCore's references (what region 1's proof data take). -/
abbrev B2 : (c : Dev nD) → (b : Ref sig .tc) → Buf (Elt F) ((c : Thread nD τ).loc b) := fun c b => W2 m ρ c b

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (B2 m ρ) c).arrAt w cfg1.N
theorem W3_arr (c : Dev nD) (w : Fin cfg1.W) :
    W3 m ρ c (Proc.devRef .tc (Pipeline.arrRef spec1 w)) = (dat1 (B2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's output array at its exit: the write-backs of all its points folded. -/
theorem W3_out (c : Dev nD) :
    W3 m ρ c (Proc.devRef .tc main_v19) = (dat1 (B2 m ρ) c).arrAt 8 cfg1.N := W3_arr m ρ c 8
/-- Every other buffer is at region 1's exit what it was at its entry: an input window's array is never written
    back, and no other buffer is an array of the region. -/
theorem W3_other (c : Dev nD) (b : Ref sig .tc) (hb : b ≠ main_v19) :
    W3 m ρ c (Proc.devRef .tc b) = W2 m ρ c (Proc.devRef .tc b) := by
  by_cases h : ∃ w, Pipeline.arrRef spec1 w = b
  · obtain ⟨w, rfl⟩ := h
    have hw : (cfg1.win w).isOut = false :=
      (by decide : ∀ w : Fin 9, Pipeline.arrRef spec1 w ≠ main_v19 → (cfg1.win w).isOut = false) w hb
    exact (W3_arr m ρ c w).trans (((dat1 (B2 m ρ) c).arrAt_in w hw _).trans (A_eq1 (B2 m ρ) c w))
  · exact W3_of_ne m ρ c b fun w e => h ⟨w, e⟩
/-- The same read at the TensorCore's references (region 1's exit contents). -/
abbrev B3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (B2 m ρ) c).arrAt w cfg1.N = B3 m ρ c (Pipeline.arrRef spec1 w) :=
  (W3_arr m ρ c w).symm
theorem hrest1 (c : Dev nD) : ∀ b, b ∉ Finset.univ.image (Pipeline.arrRef spec1) → B3 m ρ c b = B2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents through the stretch. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- The same read at the TensorCore's references (what region 2's proof data take). -/
abbrev B4 : (c : Dev nD) → (b : Ref sig .tc) → Buf (Elt F) ((c : Thread nD τ).loc b) := fun c b => W4 m ρ c b

/-- At region 2's exit: its arrays at what the pipeline leaves (the inputs as entered, the output's write-backs
    folded), every other buffer as entered. -/
def W5 (c : Dev nD) : Valuation τ sig (Elt F) :=
  Pipeline.withArrays spec2 c (W4 m ρ c) fun w => (dat2 (B4 m ρ) c).arrAt w cfg2.N
theorem W5_arr (c : Dev nD) (w : Fin cfg2.W) :
    W5 m ρ c (Proc.devRef .tc (Pipeline.arrRef spec2 w)) = (dat2 (B4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- Region 2's output array at its exit: the write-backs of all its points folded. -/
theorem W5_out (c : Dev nD) :
    W5 m ρ c (Proc.devRef .tc main_v32) = (dat2 (B4 m ρ) c).arrAt 8 cfg2.N := W5_arr m ρ c 8
/-- Every other buffer is at region 2's exit what it was at its entry: an input window's array is never written
    back, and no other buffer is an array of the region. -/
theorem W5_other (c : Dev nD) (b : Ref sig .tc) (hb : b ≠ main_v32) :
    W5 m ρ c (Proc.devRef .tc b) = W4 m ρ c (Proc.devRef .tc b) := by
  by_cases h : ∃ w, Pipeline.arrRef spec2 w = b
  · obtain ⟨w, rfl⟩ := h
    have hw : (cfg2.win w).isOut = false :=
      (by decide : ∀ w : Fin 9, Pipeline.arrRef spec2 w ≠ main_v32 → (cfg2.win w).isOut = false) w hb
    exact (W5_arr m ρ c w).trans (((dat2 (B4 m ρ) c).arrAt_in w hw _).trans (A_eq2 (B4 m ρ) c w))
  · exact W5_of_ne m ρ c b fun w e => h ⟨w, e⟩
/-- The same read at the TensorCore's references (region 2's exit contents). -/
abbrev B5 : (c : Dev nD) → (b : Ref sig .tc) → Buf (Elt F) ((c : Thread nD τ).loc b) := fun c b => W5 m ρ c b
/-- At region 2's exit each of its arrays holds what the pipeline leaves and every other buffer what it held at entry. -/
theorem hF2 (c : Dev nD) (w : Fin cfg2.W) : (dat2 (B4 m ρ) c).arrAt w cfg2.N = B5 m ρ c (Pipeline.arrRef spec2 w) :=
  (W5_arr m ρ c w).symm
theorem hrest2 (c : Dev nD) : ∀ b, b ∉ Finset.univ.image (Pipeline.arrRef spec2) → B5 m ρ c b = B4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents through the stretch. -/
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h
/-- The same read at the TensorCore's references (what region 3's proof data take). -/
abbrev B6 : (c : Dev nD) → (b : Ref sig .tc) → Buf (Elt F) ((c : Thread nD τ).loc b) := fun c b => W6 m ρ c b

/-- At region 3's exit: its arrays at what the pipeline leaves (the inputs as entered, the output's write-backs
    folded), every other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Region 3's output array at its exit: the write-backs of all its points folded. -/
theorem W7_out (c : Dev nD) :
    W7 m ρ c (Proc.devRef .tc main_v45) = (dat3 (B6 m ρ) c).arrAt 8 cfg3.N := W7_arr m ρ c 8
/-- Every other buffer is at region 3's exit what it was at its entry: an input window's array is never written
    back, and no other buffer is an array of the region. -/
theorem W7_other (c : Dev nD) (b : Ref sig .tc) (hb : b ≠ main_v45) :
    W7 m ρ c (Proc.devRef .tc b) = W6 m ρ c (Proc.devRef .tc b) := by
  by_cases h : ∃ w, Pipeline.arrRef spec3 w = b
  · obtain ⟨w, rfl⟩ := h
    have hw : (cfg3.win w).isOut = false :=
      (by decide : ∀ w : Fin 9, Pipeline.arrRef spec3 w ≠ main_v45 → (cfg3.win w).isOut = false) w hb
    exact (W7_arr m ρ c w).trans (((dat3 (B6 m ρ) c).arrAt_in w hw _).trans (A_eq3 (B6 m ρ) c w))
  · exact W7_of_ne m ρ c b fun w e => h ⟨w, e⟩
/-- The same read at the TensorCore's references (region 3's exit contents). -/
abbrev B7 : (c : Dev nD) → (b : Ref sig .tc) → Buf (Elt F) ((c : Thread nD τ).loc b) := fun c b => W7 m ρ c b
/-- At region 3's exit each of its arrays holds what the pipeline leaves and every other buffer what it held at entry. -/
theorem hF3 (c : Dev nD) (w : Fin cfg3.W) : (dat3 (B6 m ρ) c).arrAt w cfg3.N = B7 m ρ c (Pipeline.arrRef spec3 w) :=
  (W7_arr m ρ c w).symm
theorem hrest3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)

/-- After `hostOps4` (region 4's entry). -/
abbrev W8 : Dev nD → Valuation τ sig (Elt F) := fun c => StableHlo.after hostOps4 (W7 m ρ c)
/-- A reference `hostOps4` does not write keeps its contents through the stretch. -/
theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h
/-- The same read at the TensorCore's references (what region 4's proof data take). -/
abbrev B8 : (c : Dev nD) → (b : Ref sig .tc) → Buf (Elt F) ((c : Thread nD τ).loc b) := fun c b => W8 m ρ c b

/-- At region 4's exit: its arrays at what the pipeline leaves (the inputs as entered, the output's write-backs
    folded), every other buffer as entered. -/
def W9 (c : Dev nD) : Valuation τ sig (Elt F) :=
  Pipeline.withArrays spec4 c (W8 m ρ c) fun w => (dat4 (B8 m ρ) c).arrAt w cfg4.N
theorem W9_arr (c : Dev nD) (w : Fin cfg4.W) :
    W9 m ρ c (Proc.devRef .tc (Pipeline.arrRef spec4 w)) = (dat4 (B8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Region 4's output array at its exit: the write-backs of all its points folded. -/
theorem W9_out (c : Dev nD) :
    W9 m ρ c (Proc.devRef .tc main_v58) = (dat4 (B8 m ρ) c).arrAt 8 cfg4.N := W9_arr m ρ c 8
/-- Every other buffer is at region 4's exit what it was at its entry: an input window's array is never written
    back, and no other buffer is an array of the region. -/
theorem W9_other (c : Dev nD) (b : Ref sig .tc) (hb : b ≠ main_v58) :
    W9 m ρ c (Proc.devRef .tc b) = W8 m ρ c (Proc.devRef .tc b) := by
  by_cases h : ∃ w, Pipeline.arrRef spec4 w = b
  · obtain ⟨w, rfl⟩ := h
    have hw : (cfg4.win w).isOut = false :=
      (by decide : ∀ w : Fin 9, Pipeline.arrRef spec4 w ≠ main_v58 → (cfg4.win w).isOut = false) w hb
    exact (W9_arr m ρ c w).trans (((dat4 (B8 m ρ) c).arrAt_in w hw _).trans (A_eq4 (B8 m ρ) c w))
  · exact W9_of_ne m ρ c b fun w e => h ⟨w, e⟩
/-- The same read at the TensorCore's references (region 4's exit contents). -/
abbrev B9 : (c : Dev nD) → (b : Ref sig .tc) → Buf (Elt F) ((c : Thread nD τ).loc b) := fun c b => W9 m ρ c b
/-- At region 4's exit each of its arrays holds what the pipeline leaves and every other buffer what it held at entry. -/
theorem hF4 (c : Dev nD) (w : Fin cfg4.W) : (dat4 (B8 m ρ) c).arrAt w cfg4.N = B9 m ρ c (Pipeline.arrRef spec4 w) :=
  (W9_arr m ρ c w).symm
theorem hrest4 (c : Dev nD) : ∀ b, b ∉ Finset.univ.image (Pipeline.arrRef spec4) → B9 m ρ c b = B8 m ρ c b :=
  fun b hb => W9_of_ne m ρ c b fun w e => hb (Finset.mem_image.mpr ⟨w, Finset.mem_univ _, e⟩)

/-- After `hostOps5` (region 5's entry). -/
abbrev W10 : Dev nD → Valuation τ sig (Elt F) := fun c => StableHlo.after hostOps5 (W9 m ρ c)
/-- A reference `hostOps5` does not write keeps its contents through the stretch. -/
theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h
/-- The same read at the TensorCore's references (what region 5's proof data take). -/
abbrev B10 : (c : Dev nD) → (b : Ref sig .tc) → Buf (Elt F) ((c : Thread nD τ).loc b) := fun c b => W10 m ρ c b

/-- At region 5's exit: its arrays at what the pipeline leaves (the inputs as entered, the output's write-backs
    folded), every other buffer as entered. -/
def W11 (c : Dev nD) : Valuation τ sig (Elt F) :=
  Pipeline.withArrays spec5 c (W10 m ρ c) fun w => (dat5 (B10 m ρ) c).arrAt w cfg5.N
theorem W11_arr (c : Dev nD) (w : Fin cfg5.W) :
    W11 m ρ c (Proc.devRef .tc (Pipeline.arrRef spec5 w)) = (dat5 (B10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- Region 5's output array at its exit: the write-backs of all its points folded. -/
theorem W11_out (c : Dev nD) :
    W11 m ρ c (Proc.devRef .tc main_v71) = (dat5 (B10 m ρ) c).arrAt 8 cfg5.N := W11_arr m ρ c 8
/-- Every other buffer is at region 5's exit what it was at its entry: an input window's array is never written
    back, and no other buffer is an array of the region. -/
theorem W11_other (c : Dev nD) (b : Ref sig .tc) (hb : b ≠ main_v71) :
    W11 m ρ c (Proc.devRef .tc b) = W10 m ρ c (Proc.devRef .tc b) := by
  by_cases h : ∃ w, Pipeline.arrRef spec5 w = b
  · obtain ⟨w, rfl⟩ := h
    have hw : (cfg5.win w).isOut = false :=
      (by decide : ∀ w : Fin 9, Pipeline.arrRef spec5 w ≠ main_v71 → (cfg5.win w).isOut = false) w hb
    exact (W11_arr m ρ c w).trans (((dat5 (B10 m ρ) c).arrAt_in w hw _).trans (A_eq5 (B10 m ρ) c w))
  · exact W11_of_ne m ρ c b fun w e => h ⟨w, e⟩
/-- The same read at the TensorCore's references (region 5's exit contents). -/
abbrev B11 : (c : Dev nD) → (b : Ref sig .tc) → Buf (Elt F) ((c : Thread nD τ).loc b) := fun c b => W11 m ρ c b
/-- At region 5's exit each of its arrays holds what the pipeline leaves and every other buffer what it held at entry. -/
theorem hF5 (c : Dev nD) (w : Fin cfg5.W) : (dat5 (B10 m ρ) c).arrAt w cfg5.N = B11 m ρ c (Pipeline.arrRef spec5 w) :=
  (W11_arr m ρ c w).symm
theorem hrest5 (c : Dev nD) : ∀ b, b ∉ Finset.univ.image (Pipeline.arrRef spec5) → B11 m ρ c b = B10 m ρ c b :=
  fun b hb => W11_of_ne m ρ c b fun w e => hb (Finset.mem_image.mpr ⟨w, Finset.mem_univ _, e⟩)

/-- After `hostOps6` (region 6's entry). -/
abbrev W12 : Dev nD → Valuation τ sig (Elt F) := fun c => StableHlo.after hostOps6 (W11 m ρ c)
/-- A reference `hostOps6` does not write keeps its contents through the stretch. -/
theorem W12_of (c : Dev nD) (r : Ref sig .tc) (h : r ∉ hostOps6_W) :
    W12 m ρ c (Proc.devRef .tc r) = W11 m ρ c (Proc.devRef .tc r) :=
  StableHlo.after_of_writes_sub hostOps6 _ hostOps6_writes h
/-- The same read at the TensorCore's references (what region 6's proof data take). -/
abbrev B12 : (c : Dev nD) → (b : Ref sig .tc) → Buf (Elt F) ((c : Thread nD τ).loc b) := fun c b => W12 m ρ c b

/-- At region 6's exit: its arrays at what the pipeline leaves (the inputs as entered, the output's write-backs
    folded), every other buffer as entered. -/
def W13 (c : Dev nD) : Valuation τ sig (Elt F) :=
  Pipeline.withArrays spec6 c (W12 m ρ c) fun w => (dat6 (B12 m ρ) c).arrAt w cfg6.N
theorem W13_arr (c : Dev nD) (w : Fin cfg6.W) :
    W13 m ρ c (Proc.devRef .tc (Pipeline.arrRef spec6 w)) = (dat6 (B12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- Region 6's output array at its exit: the write-backs of all its points folded. -/
theorem W13_out (c : Dev nD) :
    W13 m ρ c (Proc.devRef .tc main_v84) = (dat6 (B12 m ρ) c).arrAt 8 cfg6.N := W13_arr m ρ c 8
/-- Every other buffer is at region 6's exit what it was at its entry: an input window's array is never written
    back, and no other buffer is an array of the region. -/
theorem W13_other (c : Dev nD) (b : Ref sig .tc) (hb : b ≠ main_v84) :
    W13 m ρ c (Proc.devRef .tc b) = W12 m ρ c (Proc.devRef .tc b) := by
  by_cases h : ∃ w, Pipeline.arrRef spec6 w = b
  · obtain ⟨w, rfl⟩ := h
    have hw : (cfg6.win w).isOut = false :=
      (by decide : ∀ w : Fin 9, Pipeline.arrRef spec6 w ≠ main_v84 → (cfg6.win w).isOut = false) w hb
    exact (W13_arr m ρ c w).trans (((dat6 (B12 m ρ) c).arrAt_in w hw _).trans (A_eq6 (B12 m ρ) c w))
  · exact W13_of_ne m ρ c b fun w e => h ⟨w, e⟩
/-- The same read at the TensorCore's references (region 6's exit contents). -/
abbrev B13 : (c : Dev nD) → (b : Ref sig .tc) → Buf (Elt F) ((c : Thread nD τ).loc b) := fun c b => W13 m ρ c b
/-- At region 6's exit each of its arrays holds what the pipeline leaves and every other buffer what it held at entry. -/
theorem hF6 (c : Dev nD) (w : Fin cfg6.W) : (dat6 (B12 m ρ) c).arrAt w cfg6.N = B13 m ρ c (Pipeline.arrRef spec6 w) :=
  (W13_arr m ρ c w).symm
theorem hrest6 (c : Dev nD) : ∀ b, b ∉ Finset.univ.image (Pipeline.arrRef spec6) → B13 m ρ c b = B12 m ρ c b :=
  fun b hb => W13_of_ne m ρ c b fun w e => hb (Finset.mem_image.mpr ⟨w, Finset.mem_univ _, e⟩)

/-- After `hostOps7` (region 7's entry). -/
abbrev W14 : Dev nD → Valuation τ sig (Elt F) := fun c => StableHlo.after hostOps7 (W13 m ρ c)
/-- A reference `hostOps7` does not write keeps its contents through the stretch. -/
theorem W14_of (c : Dev nD) (r : Ref sig .tc) (h : r ∉ hostOps7_W) :
    W14 m ρ c (Proc.devRef .tc r) = W13 m ρ c (Proc.devRef .tc r) :=
  StableHlo.after_of_writes_sub hostOps7 _ hostOps7_writes h
/-- The same read at the TensorCore's references (what region 7's proof data take). -/
abbrev B14 : (c : Dev nD) → (b : Ref sig .tc) → Buf (Elt F) ((c : Thread nD τ).loc b) := fun c b => W14 m ρ c b

/-- At region 7's exit: its arrays at what the pipeline leaves (the inputs as entered, the output's write-backs
    folded), every other buffer as entered. -/
def W15 (c : Dev nD) : Valuation τ sig (Elt F) :=
  Pipeline.withArrays spec7 c (W14 m ρ c) fun w => (dat7 (B14 m ρ) c).arrAt w cfg7.N
theorem W15_arr (c : Dev nD) (w : Fin cfg7.W) :
    W15 m ρ c (Proc.devRef .tc (Pipeline.arrRef spec7 w)) = (dat7 (B14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- Region 7's output array at its exit: the write-backs of all its points folded. -/
theorem W15_out (c : Dev nD) :
    W15 m ρ c (Proc.devRef .tc main_v97) = (dat7 (B14 m ρ) c).arrAt 8 cfg7.N := W15_arr m ρ c 8
/-- Every other buffer is at region 7's exit what it was at its entry: an input window's array is never written
    back, and no other buffer is an array of the region. -/
theorem W15_other (c : Dev nD) (b : Ref sig .tc) (hb : b ≠ main_v97) :
    W15 m ρ c (Proc.devRef .tc b) = W14 m ρ c (Proc.devRef .tc b) := by
  by_cases h : ∃ w, Pipeline.arrRef spec7 w = b
  · obtain ⟨w, rfl⟩ := h
    have hw : (cfg7.win w).isOut = false :=
      (by decide : ∀ w : Fin 9, Pipeline.arrRef spec7 w ≠ main_v97 → (cfg7.win w).isOut = false) w hb
    exact (W15_arr m ρ c w).trans (((dat7 (B14 m ρ) c).arrAt_in w hw _).trans (A_eq7 (B14 m ρ) c w))
  · exact W15_of_ne m ρ c b fun w e => h ⟨w, e⟩
/-- The same read at the TensorCore's references (region 7's exit contents). -/
abbrev B15 : (c : Dev nD) → (b : Ref sig .tc) → Buf (Elt F) ((c : Thread nD τ).loc b) := fun c b => W15 m ρ c b
/-- At region 7's exit each of its arrays holds what the pipeline leaves and every other buffer what it held at entry. -/
theorem hF7 (c : Dev nD) (w : Fin cfg7.W) : (dat7 (B14 m ρ) c).arrAt w cfg7.N = B15 m ρ c (Pipeline.arrRef spec7 w) :=
  (W15_arr m ρ c w).symm
theorem hrest7 (c : Dev nD) : ∀ b, b ∉ Finset.univ.image (Pipeline.arrRef spec7) → B15 m ρ c b = B14 m ρ c b :=
  fun b hb => W15_of_ne m ρ c b fun w e => hb (Finset.mem_image.mpr ⟨w, Finset.mem_univ _, e⟩)

/-- After `hostOps8` (the end of @main). -/
abbrev W16 : Dev nD → Valuation τ sig (Elt F) := fun c => StableHlo.after hostOps8 (W15 m ρ c)
/-- A reference `hostOps8` does not write keeps its contents through the stretch. -/
theorem W16_of (c : Dev nD) (r : Ref sig .tc) (h : r ∉ hostOps8_W) :
    W16 m ρ c (Proc.devRef .tc r) = W15 m ρ c (Proc.devRef .tc r) :=
  StableHlo.after_of_writes_sub hostOps8 _ hostOps8_writes h

/-- The contents of every buffer at the end of @main. -/
abbrev Wlast : Dev nD → Valuation τ sig (Elt F) := W16 m ρ

/-! ### The arguments end as launched: no host stretch writes one and no region's output array is one -/

theorem W16_main_arg0 (c : Dev nD) : W16 m ρ c (Proc.devRef .tc main_arg0) = m ((c : Thread nD τ).loc main_arg0) :=
  (W16_of m ρ c main_arg0 (by decide)).trans <| (W15_other m ρ c main_arg0 (by decide)).trans <|
  (W14_of m ρ c main_arg0 (by decide)).trans <| (W13_other m ρ c main_arg0 (by decide)).trans <|
  (W12_of m ρ c main_arg0 (by decide)).trans <| (W11_other m ρ c main_arg0 (by decide)).trans <|
  (W10_of m ρ c main_arg0 (by decide)).trans <| (W9_other m ρ c main_arg0 (by decide)).trans <|
  (W8_of m ρ c main_arg0 (by decide)).trans <| (W7_other m ρ c main_arg0 (by decide)).trans <|
  (W6_of m ρ c main_arg0 (by decide)).trans <| (W5_other m ρ c main_arg0 (by decide)).trans <|
  (W4_of m ρ c main_arg0 (by decide)).trans <| (W3_other m ρ c main_arg0 (by decide)).trans <|
  (W2_of m ρ c main_arg0 (by decide)).trans <| (W1_other m ρ c main_arg0 (by decide)).trans rfl

theorem W16_main_arg1 (c : Dev nD) : W16 m ρ c (Proc.devRef .tc main_arg1) = m ((c : Thread nD τ).loc main_arg1) :=
  (W16_of m ρ c main_arg1 (by decide)).trans <| (W15_other m ρ c main_arg1 (by decide)).trans <|
  (W14_of m ρ c main_arg1 (by decide)).trans <| (W13_other m ρ c main_arg1 (by decide)).trans <|
  (W12_of m ρ c main_arg1 (by decide)).trans <| (W11_other m ρ c main_arg1 (by decide)).trans <|
  (W10_of m ρ c main_arg1 (by decide)).trans <| (W9_other m ρ c main_arg1 (by decide)).trans <|
  (W8_of m ρ c main_arg1 (by decide)).trans <| (W7_other m ρ c main_arg1 (by decide)).trans <|
  (W6_of m ρ c main_arg1 (by decide)).trans <| (W5_other m ρ c main_arg1 (by decide)).trans <|
  (W4_of m ρ c main_arg1 (by decide)).trans <| (W3_other m ρ c main_arg1 (by decide)).trans <|
  (W2_of m ρ c main_arg1 (by decide)).trans <| (W1_other m ρ c main_arg1 (by decide)).trans rfl

theorem W16_main_arg2 (c : Dev nD) : W16 m ρ c (Proc.devRef .tc main_arg2) = m ((c : Thread nD τ).loc main_arg2) :=
  (W16_of m ρ c main_arg2 (by decide)).trans <| (W15_other m ρ c main_arg2 (by decide)).trans <|
  (W14_of m ρ c main_arg2 (by decide)).trans <| (W13_other m ρ c main_arg2 (by decide)).trans <|
  (W12_of m ρ c main_arg2 (by decide)).trans <| (W11_other m ρ c main_arg2 (by decide)).trans <|
  (W10_of m ρ c main_arg2 (by decide)).trans <| (W9_other m ρ c main_arg2 (by decide)).trans <|
  (W8_of m ρ c main_arg2 (by decide)).trans <| (W7_other m ρ c main_arg2 (by decide)).trans <|
  (W6_of m ρ c main_arg2 (by decide)).trans <| (W5_other m ρ c main_arg2 (by decide)).trans <|
  (W4_of m ρ c main_arg2 (by decide)).trans <| (W3_other m ρ c main_arg2 (by decide)).trans <|
  (W2_of m ρ c main_arg2 (by decide)).trans <| (W1_other m ρ c main_arg2 (by decide)).trans rfl

theorem W16_main_arg3 (c : Dev nD) : W16 m ρ c (Proc.devRef .tc main_arg3) = m ((c : Thread nD τ).loc main_arg3) :=
  (W16_of m ρ c main_arg3 (by decide)).trans <| (W15_other m ρ c main_arg3 (by decide)).trans <|
  (W14_of m ρ c main_arg3 (by decide)).trans <| (W13_other m ρ c main_arg3 (by decide)).trans <|
  (W12_of m ρ c main_arg3 (by decide)).trans <| (W11_other m ρ c main_arg3 (by decide)).trans <|
  (W10_of m ρ c main_arg3 (by decide)).trans <| (W9_other m ρ c main_arg3 (by decide)).trans <|
  (W8_of m ρ c main_arg3 (by decide)).trans <| (W7_other m ρ c main_arg3 (by decide)).trans <|
  (W6_of m ρ c main_arg3 (by decide)).trans <| (W5_other m ρ c main_arg3 (by decide)).trans <|
  (W4_of m ρ c main_arg3 (by decide)).trans <| (W3_other m ρ c main_arg3 (by decide)).trans <|
  (W2_of m ρ c main_arg3 (by decide)).trans <| (W1_other m ρ c main_arg3 (by decide)).trans rfl

theorem W16_main_arg4 (c : Dev nD) : W16 m ρ c (Proc.devRef .tc main_arg4) = m ((c : Thread nD τ).loc main_arg4) :=
  (W16_of m ρ c main_arg4 (by decide)).trans <| (W15_other m ρ c main_arg4 (by decide)).trans <|
  (W14_of m ρ c main_arg4 (by decide)).trans <| (W13_other m ρ c main_arg4 (by decide)).trans <|
  (W12_of m ρ c main_arg4 (by decide)).trans <| (W11_other m ρ c main_arg4 (by decide)).trans <|
  (W10_of m ρ c main_arg4 (by decide)).trans <| (W9_other m ρ c main_arg4 (by decide)).trans <|
  (W8_of m ρ c main_arg4 (by decide)).trans <| (W7_other m ρ c main_arg4 (by decide)).trans <|
  (W6_of m ρ c main_arg4 (by decide)).trans <| (W5_other m ρ c main_arg4 (by decide)).trans <|
  (W4_of m ρ c main_arg4 (by decide)).trans <| (W3_other m ρ c main_arg4 (by decide)).trans <|
  (W2_of m ρ c main_arg4 (by decide)).trans <| (W1_other m ρ c main_arg4 (by decide)).trans rfl

theorem W16_main_arg5 (c : Dev nD) : W16 m ρ c (Proc.devRef .tc main_arg5) = m ((c : Thread nD τ).loc main_arg5) :=
  (W16_of m ρ c main_arg5 (by decide)).trans <| (W15_other m ρ c main_arg5 (by decide)).trans <|
  (W14_of m ρ c main_arg5 (by decide)).trans <| (W13_other m ρ c main_arg5 (by decide)).trans <|
  (W12_of m ρ c main_arg5 (by decide)).trans <| (W11_other m ρ c main_arg5 (by decide)).trans <|
  (W10_of m ρ c main_arg5 (by decide)).trans <| (W9_other m ρ c main_arg5 (by decide)).trans <|
  (W8_of m ρ c main_arg5 (by decide)).trans <| (W7_other m ρ c main_arg5 (by decide)).trans <|
  (W6_of m ρ c main_arg5 (by decide)).trans <| (W5_other m ρ c main_arg5 (by decide)).trans <|
  (W4_of m ρ c main_arg5 (by decide)).trans <| (W3_other m ρ c main_arg5 (by decide)).trans <|
  (W2_of m ρ c main_arg5 (by decide)).trans <| (W1_other m ρ c main_arg5 (by decide)).trans rfl

theorem W16_main_arg6 (c : Dev nD) : W16 m ρ c (Proc.devRef .tc main_arg6) = m ((c : Thread nD τ).loc main_arg6) :=
  (W16_of m ρ c main_arg6 (by decide)).trans <| (W15_other m ρ c main_arg6 (by decide)).trans <|
  (W14_of m ρ c main_arg6 (by decide)).trans <| (W13_other m ρ c main_arg6 (by decide)).trans <|
  (W12_of m ρ c main_arg6 (by decide)).trans <| (W11_other m ρ c main_arg6 (by decide)).trans <|
  (W10_of m ρ c main_arg6 (by decide)).trans <| (W9_other m ρ c main_arg6 (by decide)).trans <|
  (W8_of m ρ c main_arg6 (by decide)).trans <| (W7_other m ρ c main_arg6 (by decide)).trans <|
  (W6_of m ρ c main_arg6 (by decide)).trans <| (W5_other m ρ c main_arg6 (by decide)).trans <|
  (W4_of m ρ c main_arg6 (by decide)).trans <| (W3_other m ρ c main_arg6 (by decide)).trans <|
  (W2_of m ρ c main_arg6 (by decide)).trans <| (W1_other m ρ c main_arg6 (by decide)).trans rfl

theorem W16_main_arg7 (c : Dev nD) : W16 m ρ c (Proc.devRef .tc main_arg7) = m ((c : Thread nD τ).loc main_arg7) :=
  (W16_of m ρ c main_arg7 (by decide)).trans <| (W15_other m ρ c main_arg7 (by decide)).trans <|
  (W14_of m ρ c main_arg7 (by decide)).trans <| (W13_other m ρ c main_arg7 (by decide)).trans <|
  (W12_of m ρ c main_arg7 (by decide)).trans <| (W11_other m ρ c main_arg7 (by decide)).trans <|
  (W10_of m ρ c main_arg7 (by decide)).trans <| (W9_other m ρ c main_arg7 (by decide)).trans <|
  (W8_of m ρ c main_arg7 (by decide)).trans <| (W7_other m ρ c main_arg7 (by decide)).trans <|
  (W6_of m ρ c main_arg7 (by decide)).trans <| (W5_other m ρ c main_arg7 (by decide)).trans <|
  (W4_of m ρ c main_arg7 (by decide)).trans <| (W3_other m ρ c main_arg7 (by decide)).trans <|
  (W2_of m ρ c main_arg7 (by decide)).trans <| (W1_other m ρ c main_arg7 (by decide)).trans rfl

theorem W16_main_arg8 (c : Dev nD) : W16 m ρ c (Proc.devRef .tc main_arg8) = m ((c : Thread nD τ).loc main_arg8) :=
  (W16_of m ρ c main_arg8 (by decide)).trans <| (W15_other m ρ c main_arg8 (by decide)).trans <|
  (W14_of m ρ c main_arg8 (by decide)).trans <| (W13_other m ρ c main_arg8 (by decide)).trans <|
  (W12_of m ρ c main_arg8 (by decide)).trans <| (W11_other m ρ c main_arg8 (by decide)).trans <|
  (W10_of m ρ c main_arg8 (by decide)).trans <| (W9_other m ρ c main_arg8 (by decide)).trans <|
  (W8_of m ρ c main_arg8 (by decide)).trans <| (W7_other m ρ c main_arg8 (by decide)).trans <|
  (W6_of m ρ c main_arg8 (by decide)).trans <| (W5_other m ρ c main_arg8 (by decide)).trans <|
  (W4_of m ρ c main_arg8 (by decide)).trans <| (W3_other m ρ c main_arg8 (by decide)).trans <|
  (W2_of m ρ c main_arg8 (by decide)).trans <| (W1_other m ρ c main_arg8 (by decide)).trans rfl

theorem W16_main_arg9 (c : Dev nD) : W16 m ρ c (Proc.devRef .tc main_arg9) = m ((c : Thread nD τ).loc main_arg9) :=
  (W16_of m ρ c main_arg9 (by decide)).trans <| (W15_other m ρ c main_arg9 (by decide)).trans <|
  (W14_of m ρ c main_arg9 (by decide)).trans <| (W13_other m ρ c main_arg9 (by decide)).trans <|
  (W12_of m ρ c main_arg9 (by decide)).trans <| (W11_other m ρ c main_arg9 (by decide)).trans <|
  (W10_of m ρ c main_arg9 (by decide)).trans <| (W9_other m ρ c main_arg9 (by decide)).trans <|
  (W8_of m ρ c main_arg9 (by decide)).trans <| (W7_other m ρ c main_arg9 (by decide)).trans <|
  (W6_of m ρ c main_arg9 (by decide)).trans <| (W5_other m ρ c main_arg9 (by decide)).trans <|
  (W4_of m ρ c main_arg9 (by decide)).trans <| (W3_other m ρ c main_arg9 (by decide)).trans <|
  (W2_of m ρ c main_arg9 (by decide)).trans <| (W1_other m ρ c main_arg9 (by decide)).trans rfl

/-! ## The proof data family and the thread state -/

/-- Every pipeline's proof data, each at its region's entry contents — a literal `match`, so that the pinned
    configuration at a numeral reduces to the printed one. -/
def pdats : (p : Fin 8) → (c : Dev nD) → Dat τ (Elt F) Unit ℕ (UR sig nD τ) ℕ (Pipeline.pin (pcfgs (F := F)) adm p) c
  | ⟨0, _⟩ => fun c => dat0 (B0 m ρ) c
  | ⟨1, _⟩ => fun c => dat1 (B2 m ρ) c
  | ⟨2, _⟩ => fun c => dat2 (B4 m ρ) c
  | ⟨3, _⟩ => fun c => dat3 (B6 m ρ) c
  | ⟨4, _⟩ => fun c => dat4 (B8 m ρ) c
  | ⟨5, _⟩ => fun c => dat5 (B10 m ρ) c
  | ⟨6, _⟩ => fun c => dat6 (B12 m ρ) c
  | ⟨7, _⟩ => fun c => dat7 (B14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are
    split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B6 m ρ c) (B7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W8`, left at `W9`. Its arrays are
    split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (B8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (B8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (B8 m ρ c) (B9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. Its arrays are
    split out of the unscoped buffers and put back at the exit contents; the generator register goes into the
    class invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (B10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (B10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (B10 m ρ c) (B11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`. Its arrays are
    split out of the unscoped buffers and put back at the exit contents; the generator register goes into the
    class invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (B12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (B12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (B12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (B12 m ρ c) (B13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W14`, left at `W15`. Its arrays are
    split out of the unscoped buffers and put back at the exit contents; the generator register goes into the
    class invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (B14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (B14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (B14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (B14 m ρ c) (B15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 16 segments in order: a region per kernel call, a host segment per stretch from its boundary's contents. -/
abbrev segsAll : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)) ]

/-- @main is the run of the segments: it is the chain of its items, and the segments' programs are those items. -/
theorem main_run (c : Dev nD) : main (F := F) c = Pipeline.Seg.run (segsAll m ρ) := by
  rewrite [main_chain c, Pipeline.Seg.run_eq_chain,
    show (segsAll m ρ).map Pipeline.Seg.prog = [
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8 ] from rfl]
  rfl

set_option backward.isDefEq.respectTransparency.types false in
/-- THE RUN, at any post that follows from the last boundary's reading: from any memory with zero counters, every
    weakly fair execution of @main on the TensorCores terminates, nothing faulting, and in every final state each
    unscoped buffer holds the last boundary's contents. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- THE RUN: every weakly fair execution of @main terminates, nothing faulting, and every final state holds each
    unscoped buffer at the last boundary's contents `Wlast`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Wlast m ρ c b) :=
  run_gen m ρ fun _ h => h

/-- THE FRAME: every weakly fair execution of @main terminates, nothing faulting, and every final state has the
    argument arrays as launched: each argument read off the last boundary and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_gen m ρ fun s h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c)⟩

end Cert.Kernel.Hand

end
-- ==== Proof.KI.Region0.lean ====
/- REGION 0 of @main (the embedding kernel, pipeline 0): its class-A half at a PARAMETER `V`, the
   TensorCore's buffer contents when the region is entered. Four windows: the node features' row blocks
   (fetched at every point), the embedding weight and bias (one block each, fetched once), and the output's
   row blocks. The body reads the three input blocks whole and stores `tanh (x · Wᵀ + b)` over the whole
   output block. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (its block index never moves: unfetched, the buffer still holds the block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S4096x32 := Rect.unit (s := S4096x32) ![0, 0] S4096x32.size inb_S4096x32_S4096x32_0_0
abbrev r0_1 : Rect S128x32 := Rect.unit (s := S128x32) ![0, 0] S128x32.size inb_S128x32_S128x32_0_0
abbrev r0_2 : Rect S128 := Rect.unit (s := S128) ![0] S128.size inb_S128_S128_0
abbrev r0_3 : Rect S4096x128 := Rect.unit (s := S4096x128) ![0, 0] S4096x128.size inb_S4096x128_S4096x128_0_0

/-! ## What the body leaves in the output window's buffer -/

/-- Window 3's staging buffer after the body, from the input windows' blocks: its one store as a piece. -/
def out0_3 (x0 : Vec F S4096x32 .f32) (x1 : Vec F S128x32 .f32) (x2 : Vec F S128 .f32) : Vec F S4096x128 .f32 :=
  View.canon [⟨r0_3, k0_pay1 (View.ld x0 r0_0) (View.ld x1 r0_1) (View.ld x2 r0_2)⟩]

/-- The store tiles the buffer, so it covers it. -/
theorem cover0_3 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S4096x32 .f32) (harg1 : arg1.IsWhole) (arg2 : Memref sig .tc .vmem S128x32 .f32) (harg2 : arg2.IsWhole) (arg3 : Memref sig .tc .vmem S128 .f32) (harg3 : arg3.IsWhole) (arg4 : Memref sig .tc .vmem S4096x128 .f32) (harg4 : arg4.IsWhole)
    (x0 : Vec F S4096x32 .f32) (x1 : Vec F S128x32 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the class-A
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main (custom_call 1, `cc1__mlp_step_kernel`, pipeline 1) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): unfetched, the block index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- the whole `[1024,128]` block (messages, next level, output) -/
abbrev r1_x : Rect S1024x128 := Rect.unit (s := S1024x128) ![0, 0] S1024x128.size inb_S1024x128_S1024x128_0_0
/-- layer `i`'s `[1,128,128]` slice of a `[9,128,128]` weight stack -/
abbrev r1_w0 : Rect S9x128x128 := Rect.unit (s := S9x128x128) ![0, 0, 0] S1x128x128.size inb_S9x128x128_S1x128x128_0_0_0
abbrev r1_w1 : Rect S9x128x128 := Rect.unit (s := S9x128x128) ![1, 0, 0] S1x128x128.size inb_S9x128x128_S1x128x128_1_0_0
abbrev r1_w2 : Rect S9x128x128 := Rect.unit (s := S9x128x128) ![2, 0, 0] S1x128x128.size inb_S9x128x128_S1x128x128_2_0_0
abbrev r1_w3 : Rect S9x128x128 := Rect.unit (s := S9x128x128) ![3, 0, 0] S1x128x128.size inb_S9x128x128_S1x128x128_3_0_0
abbrev r1_w4 : Rect S9x128x128 := Rect.unit (s := S9x128x128) ![4, 0, 0] S1x128x128.size inb_S9x128x128_S1x128x128_4_0_0
abbrev r1_w5 : Rect S9x128x128 := Rect.unit (s := S9x128x128) ![5, 0, 0] S1x128x128.size inb_S9x128x128_S1x128x128_5_0_0
abbrev r1_w6 : Rect S9x128x128 := Rect.unit (s := S9x128x128) ![6, 0, 0] S1x128x128.size inb_S9x128x128_S1x128x128_6_0_0
abbrev r1_w7 : Rect S9x128x128 := Rect.unit (s := S9x128x128) ![7, 0, 0] S1x128x128.size inb_S9x128x128_S1x128x128_7_0_0
abbrev r1_w8 : Rect S9x128x128 := Rect.unit (s := S9x128x128) ![8, 0, 0] S1x128x128.size inb_S9x128x128_S1x128x128_8_0_0
/-- layer `i`'s `[1,128]` slice of a `[9,128]` bias stack -/
abbrev r1_b0 : Rect S9x128 := Rect.unit (s := S9x128) ![0, 0] S1x128.size inb_S9x128_S1x128_0_0
abbrev r1_b1 : Rect S9x128 := Rect.unit (s := S9x128) ![1, 0] S1x128.size inb_S9x128_S1x128_1_0
abbrev r1_b2 : Rect S9x128 := Rect.unit (s := S9x128) ![2, 0] S1x128.size inb_S9x128_S1x128_2_0
abbrev r1_b3 : Rect S9x128 := Rect.unit (s := S9x128) ![3, 0] S1x128.size inb_S9x128_S1x128_3_0
abbrev r1_b4 : Rect S9x128 := Rect.unit (s := S9x128) ![4, 0] S1x128.size inb_S9x128_S1x128_4_0
abbrev r1_b5 : Rect S9x128 := Rect.unit (s := S9x128) ![5, 0] S1x128.size inb_S9x128_S1x128_5_0
abbrev r1_b6 : Rect S9x128 := Rect.unit (s := S9x128) ![6, 0] S1x128.size inb_S9x128_S1x128_6_0
abbrev r1_b7 : Rect S9x128 := Rect.unit (s := S9x128) ![7, 0] S1x128.size inb_S9x128_S1x128_7_0
abbrev r1_b8 : Rect S9x128 := Rect.unit (s := S9x128) ![8, 0] S1x128.size inb_S9x128_S1x128_8_0
/-- the whole `[128,256]` weight and the whole `[128]` bias of the combining layer -/
abbrev r1_n : Rect S128x256 := Rect.unit (s := S128x256) ![0, 0] S128x256.size inb_S128x256_S128x256_0_0
abbrev r1_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v1_35 (x0 : Vec F S1024x128 .f32) (x2 : Vec F S9x128x128 .bf16) (x3 : Vec F S9x128 .f32) : FVec F S1024x128 .f32 :=
  k1_pay2 (View.ld x0 r1_x) (View.ld x2 r1_w0) (View.ld x3 r1_b0) (View.ld x2 r1_w1) (View.ld x3 r1_b1) (View.ld x2 r1_w2) (View.ld x3 r1_b2)
/-- after layers 3..5 -/
def v1_69 (x0 : Vec F S1024x128 .f32) (x2 : Vec F S9x128x128 .bf16) (x3 : Vec F S9x128 .f32) : FVec F S1024x128 .f32 :=
  k1_pay3 (v1_35 x0 x2 x3) (View.ld x2 r1_w3) (View.ld x3 r1_b3) (View.ld x2 r1_w4) (View.ld x3 r1_b4) (View.ld x2 r1_w5) (View.ld x3 r1_b5)
/-- layer 6's product, before its bias -/
def v1_74 (x0 : Vec F S1024x128 .f32) (x2 : Vec F S9x128x128 .bf16) (x3 : Vec F S9x128 .f32) : FVec F S1024x128 .f32 :=
  k1_pay4 (v1_35 x0 x2 x3) (View.ld x2 r1_w3) (View.ld x3 r1_b3) (View.ld x2 r1_w4) (View.ld x3 r1_b4) (View.ld x2 r1_w5) (View.ld x3 r1_b5) (View.ld x2 r1_w6)
/-- after the message stack's layers 6..8 and the combining layer with the next level's block -/
def v1_116 (x0 x1 : Vec F S1024x128 .f32) (x2 : Vec F S9x128x128 .bf16) (x3 : Vec F S9x128 .f32) (x4 : Vec F S128x256 .bf16) (x5 : Vec F S128 .f32) : FVec F S1024x128 .f32 :=
  k1_pay5 (v1_69 x0 x2 x3) (v1_74 x0 x2 x3) (View.ld x3 r1_b6) (View.ld x2 r1_w7) (View.ld x3 r1_b7) (View.ld x2 r1_w8) (View.ld x3 r1_b8) (View.ld x1 r1_x) (View.ld x4 r1_n) (View.ld x5 r1_c)
/-- after the node stack's layers 0..2, -/
def v1_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay6 (v1_116 x0 x1 x2 x3 x4 x5) (View.ld x6 r1_w0) (View.ld x7 r1_b0) (View.ld x6 r1_w1) (View.ld x7 r1_b1) (View.ld x6 r1_w2) (View.ld x7 r1_b2)
/-- the same, narrowed, -/
def v1_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k1_pay7 (v1_116 x0 x1 x2 x3 x4 x5) (View.ld x6 r1_w0) (View.ld x7 r1_b0) (View.ld x6 r1_w1) (View.ld x7 r1_b1) (View.ld x6 r1_w2) (View.ld x7 r1_b2)
/-- and layer 3's weight, transposed -/
def v1_154 (x6 : Vec F S9x128x128 .bf16) : FVec F S128x128 .bf16 :=
  k1_pay8 (View.ld x6 r1_w3)
/-- after the node stack's layers 3..5 -/
def v1_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay9 (v1_150 x0 x1 x2 x3 x4 x5 x6 x7) (v1_153 x0 x1 x2 x3 x4 x5 x6 x7) (v1_154 x6) (constant S1024x128 .f32 0x00000000#32) (View.ld x7 r1_b3) (View.ld x6 r1_w4) (View.ld x7 r1_b4) (View.ld x6 r1_w5) (View.ld x7 r1_b5)
/-- layer 6's sum, before its `tanh` -/
def v1_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k1_pay10 (v1_150 x0 x1 x2 x3 x4 x5 x6 x7) (v1_153 x0 x1 x2 x3 x4 x5 x6 x7) (v1_154 x6) (constant S1024x128 .f32 0x00000000#32) (View.ld x7 r1_b3) (View.ld x6 r1_w4) (View.ld x7 r1_b4) (View.ld x6 r1_w5) (View.ld x7 r1_b5) (View.ld x6 r1_w6) (View.ld x7 r1_b6)

/-- Window 8's staging buffer after the body, from the input windows' blocks: its one store, of the whole block. -/
def out1_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r1_x, k1_pay1 (v1_184 x0 x1 x2 x3 x4 x5 x6 x7) (v1_194 x0 x1 x2 x3 x4 x5 x6 x7) (View.ld x6 r1_w7) (View.ld x7 r1_b7) (View.ld x6 r1_w8) (View.ld x7 r1_b8)⟩]

/-- The store tiles the buffer (checked by evaluation), so it covers it. -/
theorem cover1_8 (p0 : Vec F S1024x128 .f32) (y : S1024x128.Idx) :
    ∃ pc ∈ ([⟨r1_x, p0⟩] : List (View.Piece (Elt F) S1024x128 .f32)), y ∈ pc.1.set :=
  View.cover_of_tiled [⟨r1_x, p0⟩] S1024x128.size (by rfl) y

/-! ## The body's triple -/

set_option maxHeartbeats 4000000 in
/-- The kernel body on whole staging memrefs, the inputs' at read contents `xW` and the output's at anything, runs to
    the continuation holding the inputs' as they were and the output's at `out1_8` of the inputs'. -/
theorem sound_kernel1 (c : Dev nD) (E : Set ℕ) (i : grid1.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__mlp_step_kernel i arg0 harg0 arg1 harg1 arg2 harg2 arg3 harg3 arg4 harg4 arg5 harg5 arg6 harg6 arg7 harg7 arg8 harg8) K := by
  simp only [cc1__mlp_step_kernel_eq_skeleton, k1_part1_eq_skeleton, k1_part2_eq_skeleton, k1_part3_eq_skeleton, k1_part4_eq_skeleton, k1_part5_eq_skeleton]
  unfold cc1__mlp_step_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Region2.lean ====
/- Region 2 of @main (custom_call 2, `cc2__mlp_step_kernel`, pipeline 2) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- the whole `[1024,128]` block (messages, next level, output) -/
abbrev r2_x : Rect S1024x128 := Rect.unit (s := S1024x128) ![0, 0] S1024x128.size inb_S1024x128_S1024x128_0_0
/-- layer `i`'s `[1,128,128]` slice of a `[9,128,128]` weight stack -/
abbrev r2_w0 : Rect S9x128x128 := Rect.unit (s := S9x128x128) ![0, 0, 0] S1x128x128.size inb_S9x128x128_S1x128x128_0_0_0
abbrev r2_w1 : Rect S9x128x128 := Rect.unit (s := S9x128x128) ![1, 0, 0] S1x128x128.size inb_S9x128x128_S1x128x128_1_0_0
abbrev r2_w2 : Rect S9x128x128 := Rect.unit (s := S9x128x128) ![2, 0, 0] S1x128x128.size inb_S9x128x128_S1x128x128_2_0_0
abbrev r2_w3 : Rect S9x128x128 := Rect.unit (s := S9x128x128) ![3, 0, 0] S1x128x128.size inb_S9x128x128_S1x128x128_3_0_0
abbrev r2_w4 : Rect S9x128x128 := Rect.unit (s := S9x128x128) ![4, 0, 0] S1x128x128.size inb_S9x128x128_S1x128x128_4_0_0
abbrev r2_w5 : Rect S9x128x128 := Rect.unit (s := S9x128x128) ![5, 0, 0] S1x128x128.size inb_S9x128x128_S1x128x128_5_0_0
abbrev r2_w6 : Rect S9x128x128 := Rect.unit (s := S9x128x128) ![6, 0, 0] S1x128x128.size inb_S9x128x128_S1x128x128_6_0_0
abbrev r2_w7 : Rect S9x128x128 := Rect.unit (s := S9x128x128) ![7, 0, 0] S1x128x128.size inb_S9x128x128_S1x128x128_7_0_0
abbrev r2_w8 : Rect S9x128x128 := Rect.unit (s := S9x128x128) ![8, 0, 0] S1x128x128.size inb_S9x128x128_S1x128x128_8_0_0
/-- layer `i`'s `[1,128]` slice of a `[9,128]` bias stack -/
abbrev r2_b0 : Rect S9x128 := Rect.unit (s := S9x128) ![0, 0] S1x128.size inb_S9x128_S1x128_0_0
abbrev r2_b1 : Rect S9x128 := Rect.unit (s := S9x128) ![1, 0] S1x128.size inb_S9x128_S1x128_1_0
abbrev r2_b2 : Rect S9x128 := Rect.unit (s := S9x128) ![2, 0] S1x128.size inb_S9x128_S1x128_2_0
abbrev r2_b3 : Rect S9x128 := Rect.unit (s := S9x128) ![3, 0] S1x128.size inb_S9x128_S1x128_3_0
abbrev r2_b4 : Rect S9x128 := Rect.unit (s := S9x128) ![4, 0] S1x128.size inb_S9x128_S1x128_4_0
abbrev r2_b5 : Rect S9x128 := Rect.unit (s := S9x128) ![5, 0] S1x128.size inb_S9x128_S1x128_5_0
abbrev r2_b6 : Rect S9x128 := Rect.unit (s := S9x128) ![6, 0] S1x128.size inb_S9x128_S1x128_6_0
abbrev r2_b7 : Rect S9x128 := Rect.unit (s := S9x128) ![7, 0] S1x128.size inb_S9x128_S1x128_7_0
abbrev r2_b8 : Rect S9x128 := Rect.unit (s := S9x128) ![8, 0] S1x128.size inb_S9x128_S1x128_8_0
/-- the whole `[128,256]` weight and the whole `[128]` bias of the combining layer -/
abbrev r2_n : Rect S128x256 := Rect.unit (s := S128x256) ![0, 0] S128x256.size inb_S128x256_S128x256_0_0
abbrev r2_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v2_35 (x0 : Vec F S1024x128 .f32) (x2 : Vec F S9x128x128 .bf16) (x3 : Vec F S9x128 .f32) : FVec F S1024x128 .f32 :=
  k2_pay2 (View.ld x0 r2_x) (View.ld x2 r2_w0) (View.ld x3 r2_b0) (View.ld x2 r2_w1) (View.ld x3 r2_b1) (View.ld x2 r2_w2) (View.ld x3 r2_b2)
/-- after layers 3..5 -/
def v2_69 (x0 : Vec F S1024x128 .f32) (x2 : Vec F S9x128x128 .bf16) (x3 : Vec F S9x128 .f32) : FVec F S1024x128 .f32 :=
  k2_pay3 (v2_35 x0 x2 x3) (View.ld x2 r2_w3) (View.ld x3 r2_b3) (View.ld x2 r2_w4) (View.ld x3 r2_b4) (View.ld x2 r2_w5) (View.ld x3 r2_b5)
/-- layer 6's product, before its bias -/
def v2_74 (x0 : Vec F S1024x128 .f32) (x2 : Vec F S9x128x128 .bf16) (x3 : Vec F S9x128 .f32) : FVec F S1024x128 .f32 :=
  k2_pay4 (v2_35 x0 x2 x3) (View.ld x2 r2_w3) (View.ld x3 r2_b3) (View.ld x2 r2_w4) (View.ld x3 r2_b4) (View.ld x2 r2_w5) (View.ld x3 r2_b5) (View.ld x2 r2_w6)
/-- after the message stack's layers 6..8 and the combining layer with the next level's block -/
def v2_116 (x0 x1 : Vec F S1024x128 .f32) (x2 : Vec F S9x128x128 .bf16) (x3 : Vec F S9x128 .f32) (x4 : Vec F S128x256 .bf16) (x5 : Vec F S128 .f32) : FVec F S1024x128 .f32 :=
  k2_pay5 (v2_69 x0 x2 x3) (v2_74 x0 x2 x3) (View.ld x3 r2_b6) (View.ld x2 r2_w7) (View.ld x3 r2_b7) (View.ld x2 r2_w8) (View.ld x3 r2_b8) (View.ld x1 r2_x) (View.ld x4 r2_n) (View.ld x5 r2_c)
/-- after the node stack's layers 0..2, -/
def v2_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay6 (v2_116 x0 x1 x2 x3 x4 x5) (View.ld x6 r2_w0) (View.ld x7 r2_b0) (View.ld x6 r2_w1) (View.ld x7 r2_b1) (View.ld x6 r2_w2) (View.ld x7 r2_b2)
/-- the same, narrowed, -/
def v2_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k2_pay7 (v2_116 x0 x1 x2 x3 x4 x5) (View.ld x6 r2_w0) (View.ld x7 r2_b0) (View.ld x6 r2_w1) (View.ld x7 r2_b1) (View.ld x6 r2_w2) (View.ld x7 r2_b2)
/-- and layer 3's weight, transposed -/
def v2_154 (x6 : Vec F S9x128x128 .bf16) : FVec F S128x128 .bf16 :=
  k2_pay8 (View.ld x6 r2_w3)
/-- after the node stack's layers 3..5 -/
def v2_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay9 (v2_150 x0 x1 x2 x3 x4 x5 x6 x7) (v2_153 x0 x1 x2 x3 x4 x5 x6 x7) (v2_154 x6) (constant S1024x128 .f32 0x00000000#32) (View.ld x7 r2_b3) (View.ld x6 r2_w4) (View.ld x7 r2_b4) (View.ld x6 r2_w5) (View.ld x7 r2_b5)
/-- layer 6's sum, before its `tanh` -/
def v2_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k2_pay10 (v2_150 x0 x1 x2 x3 x4 x5 x6 x7) (v2_153 x0 x1 x2 x3 x4 x5 x6 x7) (v2_154 x6) (constant S1024x128 .f32 0x00000000#32) (View.ld x7 r2_b3) (View.ld x6 r2_w4) (View.ld x7 r2_b4) (View.ld x6 r2_w5) (View.ld x7 r2_b5) (View.ld x6 r2_w6) (View.ld x7 r2_b6)

/-- Window 8's staging buffer after the body, from the input windows' blocks: its one store, of the whole block. -/
def out2_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r2_x, k2_pay1 (v2_184 x0 x1 x2 x3 x4 x5 x6 x7) (v2_194 x0 x1 x2 x3 x4 x5 x6 x7) (View.ld x6 r2_w7) (View.ld x7 r2_b7) (View.ld x6 r2_w8) (View.ld x7 r2_b8)⟩]

/-- The store tiles the buffer (checked by evaluation), so it covers it. -/
theorem cover2_8 (p0 : Vec F S1024x128 .f32) (y : S1024x128.Idx) :
    ∃ pc ∈ ([⟨r2_x, p0⟩] : List (View.Piece (Elt F) S1024x128 .f32)), y ∈ pc.1.set :=
  View.cover_of_tiled [⟨r2_x, p0⟩] S1024x128.size (by rfl) y

/-! ## The body's triple -/

set_option maxHeartbeats 4000000 in
/-- The kernel body on whole staging memrefs, the inputs' at read contents `xW` and the output's at anything, runs to
    the continuation holding the inputs' as they were and the output's at `out2_8` of the inputs'. -/
theorem sound_kernel2 (c : Dev nD) (E : Set ℕ) (i : grid2.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7)) -∗ K ⟨⟩))
      ⊢ wp frame (wpE (defs₀ (F := F)) Variants.none c none) E (cc2__mlp_step_kernel i arg0 harg0 arg1 harg1 arg2 harg2 arg3 harg3 arg4 harg4 arg5 harg5 arg6 harg6 arg7 harg7 arg8 harg8) K := by
  simp only [cc2__mlp_step_kernel_eq_skeleton, k2_part1_eq_skeleton, k2_part2_eq_skeleton, k2_part3_eq_skeleton, k2_part4_eq_skeleton, k2_part5_eq_skeleton]
  unfold cc2__mlp_step_kernel_skel
  simp only [k2_part1_eq_skeleton, k2_part2_eq_skeleton, k2_part3_eq_skeleton, k2_part4_eq_skeleton, k2_part5_eq_skeleton]
  unfold k2_part1_skel k2_part2_skel k2_part3_skel k2_part4_skel k2_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point
    `t` each input's buffer at its block and the output's at `out2_8` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.KI.Region3.lean ====
/- Region 3 of @main (custom_call 3, `cc3__mlp_step_kernel`, pipeline 3) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): unfetched, the block index
    has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): unfetched, the block index
    has not moved; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): unfetched, the block index
    has not moved; the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- the whole `[1024,128]` block (messages, next level, output) -/
abbrev r3_x : Rect S1024x128 := Rect.unit (s := S1024x128) ![0, 0] S1024x128.size inb_S1024x128_S1024x128_0_0
/-- layer `i`'s `[1,128,128]` slice of a `[9,128,128]` weight stack -/
abbrev r3_w0 : Rect S9x128x128 := Rect.unit (s := S9x128x128) ![0, 0, 0] S1x128x128.size inb_S9x128x128_S1x128x128_0_0_0
abbrev r3_w1 : Rect S9x128x128 := Rect.unit (s := S9x128x128) ![1, 0, 0] S1x128x128.size inb_S9x128x128_S1x128x128_1_0_0
abbrev r3_w2 : Rect S9x128x128 := Rect.unit (s := S9x128x128) ![2, 0, 0] S1x128x128.size inb_S9x128x128_S1x128x128_2_0_0
abbrev r3_w3 : Rect S9x128x128 := Rect.unit (s := S9x128x128) ![3, 0, 0] S1x128x128.size inb_S9x128x128_S1x128x128_3_0_0
abbrev r3_w4 : Rect S9x128x128 := Rect.unit (s := S9x128x128) ![4, 0, 0] S1x128x128.size inb_S9x128x128_S1x128x128_4_0_0
abbrev r3_w5 : Rect S9x128x128 := Rect.unit (s := S9x128x128) ![5, 0, 0] S1x128x128.size inb_S9x128x128_S1x128x128_5_0_0
abbrev r3_w6 : Rect S9x128x128 := Rect.unit (s := S9x128x128) ![6, 0, 0] S1x128x128.size inb_S9x128x128_S1x128x128_6_0_0
abbrev r3_w7 : Rect S9x128x128 := Rect.unit (s := S9x128x128) ![7, 0, 0] S1x128x128.size inb_S9x128x128_S1x128x128_7_0_0
abbrev r3_w8 : Rect S9x128x128 := Rect.unit (s := S9x128x128) ![8, 0, 0] S1x128x128.size inb_S9x128x128_S1x128x128_8_0_0
/-- layer `i`'s `[1,128]` slice of a `[9,128]` bias stack -/
abbrev r3_b0 : Rect S9x128 := Rect.unit (s := S9x128) ![0, 0] S1x128.size inb_S9x128_S1x128_0_0
abbrev r3_b1 : Rect S9x128 := Rect.unit (s := S9x128) ![1, 0] S1x128.size inb_S9x128_S1x128_1_0
abbrev r3_b2 : Rect S9x128 := Rect.unit (s := S9x128) ![2, 0] S1x128.size inb_S9x128_S1x128_2_0
abbrev r3_b3 : Rect S9x128 := Rect.unit (s := S9x128) ![3, 0] S1x128.size inb_S9x128_S1x128_3_0
abbrev r3_b4 : Rect S9x128 := Rect.unit (s := S9x128) ![4, 0] S1x128.size inb_S9x128_S1x128_4_0
abbrev r3_b5 : Rect S9x128 := Rect.unit (s := S9x128) ![5, 0] S1x128.size inb_S9x128_S1x128_5_0
abbrev r3_b6 : Rect S9x128 := Rect.unit (s := S9x128) ![6, 0] S1x128.size inb_S9x128_S1x128_6_0
abbrev r3_b7 : Rect S9x128 := Rect.unit (s := S9x128) ![7, 0] S1x128.size inb_S9x128_S1x128_7_0
abbrev r3_b8 : Rect S9x128 := Rect.unit (s := S9x128) ![8, 0] S1x128.size inb_S9x128_S1x128_8_0
/-- the whole `[128,256]` weight and the whole `[128]` bias of the combining layer -/
abbrev r3_n : Rect S128x256 := Rect.unit (s := S128x256) ![0, 0] S128x256.size inb_S128x256_S128x256_0_0
abbrev r3_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v3_35 (x0 : Vec F S1024x128 .f32) (x2 : Vec F S9x128x128 .bf16) (x3 : Vec F S9x128 .f32) : FVec F S1024x128 .f32 :=
  k3_pay2 (View.ld x0 r3_x) (View.ld x2 r3_w0) (View.ld x3 r3_b0) (View.ld x2 r3_w1) (View.ld x3 r3_b1) (View.ld x2 r3_w2) (View.ld x3 r3_b2)
/-- after layers 3..5 -/
def v3_69 (x0 : Vec F S1024x128 .f32) (x2 : Vec F S9x128x128 .bf16) (x3 : Vec F S9x128 .f32) : FVec F S1024x128 .f32 :=
  k3_pay3 (v3_35 x0 x2 x3) (View.ld x2 r3_w3) (View.ld x3 r3_b3) (View.ld x2 r3_w4) (View.ld x3 r3_b4) (View.ld x2 r3_w5) (View.ld x3 r3_b5)
/-- layer 6's product, before its bias -/
def v3_74 (x0 : Vec F S1024x128 .f32) (x2 : Vec F S9x128x128 .bf16) (x3 : Vec F S9x128 .f32) : FVec F S1024x128 .f32 :=
  k3_pay4 (v3_35 x0 x2 x3) (View.ld x2 r3_w3) (View.ld x3 r3_b3) (View.ld x2 r3_w4) (View.ld x3 r3_b4) (View.ld x2 r3_w5) (View.ld x3 r3_b5) (View.ld x2 r3_w6)
/-- after the message stack's layers 6..8 and the combining layer with the next level's block -/
def v3_116 (x0 x1 : Vec F S1024x128 .f32) (x2 : Vec F S9x128x128 .bf16) (x3 : Vec F S9x128 .f32) (x4 : Vec F S128x256 .bf16) (x5 : Vec F S128 .f32) : FVec F S1024x128 .f32 :=
  k3_pay5 (v3_69 x0 x2 x3) (v3_74 x0 x2 x3) (View.ld x3 r3_b6) (View.ld x2 r3_w7) (View.ld x3 r3_b7) (View.ld x2 r3_w8) (View.ld x3 r3_b8) (View.ld x1 r3_x) (View.ld x4 r3_n) (View.ld x5 r3_c)
/-- after the node stack's layers 0..2, -/
def v3_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay6 (v3_116 x0 x1 x2 x3 x4 x5) (View.ld x6 r3_w0) (View.ld x7 r3_b0) (View.ld x6 r3_w1) (View.ld x7 r3_b1) (View.ld x6 r3_w2) (View.ld x7 r3_b2)
/-- the same, narrowed, -/
def v3_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k3_pay7 (v3_116 x0 x1 x2 x3 x4 x5) (View.ld x6 r3_w0) (View.ld x7 r3_b0) (View.ld x6 r3_w1) (View.ld x7 r3_b1) (View.ld x6 r3_w2) (View.ld x7 r3_b2)
/-- and layer 3's weight, transposed -/
def v3_154 (x6 : Vec F S9x128x128 .bf16) : FVec F S128x128 .bf16 :=
  k3_pay8 (View.ld x6 r3_w3)
/-- after the node stack's layers 3..5 -/
def v3_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay9 (v3_150 x0 x1 x2 x3 x4 x5 x6 x7) (v3_153 x0 x1 x2 x3 x4 x5 x6 x7) (v3_154 x6) (constant S1024x128 .f32 0x00000000#32) (View.ld x7 r3_b3) (View.ld x6 r3_w4) (View.ld x7 r3_b4) (View.ld x6 r3_w5) (View.ld x7 r3_b5)
/-- layer 6's sum, before its `tanh` -/
def v3_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k3_pay10 (v3_150 x0 x1 x2 x3 x4 x5 x6 x7) (v3_153 x0 x1 x2 x3 x4 x5 x6 x7) (v3_154 x6) (constant S1024x128 .f32 0x00000000#32) (View.ld x7 r3_b3) (View.ld x6 r3_w4) (View.ld x7 r3_b4) (View.ld x6 r3_w5) (View.ld x7 r3_b5) (View.ld x6 r3_w6) (View.ld x7 r3_b6)

/-- Window 8's staging buffer after the body, from the input windows' blocks: its one store, of the whole block. -/
def out3_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r3_x, k3_pay1 (v3_184 x0 x1 x2 x3 x4 x5 x6 x7) (v3_194 x0 x1 x2 x3 x4 x5 x6 x7) (View.ld x6 r3_w7) (View.ld x7 r3_b7) (View.ld x6 r3_w8) (View.ld x7 r3_b8)⟩]

/-- The store tiles the buffer (checked by evaluation), so it covers it. -/
theorem cover3_8 (p0 : Vec F S1024x128 .f32) (y : S1024x128.Idx) :
    ∃ pc ∈ ([⟨r3_x, p0⟩] : List (View.Piece (Elt F) S1024x128 .f32)), y ∈ pc.1.set :=
  View.cover_of_tiled [⟨r3_x, p0⟩] S1024x128.size (by rfl) y

/-! ## The body's triple -/

set_option maxHeartbeats 4000000 in
/-- The kernel body on whole staging memrefs, the inputs' at read contents `xW` and the output's at anything, runs to
    the continuation holding the inputs' as they were and the output's at `out3_8` of the inputs'. -/
theorem sound_kernel3 (c : Dev nD) (E : Set ℕ) (i : grid3.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out3_8 x0 x1 x2 x3 x4 x5 x6 x7)) -∗ K ⟨⟩))
      ⊢ wp frame (wpE (defs₀ (F := F)) Variants.none c none) E (cc3__mlp_step_kernel i arg0 harg0 arg1 harg1 arg2 harg2 arg3 harg3 arg4 harg4 arg5 harg5 arg6 harg6 arg7 harg7 arg8 harg8) K := by
  simp only [cc3__mlp_step_kernel_eq_skeleton, k3_part1_eq_skeleton, k3_part2_eq_skeleton, k3_part3_eq_skeleton, k3_part4_eq_skeleton, k3_part5_eq_skeleton]
  unfold cc3__mlp_step_kernel_skel
  simp only [k3_part1_eq_skeleton, k3_part2_eq_skeleton, k3_part3_eq_skeleton, k3_part4_eq_skeleton, k3_part5_eq_skeleton]
  unfold k3_part1_skel k3_part2_skel k3_part3_skel k3_part4_skel k3_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The proof data of pipeline 3 on core `c`: the arrays as the region finds them (`V`); after the body at point
    `t` each input's buffer at its block and the output's at `out3_8` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand
-- ==== Proof.KI.Region4.lean ====
/- Region 4 of @main (custom_call 4, `cc4__mlp_step_kernel`, pipeline 4) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): unfetched, the block index
    has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): unfetched, the block index
    has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof
    data whose array is `V`'s (`hA`) and whose body leaves the block in place (`hafter`): unfetched, the block index
    has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any proof
    data whose array is `V`'s (`hA`) and whose body leaves the block in place (`hafter`): unfetched, the block index
    has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any proof
    data whose array is `V`'s (`hA`) and whose body leaves the block in place (`hafter`): unfetched, the block index
    has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any proof
    data whose array is `V`'s (`hA`) and whose body leaves the block in place (`hafter`): unfetched, the block index
    has not moved; the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- the whole `[1024,128]` block (messages, next level, output) -/
abbrev r4_x : Rect S1024x128 := Rect.unit (s := S1024x128) ![0, 0] S1024x128.size inb_S1024x128_S1024x128_0_0
/-- layer `i`'s `[1,128,128]` slice of a `[9,128,128]` weight stack -/
abbrev r4_w0 : Rect S9x128x128 := Rect.unit (s := S9x128x128) ![0, 0, 0] S1x128x128.size inb_S9x128x128_S1x128x128_0_0_0
abbrev r4_w1 : Rect S9x128x128 := Rect.unit (s := S9x128x128) ![1, 0, 0] S1x128x128.size inb_S9x128x128_S1x128x128_1_0_0
abbrev r4_w2 : Rect S9x128x128 := Rect.unit (s := S9x128x128) ![2, 0, 0] S1x128x128.size inb_S9x128x128_S1x128x128_2_0_0
abbrev r4_w3 : Rect S9x128x128 := Rect.unit (s := S9x128x128) ![3, 0, 0] S1x128x128.size inb_S9x128x128_S1x128x128_3_0_0
abbrev r4_w4 : Rect S9x128x128 := Rect.unit (s := S9x128x128) ![4, 0, 0] S1x128x128.size inb_S9x128x128_S1x128x128_4_0_0
abbrev r4_w5 : Rect S9x128x128 := Rect.unit (s := S9x128x128) ![5, 0, 0] S1x128x128.size inb_S9x128x128_S1x128x128_5_0_0
abbrev r4_w6 : Rect S9x128x128 := Rect.unit (s := S9x128x128) ![6, 0, 0] S1x128x128.size inb_S9x128x128_S1x128x128_6_0_0
abbrev r4_w7 : Rect S9x128x128 := Rect.unit (s := S9x128x128) ![7, 0, 0] S1x128x128.size inb_S9x128x128_S1x128x128_7_0_0
abbrev r4_w8 : Rect S9x128x128 := Rect.unit (s := S9x128x128) ![8, 0, 0] S1x128x128.size inb_S9x128x128_S1x128x128_8_0_0
/-- layer `i`'s `[1,128]` slice of a `[9,128]` bias stack -/
abbrev r4_b0 : Rect S9x128 := Rect.unit (s := S9x128) ![0, 0] S1x128.size inb_S9x128_S1x128_0_0
abbrev r4_b1 : Rect S9x128 := Rect.unit (s := S9x128) ![1, 0] S1x128.size inb_S9x128_S1x128_1_0
abbrev r4_b2 : Rect S9x128 := Rect.unit (s := S9x128) ![2, 0] S1x128.size inb_S9x128_S1x128_2_0
abbrev r4_b3 : Rect S9x128 := Rect.unit (s := S9x128) ![3, 0] S1x128.size inb_S9x128_S1x128_3_0
abbrev r4_b4 : Rect S9x128 := Rect.unit (s := S9x128) ![4, 0] S1x128.size inb_S9x128_S1x128_4_0
abbrev r4_b5 : Rect S9x128 := Rect.unit (s := S9x128) ![5, 0] S1x128.size inb_S9x128_S1x128_5_0
abbrev r4_b6 : Rect S9x128 := Rect.unit (s := S9x128) ![6, 0] S1x128.size inb_S9x128_S1x128_6_0
abbrev r4_b7 : Rect S9x128 := Rect.unit (s := S9x128) ![7, 0] S1x128.size inb_S9x128_S1x128_7_0
abbrev r4_b8 : Rect S9x128 := Rect.unit (s := S9x128) ![8, 0] S1x128.size inb_S9x128_S1x128_8_0
/-- the whole `[128,256]` weight and the whole `[128]` bias of the combining layer -/
abbrev r4_n : Rect S128x256 := Rect.unit (s := S128x256) ![0, 0] S128x256.size inb_S128x256_S128x256_0_0
abbrev r4_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v4_35 (x0 : Vec F S1024x128 .f32) (x2 : Vec F S9x128x128 .bf16) (x3 : Vec F S9x128 .f32) : FVec F S1024x128 .f32 :=
  k4_pay2 (View.ld x0 r4_x) (View.ld x2 r4_w0) (View.ld x3 r4_b0) (View.ld x2 r4_w1) (View.ld x3 r4_b1) (View.ld x2 r4_w2) (View.ld x3 r4_b2)
/-- after layers 3..5 -/
def v4_69 (x0 : Vec F S1024x128 .f32) (x2 : Vec F S9x128x128 .bf16) (x3 : Vec F S9x128 .f32) : FVec F S1024x128 .f32 :=
  k4_pay3 (v4_35 x0 x2 x3) (View.ld x2 r4_w3) (View.ld x3 r4_b3) (View.ld x2 r4_w4) (View.ld x3 r4_b4) (View.ld x2 r4_w5) (View.ld x3 r4_b5)
/-- layer 6's product, before its bias -/
def v4_74 (x0 : Vec F S1024x128 .f32) (x2 : Vec F S9x128x128 .bf16) (x3 : Vec F S9x128 .f32) : FVec F S1024x128 .f32 :=
  k4_pay4 (v4_35 x0 x2 x3) (View.ld x2 r4_w3) (View.ld x3 r4_b3) (View.ld x2 r4_w4) (View.ld x3 r4_b4) (View.ld x2 r4_w5) (View.ld x3 r4_b5) (View.ld x2 r4_w6)
/-- after the message stack's layers 6..8 and the combining layer with the next level's block -/
def v4_116 (x0 x1 : Vec F S1024x128 .f32) (x2 : Vec F S9x128x128 .bf16) (x3 : Vec F S9x128 .f32) (x4 : Vec F S128x256 .bf16) (x5 : Vec F S128 .f32) : FVec F S1024x128 .f32 :=
  k4_pay5 (v4_69 x0 x2 x3) (v4_74 x0 x2 x3) (View.ld x3 r4_b6) (View.ld x2 r4_w7) (View.ld x3 r4_b7) (View.ld x2 r4_w8) (View.ld x3 r4_b8) (View.ld x1 r4_x) (View.ld x4 r4_n) (View.ld x5 r4_c)
/-- after the node stack's layers 0..2, -/
def v4_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay6 (v4_116 x0 x1 x2 x3 x4 x5) (View.ld x6 r4_w0) (View.ld x7 r4_b0) (View.ld x6 r4_w1) (View.ld x7 r4_b1) (View.ld x6 r4_w2) (View.ld x7 r4_b2)
/-- the same, narrowed, -/
def v4_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k4_pay7 (v4_116 x0 x1 x2 x3 x4 x5) (View.ld x6 r4_w0) (View.ld x7 r4_b0) (View.ld x6 r4_w1) (View.ld x7 r4_b1) (View.ld x6 r4_w2) (View.ld x7 r4_b2)
/-- and layer 3's weight, transposed -/
def v4_154 (x6 : Vec F S9x128x128 .bf16) : FVec F S128x128 .bf16 :=
  k4_pay8 (View.ld x6 r4_w3)
/-- after the node stack's layers 3..5 -/
def v4_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay9 (v4_150 x0 x1 x2 x3 x4 x5 x6 x7) (v4_153 x0 x1 x2 x3 x4 x5 x6 x7) (v4_154 x6) (constant S1024x128 .f32 0x00000000#32) (View.ld x7 r4_b3) (View.ld x6 r4_w4) (View.ld x7 r4_b4) (View.ld x6 r4_w5) (View.ld x7 r4_b5)
/-- layer 6's sum, before its `tanh` -/
def v4_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k4_pay10 (v4_150 x0 x1 x2 x3 x4 x5 x6 x7) (v4_153 x0 x1 x2 x3 x4 x5 x6 x7) (v4_154 x6) (constant S1024x128 .f32 0x00000000#32) (View.ld x7 r4_b3) (View.ld x6 r4_w4) (View.ld x7 r4_b4) (View.ld x6 r4_w5) (View.ld x7 r4_b5) (View.ld x6 r4_w6) (View.ld x7 r4_b6)

/-- Window 8's staging buffer after the body, from the input windows' blocks: its one store, of the whole block. -/
def out4_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r4_x, k4_pay1 (v4_184 x0 x1 x2 x3 x4 x5 x6 x7) (v4_194 x0 x1 x2 x3 x4 x5 x6 x7) (View.ld x6 r4_w7) (View.ld x7 r4_b7) (View.ld x6 r4_w8) (View.ld x7 r4_b8)⟩]

/-- The store tiles the buffer (checked by evaluation), so it covers it. -/
theorem cover4_8 (p0 : Vec F S1024x128 .f32) (y : S1024x128.Idx) :
    ∃ pc ∈ ([⟨r4_x, p0⟩] : List (View.Piece (Elt F) S1024x128 .f32)), y ∈ pc.1.set :=
  View.cover_of_tiled [⟨r4_x, p0⟩] S1024x128.size (by rfl) y

/-! ## The body's triple -/

set_option maxHeartbeats 4000000 in
/-- The kernel body on whole staging memrefs, the inputs' at read contents `xW` and the output's at anything, runs to
    the continuation holding the inputs' as they were and the output's at `out4_8` of the inputs'. -/
theorem sound_kernel4 (c : Dev nD) (E : Set ℕ) (i : grid4.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out4_8 x0 x1 x2 x3 x4 x5 x6 x7)) -∗ K ⟨⟩))
      ⊢ wp frame (wpE (defs₀ (F := F)) Variants.none c none) E (cc4__mlp_step_kernel i arg0 harg0 arg1 harg1 arg2 harg2 arg3 harg3 arg4 harg4 arg5 harg5 arg6 harg6 arg7 harg7 arg8 harg8) K := by
  simp only [cc4__mlp_step_kernel_eq_skeleton, k4_part1_eq_skeleton, k4_part2_eq_skeleton, k4_part3_eq_skeleton, k4_part4_eq_skeleton, k4_part5_eq_skeleton]
  unfold cc4__mlp_step_kernel_skel
  simp only [k4_part1_eq_skeleton, k4_part2_eq_skeleton, k4_part3_eq_skeleton, k4_part4_eq_skeleton, k4_part5_eq_skeleton]
  unfold k4_part1_skel k4_part2_skel k4_part3_skel k4_part4_skel k4_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_8 _)

/-! ## The pipeline's proof data -/

/-- The proof data of pipeline 4 on core `c`: the arrays as the region finds them (`V`); after the body at point
    `t` each input's buffer at its block and the output's at `out4_8` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.KI.Region5.lean ====
/- Region 5 of @main (custom_call 5, `cc5__mlp_step_kernel`, pipeline 5) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is `V`'s (`hA`) and whose body leaves the block in place (`hafter`): unfetched, the block index
    has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof
    data whose array is `V`'s (`hA`) and whose body leaves the block in place (`hafter`): unfetched, the block index
    has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof
    data whose array is `V`'s (`hA`) and whose body leaves the block in place (`hafter`): unfetched, the block index
    has not moved; the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- the whole `[1024,128]` block (messages, next level, output) -/
abbrev r5_x : Rect S1024x128 := Rect.unit (s := S1024x128) ![0, 0] S1024x128.size inb_S1024x128_S1024x128_0_0
/-- layer `i`'s `[1,128,128]` slice of a `[9,128,128]` weight stack -/
abbrev r5_w0 : Rect S9x128x128 := Rect.unit (s := S9x128x128) ![0, 0, 0] S1x128x128.size inb_S9x128x128_S1x128x128_0_0_0
abbrev r5_w1 : Rect S9x128x128 := Rect.unit (s := S9x128x128) ![1, 0, 0] S1x128x128.size inb_S9x128x128_S1x128x128_1_0_0
abbrev r5_w2 : Rect S9x128x128 := Rect.unit (s := S9x128x128) ![2, 0, 0] S1x128x128.size inb_S9x128x128_S1x128x128_2_0_0
abbrev r5_w3 : Rect S9x128x128 := Rect.unit (s := S9x128x128) ![3, 0, 0] S1x128x128.size inb_S9x128x128_S1x128x128_3_0_0
abbrev r5_w4 : Rect S9x128x128 := Rect.unit (s := S9x128x128) ![4, 0, 0] S1x128x128.size inb_S9x128x128_S1x128x128_4_0_0
abbrev r5_w5 : Rect S9x128x128 := Rect.unit (s := S9x128x128) ![5, 0, 0] S1x128x128.size inb_S9x128x128_S1x128x128_5_0_0
abbrev r5_w6 : Rect S9x128x128 := Rect.unit (s := S9x128x128) ![6, 0, 0] S1x128x128.size inb_S9x128x128_S1x128x128_6_0_0
abbrev r5_w7 : Rect S9x128x128 := Rect.unit (s := S9x128x128) ![7, 0, 0] S1x128x128.size inb_S9x128x128_S1x128x128_7_0_0
abbrev r5_w8 : Rect S9x128x128 := Rect.unit (s := S9x128x128) ![8, 0, 0] S1x128x128.size inb_S9x128x128_S1x128x128_8_0_0
/-- layer `i`'s `[1,128]` slice of a `[9,128]` bias stack -/
abbrev r5_b0 : Rect S9x128 := Rect.unit (s := S9x128) ![0, 0] S1x128.size inb_S9x128_S1x128_0_0
abbrev r5_b1 : Rect S9x128 := Rect.unit (s := S9x128) ![1, 0] S1x128.size inb_S9x128_S1x128_1_0
abbrev r5_b2 : Rect S9x128 := Rect.unit (s := S9x128) ![2, 0] S1x128.size inb_S9x128_S1x128_2_0
abbrev r5_b3 : Rect S9x128 := Rect.unit (s := S9x128) ![3, 0] S1x128.size inb_S9x128_S1x128_3_0
abbrev r5_b4 : Rect S9x128 := Rect.unit (s := S9x128) ![4, 0] S1x128.size inb_S9x128_S1x128_4_0
abbrev r5_b5 : Rect S9x128 := Rect.unit (s := S9x128) ![5, 0] S1x128.size inb_S9x128_S1x128_5_0
abbrev r5_b6 : Rect S9x128 := Rect.unit (s := S9x128) ![6, 0] S1x128.size inb_S9x128_S1x128_6_0
abbrev r5_b7 : Rect S9x128 := Rect.unit (s := S9x128) ![7, 0] S1x128.size inb_S9x128_S1x128_7_0
abbrev r5_b8 : Rect S9x128 := Rect.unit (s := S9x128) ![8, 0] S1x128.size inb_S9x128_S1x128_8_0
/-- the whole `[128,256]` weight and the whole `[128]` bias of the combining layer -/
abbrev r5_n : Rect S128x256 := Rect.unit (s := S128x256) ![0, 0] S128x256.size inb_S128x256_S128x256_0_0
abbrev r5_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v5_35 (x0 : Vec F S1024x128 .f32) (x2 : Vec F S9x128x128 .bf16) (x3 : Vec F S9x128 .f32) : FVec F S1024x128 .f32 :=
  k5_pay2 (View.ld x0 r5_x) (View.ld x2 r5_w0) (View.ld x3 r5_b0) (View.ld x2 r5_w1) (View.ld x3 r5_b1) (View.ld x2 r5_w2) (View.ld x3 r5_b2)
/-- after layers 3..5 -/
def v5_69 (x0 : Vec F S1024x128 .f32) (x2 : Vec F S9x128x128 .bf16) (x3 : Vec F S9x128 .f32) : FVec F S1024x128 .f32 :=
  k5_pay3 (v5_35 x0 x2 x3) (View.ld x2 r5_w3) (View.ld x3 r5_b3) (View.ld x2 r5_w4) (View.ld x3 r5_b4) (View.ld x2 r5_w5) (View.ld x3 r5_b5)
/-- layer 6's product, before its bias -/
def v5_74 (x0 : Vec F S1024x128 .f32) (x2 : Vec F S9x128x128 .bf16) (x3 : Vec F S9x128 .f32) : FVec F S1024x128 .f32 :=
  k5_pay4 (v5_35 x0 x2 x3) (View.ld x2 r5_w3) (View.ld x3 r5_b3) (View.ld x2 r5_w4) (View.ld x3 r5_b4) (View.ld x2 r5_w5) (View.ld x3 r5_b5) (View.ld x2 r5_w6)
/-- after the message stack's layers 6..8 and the combining layer with the next level's block -/
def v5_116 (x0 x1 : Vec F S1024x128 .f32) (x2 : Vec F S9x128x128 .bf16) (x3 : Vec F S9x128 .f32) (x4 : Vec F S128x256 .bf16) (x5 : Vec F S128 .f32) : FVec F S1024x128 .f32 :=
  k5_pay5 (v5_69 x0 x2 x3) (v5_74 x0 x2 x3) (View.ld x3 r5_b6) (View.ld x2 r5_w7) (View.ld x3 r5_b7) (View.ld x2 r5_w8) (View.ld x3 r5_b8) (View.ld x1 r5_x) (View.ld x4 r5_n) (View.ld x5 r5_c)
/-- after the node stack's layers 0..2, -/
def v5_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay6 (v5_116 x0 x1 x2 x3 x4 x5) (View.ld x6 r5_w0) (View.ld x7 r5_b0) (View.ld x6 r5_w1) (View.ld x7 r5_b1) (View.ld x6 r5_w2) (View.ld x7 r5_b2)
/-- the same, narrowed, -/
def v5_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k5_pay7 (v5_116 x0 x1 x2 x3 x4 x5) (View.ld x6 r5_w0) (View.ld x7 r5_b0) (View.ld x6 r5_w1) (View.ld x7 r5_b1) (View.ld x6 r5_w2) (View.ld x7 r5_b2)
/-- and layer 3's weight, transposed -/
def v5_154 (x6 : Vec F S9x128x128 .bf16) : FVec F S128x128 .bf16 :=
  k5_pay8 (View.ld x6 r5_w3)
/-- after the node stack's layers 3..5 -/
def v5_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay9 (v5_150 x0 x1 x2 x3 x4 x5 x6 x7) (v5_153 x0 x1 x2 x3 x4 x5 x6 x7) (v5_154 x6) (constant S1024x128 .f32 0x00000000#32) (View.ld x7 r5_b3) (View.ld x6 r5_w4) (View.ld x7 r5_b4) (View.ld x6 r5_w5) (View.ld x7 r5_b5)
/-- layer 6's sum, before its `tanh` -/
def v5_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k5_pay10 (v5_150 x0 x1 x2 x3 x4 x5 x6 x7) (v5_153 x0 x1 x2 x3 x4 x5 x6 x7) (v5_154 x6) (constant S1024x128 .f32 0x00000000#32) (View.ld x7 r5_b3) (View.ld x6 r5_w4) (View.ld x7 r5_b4) (View.ld x6 r5_w5) (View.ld x7 r5_b5) (View.ld x6 r5_w6) (View.ld x7 r5_b6)

/-- Window 8's staging buffer after the body, from the input windows' blocks: its one store, of the whole block. -/
def out5_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r5_x, k5_pay1 (v5_184 x0 x1 x2 x3 x4 x5 x6 x7) (v5_194 x0 x1 x2 x3 x4 x5 x6 x7) (View.ld x6 r5_w7) (View.ld x7 r5_b7) (View.ld x6 r5_w8) (View.ld x7 r5_b8)⟩]

/-- The store tiles the buffer (checked by evaluation), so it covers it. -/
theorem cover5_8 (p0 : Vec F S1024x128 .f32) (y : S1024x128.Idx) :
    ∃ pc ∈ ([⟨r5_x, p0⟩] : List (View.Piece (Elt F) S1024x128 .f32)), y ∈ pc.1.set :=
  View.cover_of_tiled [⟨r5_x, p0⟩] S1024x128.size (by rfl) y

/-! ## The body's triple -/

set_option maxHeartbeats 4000000 in
/-- The kernel body on whole staging memrefs, the inputs' at read contents `xW` and the output's at anything, runs to
    the continuation holding the inputs' as they were and the output's at `out5_8` of the inputs'. -/
theorem sound_kernel5 (c : Dev nD) (E : Set ℕ) (i : grid5.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7)) -∗ K ⟨⟩))
      ⊢ wp frame (wpE (defs₀ (F := F)) Variants.none c none) E (cc5__mlp_step_kernel i arg0 harg0 arg1 harg1 arg2 harg2 arg3 harg3 arg4 harg4 arg5 harg5 arg6 harg6 arg7 harg7 arg8 harg8) K := by
  simp only [cc5__mlp_step_kernel_eq_skeleton, k5_part1_eq_skeleton, k5_part2_eq_skeleton, k5_part3_eq_skeleton, k5_part4_eq_skeleton, k5_part5_eq_skeleton]
  unfold cc5__mlp_step_kernel_skel
  simp only [k5_part1_eq_skeleton, k5_part2_eq_skeleton, k5_part3_eq_skeleton, k5_part4_eq_skeleton, k5_part5_eq_skeleton]
  unfold k5_part1_skel k5_part2_skel k5_part3_skel k5_part4_skel k5_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5_8 _)

/-! ## The pipeline's proof data -/

/-- The proof data of pipeline 5 on core `c`: the arrays as the region finds them (`V`); after the body at point
    `t` each input's buffer at its block and the output's at `out5_8` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand
-- ==== Proof.KI.Region6.lean ====
/- Region 6 of @main (custom_call 6, `cc6__mlp_step_kernel`, pipeline 6) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof
    data whose array is `V`'s (`hA`) and whose body leaves the block in place (`hafter`): unfetched, the block index
    has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof
    data whose array is `V`'s (`hA`) and whose body leaves the block in place (`hafter`): unfetched, the block index
    has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for any proof
    data whose array is `V`'s (`hA`) and whose body leaves the block in place (`hafter`): unfetched, the block index
    has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not, for any proof
    data whose array is `V`'s (`hA`) and whose body leaves the block in place (`hafter`): unfetched, the block index
    has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not, for any proof
    data whose array is `V`'s (`hA`) and whose body leaves the block in place (`hafter`): unfetched, the block index
    has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not, for any proof
    data whose array is `V`'s (`hA`) and whose body leaves the block in place (`hafter`): unfetched, the block index
    has not moved; the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not, for any proof
    data whose array is `V`'s (`hA`) and whose body leaves the block in place (`hafter`): unfetched, the block index
    has not moved; the window is uncut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- the whole `[1024,128]` block (messages, next level, output) -/
abbrev r6_x : Rect S1024x128 := Rect.unit (s := S1024x128) ![0, 0] S1024x128.size inb_S1024x128_S1024x128_0_0
/-- layer `i`'s `[1,128,128]` slice of a `[9,128,128]` weight stack -/
abbrev r6_w0 : Rect S9x128x128 := Rect.unit (s := S9x128x128) ![0, 0, 0] S1x128x128.size inb_S9x128x128_S1x128x128_0_0_0
abbrev r6_w1 : Rect S9x128x128 := Rect.unit (s := S9x128x128) ![1, 0, 0] S1x128x128.size inb_S9x128x128_S1x128x128_1_0_0
abbrev r6_w2 : Rect S9x128x128 := Rect.unit (s := S9x128x128) ![2, 0, 0] S1x128x128.size inb_S9x128x128_S1x128x128_2_0_0
abbrev r6_w3 : Rect S9x128x128 := Rect.unit (s := S9x128x128) ![3, 0, 0] S1x128x128.size inb_S9x128x128_S1x128x128_3_0_0
abbrev r6_w4 : Rect S9x128x128 := Rect.unit (s := S9x128x128) ![4, 0, 0] S1x128x128.size inb_S9x128x128_S1x128x128_4_0_0
abbrev r6_w5 : Rect S9x128x128 := Rect.unit (s := S9x128x128) ![5, 0, 0] S1x128x128.size inb_S9x128x128_S1x128x128_5_0_0
abbrev r6_w6 : Rect S9x128x128 := Rect.unit (s := S9x128x128) ![6, 0, 0] S1x128x128.size inb_S9x128x128_S1x128x128_6_0_0
abbrev r6_w7 : Rect S9x128x128 := Rect.unit (s := S9x128x128) ![7, 0, 0] S1x128x128.size inb_S9x128x128_S1x128x128_7_0_0
abbrev r6_w8 : Rect S9x128x128 := Rect.unit (s := S9x128x128) ![8, 0, 0] S1x128x128.size inb_S9x128x128_S1x128x128_8_0_0
/-- layer `i`'s `[1,128]` slice of a `[9,128]` bias stack -/
abbrev r6_b0 : Rect S9x128 := Rect.unit (s := S9x128) ![0, 0] S1x128.size inb_S9x128_S1x128_0_0
abbrev r6_b1 : Rect S9x128 := Rect.unit (s := S9x128) ![1, 0] S1x128.size inb_S9x128_S1x128_1_0
abbrev r6_b2 : Rect S9x128 := Rect.unit (s := S9x128) ![2, 0] S1x128.size inb_S9x128_S1x128_2_0
abbrev r6_b3 : Rect S9x128 := Rect.unit (s := S9x128) ![3, 0] S1x128.size inb_S9x128_S1x128_3_0
abbrev r6_b4 : Rect S9x128 := Rect.unit (s := S9x128) ![4, 0] S1x128.size inb_S9x128_S1x128_4_0
abbrev r6_b5 : Rect S9x128 := Rect.unit (s := S9x128) ![5, 0] S1x128.size inb_S9x128_S1x128_5_0
abbrev r6_b6 : Rect S9x128 := Rect.unit (s := S9x128) ![6, 0] S1x128.size inb_S9x128_S1x128_6_0
abbrev r6_b7 : Rect S9x128 := Rect.unit (s := S9x128) ![7, 0] S1x128.size inb_S9x128_S1x128_7_0
abbrev r6_b8 : Rect S9x128 := Rect.unit (s := S9x128) ![8, 0] S1x128.size inb_S9x128_S1x128_8_0
/-- the whole `[128,256]` weight and the whole `[128]` bias of the combining layer -/
abbrev r6_n : Rect S128x256 := Rect.unit (s := S128x256) ![0, 0] S128x256.size inb_S128x256_S128x256_0_0
abbrev r6_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v6_35 (x0 : Vec F S1024x128 .f32) (x2 : Vec F S9x128x128 .bf16) (x3 : Vec F S9x128 .f32) : FVec F S1024x128 .f32 :=
  k6_pay2 (View.ld x0 r6_x) (View.ld x2 r6_w0) (View.ld x3 r6_b0) (View.ld x2 r6_w1) (View.ld x3 r6_b1) (View.ld x2 r6_w2) (View.ld x3 r6_b2)
/-- after layers 3..5 -/
def v6_69 (x0 : Vec F S1024x128 .f32) (x2 : Vec F S9x128x128 .bf16) (x3 : Vec F S9x128 .f32) : FVec F S1024x128 .f32 :=
  k6_pay3 (v6_35 x0 x2 x3) (View.ld x2 r6_w3) (View.ld x3 r6_b3) (View.ld x2 r6_w4) (View.ld x3 r6_b4) (View.ld x2 r6_w5) (View.ld x3 r6_b5)
/-- layer 6's product, before its bias -/
def v6_74 (x0 : Vec F S1024x128 .f32) (x2 : Vec F S9x128x128 .bf16) (x3 : Vec F S9x128 .f32) : FVec F S1024x128 .f32 :=
  k6_pay4 (v6_35 x0 x2 x3) (View.ld x2 r6_w3) (View.ld x3 r6_b3) (View.ld x2 r6_w4) (View.ld x3 r6_b4) (View.ld x2 r6_w5) (View.ld x3 r6_b5) (View.ld x2 r6_w6)
/-- after the message stack's layers 6..8 and the combining layer with the next level's block -/
def v6_116 (x0 x1 : Vec F S1024x128 .f32) (x2 : Vec F S9x128x128 .bf16) (x3 : Vec F S9x128 .f32) (x4 : Vec F S128x256 .bf16) (x5 : Vec F S128 .f32) : FVec F S1024x128 .f32 :=
  k6_pay5 (v6_69 x0 x2 x3) (v6_74 x0 x2 x3) (View.ld x3 r6_b6) (View.ld x2 r6_w7) (View.ld x3 r6_b7) (View.ld x2 r6_w8) (View.ld x3 r6_b8) (View.ld x1 r6_x) (View.ld x4 r6_n) (View.ld x5 r6_c)
/-- after the node stack's layers 0..2, -/
def v6_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay6 (v6_116 x0 x1 x2 x3 x4 x5) (View.ld x6 r6_w0) (View.ld x7 r6_b0) (View.ld x6 r6_w1) (View.ld x7 r6_b1) (View.ld x6 r6_w2) (View.ld x7 r6_b2)
/-- the same, narrowed, -/
def v6_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k6_pay7 (v6_116 x0 x1 x2 x3 x4 x5) (View.ld x6 r6_w0) (View.ld x7 r6_b0) (View.ld x6 r6_w1) (View.ld x7 r6_b1) (View.ld x6 r6_w2) (View.ld x7 r6_b2)
/-- and layer 3's weight, transposed -/
def v6_154 (x6 : Vec F S9x128x128 .bf16) : FVec F S128x128 .bf16 :=
  k6_pay8 (View.ld x6 r6_w3)
/-- after the node stack's layers 3..5 -/
def v6_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay9 (v6_150 x0 x1 x2 x3 x4 x5 x6 x7) (v6_153 x0 x1 x2 x3 x4 x5 x6 x7) (v6_154 x6) (constant S1024x128 .f32 0x00000000#32) (View.ld x7 r6_b3) (View.ld x6 r6_w4) (View.ld x7 r6_b4) (View.ld x6 r6_w5) (View.ld x7 r6_b5)
/-- layer 6's sum, before its `tanh` -/
def v6_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k6_pay10 (v6_150 x0 x1 x2 x3 x4 x5 x6 x7) (v6_153 x0 x1 x2 x3 x4 x5 x6 x7) (v6_154 x6) (constant S1024x128 .f32 0x00000000#32) (View.ld x7 r6_b3) (View.ld x6 r6_w4) (View.ld x7 r6_b4) (View.ld x6 r6_w5) (View.ld x7 r6_b5) (View.ld x6 r6_w6) (View.ld x7 r6_b6)

/-- Window 8's staging buffer after the body, from the input windows' blocks: its one store, of the whole block. -/
def out6_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r6_x, k6_pay1 (v6_184 x0 x1 x2 x3 x4 x5 x6 x7) (v6_194 x0 x1 x2 x3 x4 x5 x6 x7) (View.ld x6 r6_w7) (View.ld x7 r6_b7) (View.ld x6 r6_w8) (View.ld x7 r6_b8)⟩]

/-- The store tiles the buffer (checked by evaluation), so it covers it. -/
theorem cover6_8 (p0 : Vec F S1024x128 .f32) (y : S1024x128.Idx) :
    ∃ pc ∈ ([⟨r6_x, p0⟩] : List (View.Piece (Elt F) S1024x128 .f32)), y ∈ pc.1.set :=
  View.cover_of_tiled [⟨r6_x, p0⟩] S1024x128.size (by rfl) y

/-! ## The body's triple -/

set_option maxHeartbeats 4000000 in
/-- The kernel body on whole staging memrefs, the inputs' at read contents `xW` and the output's at anything, runs to
    the continuation holding the inputs' as they were and the output's at `out6_8` of the inputs'. -/
theorem sound_kernel6 (c : Dev nD) (E : Set ℕ) (i : grid6.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6_8 x0 x1 x2 x3 x4 x5 x6 x7)) -∗ K ⟨⟩))
      ⊢ wp frame (wpE (defs₀ (F := F)) Variants.none c none) E (cc6__mlp_step_kernel i arg0 harg0 arg1 harg1 arg2 harg2 arg3 harg3 arg4 harg4 arg5 harg5 arg6 harg6 arg7 harg7 arg8 harg8) K := by
  simp only [cc6__mlp_step_kernel_eq_skeleton, k6_part1_eq_skeleton, k6_part2_eq_skeleton, k6_part3_eq_skeleton, k6_part4_eq_skeleton, k6_part5_eq_skeleton]
  unfold cc6__mlp_step_kernel_skel
  simp only [k6_part1_eq_skeleton, k6_part2_eq_skeleton, k6_part3_eq_skeleton, k6_part4_eq_skeleton, k6_part5_eq_skeleton]
  unfold k6_part1_skel k6_part2_skel k6_part3_skel k6_part4_skel k6_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover6_8 _)

/-! ## The pipeline's proof data -/

/-- The proof data of pipeline 6 on core `c`: the arrays as the region finds them (`V`); after the body at point
    `t` each input's buffer at its block and the output's at `out6_8` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Hand
-- ==== Proof.KI.Region7.lean ====
/- Region 7 of @main (custom_call 7, `cc7__mlp_step_kernel`, pipeline 7) at the contents `V` the TensorCore's
   buffers hold when the region is entered: each window's block at a point, the buffer the body leaves in the output
   window as a function of the input blocks, the body's triple, the pipeline's proof data and the body obligation. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 entries: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof
    data whose array is `V`'s (`hA`) and whose body leaves the block in place (`hafter`): unfetched, the block index
    has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof
    data whose array is `V`'s (`hA`) and whose body leaves the block in place (`hafter`): unfetched, the block index
    has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof
    data whose array is `V`'s (`hA`) and whose body leaves the block in place (`hafter`): unfetched, the block index
    has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof
    data whose array is `V`'s (`hA`) and whose body leaves the block in place (`hafter`): unfetched, the block index
    has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof
    data whose array is `V`'s (`hA`) and whose body leaves the block in place (`hafter`): unfetched, the block index
    has not moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof
    data whose array is `V`'s (`hA`) and whose body leaves the block in place (`hafter`): unfetched, the block index
    has not moved; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof
    data whose array is `V`'s (`hA`) and whose body leaves the block in place (`hafter`): unfetched, the block index
    has not moved; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- the whole `[1024,128]` block (messages, next level, output) -/
abbrev r7_x : Rect S1024x128 := Rect.unit (s := S1024x128) ![0, 0] S1024x128.size inb_S1024x128_S1024x128_0_0
/-- layer `i`'s `[1,128,128]` slice of a `[9,128,128]` weight stack -/
abbrev r7_w0 : Rect S9x128x128 := Rect.unit (s := S9x128x128) ![0, 0, 0] S1x128x128.size inb_S9x128x128_S1x128x128_0_0_0
abbrev r7_w1 : Rect S9x128x128 := Rect.unit (s := S9x128x128) ![1, 0, 0] S1x128x128.size inb_S9x128x128_S1x128x128_1_0_0
abbrev r7_w2 : Rect S9x128x128 := Rect.unit (s := S9x128x128) ![2, 0, 0] S1x128x128.size inb_S9x128x128_S1x128x128_2_0_0
abbrev r7_w3 : Rect S9x128x128 := Rect.unit (s := S9x128x128) ![3, 0, 0] S1x128x128.size inb_S9x128x128_S1x128x128_3_0_0
abbrev r7_w4 : Rect S9x128x128 := Rect.unit (s := S9x128x128) ![4, 0, 0] S1x128x128.size inb_S9x128x128_S1x128x128_4_0_0
abbrev r7_w5 : Rect S9x128x128 := Rect.unit (s := S9x128x128) ![5, 0, 0] S1x128x128.size inb_S9x128x128_S1x128x128_5_0_0
abbrev r7_w6 : Rect S9x128x128 := Rect.unit (s := S9x128x128) ![6, 0, 0] S1x128x128.size inb_S9x128x128_S1x128x128_6_0_0
abbrev r7_w7 : Rect S9x128x128 := Rect.unit (s := S9x128x128) ![7, 0, 0] S1x128x128.size inb_S9x128x128_S1x128x128_7_0_0
abbrev r7_w8 : Rect S9x128x128 := Rect.unit (s := S9x128x128) ![8, 0, 0] S1x128x128.size inb_S9x128x128_S1x128x128_8_0_0
/-- layer `i`'s `[1,128]` slice of a `[9,128]` bias stack -/
abbrev r7_b0 : Rect S9x128 := Rect.unit (s := S9x128) ![0, 0] S1x128.size inb_S9x128_S1x128_0_0
abbrev r7_b1 : Rect S9x128 := Rect.unit (s := S9x128) ![1, 0] S1x128.size inb_S9x128_S1x128_1_0
abbrev r7_b2 : Rect S9x128 := Rect.unit (s := S9x128) ![2, 0] S1x128.size inb_S9x128_S1x128_2_0
abbrev r7_b3 : Rect S9x128 := Rect.unit (s := S9x128) ![3, 0] S1x128.size inb_S9x128_S1x128_3_0
abbrev r7_b4 : Rect S9x128 := Rect.unit (s := S9x128) ![4, 0] S1x128.size inb_S9x128_S1x128_4_0
abbrev r7_b5 : Rect S9x128 := Rect.unit (s := S9x128) ![5, 0] S1x128.size inb_S9x128_S1x128_5_0
abbrev r7_b6 : Rect S9x128 := Rect.unit (s := S9x128) ![6, 0] S1x128.size inb_S9x128_S1x128_6_0
abbrev r7_b7 : Rect S9x128 := Rect.unit (s := S9x128) ![7, 0] S1x128.size inb_S9x128_S1x128_7_0
abbrev r7_b8 : Rect S9x128 := Rect.unit (s := S9x128) ![8, 0] S1x128.size inb_S9x128_S1x128_8_0
/-- the whole `[128,256]` weight and the whole `[128]` bias of the combining layer -/
abbrev r7_n : Rect S128x256 := Rect.unit (s := S128x256) ![0, 0] S128x256.size inb_S128x256_S128x256_0_0
abbrev r7_c : Rect S128 := Rect.unit (s := S128) ![0] S128.size inb_S128_S128_0

/-! ## What the body leaves in the output window's buffer

The body's value flows through five intermediate stages before its one store; each stage is a payload of the
skeleton over slices of the input blocks: `x0` messages, `x1` next level, `x2`/`x3` the message stack's weights and
biases, `x4`/`x5` the combining layer's, `x6`/`x7` the node stack's. -/

/-- after the message stack's layers 0..2 -/
def v7_35 (x0 : Vec F S1024x128 .f32) (x2 : Vec F S9x128x128 .bf16) (x3 : Vec F S9x128 .f32) : FVec F S1024x128 .f32 :=
  k7_pay2 (View.ld x0 r7_x) (View.ld x2 r7_w0) (View.ld x3 r7_b0) (View.ld x2 r7_w1) (View.ld x3 r7_b1) (View.ld x2 r7_w2) (View.ld x3 r7_b2)
/-- after layers 3..5 -/
def v7_69 (x0 : Vec F S1024x128 .f32) (x2 : Vec F S9x128x128 .bf16) (x3 : Vec F S9x128 .f32) : FVec F S1024x128 .f32 :=
  k7_pay3 (v7_35 x0 x2 x3) (View.ld x2 r7_w3) (View.ld x3 r7_b3) (View.ld x2 r7_w4) (View.ld x3 r7_b4) (View.ld x2 r7_w5) (View.ld x3 r7_b5)
/-- layer 6's product, before its bias -/
def v7_74 (x0 : Vec F S1024x128 .f32) (x2 : Vec F S9x128x128 .bf16) (x3 : Vec F S9x128 .f32) : FVec F S1024x128 .f32 :=
  k7_pay4 (v7_35 x0 x2 x3) (View.ld x2 r7_w3) (View.ld x3 r7_b3) (View.ld x2 r7_w4) (View.ld x3 r7_b4) (View.ld x2 r7_w5) (View.ld x3 r7_b5) (View.ld x2 r7_w6)
/-- after the message stack's layers 6..8 and the combining layer with the next level's block -/
def v7_116 (x0 x1 : Vec F S1024x128 .f32) (x2 : Vec F S9x128x128 .bf16) (x3 : Vec F S9x128 .f32) (x4 : Vec F S128x256 .bf16) (x5 : Vec F S128 .f32) : FVec F S1024x128 .f32 :=
  k7_pay5 (v7_69 x0 x2 x3) (v7_74 x0 x2 x3) (View.ld x3 r7_b6) (View.ld x2 r7_w7) (View.ld x3 r7_b7) (View.ld x2 r7_w8) (View.ld x3 r7_b8) (View.ld x1 r7_x) (View.ld x4 r7_n) (View.ld x5 r7_c)
/-- after the node stack's layers 0..2, -/
def v7_150 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay6 (v7_116 x0 x1 x2 x3 x4 x5) (View.ld x6 r7_w0) (View.ld x7 r7_b0) (View.ld x6 r7_w1) (View.ld x7 r7_b1) (View.ld x6 r7_w2) (View.ld x7 r7_b2)
/-- the same, narrowed, -/
def v7_153 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .bf16 :=
  k7_pay7 (v7_116 x0 x1 x2 x3 x4 x5) (View.ld x6 r7_w0) (View.ld x7 r7_b0) (View.ld x6 r7_w1) (View.ld x7 r7_b1) (View.ld x6 r7_w2) (View.ld x7 r7_b2)
/-- and layer 3's weight, transposed -/
def v7_154 (x6 : Vec F S9x128x128 .bf16) : FVec F S128x128 .bf16 :=
  k7_pay8 (View.ld x6 r7_w3)
/-- after the node stack's layers 3..5 -/
def v7_184 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay9 (v7_150 x0 x1 x2 x3 x4 x5 x6 x7) (v7_153 x0 x1 x2 x3 x4 x5 x6 x7) (v7_154 x6) (constant S1024x128 .f32 0x00000000#32) (View.ld x7 r7_b3) (View.ld x6 r7_w4) (View.ld x7 r7_b4) (View.ld x6 r7_w5) (View.ld x7 r7_b5)
/-- layer 6's sum, before its `tanh` -/
def v7_194 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : FVec F S1024x128 .f32 :=
  k7_pay10 (v7_150 x0 x1 x2 x3 x4 x5 x6 x7) (v7_153 x0 x1 x2 x3 x4 x5 x6 x7) (v7_154 x6) (constant S1024x128 .f32 0x00000000#32) (View.ld x7 r7_b3) (View.ld x6 r7_w4) (View.ld x7 r7_b4) (View.ld x6 r7_w5) (View.ld x7 r7_b5) (View.ld x6 r7_w6) (View.ld x7 r7_b6)

/-- Window 8's staging buffer after the body, from the input windows' blocks: its one store, of the whole block. -/
def out7_8 (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) : Vec F S1024x128 .f32 :=
  View.canon [⟨r7_x, k7_pay1 (v7_184 x0 x1 x2 x3 x4 x5 x6 x7) (v7_194 x0 x1 x2 x3 x4 x5 x6 x7) (View.ld x6 r7_w7) (View.ld x7 r7_b7) (View.ld x6 r7_w8) (View.ld x7 r7_b8)⟩]

/-- The store tiles the buffer (checked by evaluation), so it covers it. -/
theorem cover7_8 (p0 : Vec F S1024x128 .f32) (y : S1024x128.Idx) :
    ∃ pc ∈ ([⟨r7_x, p0⟩] : List (View.Piece (Elt F) S1024x128 .f32)), y ∈ pc.1.set :=
  View.cover_of_tiled [⟨r7_x, p0⟩] S1024x128.size (by rfl) y

/-! ## The body's triple -/

set_option maxHeartbeats 4000000 in
/-- The kernel body on whole staging memrefs, the inputs' at read contents `xW` and the output's at anything, runs to
    the continuation holding the inputs' as they were and the output's at `out7_8` of the inputs'. -/
theorem sound_kernel7 (c : Dev nD) (E : Set ℕ) (i : grid7.Coords) (arg0 : Memref sig .tc .vmem S1024x128 .f32) (harg0 : arg0.IsWhole) (arg1 : Memref sig .tc .vmem S1024x128 .f32) (harg1 : arg1.IsWhole) (arg2 : Memref sig .tc .vmem S9x128x128 .bf16) (harg2 : arg2.IsWhole) (arg3 : Memref sig .tc .vmem S9x128 .f32) (harg3 : arg3.IsWhole) (arg4 : Memref sig .tc .vmem S128x256 .bf16) (harg4 : arg4.IsWhole) (arg5 : Memref sig .tc .vmem S128 .f32) (harg5 : arg5.IsWhole) (arg6 : Memref sig .tc .vmem S9x128x128 .bf16) (harg6 : arg6.IsWhole) (arg7 : Memref sig .tc .vmem S9x128 .f32) (harg7 : arg7.IsWhole) (arg8 : Memref sig .tc .vmem S1024x128 .f32) (harg8 : arg8.IsWhole)
    (x0 x1 : Vec F S1024x128 .f32) (x2 : Vec F S9x128x128 .bf16) (x3 : Vec F S9x128 .f32) (x4 : Vec F S128x256 .bf16) (x5 : Vec F S128 .f32) (x6 : Vec F S9x128x128 .bf16) (x7 : Vec F S9x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out7_8 x0 x1 x2 x3 x4 x5 x6 x7)) -∗ K ⟨⟩))
      ⊢ wp frame (wpE (defs₀ (F := F)) Variants.none c none) E (cc7__mlp_step_kernel i arg0 harg0 arg1 harg1 arg2 harg2 arg3 harg3 arg4 harg4 arg5 harg5 arg6 harg6 arg7 harg7 arg8 harg8) K := by
  simp only [cc7__mlp_step_kernel_eq_skeleton, k7_part1_eq_skeleton, k7_part2_eq_skeleton, k7_part3_eq_skeleton, k7_part4_eq_skeleton, k7_part5_eq_skeleton]
  unfold cc7__mlp_step_kernel_skel
  simp only [k7_part1_eq_skeleton, k7_part2_eq_skeleton, k7_part3_eq_skeleton, k7_part4_eq_skeleton, k7_part5_eq_skeleton]
  unfold k7_part1_skel k7_part2_skel k7_part3_skel k7_part4_skel k7_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

/-! ## The pipeline's proof data -/

/-- The proof data of pipeline 7 on core `c`: the arrays as the region finds them (`V`); after the body at point
    `t` each input's buffer at its block and the output's at `out7_8` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Hand
-- ==== Proof.KI.Frame.lean ====
/- THE RUN of @main: eight kernel regions, each followed by a stretch of host operations (the last stretch the
   concatenation of the eight level arrays). The buffer contents at every boundary as a fold from the launch
   memory; each region's proof data at its entry contents; the regions and stretches as segments; the run; and
   from it the contents of every unscoped buffer at the end, and the argument arrays unchanged. -/
import proofs.«122000_j45174466019872_2_alg».proof.Proof.Gen.KernelIdeal.Launch
import proofs.«122000_j45174466019872_2_alg».proof.Proof.Gen.KernelIdeal.Skeleton
import proofs.«122000_j45174466019872_2_alg».proof.Proof.Gen.KernelIdeal.Points
import proofs.«122000_j45174466019872_2_alg».proof.Proof.Gen.KernelIdeal.Regions
import proofs.«122000_j45174466019872_2_alg».proof.Proof.KI.Region0
import proofs.«122000_j45174466019872_2_alg».proof.Proof.KI.Region1
import proofs.«122000_j45174466019872_2_alg».proof.Proof.KI.Region2
import proofs.«122000_j45174466019872_2_alg».proof.Proof.KI.Region3
import proofs.«122000_j45174466019872_2_alg».proof.Proof.KI.Region4
import proofs.«122000_j45174466019872_2_alg».proof.Proof.KI.Region5
import proofs.«122000_j45174466019872_2_alg».proof.Proof.KI.Region6
import proofs.«122000_j45174466019872_2_alg».proof.Proof.KI.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main

Boundary `2K` is region `K`'s entry, boundary `2K+1` its exit, boundary `2K+2` what the host stretch after it leaves. -/

/-- Core `c`'s buffers at launch (region 0's entry). -/
abbrev W0 : Dev nD → Valuation τ sig (Elt F) := fun c b => (s₀ m ρ).mem ((c : Dev nD), b)
/-- The same read at the TensorCore's references (what region 0's proof data take). -/
abbrev B0 : (c : Dev nD) → (b : Ref sig .tc) → Buf (Elt F) ((c : Thread nD τ).loc b) := fun c b => W0 m ρ c b

/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's output array at its exit: the write-backs of all its points folded. -/
theorem W1_out (c : Dev nD) :
    W1 m ρ c (Proc.devRef .tc main_v0) = (dat0 (B0 m ρ) c).arrAt 3 cfg0.N := W1_arr m ρ c 3
/-- Every other buffer is at region 0's exit what it was at its entry: an input window's array is never written
    back, and no other buffer is an array of the region. -/
theorem W1_other (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    have hw : (cfg0.win w).isOut = false :=
      (by decide : ∀ w : Fin 4, Pipeline.arrRef spec0 w ≠ main_v0 → (cfg0.win w).isOut = false) w hb
    exact (W1_arr m ρ c w).trans (((dat0 (B0 m ρ) c).arrAt_in w hw _).trans (A_eq0 (B0 m ρ) c w))
  · exact W1_of_ne m ρ c b fun w e => h ⟨w, e⟩
/-- The same read at the TensorCore's references (region 0's exit contents). -/
abbrev B1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (B0 m ρ) c).arrAt w cfg0.N = B1 m ρ c (Pipeline.arrRef spec0 w) :=
  (W1_arr m ρ c w).symm
theorem hrest0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents through the stretch. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
/-- The same read at the TensorCore's references (what region 1's proof data take). -/
abbrev B2 : (c : Dev nD) → (b : Ref sig .tc) → Buf (Elt F) ((c : Thread nD τ).loc b) := fun c b => W2 m ρ c b

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (B2 m ρ) c).arrAt w cfg1.N
theorem W3_arr (c : Dev nD) (w : Fin cfg1.W) :
    W3 m ρ c (Proc.devRef .tc (Pipeline.arrRef spec1 w)) = (dat1 (B2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's output array at its exit: the write-backs of all its points folded. -/
theorem W3_out (c : Dev nD) :
    W3 m ρ c (Proc.devRef .tc main_v19) = (dat1 (B2 m ρ) c).arrAt 8 cfg1.N := W3_arr m ρ c 8
/-- Every other buffer is at region 1's exit what it was at its entry: an input window's array is never written
    back, and no other buffer is an array of the region. -/
theorem W3_other (c : Dev nD) (b : Ref sig .tc) (hb : b ≠ main_v19) :
    W3 m ρ c (Proc.devRef .tc b) = W2 m ρ c (Proc.devRef .tc b) := by
  by_cases h : ∃ w, Pipeline.arrRef spec1 w = b
  · obtain ⟨w, rfl⟩ := h
    have hw : (cfg1.win w).isOut = false :=
      (by decide : ∀ w : Fin 9, Pipeline.arrRef spec1 w ≠ main_v19 → (cfg1.win w).isOut = false) w hb
    exact (W3_arr m ρ c w).trans (((dat1 (B2 m ρ) c).arrAt_in w hw _).trans (A_eq1 (B2 m ρ) c w))
  · exact W3_of_ne m ρ c b fun w e => h ⟨w, e⟩
/-- The same read at the TensorCore's references (region 1's exit contents). -/
abbrev B3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (B2 m ρ) c).arrAt w cfg1.N = B3 m ρ c (Pipeline.arrRef spec1 w) :=
  (W3_arr m ρ c w).symm
theorem hrest1 (c : Dev nD) : ∀ b, b ∉ Finset.univ.image (Pipeline.arrRef spec1) → B3 m ρ c b = B2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents through the stretch. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- The same read at the TensorCore's references (what region 2's proof data take). -/
abbrev B4 : (c : Dev nD) → (b : Ref sig .tc) → Buf (Elt F) ((c : Thread nD τ).loc b) := fun c b => W4 m ρ c b

/-- At region 2's exit: its arrays at what the pipeline leaves (the inputs as entered, the output's write-backs
    folded), every other buffer as entered. -/
def W5 (c : Dev nD) : Valuation τ sig (Elt F) :=
  Pipeline.withArrays spec2 c (W4 m ρ c) fun w => (dat2 (B4 m ρ) c).arrAt w cfg2.N
theorem W5_arr (c : Dev nD) (w : Fin cfg2.W) :
    W5 m ρ c (Proc.devRef .tc (Pipeline.arrRef spec2 w)) = (dat2 (B4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- Region 2's output array at its exit: the write-backs of all its points folded. -/
theorem W5_out (c : Dev nD) :
    W5 m ρ c (Proc.devRef .tc main_v32) = (dat2 (B4 m ρ) c).arrAt 8 cfg2.N := W5_arr m ρ c 8
/-- Every other buffer is at region 2's exit what it was at its entry: an input window's array is never written
    back, and no other buffer is an array of the region. -/
theorem W5_other (c : Dev nD) (b : Ref sig .tc) (hb : b ≠ main_v32) :
    W5 m ρ c (Proc.devRef .tc b) = W4 m ρ c (Proc.devRef .tc b) := by
  by_cases h : ∃ w, Pipeline.arrRef spec2 w = b
  · obtain ⟨w, rfl⟩ := h
    have hw : (cfg2.win w).isOut = false :=
      (by decide : ∀ w : Fin 9, Pipeline.arrRef spec2 w ≠ main_v32 → (cfg2.win w).isOut = false) w hb
    exact (W5_arr m ρ c w).trans (((dat2 (B4 m ρ) c).arrAt_in w hw _).trans (A_eq2 (B4 m ρ) c w))
  · exact W5_of_ne m ρ c b fun w e => h ⟨w, e⟩
/-- The same read at the TensorCore's references (region 2's exit contents). -/
abbrev B5 : (c : Dev nD) → (b : Ref sig .tc) → Buf (Elt F) ((c : Thread nD τ).loc b) := fun c b => W5 m ρ c b
/-- At region 2's exit each of its arrays holds what the pipeline leaves and every other buffer what it held at entry. -/
theorem hF2 (c : Dev nD) (w : Fin cfg2.W) : (dat2 (B4 m ρ) c).arrAt w cfg2.N = B5 m ρ c (Pipeline.arrRef spec2 w) :=
  (W5_arr m ρ c w).symm
theorem hrest2 (c : Dev nD) : ∀ b, b ∉ Finset.univ.image (Pipeline.arrRef spec2) → B5 m ρ c b = B4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents through the stretch. -/
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h
/-- The same read at the TensorCore's references (what region 3's proof data take). -/
abbrev B6 : (c : Dev nD) → (b : Ref sig .tc) → Buf (Elt F) ((c : Thread nD τ).loc b) := fun c b => W6 m ρ c b

/-- At region 3's exit: its arrays at what the pipeline leaves (the inputs as entered, the output's write-backs
    folded), every other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Region 3's output array at its exit: the write-backs of all its points folded. -/
theorem W7_out (c : Dev nD) :
    W7 m ρ c (Proc.devRef .tc main_v45) = (dat3 (B6 m ρ) c).arrAt 8 cfg3.N := W7_arr m ρ c 8
/-- Every other buffer is at region 3's exit what it was at its entry: an input window's array is never written
    back, and no other buffer is an array of the region. -/
theorem W7_other (c : Dev nD) (b : Ref sig .tc) (hb : b ≠ main_v45) :
    W7 m ρ c (Proc.devRef .tc b) = W6 m ρ c (Proc.devRef .tc b) := by
  by_cases h : ∃ w, Pipeline.arrRef spec3 w = b
  · obtain ⟨w, rfl⟩ := h
    have hw : (cfg3.win w).isOut = false :=
      (by decide : ∀ w : Fin 9, Pipeline.arrRef spec3 w ≠ main_v45 → (cfg3.win w).isOut = false) w hb
    exact (W7_arr m ρ c w).trans (((dat3 (B6 m ρ) c).arrAt_in w hw _).trans (A_eq3 (B6 m ρ) c w))
  · exact W7_of_ne m ρ c b fun w e => h ⟨w, e⟩
/-- The same read at the TensorCore's references (region 3's exit contents). -/
abbrev B7 : (c : Dev nD) → (b : Ref sig .tc) → Buf (Elt F) ((c : Thread nD τ).loc b) := fun c b => W7 m ρ c b
/-- At region 3's exit each of its arrays holds what the pipeline leaves and every other buffer what it held at entry. -/
theorem hF3 (c : Dev nD) (w : Fin cfg3.W) : (dat3 (B6 m ρ) c).arrAt w cfg3.N = B7 m ρ c (Pipeline.arrRef spec3 w) :=
  (W7_arr m ρ c w).symm
theorem hrest3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)

/-- After `hostOps4` (region 4's entry). -/
abbrev W8 : Dev nD → Valuation τ sig (Elt F) := fun c => StableHlo.after hostOps4 (W7 m ρ c)
/-- A reference `hostOps4` does not write keeps its contents through the stretch. -/
theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h
/-- The same read at the TensorCore's references (what region 4's proof data take). -/
abbrev B8 : (c : Dev nD) → (b : Ref sig .tc) → Buf (Elt F) ((c : Thread nD τ).loc b) := fun c b => W8 m ρ c b

/-- At region 4's exit: its arrays at what the pipeline leaves (the inputs as entered, the output's write-backs
    folded), every other buffer as entered. -/
def W9 (c : Dev nD) : Valuation τ sig (Elt F) :=
  Pipeline.withArrays spec4 c (W8 m ρ c) fun w => (dat4 (B8 m ρ) c).arrAt w cfg4.N
theorem W9_arr (c : Dev nD) (w : Fin cfg4.W) :
    W9 m ρ c (Proc.devRef .tc (Pipeline.arrRef spec4 w)) = (dat4 (B8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Region 4's output array at its exit: the write-backs of all its points folded. -/
theorem W9_out (c : Dev nD) :
    W9 m ρ c (Proc.devRef .tc main_v58) = (dat4 (B8 m ρ) c).arrAt 8 cfg4.N := W9_arr m ρ c 8
/-- Every other buffer is at region 4's exit what it was at its entry: an input window's array is never written
    back, and no other buffer is an array of the region. -/
theorem W9_other (c : Dev nD) (b : Ref sig .tc) (hb : b ≠ main_v58) :
    W9 m ρ c (Proc.devRef .tc b) = W8 m ρ c (Proc.devRef .tc b) := by
  by_cases h : ∃ w, Pipeline.arrRef spec4 w = b
  · obtain ⟨w, rfl⟩ := h
    have hw : (cfg4.win w).isOut = false :=
      (by decide : ∀ w : Fin 9, Pipeline.arrRef spec4 w ≠ main_v58 → (cfg4.win w).isOut = false) w hb
    exact (W9_arr m ρ c w).trans (((dat4 (B8 m ρ) c).arrAt_in w hw _).trans (A_eq4 (B8 m ρ) c w))
  · exact W9_of_ne m ρ c b fun w e => h ⟨w, e⟩
/-- The same read at the TensorCore's references (region 4's exit contents). -/
abbrev B9 : (c : Dev nD) → (b : Ref sig .tc) → Buf (Elt F) ((c : Thread nD τ).loc b) := fun c b => W9 m ρ c b
/-- At region 4's exit each of its arrays holds what the pipeline leaves and every other buffer what it held at entry. -/
theorem hF4 (c : Dev nD) (w : Fin cfg4.W) : (dat4 (B8 m ρ) c).arrAt w cfg4.N = B9 m ρ c (Pipeline.arrRef spec4 w) :=
  (W9_arr m ρ c w).symm
theorem hrest4 (c : Dev nD) : ∀ b, b ∉ Finset.univ.image (Pipeline.arrRef spec4) → B9 m ρ c b = B8 m ρ c b :=
  fun b hb => W9_of_ne m ρ c b fun w e => hb (Finset.mem_image.mpr ⟨w, Finset.mem_univ _, e⟩)

/-- After `hostOps5` (region 5's entry). -/
abbrev W10 : Dev nD → Valuation τ sig (Elt F) := fun c => StableHlo.after hostOps5 (W9 m ρ c)
/-- A reference `hostOps5` does not write keeps its contents through the stretch. -/
theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h
/-- The same read at the TensorCore's references (what region 5's proof data take). -/
abbrev B10 : (c : Dev nD) → (b : Ref sig .tc) → Buf (Elt F) ((c : Thread nD τ).loc b) := fun c b => W10 m ρ c b

/-- At region 5's exit: its arrays at what the pipeline leaves (the inputs as entered, the output's write-backs
    folded), every other buffer as entered. -/
def W11 (c : Dev nD) : Valuation τ sig (Elt F) :=
  Pipeline.withArrays spec5 c (W10 m ρ c) fun w => (dat5 (B10 m ρ) c).arrAt w cfg5.N
theorem W11_arr (c : Dev nD) (w : Fin cfg5.W) :
    W11 m ρ c (Proc.devRef .tc (Pipeline.arrRef spec5 w)) = (dat5 (B10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- Region 5's output array at its exit: the write-backs of all its points folded. -/
theorem W11_out (c : Dev nD) :
    W11 m ρ c (Proc.devRef .tc main_v71) = (dat5 (B10 m ρ) c).arrAt 8 cfg5.N := W11_arr m ρ c 8
/-- Every other buffer is at region 5's exit what it was at its entry: an input window's array is never written
    back, and no other buffer is an array of the region. -/
theorem W11_other (c : Dev nD) (b : Ref sig .tc) (hb : b ≠ main_v71) :
    W11 m ρ c (Proc.devRef .tc b) = W10 m ρ c (Proc.devRef .tc b) := by
  by_cases h : ∃ w, Pipeline.arrRef spec5 w = b
  · obtain ⟨w, rfl⟩ := h
    have hw : (cfg5.win w).isOut = false :=
      (by decide : ∀ w : Fin 9, Pipeline.arrRef spec5 w ≠ main_v71 → (cfg5.win w).isOut = false) w hb
    exact (W11_arr m ρ c w).trans (((dat5 (B10 m ρ) c).arrAt_in w hw _).trans (A_eq5 (B10 m ρ) c w))
  · exact W11_of_ne m ρ c b fun w e => h ⟨w, e⟩
/-- The same read at the TensorCore's references (region 5's exit contents). -/
abbrev B11 : (c : Dev nD) → (b : Ref sig .tc) → Buf (Elt F) ((c : Thread nD τ).loc b) := fun c b => W11 m ρ c b
/-- At region 5's exit each of its arrays holds what the pipeline leaves and every other buffer what it held at entry. -/
theorem hF5 (c : Dev nD) (w : Fin cfg5.W) : (dat5 (B10 m ρ) c).arrAt w cfg5.N = B11 m ρ c (Pipeline.arrRef spec5 w) :=
  (W11_arr m ρ c w).symm
theorem hrest5 (c : Dev nD) : ∀ b, b ∉ Finset.univ.image (Pipeline.arrRef spec5) → B11 m ρ c b = B10 m ρ c b :=
  fun b hb => W11_of_ne m ρ c b fun w e => hb (Finset.mem_image.mpr ⟨w, Finset.mem_univ _, e⟩)

/-- After `hostOps6` (region 6's entry). -/
abbrev W12 : Dev nD → Valuation τ sig (Elt F) := fun c => StableHlo.after hostOps6 (W11 m ρ c)
/-- A reference `hostOps6` does not write keeps its contents through the stretch. -/
theorem W12_of (c : Dev nD) (r : Ref sig .tc) (h : r ∉ hostOps6_W) :
    W12 m ρ c (Proc.devRef .tc r) = W11 m ρ c (Proc.devRef .tc r) :=
  StableHlo.after_of_writes_sub hostOps6 _ hostOps6_writes h
/-- The same read at the TensorCore's references (what region 6's proof data take). -/
abbrev B12 : (c : Dev nD) → (b : Ref sig .tc) → Buf (Elt F) ((c : Thread nD τ).loc b) := fun c b => W12 m ρ c b

/-- At region 6's exit: its arrays at what the pipeline leaves (the inputs as entered, the output's write-backs
    folded), every other buffer as entered. -/
def W13 (c : Dev nD) : Valuation τ sig (Elt F) :=
  Pipeline.withArrays spec6 c (W12 m ρ c) fun w => (dat6 (B12 m ρ) c).arrAt w cfg6.N
theorem W13_arr (c : Dev nD) (w : Fin cfg6.W) :
    W13 m ρ c (Proc.devRef .tc (Pipeline.arrRef spec6 w)) = (dat6 (B12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- Region 6's output array at its exit: the write-backs of all its points folded. -/
theorem W13_out (c : Dev nD) :
    W13 m ρ c (Proc.devRef .tc main_v84) = (dat6 (B12 m ρ) c).arrAt 8 cfg6.N := W13_arr m ρ c 8
/-- Every other buffer is at region 6's exit what it was at its entry: an input window's array is never written
    back, and no other buffer is an array of the region. -/
theorem W13_other (c : Dev nD) (b : Ref sig .tc) (hb : b ≠ main_v84) :
    W13 m ρ c (Proc.devRef .tc b) = W12 m ρ c (Proc.devRef .tc b) := by
  by_cases h : ∃ w, Pipeline.arrRef spec6 w = b
  · obtain ⟨w, rfl⟩ := h
    have hw : (cfg6.win w).isOut = false :=
      (by decide : ∀ w : Fin 9, Pipeline.arrRef spec6 w ≠ main_v84 → (cfg6.win w).isOut = false) w hb
    exact (W13_arr m ρ c w).trans (((dat6 (B12 m ρ) c).arrAt_in w hw _).trans (A_eq6 (B12 m ρ) c w))
  · exact W13_of_ne m ρ c b fun w e => h ⟨w, e⟩
/-- The same read at the TensorCore's references (region 6's exit contents). -/
abbrev B13 : (c : Dev nD) → (b : Ref sig .tc) → Buf (Elt F) ((c : Thread nD τ).loc b) := fun c b => W13 m ρ c b
/-- At region 6's exit each of its arrays holds what the pipeline leaves and every other buffer what it held at entry. -/
theorem hF6 (c : Dev nD) (w : Fin cfg6.W) : (dat6 (B12 m ρ) c).arrAt w cfg6.N = B13 m ρ c (Pipeline.arrRef spec6 w) :=
  (W13_arr m ρ c w).symm
theorem hrest6 (c : Dev nD) : ∀ b, b ∉ Finset.univ.image (Pipeline.arrRef spec6) → B13 m ρ c b = B12 m ρ c b :=
  fun b hb => W13_of_ne m ρ c b fun w e => hb (Finset.mem_image.mpr ⟨w, Finset.mem_univ _, e⟩)

/-- After `hostOps7` (region 7's entry). -/
abbrev W14 : Dev nD → Valuation τ sig (Elt F) := fun c => StableHlo.after hostOps7 (W13 m ρ c)
/-- A reference `hostOps7` does not write keeps its contents through the stretch. -/
theorem W14_of (c : Dev nD) (r : Ref sig .tc) (h : r ∉ hostOps7_W) :
    W14 m ρ c (Proc.devRef .tc r) = W13 m ρ c (Proc.devRef .tc r) :=
  StableHlo.after_of_writes_sub hostOps7 _ hostOps7_writes h
/-- The same read at the TensorCore's references (what region 7's proof data take). -/
abbrev B14 : (c : Dev nD) → (b : Ref sig .tc) → Buf (Elt F) ((c : Thread nD τ).loc b) := fun c b => W14 m ρ c b

/-- At region 7's exit: its arrays at what the pipeline leaves (the inputs as entered, the output's write-backs
    folded), every other buffer as entered. -/
def W15 (c : Dev nD) : Valuation τ sig (Elt F) :=
  Pipeline.withArrays spec7 c (W14 m ρ c) fun w => (dat7 (B14 m ρ) c).arrAt w cfg7.N
theorem W15_arr (c : Dev nD) (w : Fin cfg7.W) :
    W15 m ρ c (Proc.devRef .tc (Pipeline.arrRef spec7 w)) = (dat7 (B14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- Region 7's output array at its exit: the write-backs of all its points folded. -/
theorem W15_out (c : Dev nD) :
    W15 m ρ c (Proc.devRef .tc main_v97) = (dat7 (B14 m ρ) c).arrAt 8 cfg7.N := W15_arr m ρ c 8
/-- Every other buffer is at region 7's exit what it was at its entry: an input window's array is never written
    back, and no other buffer is an array of the region. -/
theorem W15_other (c : Dev nD) (b : Ref sig .tc) (hb : b ≠ main_v97) :
    W15 m ρ c (Proc.devRef .tc b) = W14 m ρ c (Proc.devRef .tc b) := by
  by_cases h : ∃ w, Pipeline.arrRef spec7 w = b
  · obtain ⟨w, rfl⟩ := h
    have hw : (cfg7.win w).isOut = false :=
      (by decide : ∀ w : Fin 9, Pipeline.arrRef spec7 w ≠ main_v97 → (cfg7.win w).isOut = false) w hb
    exact (W15_arr m ρ c w).trans (((dat7 (B14 m ρ) c).arrAt_in w hw _).trans (A_eq7 (B14 m ρ) c w))
  · exact W15_of_ne m ρ c b fun w e => h ⟨w, e⟩
/-- The same read at the TensorCore's references (region 7's exit contents). -/
abbrev B15 : (c : Dev nD) → (b : Ref sig .tc) → Buf (Elt F) ((c : Thread nD τ).loc b) := fun c b => W15 m ρ c b
/-- At region 7's exit each of its arrays holds what the pipeline leaves and every other buffer what it held at entry. -/
theorem hF7 (c : Dev nD) (w : Fin cfg7.W) : (dat7 (B14 m ρ) c).arrAt w cfg7.N = B15 m ρ c (Pipeline.arrRef spec7 w) :=
  (W15_arr m ρ c w).symm
theorem hrest7 (c : Dev nD) : ∀ b, b ∉ Finset.univ.image (Pipeline.arrRef spec7) → B15 m ρ c b = B14 m ρ c b :=
  fun b hb => W15_of_ne m ρ c b fun w e => hb (Finset.mem_image.mpr ⟨w, Finset.mem_univ _, e⟩)

/-- After `hostOps8` (the end of @main). -/
abbrev W16 : Dev nD → Valuation τ sig (Elt F) := fun c => StableHlo.after hostOps8 (W15 m ρ c)
/-- A reference `hostOps8` does not write keeps its contents through the stretch. -/
theorem W16_of (c : Dev nD) (r : Ref sig .tc) (h : r ∉ hostOps8_W) :
    W16 m ρ c (Proc.devRef .tc r) = W15 m ρ c (Proc.devRef .tc r) :=
  StableHlo.after_of_writes_sub hostOps8 _ hostOps8_writes h

/-- The contents of every buffer at the end of @main. -/
abbrev Wlast : Dev nD → Valuation τ sig (Elt F) := W16 m ρ

/-! ### The arguments end as launched: no host stretch writes one and no region's output array is one -/

theorem W16_main_arg0 (c : Dev nD) : W16 m ρ c (Proc.devRef .tc main_arg0) = m ((c : Thread nD τ).loc main_arg0) :=
  (W16_of m ρ c main_arg0 (by decide)).trans <| (W15_other m ρ c main_arg0 (by decide)).trans <|
  (W14_of m ρ c main_arg0 (by decide)).trans <| (W13_other m ρ c main_arg0 (by decide)).trans <|
  (W12_of m ρ c main_arg0 (by decide)).trans <| (W11_other m ρ c main_arg0 (by decide)).trans <|
  (W10_of m ρ c main_arg0 (by decide)).trans <| (W9_other m ρ c main_arg0 (by decide)).trans <|
  (W8_of m ρ c main_arg0 (by decide)).trans <| (W7_other m ρ c main_arg0 (by decide)).trans <|
  (W6_of m ρ c main_arg0 (by decide)).trans <| (W5_other m ρ c main_arg0 (by decide)).trans <|
  (W4_of m ρ c main_arg0 (by decide)).trans <| (W3_other m ρ c main_arg0 (by decide)).trans <|
  (W2_of m ρ c main_arg0 (by decide)).trans <| (W1_other m ρ c main_arg0 (by decide)).trans rfl

theorem W16_main_arg1 (c : Dev nD) : W16 m ρ c (Proc.devRef .tc main_arg1) = m ((c : Thread nD τ).loc main_arg1) :=
  (W16_of m ρ c main_arg1 (by decide)).trans <| (W15_other m ρ c main_arg1 (by decide)).trans <|
  (W14_of m ρ c main_arg1 (by decide)).trans <| (W13_other m ρ c main_arg1 (by decide)).trans <|
  (W12_of m ρ c main_arg1 (by decide)).trans <| (W11_other m ρ c main_arg1 (by decide)).trans <|
  (W10_of m ρ c main_arg1 (by decide)).trans <| (W9_other m ρ c main_arg1 (by decide)).trans <|
  (W8_of m ρ c main_arg1 (by decide)).trans <| (W7_other m ρ c main_arg1 (by decide)).trans <|
  (W6_of m ρ c main_arg1 (by decide)).trans <| (W5_other m ρ c main_arg1 (by decide)).trans <|
  (W4_of m ρ c main_arg1 (by decide)).trans <| (W3_other m ρ c main_arg1 (by decide)).trans <|
  (W2_of m ρ c main_arg1 (by decide)).trans <| (W1_other m ρ c main_arg1 (by decide)).trans rfl

theorem W16_main_arg2 (c : Dev nD) : W16 m ρ c (Proc.devRef .tc main_arg2) = m ((c : Thread nD τ).loc main_arg2) :=
  (W16_of m ρ c main_arg2 (by decide)).trans <| (W15_other m ρ c main_arg2 (by decide)).trans <|
  (W14_of m ρ c main_arg2 (by decide)).trans <| (W13_other m ρ c main_arg2 (by decide)).trans <|
  (W12_of m ρ c main_arg2 (by decide)).trans <| (W11_other m ρ c main_arg2 (by decide)).trans <|
  (W10_of m ρ c main_arg2 (by decide)).trans <| (W9_other m ρ c main_arg2 (by decide)).trans <|
  (W8_of m ρ c main_arg2 (by decide)).trans <| (W7_other m ρ c main_arg2 (by decide)).trans <|
  (W6_of m ρ c main_arg2 (by decide)).trans <| (W5_other m ρ c main_arg2 (by decide)).trans <|
  (W4_of m ρ c main_arg2 (by decide)).trans <| (W3_other m ρ c main_arg2 (by decide)).trans <|
  (W2_of m ρ c main_arg2 (by decide)).trans <| (W1_other m ρ c main_arg2 (by decide)).trans rfl

theorem W16_main_arg3 (c : Dev nD) : W16 m ρ c (Proc.devRef .tc main_arg3) = m ((c : Thread nD τ).loc main_arg3) :=
  (W16_of m ρ c main_arg3 (by decide)).trans <| (W15_other m ρ c main_arg3 (by decide)).trans <|
  (W14_of m ρ c main_arg3 (by decide)).trans <| (W13_other m ρ c main_arg3 (by decide)).trans <|
  (W12_of m ρ c main_arg3 (by decide)).trans <| (W11_other m ρ c main_arg3 (by decide)).trans <|
  (W10_of m ρ c main_arg3 (by decide)).trans <| (W9_other m ρ c main_arg3 (by decide)).trans <|
  (W8_of m ρ c main_arg3 (by decide)).trans <| (W7_other m ρ c main_arg3 (by decide)).trans <|
  (W6_of m ρ c main_arg3 (by decide)).trans <| (W5_other m ρ c main_arg3 (by decide)).trans <|
  (W4_of m ρ c main_arg3 (by decide)).trans <| (W3_other m ρ c main_arg3 (by decide)).trans <|
  (W2_of m ρ c main_arg3 (by decide)).trans <| (W1_other m ρ c main_arg3 (by decide)).trans rfl

theorem W16_main_arg4 (c : Dev nD) : W16 m ρ c (Proc.devRef .tc main_arg4) = m ((c : Thread nD τ).loc main_arg4) :=
  (W16_of m ρ c main_arg4 (by decide)).trans <| (W15_other m ρ c main_arg4 (by decide)).trans <|
  (W14_of m ρ c main_arg4 (by decide)).trans <| (W13_other m ρ c main_arg4 (by decide)).trans <|
  (W12_of m ρ c main_arg4 (by decide)).trans <| (W11_other m ρ c main_arg4 (by decide)).trans <|
  (W10_of m ρ c main_arg4 (by decide)).trans <| (W9_other m ρ c main_arg4 (by decide)).trans <|
  (W8_of m ρ c main_arg4 (by decide)).trans <| (W7_other m ρ c main_arg4 (by decide)).trans <|
  (W6_of m ρ c main_arg4 (by decide)).trans <| (W5_other m ρ c main_arg4 (by decide)).trans <|
  (W4_of m ρ c main_arg4 (by decide)).trans <| (W3_other m ρ c main_arg4 (by decide)).trans <|
  (W2_of m ρ c main_arg4 (by decide)).trans <| (W1_other m ρ c main_arg4 (by decide)).trans rfl

theorem W16_main_arg5 (c : Dev nD) : W16 m ρ c (Proc.devRef .tc main_arg5) = m ((c : Thread nD τ).loc main_arg5) :=
  (W16_of m ρ c main_arg5 (by decide)).trans <| (W15_other m ρ c main_arg5 (by decide)).trans <|
  (W14_of m ρ c main_arg5 (by decide)).trans <| (W13_other m ρ c main_arg5 (by decide)).trans <|
  (W12_of m ρ c main_arg5 (by decide)).trans <| (W11_other m ρ c main_arg5 (by decide)).trans <|
  (W10_of m ρ c main_arg5 (by decide)).trans <| (W9_other m ρ c main_arg5 (by decide)).trans <|
  (W8_of m ρ c main_arg5 (by decide)).trans <| (W7_other m ρ c main_arg5 (by decide)).trans <|
  (W6_of m ρ c main_arg5 (by decide)).trans <| (W5_other m ρ c main_arg5 (by decide)).trans <|
  (W4_of m ρ c main_arg5 (by decide)).trans <| (W3_other m ρ c main_arg5 (by decide)).trans <|
  (W2_of m ρ c main_arg5 (by decide)).trans <| (W1_other m ρ c main_arg5 (by decide)).trans rfl

theorem W16_main_arg6 (c : Dev nD) : W16 m ρ c (Proc.devRef .tc main_arg6) = m ((c : Thread nD τ).loc main_arg6) :=
  (W16_of m ρ c main_arg6 (by decide)).trans <| (W15_other m ρ c main_arg6 (by decide)).trans <|
  (W14_of m ρ c main_arg6 (by decide)).trans <| (W13_other m ρ c main_arg6 (by decide)).trans <|
  (W12_of m ρ c main_arg6 (by decide)).trans <| (W11_other m ρ c main_arg6 (by decide)).trans <|
  (W10_of m ρ c main_arg6 (by decide)).trans <| (W9_other m ρ c main_arg6 (by decide)).trans <|
  (W8_of m ρ c main_arg6 (by decide)).trans <| (W7_other m ρ c main_arg6 (by decide)).trans <|
  (W6_of m ρ c main_arg6 (by decide)).trans <| (W5_other m ρ c main_arg6 (by decide)).trans <|
  (W4_of m ρ c main_arg6 (by decide)).trans <| (W3_other m ρ c main_arg6 (by decide)).trans <|
  (W2_of m ρ c main_arg6 (by decide)).trans <| (W1_other m ρ c main_arg6 (by decide)).trans rfl

theorem W16_main_arg7 (c : Dev nD) : W16 m ρ c (Proc.devRef .tc main_arg7) = m ((c : Thread nD τ).loc main_arg7) :=
  (W16_of m ρ c main_arg7 (by decide)).trans <| (W15_other m ρ c main_arg7 (by decide)).trans <|
  (W14_of m ρ c main_arg7 (by decide)).trans <| (W13_other m ρ c main_arg7 (by decide)).trans <|
  (W12_of m ρ c main_arg7 (by decide)).trans <| (W11_other m ρ c main_arg7 (by decide)).trans <|
  (W10_of m ρ c main_arg7 (by decide)).trans <| (W9_other m ρ c main_arg7 (by decide)).trans <|
  (W8_of m ρ c main_arg7 (by decide)).trans <| (W7_other m ρ c main_arg7 (by decide)).trans <|
  (W6_of m ρ c main_arg7 (by decide)).trans <| (W5_other m ρ c main_arg7 (by decide)).trans <|
  (W4_of m ρ c main_arg7 (by decide)).trans <| (W3_other m ρ c main_arg7 (by decide)).trans <|
  (W2_of m ρ c main_arg7 (by decide)).trans <| (W1_other m ρ c main_arg7 (by decide)).trans rfl

theorem W16_main_arg8 (c : Dev nD) : W16 m ρ c (Proc.devRef .tc main_arg8) = m ((c : Thread nD τ).loc main_arg8) :=
  (W16_of m ρ c main_arg8 (by decide)).trans <| (W15_other m ρ c main_arg8 (by decide)).trans <|
  (W14_of m ρ c main_arg8 (by decide)).trans <| (W13_other m ρ c main_arg8 (by decide)).trans <|
  (W12_of m ρ c main_arg8 (by decide)).trans <| (W11_other m ρ c main_arg8 (by decide)).trans <|
  (W10_of m ρ c main_arg8 (by decide)).trans <| (W9_other m ρ c main_arg8 (by decide)).trans <|
  (W8_of m ρ c main_arg8 (by decide)).trans <| (W7_other m ρ c main_arg8 (by decide)).trans <|
  (W6_of m ρ c main_arg8 (by decide)).trans <| (W5_other m ρ c main_arg8 (by decide)).trans <|
  (W4_of m ρ c main_arg8 (by decide)).trans <| (W3_other m ρ c main_arg8 (by decide)).trans <|
  (W2_of m ρ c main_arg8 (by decide)).trans <| (W1_other m ρ c main_arg8 (by decide)).trans rfl

theorem W16_main_arg9 (c : Dev nD) : W16 m ρ c (Proc.devRef .tc main_arg9) = m ((c : Thread nD τ).loc main_arg9) :=
  (W16_of m ρ c main_arg9 (by decide)).trans <| (W15_other m ρ c main_arg9 (by decide)).trans <|
  (W14_of m ρ c main_arg9 (by decide)).trans <| (W13_other m ρ c main_arg9 (by decide)).trans <|
  (W12_of m ρ c main_arg9 (by decide)).trans <| (W11_other m ρ c main_arg9 (by decide)).trans <|
  (W10_of m ρ c main_arg9 (by decide)).trans <| (W9_other m ρ c main_arg9 (by decide)).trans <|
  (W8_of m ρ c main_arg9 (by decide)).trans <| (W7_other m ρ c main_arg9 (by decide)).trans <|
  (W6_of m ρ c main_arg9 (by decide)).trans <| (W5_other m ρ c main_arg9 (by decide)).trans <|
  (W4_of m ρ c main_arg9 (by decide)).trans <| (W3_other m ρ c main_arg9 (by decide)).trans <|
  (W2_of m ρ c main_arg9 (by decide)).trans <| (W1_other m ρ c main_arg9 (by decide)).trans rfl

/-! ## The proof data family and the thread state -/

/-- Every pipeline's proof data, each at its region's entry contents — a literal `match`, so that the pinned
    configuration at a numeral reduces to the printed one. -/
def pdats : (p : Fin 8) → (c : Dev nD) → Dat τ (Elt F) Unit ℕ (UR sig nD τ) ℕ (Pipeline.pin (pcfgs (F := F)) adm p) c
  | ⟨0, _⟩ => fun c => dat0 (B0 m ρ) c
  | ⟨1, _⟩ => fun c => dat1 (B2 m ρ) c
  | ⟨2, _⟩ => fun c => dat2 (B4 m ρ) c
  | ⟨3, _⟩ => fun c => dat3 (B6 m ρ) c
  | ⟨4, _⟩ => fun c => dat4 (B8 m ρ) c
  | ⟨5, _⟩ => fun c => dat5 (B10 m ρ) c
  | ⟨6, _⟩ => fun c => dat6 (B12 m ρ) c
  | ⟨7, _⟩ => fun c => dat7 (B14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are
    split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B6 m ρ c) (B7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W8`, left at `W9`. Its arrays are
    split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (B8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (B8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (B8 m ρ c) (B9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. Its arrays are
    split out of the unscoped buffers and put back at the exit contents; the generator register goes into the
    class invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (B10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (B10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (B10 m ρ c) (B11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`. Its arrays are
    split out of the unscoped buffers and put back at the exit contents; the generator register goes into the
    class invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (B12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (B12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (B12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (B12 m ρ c) (B13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W14`, left at `W15`. Its arrays are
    split out of the unscoped buffers and put back at the exit contents; the generator register goes into the
    class invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (B14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (B14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (B14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (B14 m ρ c) (B15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 16 segments in order: a region per kernel call, a host segment per stretch from its boundary's contents. -/
abbrev segsAll : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)) ]

/-- @main is the run of the segments: it is the chain of its items, and the segments' programs are those items. -/
theorem main_run (c : Dev nD) : main (F := F) c = Pipeline.Seg.run (segsAll m ρ) := by
  rewrite [main_chain c, Pipeline.Seg.run_eq_chain,
    show (segsAll m ρ).map Pipeline.Seg.prog = [
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8 ] from rfl]
  rfl

set_option backward.isDefEq.respectTransparency.types false in
/-- THE RUN, at any post that follows from the last boundary's reading: from any memory with zero counters, every
    weakly fair execution of @main on the TensorCores terminates, nothing faulting, and in every final state each
    unscoped buffer holds the last boundary's contents. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- THE RUN: every weakly fair execution of @main terminates, nothing faulting, and every final state holds each
    unscoped buffer at the last boundary's contents `Wlast`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Wlast m ρ c b) :=
  run_gen m ρ fun _ h => h

/-- THE FRAME: every weakly fair execution of @main terminates, nothing faulting, and every final state has the
    argument arrays as launched: each argument read off the last boundary and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_gen m ρ fun s h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c)⟩

end Cert.KernelIdeal.Hand

end
-- ==== Proof.RowSpec.lean ====
/-
  The mathematics of one graph level, row by row, on the extended reals.

  A dense layer sends a row `x` of 128 numbers to `tanh (∑ k, x k · W o k + b o)` (the weight matrix is applied
  transposed: `x · Wᵀ + b`). Nine such layers with residual sums before the third, sixth and ninth
  (`chain9`) make the message chain and, after a first layer over the 256 numbers of the next level's row
  followed by the message chain's result (`lin0` over `cat`), the node chain: `step`. The embedding is one layer
  over a row of 32 features (`embedRow`). Both programs compute exactly these functions of the same
  rows; nothing here needs the numbers to be finite (only sums and products in a fixed order of factors).
-/
import Idealize.ShloMosaic.PureOps.Ideal

noncomputable section

namespace Cert.RowSpec

open Idealize.ShloMosaic

/-- A row of 128 channels. -/
abbrev Row := Fin 128 → EReal

/-- One dense layer with `tanh`, the weights applied transposed: `tanh (x · Wᵀ + b)`. -/
def lin (W : Fin 128 → Fin 128 → EReal) (b : Row) (x : Row) : Row :=
  fun o => Ideal.tanh ((∑ k : Fin 128, x k * W o k) + b o)

/-- The channelwise sum of two rows (a residual connection). -/
def radd (a b : Row) : Row := fun k => a k + b k

/-- Layers 0, 1, 2 of a nine-layer chain; the input is added back before layer 2. -/
def r2 (W : Fin 9 → Fin 128 → Fin 128 → EReal) (b : Fin 9 → Row) (x : Row) : Row :=
  lin (W 2) (b 2) (radd (lin (W 1) (b 1) (lin (W 0) (b 0) x)) x)

/-- Layers 3, 4, 5; the result of layer 2 is added back before layer 5. -/
def r5 (W : Fin 9 → Fin 128 → Fin 128 → EReal) (b : Fin 9 → Row) (x : Row) : Row :=
  lin (W 5) (b 5) (radd (lin (W 4) (b 4) (lin (W 3) (b 3) (r2 W b x))) (r2 W b x))

/-- Layers 6, 7, 8; the result of layer 5 is added back before layer 8: the whole nine-layer chain. -/
def chain9 (W : Fin 9 → Fin 128 → Fin 128 → EReal) (b : Fin 9 → Row) (x : Row) : Row :=
  lin (W 8) (b 8) (radd (lin (W 7) (b 7) (lin (W 6) (b 6) (r5 W b x))) (r5 W b x))

/-- Two rows side by side: 256 numbers, the first row first. -/
def cat (a b : Row) : Fin 256 → EReal :=
  fun k => if h : k.val < 128 then a ⟨k.val, h⟩ else b ⟨k.val - 128, by have := k.isLt; omega⟩

/-- The node chain's first layer, over the 256 numbers of `cat nxt redux`. -/
def lin0 (W0 : Fin 128 → Fin 256 → EReal) (b0 : Row) (nxt redux : Row) : Row :=
  fun o => Ideal.tanh ((∑ k : Fin 256, cat nxt redux k * W0 o k) + b0 o)

/-- One level transition on one node: the message chain on the summed messages, then the node chain on the next
    level's embedding beside it. -/
def step (Wmp : Fin 9 → Fin 128 → Fin 128 → EReal) (bmp : Fin 9 → Row) (W0 : Fin 128 → Fin 256 → EReal) (b0 : Row)
    (Wne : Fin 9 → Fin 128 → Fin 128 → EReal) (bne : Fin 9 → Row) (msgs nxt : Row) : Row :=
  chain9 Wne bne (lin0 W0 b0 nxt (chain9 Wmp bmp msgs))

/-- The embedding of one node: one layer over its 32 features. -/
def embedRow (We : Fin 128 → Fin 32 → EReal) (be : Row) (x : Fin 32 → EReal) : Row :=
  fun o => Ideal.tanh ((∑ k : Fin 32, x k * We o k) + be o)

end Cert.RowSpec

end
-- ==== Proof.KI.Layer.lean ====
/-
  One dense layer of the level kernel on a block of 1024 rows, read at an entry, and the chains built from it.

  The kernel takes one [1,128,128] slab `w` of a weight stack and one [1,128] row `b` of a bias stack, drops the
  slab's unit axis, transposes the matrix, multiplies the block of activations `h` by it into a zero accumulator, adds
  the bias row to every row and applies `tanh`. On the extended reals the change of float format is the identity and
  the product is the plain sum over the 128 shared channels, so entry (r, o) is
  `tanh (∑ k, h (r, k) · w (0, o, k) + b (0, o))`: the row function `RowSpec.lin` of row `r` of `h`. A slab
  loaded from slice `i` of a stack is the stack at (i, ·, ·). The first layer of the node chain is the same over the 256
  channels of the next level's row beside the message chain's; the embedding kernel is the same over 32 features.
-/
import proofs.«122000_j45174466019872_2_alg».proof.Proof.Gen.KernelIdeal
import proofs.«122000_j45174466019872_2_alg».proof.Proof.RowSpec
import Idealize.ShloMosaic.Lib.Pipeline.FrameBody
import Idealize.ShloMosaic.Lib.Pipeline.Value
import Idealize.ShloMosaic.Lib.KernelVsHost
import Idealize.ShloMosaic.Lib.StackMember
import Idealize.ShloMosaic.Lib.ValueLayout
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx Idealize.ShloMosaic.StackMember

/-! ## The kernel's layers as functions (any float values) -/

section Defs
variable {F : FTy → Type} [FloatOps F]

/-- The kernel's dense layer on a block: activations `h`, slab `w`, bias row `b`. -/
def klin (h : FVec F S1024x128 .f32) (w : Vec F S1x128x128 .bf16) (b : Vec F S1x128 .f32) : FVec F S1024x128 .f32 :=
  tanh (addf
    (matmul dot_S1024x128_S128x128_S1024x128_1_0_0_1_n_n none (truncf .bf16 h bitsLt_bf16_f32)
      (transpose S128x128 [1, 0] (shapeCast S128x128 w shapeCasts_S1x128x128_S128x128) transposes_S128x128_p1_0_S128x128)
      (constant S1024x128 .f32 0x00000000#32))
    (broadcastTo S1024x128 (shapeCast S1x128 (shapeCast S128 b shapeCasts_S1x128_S128) shapeCasts_S128_S1x128)
      broadcasts_S1x128_S1024x128))

/-- Three layers with the input added back before the third. -/
def kres3 (h : FVec F S1024x128 .f32) (w0 : Vec F S1x128x128 .bf16) (b0 : Vec F S1x128 .f32)
    (w1 : Vec F S1x128x128 .bf16) (b1 : Vec F S1x128 .f32) (w2 : Vec F S1x128x128 .bf16) (b2 : Vec F S1x128 .f32) :
    FVec F S1024x128 .f32 :=
  klin (addf (klin (klin h w0 b0) w1 b1) h) w2 b2

/-- The node chain's first layer: over the 256 columns of the next level's block beside the message chain's result. -/
def klin0 (nxt redux : FVec F S1024x128 .f32) (w0 : Vec F S128x256 .bf16) (b0 : Vec F S128 .f32) : FVec F S1024x128 .f32 :=
  tanh (addf
    (matmul dot_S1024x256_S256x128_S1024x128_1_0_0_1_n_n none
      (truncf .bf16 (concatenate S1024x256 1 [⟨S1024x128, nxt⟩, ⟨S1024x128, redux⟩] concatenates_S1024x128_S1024x128_S1024x256_d1) bitsLt_bf16_f32)
      (transpose S256x128 [1, 0] (shapeCast S128x256 w0 shapeCasts_S128x256_S128x256) transposes_S128x256_p1_0_S256x128)
      (constant S1024x128 .f32 0x00000000#32))
    (broadcastTo S1024x128 (shapeCast S1x128 b0 shapeCasts_S128_S1x128) broadcasts_S1x128_S1024x128))

end Defs

/-! ## Read at an index, on the extended reals -/

/-- The kernel's product into a zero accumulator against a transposed [n,k] matrix, plus a one-row bias laid along
    every row, under `tanh`: read at (r, o). -/
theorem core_apply {m k n : Nat} {φ₁ φ₂ : FTy}
    (w : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (hb : (⟨2, ![1, n]⟩ : Shape).Broadcasts ⟨2, ![m, n]⟩)
    (A : FVec Ideal ⟨2, ![m, k]⟩ φ₁) (B : FVec Ideal ⟨2, ![n, k]⟩ φ₂) (bias : FVec Ideal ⟨2, ![1, n]⟩ .f32)
    (r : Fin m) (o : Fin n) :
    tanh (F := Ideal) (addf (F := Ideal)
        (matmul (F := Ideal) (⟨[1], [0], [0], [1], [], [], w⟩ : DotDims _ _ _) none A (transpose ⟨2, ![k, n]⟩ [1, 0] B ht)
          (constant (F := Ideal) ⟨2, ![m, n]⟩ .f32 0x00000000#32))
        (broadcastTo ⟨2, ![m, n]⟩ bias hb)) (ix2 r o)
      = Ideal.tanh ((∑ c : Fin k, A (ix2 r c) * B (ix2 o c)) + bias (ix2 (0 : Fin 1) o)) := by
  rw [matmul_zero_eq_dotGeneral]
  show Ideal.tanh (_ + _) = _
  congr 2
  · have e := dotGeneral_plain_apply (m := m) (n := n) (k := k) none A (transpose ⟨2, ![k, n]⟩ [1, 0] B ht) r o
    refine Eq.trans ?_ (e.trans (Finset.sum_congr rfl fun c _ => ?_))
    · rfl
    · rw [transpose_ix2_apply]
  · exact broadcastTo_1b_ab_apply _ _ r o

/-- Row `r` of a [1024,128] block. -/
abbrev rowK (x : FVec Ideal S1024x128 .f32) (r : Fin 1024) : Cert.RowSpec.Row := fun k => x (ix2 r k)
/-- A [9,128,128] stack as a family of matrices. -/
abbrev wOf (W : Vec Ideal S9x128x128 .bf16) : Fin 9 → Fin 128 → Fin 128 → EReal := fun l o k => W (ix3 l o k)
/-- A [9,128] stack as a family of rows. -/
abbrev bOf (b : Vec Ideal S9x128 .f32) : Fin 9 → Cert.RowSpec.Row := fun l o => b (ix2 l o)

/-- The kernel's layer read at an index. -/
theorem klin_apply (h : FVec Ideal S1024x128 .f32) (w : Vec Ideal S1x128x128 .bf16) (b : Vec Ideal S1x128 .f32)
    (r : Fin 1024) (o : Fin 128) :
    klin h w b (ix2 r o)
      = Ideal.tanh ((∑ k : Fin 128, h (ix2 r k) * w (ix3 (0 : Fin 1) o k)) + b (ix2 (0 : Fin 1) o)) := by
  unfold klin
  refine (core_apply dot_S1024x128_S128x128_S1024x128_1_0_0_1_n_n_wf transposes_S128x128_p1_0_S128x128
    broadcasts_S1x128_S1024x128 _ _ _ r o).trans ?_
  congr 2
  · refine Finset.sum_congr rfl fun c _ => ?_
    rw [shapeCast_1ab_ab_apply]
    rfl
  · rw [shapeCast_a_1a_apply, shapeCast_1a_a_apply]

/-- The kernel's layer on rows. -/
theorem rowK_klin (h : FVec Ideal S1024x128 .f32) (w : Vec Ideal S1x128x128 .bf16) (b : Vec Ideal S1x128 .f32)
    (r : Fin 1024) :
    rowK (klin h w b) r
      = Cert.RowSpec.lin (fun o k => w (ix3 (0 : Fin 1) o k)) (fun o => b (ix2 (0 : Fin 1) o)) (rowK h r) := by
  funext o
  exact klin_apply h w b r o

theorem rowK_addf (a b : FVec Ideal S1024x128 .f32) (r : Fin 1024) :
    rowK (addf (F := Ideal) a b) r = Cert.RowSpec.radd (rowK a r) (rowK b r) := rfl

/-- Slab `n` of a [9,128,128] stack, loaded, read at (0, o, k). -/
theorem ld_w (W : Vec Ideal S9x128x128 .bf16) (i : Fin 9) (n : Nat) (hn : i.val = n)
    (inb : ∀ a, (![n, 0, 0] : Fin 3 → Nat) a + S1x128x128.size a ≤ S9x128x128.size a) :
    (fun o k => View.ld W (Rect.unit (s := S9x128x128) ![n, 0, 0] S1x128x128.size inb) (ix3 (0 : Fin 1) o k)) = wOf W i := by
  funext o k
  show W _ = W _
  refine congrArg W (funext fun a => Fin.ext ?_)
  match a with
  | ⟨0, _⟩ => show n + 1 * 0 = i.val; omega
  | ⟨1, _⟩ => show 0 + 1 * o.val = o.val; omega
  | ⟨2, _⟩ => show 0 + 1 * k.val = k.val; omega

/-- Row `n` of a [9,128] stack, loaded, read at (0, o). -/
theorem ld_b (B : Vec Ideal S9x128 .f32) (i : Fin 9) (n : Nat) (hn : i.val = n)
    (inb : ∀ a, (![n, 0] : Fin 2 → Nat) a + S1x128.size a ≤ S9x128.size a) :
    (fun o => View.ld B (Rect.unit (s := S9x128) ![n, 0] S1x128.size inb) (ix2 (0 : Fin 1) o)) = bOf B i := by
  funext o
  show B _ = B _
  refine congrArg B (funext fun a => Fin.ext ?_)
  match a with
  | ⟨0, _⟩ => show n + 1 * 0 = i.val; omega
  | ⟨1, _⟩ => show 0 + 1 * o.val = o.val; omega

/-- The kernel's layer with slab and bias row loaded from slice `i` of the stacks, on rows. -/
theorem rowK_klin_ld (h : FVec Ideal S1024x128 .f32) (W : Vec Ideal S9x128x128 .bf16) (B : Vec Ideal S9x128 .f32)
    (i : Fin 9) (n : Nat) (hn : i.val = n)
    (inbw : ∀ a, (![n, 0, 0] : Fin 3 → Nat) a + S1x128x128.size a ≤ S9x128x128.size a)
    (inbb : ∀ a, (![n, 0] : Fin 2 → Nat) a + S1x128.size a ≤ S9x128.size a) (r : Fin 1024) :
    rowK (klin h (View.ld W (Rect.unit (s := S9x128x128) ![n, 0, 0] S1x128x128.size inbw))
        (View.ld B (Rect.unit (s := S9x128) ![n, 0] S1x128.size inbb))) r
      = Cert.RowSpec.lin (wOf W i) (bOf B i) (rowK h r) := by
  rw [rowK_klin, ld_w W i n hn inbw, ld_b B i n hn inbb]

theorem hz2 : (![0, 0] : Fin 2 → Nat) = fun _ => 0 := funext fun a => by fin_cases a <;> rfl
theorem hz1 : (![0] : Fin 1 → Nat) = fun _ => 0 := funext fun a => by fin_cases a; rfl

/-- Two [1024,128] blocks side by side, read at (r, c). -/
theorem kconcat_apply (nxt redux : FVec Ideal S1024x128 .f32) (r : Fin 1024) (c : Fin 256) :
    concatenate S1024x256 1 [⟨S1024x128, nxt⟩, ⟨S1024x128, redux⟩] concatenates_S1024x128_S1024x128_S1024x256_d1 (ix2 r c)
      = Cert.RowSpec.cat (rowK nxt r) (rowK redux r) c := by
  unfold Cert.RowSpec.cat
  by_cases h : c.val < 128
  · rw [dif_pos h]
    exact concatenate_pair_apply_left (t := S1024x256) (s₁ := S1024x128) (s₂ := S1024x128) 1 nxt redux _ (ix2 r c) rfl
      (ix2 r (⟨c.val, h⟩ : Fin 128)) (fun b => by
        match b with
        | ⟨0, _⟩ => rfl
        | ⟨1, _⟩ => rfl)
  · rw [dif_neg h]
    exact concatenate_pair_apply_right (t := S1024x256) (s₁ := S1024x128) (s₂ := S1024x128) 1 nxt redux _ (ix2 r c) rfl rfl
      (ix2 r (⟨c.val - 128, by have := c.isLt; omega⟩ : Fin 128)) (fun b hb => by
        match b with
        | ⟨0, _⟩ => rfl
        | ⟨1, _⟩ => exact absurd rfl hb) (by
        show (c.val - 128) + 128 = c.val
        omega)

/-- The 256-wide layer on rows. -/
theorem rowK_klin0 (nxt redux : FVec Ideal S1024x128 .f32) (w0 : Vec Ideal S128x256 .bf16) (b0 : Vec Ideal S128 .f32)
    (r : Fin 1024) :
    rowK (klin0 nxt redux w0 b0) r
      = Cert.RowSpec.lin0 (fun o k => w0 (ix2 o k)) (fun o => b0 (ix1 o)) (rowK nxt r) (rowK redux r) := by
  funext o
  show klin0 nxt redux w0 b0 (ix2 r o) = _
  unfold klin0 Cert.RowSpec.lin0
  refine (core_apply dot_S1024x256_S256x128_S1024x128_1_0_0_1_n_n_wf transposes_S128x256_p1_0_S256x128
    broadcasts_S1x128_S1024x128 _ _ _ r o).trans ?_
  congr 2
  · refine Finset.sum_congr rfl fun c _ => ?_
    rw [shapeCast_self]
    exact congrArg (· * w0 (ix2 o c)) (kconcat_apply nxt redux r c)
  · rw [shapeCast_a_1a_apply]

end Cert.KernelIdeal.Val

end
-- ==== Proof.KI.Body0.lean ====
/-
  Region 0's body read at an index: what the embedding kernel leaves in its output block is, entry by entry, the
  embedding `RowSpec.embedRow` of the corresponding row of its features block: one dense layer over the 32 features.
-/
import proofs.«122000_j45174466019872_2_alg».proof.Proof.KI.Region0
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-- What region 0's body leaves in its output block, read at an index. -/
theorem out0_3_apply (x0 : Vec Ideal S4096x32 .f32) (x1 : Vec Ideal S128x32 .f32) (x2 : Vec Ideal S128 .f32)
    (r : Fin 4096) (o : Fin 128) :
    out0_3 (F := Ideal) x0 x1 x2 (ValueIdx.ix2 r o)
      = Cert.RowSpec.embedRow (fun o k => x1 (ValueIdx.ix2 o k)) (fun o => x2 (ValueIdx.ix1 o))
          (fun k => x0 (ValueIdx.ix2 r k)) o := by
  unfold out0_3
  rw [View.canon_unit_zero (S := S4096x128) hz2, View.ld_unit_zero (S := S4096x32) hz2,
    View.ld_unit_zero (S := S128x32) hz2, View.ld_unit_zero (S := S128) hz1]
  unfold k0_pay1 Cert.RowSpec.embedRow
  refine (core_apply dot_S4096x32_S32x128_S4096x128_1_0_0_1_n_n_wf transposes_S128x32_p1_0_S32x128
    broadcasts_S1x128_S4096x128 _ _ _ r o).trans ?_
  congr 2
  exact shapeCast_a_1a_apply _ _ _ o

end Cert.KernelIdeal.Val

end
-- ==== Proof.KI.KStep.lean ====
/-
  The level function and the embedding on whole arrays.

  Entry (r, o) of `kstep` is the row function `RowSpec.step` of row `r` of the summed messages and of row `r` of the
  next level's embeddings, the weights and biases read off their arrays; entry (r, o) of `kembed` is the embedding
  `RowSpec.embedRow` of row `r` of the features.
-/
import proofs.«122000_j45174466019872_2_alg».proof.Proof.Gen.KernelIdeal
import proofs.«122000_j45174466019872_2_alg».proof.Proof.RowSpec
import Idealize.ShloMosaic.Lib.ValueIdx

noncomputable section

namespace Cert.KernelIdeal.Val

open Cert.KernelIdeal Idealize.ShloMosaic Idealize.ShloMosaic.ValueIdx

/-- The level function on whole arrays: entry `(r, o)` is the row function `RowSpec.step` of row `r` of the summed
    messages `x0` and of the next level's embeddings `x1`, with the weights and biases read off their arrays. -/
def kstep (x0 x1 : S16384x128.Idx → EReal) (x2 : S9x128x128.Idx → EReal) (x3 : S9x128.Idx → EReal)
    (x4 : S128x256.Idx → EReal) (x5 : S128.Idx → EReal) (x6 : S9x128x128.Idx → EReal) (x7 : S9x128.Idx → EReal) :
    S16384x128.Idx → EReal := fun i =>
  Cert.RowSpec.step (fun l o k => x2 (ix3 l o k)) (fun l o => x3 (ix2 l o)) (fun o k => x4 (ix2 o k)) (fun o => x5 (ix1 o))
    (fun l o k => x6 (ix3 l o k)) (fun l o => x7 (ix2 l o))
    (fun k => x0 (ix2 (⟨(i 0).val, idx2_lt0 i⟩ : Fin 16384) k)) (fun k => x1 (ix2 (⟨(i 0).val, idx2_lt0 i⟩ : Fin 16384) k))
    (⟨(i 1).val, idx2_lt1 i⟩ : Fin 128)

/-- The embedding on whole arrays: entry `(r, o)` is the row function of row `r` of the features. -/
def kembed (x0 : S131072x32.Idx → EReal) (x1 : S128x32.Idx → EReal) (x2 : S128.Idx → EReal) : S131072x128.Idx → EReal := fun i =>
  Cert.RowSpec.embedRow (fun o k => x1 (ix2 o k)) (fun o => x2 (ix1 o))
    (fun k => x0 (ix2 (⟨(i 0).val, idx2_lt0 i⟩ : Fin 131072) k)) (⟨(i 1).val, idx2_lt1 i⟩ : Fin 128)

end Cert.KernelIdeal.Val

end
-- ==== Proof.KI.Array0.lean ====
/-
  Region 0's output array after its run, as one function of the arrays the region finds.

  Point `t` of the grid works on rows `4096 t … 4096 t + 4095` of the features and on the whole weight and bias
  arrays; by the body's row form, what it writes back is rows `4096 t …` of the embedding `kembed` of those arrays.
  The thirty-two blocks tile the [131072,128] array, so after the run the array IS `kembed` of the arrays at entry.
-/
import proofs.«122000_j45174466019872_2_alg».proof.Proof.KI.Region0
import proofs.«122000_j45174466019872_2_alg».proof.Proof.KI.Body0
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the feature blocks move with the output's; every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem lt32 (t : Fin cfg0.N) : t.val < 32 := lt_of_lt_of_eq t.isLt N_0

/-- Row `r` of point `t`'s block is row `4096 t + r` of the array. -/
def rowAt0 (t : Fin cfg0.N) (r : Fin 4096) : Fin 131072 := ⟨t.val * 4096 + r.val, by have := lt32 t; have := r.isLt; omega⟩

theorem emb0_3 (t : Fin cfg0.N) (r : Fin 4096) (o : Fin 128) :
    ((cfg0.win 3).blk t).view.emb (ix2 r o) = ix2 (rowAt0 t r) o := by
  obtain ⟨e0, e1, e2, e3, e4, e5, e6⟩ := idx_facts0 t
  funext a; apply Fin.ext
  match a with
  | ⟨0, _⟩ => show win0_3.index t (0 : Fin 2) * 4096 + 1 * r.val = t.val * 4096 + r.val; omega
  | ⟨1, _⟩ => show win0_3.index t (1 : Fin 2) * 128 + 1 * o.val = o.val; omega

theorem emb0_0 (t : Fin cfg0.N) (r : Fin 4096) (k : Fin 32) :
    ((cfg0.win 0).blk t).view.emb (ix2 r k) = ix2 (rowAt0 t r) k := by
  obtain ⟨e0, e1, e2, e3, e4, e5, e6⟩ := idx_facts0 t
  funext a; apply Fin.ext
  match a with
  | ⟨0, _⟩ => show win0_0.index t (0 : Fin 2) * 4096 + 1 * r.val = t.val * 4096 + r.val; omega
  | ⟨1, _⟩ => show win0_0.index t (1 : Fin 2) * 32 + 1 * k.val = k.val; omega

theorem emb0_1 (t : Fin cfg0.N) (o : Fin 128) (k : Fin 32) :
    ((cfg0.win 1).blk t).view.emb (ix2 o k) = ix2 o k := by
  obtain ⟨e0, e1, e2, e3, e4, e5, e6⟩ := idx_facts0 t
  funext a; apply Fin.ext
  match a with
  | ⟨0, _⟩ => show win0_1.index t (0 : Fin 2) * 128 + 1 * o.val = o.val; omega
  | ⟨1, _⟩ => show win0_1.index t (1 : Fin 2) * 32 + 1 * k.val = k.val; omega

theorem emb0_2 (t : Fin cfg0.N) (o : Fin 128) :
    ((cfg0.win 2).blk t).view.emb (ix1 o) = ix1 o := by
  obtain ⟨e0, e1, e2, e3, e4, e5, e6⟩ := idx_facts0 t
  funext a; apply Fin.ext
  match a with
  | ⟨0, _⟩ => show win0_2.index t (0 : Fin 1) * 128 + 1 * o.val = o.val; omega

theorem flushed0_eq (c : Dev nD) (t : Fin cfg0.N) :
    (dat0 V c).flushed 3 t = ((cfg0.win 3).blk t).view.read (Elt Ideal)
      (kembed (V c (Pipeline.arrRef spec0 0)) (V c (Pipeline.arrRef spec0 1)) (V c (Pipeline.arrRef spec0 2))) := by
  show (cfg0.win 3).cut (grid0.coords t) ((dat0 V c).after 3 t) = _
  rw [after0_3]
  funext j
  obtain ⟨r, o, rfl⟩ : ∃ (r : Fin 4096) (o : Fin 128), j = ix2 r o := ⟨j 0, j 1, eq_ix2 j⟩
  show out0_3 (iblk0 V c 0 t) (iblk0 V c 1 t) (iblk0 V c 2 t) (ix2 r o) = _
  rw [out0_3_apply, View.read_apply, emb0_3 t r o]
  have h0 : ∀ k : Fin 32, iblk0 V c 0 t (ix2 r k) = V c (Pipeline.arrRef spec0 0) (ix2 (rowAt0 t r) k) := fun k => by
    show V c (Pipeline.arrRef spec0 0) (((cfg0.win 0).blk t).view.emb (ix2 r k)) = _
    rw [emb0_0 t r k]
  have h1 : ∀ (o' : Fin 128) (k : Fin 32), iblk0 V c 1 t (ix2 o' k) = V c (Pipeline.arrRef spec0 1) (ix2 o' k) := fun o' k => by
    show V c (Pipeline.arrRef spec0 1) (((cfg0.win 1).blk t).view.emb (ix2 o' k)) = _
    rw [emb0_1 t o' k]
  have h2 : ∀ o' : Fin 128, iblk0 V c 2 t (ix1 o') = V c (Pipeline.arrRef spec0 2) (ix1 o') := fun o' => by
    show V c (Pipeline.arrRef spec0 2) (((cfg0.win 2).blk t).view.emb (ix1 o')) = _
    rw [emb0_2 t o']
  simp only [h0, h1, h2]
  rfl

/-- An index of the array is in point `t`'s block iff each coordinate is in the block's range on its axis. -/
theorem mem_blk0 (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v0).slice (win0_3.rect t)).set ↔ _
  rw [View.set_slice_whole, Rect.mem_set_unit]
  exact Iff.rfl

/-- Every row of the array lies in the block of the point `row / 4096`. -/
theorem cover0 (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  let t : Fin cfg0.N := ⟨(i 0).val / 4096, by rw [show cfg0.N = 32 from N_0]; omega⟩
  obtain ⟨e0, e1, e2, e3, e4, e5, e6⟩ := idx_facts0 t
  have ht : t.val = (i 0).val / 4096 := rfl
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE ARRAY region 0 leaves: the embedding of the feature array, whatever the contents at entry. -/
theorem final0 (c : Dev nD) : (dat0 V c).arrAt 3 cfg0.N
    = kembed (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Val

end
-- ==== Proof.KI.Body1.lean ====
/-
  Region 1's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region1
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v1_35_eq : v1_35 x0 x2 x3
    = kres3 (shapeCast (s := S1024x128) S1024x128 (View.ld x0 r1_x) shapeCasts_S1024x128_S1024x128) (View.ld x2 r1_w0) (View.ld x3 r1_b0) (View.ld x2 r1_w1) (View.ld x3 r1_b1) (View.ld x2 r1_w2) (View.ld x3 r1_b2) := rfl

theorem v1_69_eq : v1_69 x0 x2 x3 = kres3 (v1_35 x0 x2 x3) (View.ld x2 r1_w3) (View.ld x3 r1_b3) (View.ld x2 r1_w4) (View.ld x3 r1_b4) (View.ld x2 r1_w5) (View.ld x3 r1_b5) := rfl

theorem v1_116_eq : v1_116 x0 x1 x2 x3 x4 x5
    = klin0 (shapeCast (s := S1024x128) S1024x128 (View.ld x1 r1_x) shapeCasts_S1024x128_S1024x128)
        (kres3 (v1_69 x0 x2 x3) (View.ld x2 r1_w6) (View.ld x3 r1_b6) (View.ld x2 r1_w7) (View.ld x3 r1_b7) (View.ld x2 r1_w8) (View.ld x3 r1_b8)) (View.ld x4 r1_n) (View.ld x5 r1_c) := rfl

theorem v1_150_eq : v1_150 x0 x1 x2 x3 x4 x5 x6 x7 = kres3 (v1_116 x0 x1 x2 x3 x4 x5) (View.ld x6 r1_w0) (View.ld x7 r1_b0) (View.ld x6 r1_w1) (View.ld x7 r1_b1) (View.ld x6 r1_w2) (View.ld x7 r1_b2) := rfl

theorem v1_184_eq : v1_184 x0 x1 x2 x3 x4 x5 x6 x7 = kres3 (v1_150 x0 x1 x2 x3 x4 x5 x6 x7) (View.ld x6 r1_w3) (View.ld x7 r1_b3) (View.ld x6 r1_w4) (View.ld x7 r1_b4) (View.ld x6 r1_w5) (View.ld x7 r1_b5) := rfl

theorem pay1_eq : k1_pay1 (v1_184 x0 x1 x2 x3 x4 x5 x6 x7) (v1_194 x0 x1 x2 x3 x4 x5 x6 x7) (View.ld x6 r1_w7) (View.ld x7 r1_b7) (View.ld x6 r1_w8) (View.ld x7 r1_b8)
    = kres3 (v1_184 x0 x1 x2 x3 x4 x5 x6 x7) (View.ld x6 r1_w6) (View.ld x7 r1_b6) (View.ld x6 r1_w7) (View.ld x7 r1_b7) (View.ld x6 r1_w8) (View.ld x7 r1_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row1_35 : rowK (v1_35 (F := Ideal) x0 x2 x3) r = Cert.RowSpec.r2 (wOf x2) (bOf x3) (rowK x0 r) := by
  rw [v1_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row1_69 : rowK (v1_69 (F := Ideal) x0 x2 x3) r = Cert.RowSpec.r5 (wOf x2) (bOf x3) (rowK x0 r) := by
  rw [v1_69_eq]; unfold kres3
  rw [rowK_klin_ld _ x2 x3 5 5 rfl, rowK_addf, rowK_klin_ld _ x2 x3 4 4 rfl, rowK_klin_ld _ x2 x3 3 3 rfl, row1_35]
  rfl

theorem row1_116 : rowK (v1_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v1_116_eq, rowK_klin0]; unfold kres3
  rw [rowK_klin_ld _ x2 x3 8 8 rfl, rowK_addf, rowK_klin_ld _ x2 x3 7 7 rfl, rowK_klin_ld _ x2 x3 6 6 rfl, row1_69, shapeCast_self, View.ld_unit_zero (S := S1024x128) hz2, View.ld_unit_zero (S := S128x256) hz2, View.ld_unit_zero (S := S128) hz1]
  rfl

theorem row1_150 : rowK (v1_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v1_150_eq]; unfold kres3
  rw [rowK_klin_ld _ x6 x7 2 2 rfl, rowK_addf, rowK_klin_ld _ x6 x7 1 1 rfl, rowK_klin_ld _ x6 x7 0 0 rfl, row1_116]
  rfl

theorem row1_184 : rowK (v1_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v1_184_eq]; unfold kres3
  rw [rowK_klin_ld _ x6 x7 5 5 rfl, rowK_addf, rowK_klin_ld _ x6 x7 4 4 rfl, rowK_klin_ld _ x6 x7 3 3 rfl, row1_150]
  rfl

end Rows

/-- What region 1's body leaves in its output block, read at an index: the level function of row `r` of the messages
    block and row `r` of the next level's block. -/
theorem out1_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out1_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out1_8
  rw [View.canon_unit_zero (S := S1024x128) hz2, pay1_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row1_184]
  rfl

end Cert.KernelIdeal.Val

end
-- ==== Proof.KI.Array1.lean ====
/-
  Region 1's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region1
import proofs.«122000_j45174466019872_2_alg».proof.Proof.KI.Body1
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 3) = 0
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 3) = 0
    ∧ win1_6.index t (1 : Fin 3) = 0
    ∧ win1_6.index t (2 : Fin 3) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

theorem lt16_1 (t : Fin cfg1.N) : t.val < 16 := lt_of_lt_of_eq t.isLt N_1

/-- Row `r` of point `t`'s block is row `1024 t + r` of the array. -/
def rowAt1 (t : Fin cfg1.N) (r : Fin 1024) : Fin 16384 := ⟨t.val * 1024 + r.val, by have := lt16_1 t; have := r.isLt; omega⟩

theorem emb1_8 (t : Fin cfg1.N) (r : Fin 1024) (k : Fin 128) :
    ((cfg1.win 8).blk t).view.emb (ix2 r k) = ix2 (rowAt1 t r) k := by
  obtain ⟨e0, e1, e2, e3, e4, e5, e6, e7, e8, e9, e10, e11, e12, e13, e14, e15, e16, e17, e18⟩ := idx_facts1 t
  funext a; apply Fin.ext
  match a with
  | ⟨0, _⟩ => show win1_8.index t (0 : Fin 2) * 1024 + 1 * r.val = t.val * 1024 + r.val; omega
  | ⟨1, _⟩ => show win1_8.index t (1 : Fin 2) * 128 + 1 * k.val = k.val; omega

theorem emb1_0 (t : Fin cfg1.N) (r : Fin 1024) (k : Fin 128) :
    ((cfg1.win 0).blk t).view.emb (ix2 r k) = ix2 (rowAt1 t r) k := by
  obtain ⟨e0, e1, e2, e3, e4, e5, e6, e7, e8, e9, e10, e11, e12, e13, e14, e15, e16, e17, e18⟩ := idx_facts1 t
  funext a; apply Fin.ext
  match a with
  | ⟨0, _⟩ => show win1_0.index t (0 : Fin 2) * 1024 + 1 * r.val = t.val * 1024 + r.val; omega
  | ⟨1, _⟩ => show win1_0.index t (1 : Fin 2) * 128 + 1 * k.val = k.val; omega

theorem emb1_1 (t : Fin cfg1.N) (r : Fin 1024) (k : Fin 128) :
    ((cfg1.win 1).blk t).view.emb (ix2 r k) = ix2 (rowAt1 t r) k := by
  obtain ⟨e0, e1, e2, e3, e4, e5, e6, e7, e8, e9, e10, e11, e12, e13, e14, e15, e16, e17, e18⟩ := idx_facts1 t
  funext a; apply Fin.ext
  match a with
  | ⟨0, _⟩ => show win1_1.index t (0 : Fin 2) * 1024 + 1 * r.val = t.val * 1024 + r.val; omega
  | ⟨1, _⟩ => show win1_1.index t (1 : Fin 2) * 128 + 1 * k.val = k.val; omega

theorem emb1_2 (t : Fin cfg1.N) (l : Fin 9) (o k : Fin 128) :
    ((cfg1.win 2).blk t).view.emb (ix3 l o k) = ix3 l o k := by
  obtain ⟨e0, e1, e2, e3, e4, e5, e6, e7, e8, e9, e10, e11, e12, e13, e14, e15, e16, e17, e18⟩ := idx_facts1 t
  funext a; apply Fin.ext
  match a with
  | ⟨0, _⟩ => show win1_2.index t (0 : Fin 3) * 9 + 1 * l.val = l.val; omega
  | ⟨1, _⟩ => show win1_2.index t (1 : Fin 3) * 128 + 1 * o.val = o.val; omega
  | ⟨2, _⟩ => show win1_2.index t (2 : Fin 3) * 128 + 1 * k.val = k.val; omega

theorem emb1_3 (t : Fin cfg1.N) (l : Fin 9) (o : Fin 128) :
    ((cfg1.win 3).blk t).view.emb (ix2 l o) = ix2 l o := by
  obtain ⟨e0, e1, e2, e3, e4, e5, e6, e7, e8, e9, e10, e11, e12, e13, e14, e15, e16, e17, e18⟩ := idx_facts1 t
  funext a; apply Fin.ext
  match a with
  | ⟨0, _⟩ => show win1_3.index t (0 : Fin 2) * 9 + 1 * l.val = l.val; omega
  | ⟨1, _⟩ => show win1_3.index t (1 : Fin 2) * 128 + 1 * o.val = o.val; omega

theorem emb1_4 (t : Fin cfg1.N) (l : Fin 128) (o : Fin 256) :
    ((cfg1.win 4).blk t).view.emb (ix2 l o) = ix2 l o := by
  obtain ⟨e0, e1, e2, e3, e4, e5, e6, e7, e8, e9, e10, e11, e12, e13, e14, e15, e16, e17, e18⟩ := idx_facts1 t
  funext a; apply Fin.ext
  match a with
  | ⟨0, _⟩ => show win1_4.index t (0 : Fin 2) * 128 + 1 * l.val = l.val; omega
  | ⟨1, _⟩ => show win1_4.index t (1 : Fin 2) * 256 + 1 * o.val = o.val; omega

theorem emb1_5 (t : Fin cfg1.N) (o : Fin 128) :
    ((cfg1.win 5).blk t).view.emb (ix1 o) = ix1 o := by
  obtain ⟨e0, e1, e2, e3, e4, e5, e6, e7, e8, e9, e10, e11, e12, e13, e14, e15, e16, e17, e18⟩ := idx_facts1 t
  funext a; apply Fin.ext
  match a with
  | ⟨0, _⟩ => show win1_5.index t (0 : Fin 1) * 128 + 1 * o.val = o.val; omega

theorem emb1_6 (t : Fin cfg1.N) (l : Fin 9) (o k : Fin 128) :
    ((cfg1.win 6).blk t).view.emb (ix3 l o k) = ix3 l o k := by
  obtain ⟨e0, e1, e2, e3, e4, e5, e6, e7, e8, e9, e10, e11, e12, e13, e14, e15, e16, e17, e18⟩ := idx_facts1 t
  funext a; apply Fin.ext
  match a with
  | ⟨0, _⟩ => show win1_6.index t (0 : Fin 3) * 9 + 1 * l.val = l.val; omega
  | ⟨1, _⟩ => show win1_6.index t (1 : Fin 3) * 128 + 1 * o.val = o.val; omega
  | ⟨2, _⟩ => show win1_6.index t (2 : Fin 3) * 128 + 1 * k.val = k.val; omega

theorem emb1_7 (t : Fin cfg1.N) (l : Fin 9) (o : Fin 128) :
    ((cfg1.win 7).blk t).view.emb (ix2 l o) = ix2 l o := by
  obtain ⟨e0, e1, e2, e3, e4, e5, e6, e7, e8, e9, e10, e11, e12, e13, e14, e15, e16, e17, e18⟩ := idx_facts1 t
  funext a; apply Fin.ext
  match a with
  | ⟨0, _⟩ => show win1_7.index t (0 : Fin 2) * 9 + 1 * l.val = l.val; omega
  | ⟨1, _⟩ => show win1_7.index t (1 : Fin 2) * 128 + 1 * o.val = o.val; omega

set_option maxHeartbeats 1000000 in
/-- Window 0's block at point `t`, read at an index. -/
theorem blk1_0 (c : Dev nD) (t : Fin cfg1.N) (r : Fin 1024) (k : Fin 128) :
    iblk1 V c 0 t (ix2 r k) = (V c (Pipeline.arrRef spec1 0)) (ix2 (rowAt1 t r) k) := by
  show (V c (Pipeline.arrRef spec1 0)) (((cfg1.win 0).blk t).view.emb (ix2 r k)) = _
  rw [emb1_0 t r k]

set_option maxHeartbeats 1000000 in
/-- Window 1's block at point `t`, read at an index. -/
theorem blk1_1 (c : Dev nD) (t : Fin cfg1.N) (r : Fin 1024) (k : Fin 128) :
    iblk1 V c 1 t (ix2 r k) = (V c (Pipeline.arrRef spec1 1)) (ix2 (rowAt1 t r) k) := by
  show (V c (Pipeline.arrRef spec1 1)) (((cfg1.win 1).blk t).view.emb (ix2 r k)) = _
  rw [emb1_1 t r k]

set_option maxHeartbeats 1000000 in
/-- Window 2's block at point `t`, read at an index. -/
theorem blk1_2 (c : Dev nD) (t : Fin cfg1.N) (l : Fin 9) (o k : Fin 128) :
    iblk1 V c 2 t (ix3 l o k) = (V c (Pipeline.arrRef spec1 2)) (ix3 l o k) := by
  show (V c (Pipeline.arrRef spec1 2)) (((cfg1.win 2).blk t).view.emb (ix3 l o k)) = _
  rw [emb1_2 t l o k]

set_option maxHeartbeats 1000000 in
/-- Window 3's block at point `t`, read at an index. -/
theorem blk1_3 (c : Dev nD) (t : Fin cfg1.N) (l : Fin 9) (o : Fin 128) :
    iblk1 V c 3 t (ix2 l o) = (V c (Pipeline.arrRef spec1 3)) (ix2 l o) := by
  show (V c (Pipeline.arrRef spec1 3)) (((cfg1.win 3).blk t).view.emb (ix2 l o)) = _
  rw [emb1_3 t l o]

set_option maxHeartbeats 1000000 in
/-- Window 4's block at point `t`, read at an index. -/
theorem blk1_4 (c : Dev nD) (t : Fin cfg1.N) (l : Fin 128) (o : Fin 256) :
    iblk1 V c 4 t (ix2 l o) = (V c (Pipeline.arrRef spec1 4)) (ix2 l o) := by
  show (V c (Pipeline.arrRef spec1 4)) (((cfg1.win 4).blk t).view.emb (ix2 l o)) = _
  rw [emb1_4 t l o]

set_option maxHeartbeats 1000000 in
/-- Window 5's block at point `t`, read at an index. -/
theorem blk1_5 (c : Dev nD) (t : Fin cfg1.N) (o : Fin 128) :
    iblk1 V c 5 t (ix1 o) = (V c (Pipeline.arrRef spec1 5)) (ix1 o) := by
  show (V c (Pipeline.arrRef spec1 5)) (((cfg1.win 5).blk t).view.emb (ix1 o)) = _
  rw [emb1_5 t o]

set_option maxHeartbeats 1000000 in
/-- Window 6's block at point `t`, read at an index. -/
theorem blk1_6 (c : Dev nD) (t : Fin cfg1.N) (l : Fin 9) (o k : Fin 128) :
    iblk1 V c 6 t (ix3 l o k) = (V c (Pipeline.arrRef spec1 6)) (ix3 l o k) := by
  show (V c (Pipeline.arrRef spec1 6)) (((cfg1.win 6).blk t).view.emb (ix3 l o k)) = _
  rw [emb1_6 t l o k]

set_option maxHeartbeats 1000000 in
/-- Window 7's block at point `t`, read at an index. -/
theorem blk1_7 (c : Dev nD) (t : Fin cfg1.N) (l : Fin 9) (o : Fin 128) :
    iblk1 V c 7 t (ix2 l o) = (V c (Pipeline.arrRef spec1 7)) (ix2 l o) := by
  show (V c (Pipeline.arrRef spec1 7)) (((cfg1.win 7).blk t).view.emb (ix2 l o)) = _
  rw [emb1_7 t l o]

set_option maxHeartbeats 1000000 in
/-- What point `t` writes back is block `t` of the level function of the arrays the region finds. -/
theorem flushed1_eq (c : Dev nD) (t : Fin cfg1.N) :
    (dat1 V c).flushed 8 t = ((cfg1.win 8).blk t).view.read (Elt Ideal)
      (kstep (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  show (cfg1.win 8).cut (grid1.coords t) ((dat1 V c).after 8 t) = _
  rw [after1_8]
  funext j
  obtain ⟨r, o, rfl⟩ : ∃ (r : Fin 1024) (o : Fin 128), j = ix2 r o := ⟨j 0, j 1, eq_ix2 j⟩
  show out1_8 (iblk1 V c 0 t) (iblk1 V c 1 t) (iblk1 V c 2 t) (iblk1 V c 3 t) (iblk1 V c 4 t) (iblk1 V c 5 t) (iblk1 V c 6 t) (iblk1 V c 7 t) (ix2 r o) = _
  rw [out1_8_apply, View.read_apply, emb1_8 t r o]
  simp only [blk1_0 V c t, blk1_1 V c t, blk1_2 V c t, blk1_3 V c t, blk1_4 V c t, blk1_5 V c t, blk1_6 V c t, blk1_7 V c t]
  rfl

/-- An index of the array is in point `t`'s block iff each coordinate is in the block's range on its axis. -/
theorem mem_blk1 (t : Fin cfg1.N) (i : S16384x128.Idx) :
    i ∈ ((cfg1.win 8).blk t).view.set ↔ ∀ a : Fin 2, win1_8.index t a * S1024x128.size a ≤ (i a).val ∧ (i a).val < win1_8.index t a * S1024x128.size a + S1024x128.size a := by
  show i ∈ ((View.whole main_v19).slice (win1_8.rect t)).set ↔ _
  rw [View.set_slice_whole, Rect.mem_set_unit]
  exact Iff.rfl

/-- Every row of the array lies in the block of the point `row / 1024`. -/
theorem cover1 (i : S16384x128.Idx) : ∃ t : Fin cfg1.N, (cfg1.win 8).flush t = true ∧ i ∈ ((cfg1.win 8).blk t).view.set := by
  have hi0 : (i 0).val < 16384 := (i 0).isLt
  have hi1 : (i 1).val < 128 := (i 1).isLt
  let t : Fin cfg1.N := ⟨(i 0).val / 1024, by rw [show cfg1.N = 16 from N_1]; omega⟩
  obtain ⟨e0, e1, e2, e3, e4, e5, e6, e7, e8, e9, e10, e11, e12, e13, e14, e15, e16, e17, e18⟩ := idx_facts1 t
  have ht : t.val = (i 0).val / 1024 := rfl
  refine ⟨t, flush1_8 t, ?_⟩
  rw [mem_blk1]
  intro a
  match a with
  | ⟨0, _⟩ => show win1_8.index t (0 : Fin 2) * 1024 ≤ (i 0).val ∧ (i 0).val < win1_8.index t (0 : Fin 2) * 1024 + 1024; omega
  | ⟨1, _⟩ => show win1_8.index t (1 : Fin 2) * 128 ≤ (i 1).val ∧ (i 1).val < win1_8.index t (1 : Fin 2) * 128 + 128; omega

/-- The array region 1 leaves: the level function of the arrays at entry, whatever the output array held. -/
theorem final1 (c : Dev nD) : (dat1 V c).arrAt 8 cfg1.N
    = kstep (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 8 _ (fun t _ => flushed1_eq V c t) cover1

end Cert.KernelIdeal.Val

end
-- ==== Proof.KI.Body2.lean ====
/-
  Region 2's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region2
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v2_35_eq : v2_35 x0 x2 x3
    = kres3 (shapeCast (s := S1024x128) S1024x128 (View.ld x0 r2_x) shapeCasts_S1024x128_S1024x128) (View.ld x2 r2_w0) (View.ld x3 r2_b0) (View.ld x2 r2_w1) (View.ld x3 r2_b1) (View.ld x2 r2_w2) (View.ld x3 r2_b2) := rfl

theorem v2_69_eq : v2_69 x0 x2 x3 = kres3 (v2_35 x0 x2 x3) (View.ld x2 r2_w3) (View.ld x3 r2_b3) (View.ld x2 r2_w4) (View.ld x3 r2_b4) (View.ld x2 r2_w5) (View.ld x3 r2_b5) := rfl

theorem v2_116_eq : v2_116 x0 x1 x2 x3 x4 x5
    = klin0 (shapeCast (s := S1024x128) S1024x128 (View.ld x1 r2_x) shapeCasts_S1024x128_S1024x128)
        (kres3 (v2_69 x0 x2 x3) (View.ld x2 r2_w6) (View.ld x3 r2_b6) (View.ld x2 r2_w7) (View.ld x3 r2_b7) (View.ld x2 r2_w8) (View.ld x3 r2_b8)) (View.ld x4 r2_n) (View.ld x5 r2_c) := rfl

theorem v2_150_eq : v2_150 x0 x1 x2 x3 x4 x5 x6 x7 = kres3 (v2_116 x0 x1 x2 x3 x4 x5) (View.ld x6 r2_w0) (View.ld x7 r2_b0) (View.ld x6 r2_w1) (View.ld x7 r2_b1) (View.ld x6 r2_w2) (View.ld x7 r2_b2) := rfl

theorem v2_184_eq : v2_184 x0 x1 x2 x3 x4 x5 x6 x7 = kres3 (v2_150 x0 x1 x2 x3 x4 x5 x6 x7) (View.ld x6 r2_w3) (View.ld x7 r2_b3) (View.ld x6 r2_w4) (View.ld x7 r2_b4) (View.ld x6 r2_w5) (View.ld x7 r2_b5) := rfl

theorem pay2_eq : k2_pay1 (v2_184 x0 x1 x2 x3 x4 x5 x6 x7) (v2_194 x0 x1 x2 x3 x4 x5 x6 x7) (View.ld x6 r2_w7) (View.ld x7 r2_b7) (View.ld x6 r2_w8) (View.ld x7 r2_b8)
    = kres3 (v2_184 x0 x1 x2 x3 x4 x5 x6 x7) (View.ld x6 r2_w6) (View.ld x7 r2_b6) (View.ld x6 r2_w7) (View.ld x7 r2_b7) (View.ld x6 r2_w8) (View.ld x7 r2_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row2_35 : rowK (v2_35 (F := Ideal) x0 x2 x3) r = Cert.RowSpec.r2 (wOf x2) (bOf x3) (rowK x0 r) := by
  rw [v2_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row2_69 : rowK (v2_69 (F := Ideal) x0 x2 x3) r = Cert.RowSpec.r5 (wOf x2) (bOf x3) (rowK x0 r) := by
  rw [v2_69_eq]; unfold kres3
  rw [rowK_klin_ld _ x2 x3 5 5 rfl, rowK_addf, rowK_klin_ld _ x2 x3 4 4 rfl, rowK_klin_ld _ x2 x3 3 3 rfl, row2_35]
  rfl

theorem row2_116 : rowK (v2_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v2_116_eq, rowK_klin0]; unfold kres3
  rw [rowK_klin_ld _ x2 x3 8 8 rfl, rowK_addf, rowK_klin_ld _ x2 x3 7 7 rfl, rowK_klin_ld _ x2 x3 6 6 rfl, row2_69, shapeCast_self, View.ld_unit_zero (S := S1024x128) hz2, View.ld_unit_zero (S := S128x256) hz2, View.ld_unit_zero (S := S128) hz1]
  rfl

theorem row2_150 : rowK (v2_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v2_150_eq]; unfold kres3
  rw [rowK_klin_ld _ x6 x7 2 2 rfl, rowK_addf, rowK_klin_ld _ x6 x7 1 1 rfl, rowK_klin_ld _ x6 x7 0 0 rfl, row2_116]
  rfl

theorem row2_184 : rowK (v2_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v2_184_eq]; unfold kres3
  rw [rowK_klin_ld _ x6 x7 5 5 rfl, rowK_addf, rowK_klin_ld _ x6 x7 4 4 rfl, rowK_klin_ld _ x6 x7 3 3 rfl, row2_150]
  rfl

end Rows

/-- What region 2's body leaves in its output block, read at an index: the level function of row `r` of the messages
    block and row `r` of the next level's block. -/
theorem out2_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out2_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out2_8
  rw [View.canon_unit_zero (S := S1024x128) hz2, pay2_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row2_184]
  rfl

end Cert.KernelIdeal.Val

end
-- ==== Proof.KI.Array2.lean ====
/-
  Region 2's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region2
import proofs.«122000_j45174466019872_2_alg».proof.Proof.KI.Body2
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 3) = 0
    ∧ win2_2.index t (1 : Fin 3) = 0
    ∧ win2_2.index t (2 : Fin 3) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 1) = 0
    ∧ win2_6.index t (0 : Fin 3) = 0
    ∧ win2_6.index t (1 : Fin 3) = 0
    ∧ win2_6.index t (2 : Fin 3) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

theorem lt16_2 (t : Fin cfg2.N) : t.val < 16 := lt_of_lt_of_eq t.isLt N_2

/-- Row `r` of point `t`'s block is row `1024 t + r` of the array. -/
def rowAt2 (t : Fin cfg2.N) (r : Fin 1024) : Fin 16384 := ⟨t.val * 1024 + r.val, by have := lt16_2 t; have := r.isLt; omega⟩

theorem emb2_8 (t : Fin cfg2.N) (r : Fin 1024) (k : Fin 128) :
    ((cfg2.win 8).blk t).view.emb (ix2 r k) = ix2 (rowAt2 t r) k := by
  obtain ⟨e0, e1, e2, e3, e4, e5, e6, e7, e8, e9, e10, e11, e12, e13, e14, e15, e16, e17, e18⟩ := idx_facts2 t
  funext a; apply Fin.ext
  match a with
  | ⟨0, _⟩ => show win2_8.index t (0 : Fin 2) * 1024 + 1 * r.val = t.val * 1024 + r.val; omega
  | ⟨1, _⟩ => show win2_8.index t (1 : Fin 2) * 128 + 1 * k.val = k.val; omega

theorem emb2_0 (t : Fin cfg2.N) (r : Fin 1024) (k : Fin 128) :
    ((cfg2.win 0).blk t).view.emb (ix2 r k) = ix2 (rowAt2 t r) k := by
  obtain ⟨e0, e1, e2, e3, e4, e5, e6, e7, e8, e9, e10, e11, e12, e13, e14, e15, e16, e17, e18⟩ := idx_facts2 t
  funext a; apply Fin.ext
  match a with
  | ⟨0, _⟩ => show win2_0.index t (0 : Fin 2) * 1024 + 1 * r.val = t.val * 1024 + r.val; omega
  | ⟨1, _⟩ => show win2_0.index t (1 : Fin 2) * 128 + 1 * k.val = k.val; omega

theorem emb2_1 (t : Fin cfg2.N) (r : Fin 1024) (k : Fin 128) :
    ((cfg2.win 1).blk t).view.emb (ix2 r k) = ix2 (rowAt2 t r) k := by
  obtain ⟨e0, e1, e2, e3, e4, e5, e6, e7, e8, e9, e10, e11, e12, e13, e14, e15, e16, e17, e18⟩ := idx_facts2 t
  funext a; apply Fin.ext
  match a with
  | ⟨0, _⟩ => show win2_1.index t (0 : Fin 2) * 1024 + 1 * r.val = t.val * 1024 + r.val; omega
  | ⟨1, _⟩ => show win2_1.index t (1 : Fin 2) * 128 + 1 * k.val = k.val; omega

theorem emb2_2 (t : Fin cfg2.N) (l : Fin 9) (o k : Fin 128) :
    ((cfg2.win 2).blk t).view.emb (ix3 l o k) = ix3 l o k := by
  obtain ⟨e0, e1, e2, e3, e4, e5, e6, e7, e8, e9, e10, e11, e12, e13, e14, e15, e16, e17, e18⟩ := idx_facts2 t
  funext a; apply Fin.ext
  match a with
  | ⟨0, _⟩ => show win2_2.index t (0 : Fin 3) * 9 + 1 * l.val = l.val; omega
  | ⟨1, _⟩ => show win2_2.index t (1 : Fin 3) * 128 + 1 * o.val = o.val; omega
  | ⟨2, _⟩ => show win2_2.index t (2 : Fin 3) * 128 + 1 * k.val = k.val; omega

theorem emb2_3 (t : Fin cfg2.N) (l : Fin 9) (o : Fin 128) :
    ((cfg2.win 3).blk t).view.emb (ix2 l o) = ix2 l o := by
  obtain ⟨e0, e1, e2, e3, e4, e5, e6, e7, e8, e9, e10, e11, e12, e13, e14, e15, e16, e17, e18⟩ := idx_facts2 t
  funext a; apply Fin.ext
  match a with
  | ⟨0, _⟩ => show win2_3.index t (0 : Fin 2) * 9 + 1 * l.val = l.val; omega
  | ⟨1, _⟩ => show win2_3.index t (1 : Fin 2) * 128 + 1 * o.val = o.val; omega

theorem emb2_4 (t : Fin cfg2.N) (l : Fin 128) (o : Fin 256) :
    ((cfg2.win 4).blk t).view.emb (ix2 l o) = ix2 l o := by
  obtain ⟨e0, e1, e2, e3, e4, e5, e6, e7, e8, e9, e10, e11, e12, e13, e14, e15, e16, e17, e18⟩ := idx_facts2 t
  funext a; apply Fin.ext
  match a with
  | ⟨0, _⟩ => show win2_4.index t (0 : Fin 2) * 128 + 1 * l.val = l.val; omega
  | ⟨1, _⟩ => show win2_4.index t (1 : Fin 2) * 256 + 1 * o.val = o.val; omega

theorem emb2_5 (t : Fin cfg2.N) (o : Fin 128) :
    ((cfg2.win 5).blk t).view.emb (ix1 o) = ix1 o := by
  obtain ⟨e0, e1, e2, e3, e4, e5, e6, e7, e8, e9, e10, e11, e12, e13, e14, e15, e16, e17, e18⟩ := idx_facts2 t
  funext a; apply Fin.ext
  match a with
  | ⟨0, _⟩ => show win2_5.index t (0 : Fin 1) * 128 + 1 * o.val = o.val; omega

theorem emb2_6 (t : Fin cfg2.N) (l : Fin 9) (o k : Fin 128) :
    ((cfg2.win 6).blk t).view.emb (ix3 l o k) = ix3 l o k := by
  obtain ⟨e0, e1, e2, e3, e4, e5, e6, e7, e8, e9, e10, e11, e12, e13, e14, e15, e16, e17, e18⟩ := idx_facts2 t
  funext a; apply Fin.ext
  match a with
  | ⟨0, _⟩ => show win2_6.index t (0 : Fin 3) * 9 + 1 * l.val = l.val; omega
  | ⟨1, _⟩ => show win2_6.index t (1 : Fin 3) * 128 + 1 * o.val = o.val; omega
  | ⟨2, _⟩ => show win2_6.index t (2 : Fin 3) * 128 + 1 * k.val = k.val; omega

theorem emb2_7 (t : Fin cfg2.N) (l : Fin 9) (o : Fin 128) :
    ((cfg2.win 7).blk t).view.emb (ix2 l o) = ix2 l o := by
  obtain ⟨e0, e1, e2, e3, e4, e5, e6, e7, e8, e9, e10, e11, e12, e13, e14, e15, e16, e17, e18⟩ := idx_facts2 t
  funext a; apply Fin.ext
  match a with
  | ⟨0, _⟩ => show win2_7.index t (0 : Fin 2) * 9 + 1 * l.val = l.val; omega
  | ⟨1, _⟩ => show win2_7.index t (1 : Fin 2) * 128 + 1 * o.val = o.val; omega

set_option maxHeartbeats 1000000 in
/-- Window 0's block at point `t`, read at an index. -/
theorem blk2_0 (c : Dev nD) (t : Fin cfg2.N) (r : Fin 1024) (k : Fin 128) :
    iblk2 V c 0 t (ix2 r k) = (V c (Pipeline.arrRef spec2 0)) (ix2 (rowAt2 t r) k) := by
  show (V c (Pipeline.arrRef spec2 0)) (((cfg2.win 0).blk t).view.emb (ix2 r k)) = _
  rw [emb2_0 t r k]

set_option maxHeartbeats 1000000 in
/-- Window 1's block at point `t`, read at an index. -/
theorem blk2_1 (c : Dev nD) (t : Fin cfg2.N) (r : Fin 1024) (k : Fin 128) :
    iblk2 V c 1 t (ix2 r k) = (V c (Pipeline.arrRef spec2 1)) (ix2 (rowAt2 t r) k) := by
  show (V c (Pipeline.arrRef spec2 1)) (((cfg2.win 1).blk t).view.emb (ix2 r k)) = _
  rw [emb2_1 t r k]

set_option maxHeartbeats 1000000 in
/-- Window 2's block at point `t`, read at an index. -/
theorem blk2_2 (c : Dev nD) (t : Fin cfg2.N) (l : Fin 9) (o k : Fin 128) :
    iblk2 V c 2 t (ix3 l o k) = (V c (Pipeline.arrRef spec2 2)) (ix3 l o k) := by
  show (V c (Pipeline.arrRef spec2 2)) (((cfg2.win 2).blk t).view.emb (ix3 l o k)) = _
  rw [emb2_2 t l o k]

set_option maxHeartbeats 1000000 in
/-- Window 3's block at point `t`, read at an index. -/
theorem blk2_3 (c : Dev nD) (t : Fin cfg2.N) (l : Fin 9) (o : Fin 128) :
    iblk2 V c 3 t (ix2 l o) = (V c (Pipeline.arrRef spec2 3)) (ix2 l o) := by
  show (V c (Pipeline.arrRef spec2 3)) (((cfg2.win 3).blk t).view.emb (ix2 l o)) = _
  rw [emb2_3 t l o]

set_option maxHeartbeats 1000000 in
/-- Window 4's block at point `t`, read at an index. -/
theorem blk2_4 (c : Dev nD) (t : Fin cfg2.N) (l : Fin 128) (o : Fin 256) :
    iblk2 V c 4 t (ix2 l o) = (V c (Pipeline.arrRef spec2 4)) (ix2 l o) := by
  show (V c (Pipeline.arrRef spec2 4)) (((cfg2.win 4).blk t).view.emb (ix2 l o)) = _
  rw [emb2_4 t l o]

set_option maxHeartbeats 1000000 in
/-- Window 5's block at point `t`, read at an index. -/
theorem blk2_5 (c : Dev nD) (t : Fin cfg2.N) (o : Fin 128) :
    iblk2 V c 5 t (ix1 o) = (V c (Pipeline.arrRef spec2 5)) (ix1 o) := by
  show (V c (Pipeline.arrRef spec2 5)) (((cfg2.win 5).blk t).view.emb (ix1 o)) = _
  rw [emb2_5 t o]

set_option maxHeartbeats 1000000 in
/-- Window 6's block at point `t`, read at an index. -/
theorem blk2_6 (c : Dev nD) (t : Fin cfg2.N) (l : Fin 9) (o k : Fin 128) :
    iblk2 V c 6 t (ix3 l o k) = (V c (Pipeline.arrRef spec2 6)) (ix3 l o k) := by
  show (V c (Pipeline.arrRef spec2 6)) (((cfg2.win 6).blk t).view.emb (ix3 l o k)) = _
  rw [emb2_6 t l o k]

set_option maxHeartbeats 1000000 in
/-- Window 7's block at point `t`, read at an index. -/
theorem blk2_7 (c : Dev nD) (t : Fin cfg2.N) (l : Fin 9) (o : Fin 128) :
    iblk2 V c 7 t (ix2 l o) = (V c (Pipeline.arrRef spec2 7)) (ix2 l o) := by
  show (V c (Pipeline.arrRef spec2 7)) (((cfg2.win 7).blk t).view.emb (ix2 l o)) = _
  rw [emb2_7 t l o]

set_option maxHeartbeats 1000000 in
/-- What point `t` writes back is block `t` of the level function of the arrays the region finds. -/
theorem flushed2_eq (c : Dev nD) (t : Fin cfg2.N) :
    (dat2 V c).flushed 8 t = ((cfg2.win 8).blk t).view.read (Elt Ideal)
      (kstep (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  show (cfg2.win 8).cut (grid2.coords t) ((dat2 V c).after 8 t) = _
  rw [after2_8]
  funext j
  obtain ⟨r, o, rfl⟩ : ∃ (r : Fin 1024) (o : Fin 128), j = ix2 r o := ⟨j 0, j 1, eq_ix2 j⟩
  show out2_8 (iblk2 V c 0 t) (iblk2 V c 1 t) (iblk2 V c 2 t) (iblk2 V c 3 t) (iblk2 V c 4 t) (iblk2 V c 5 t) (iblk2 V c 6 t) (iblk2 V c 7 t) (ix2 r o) = _
  rw [out2_8_apply, View.read_apply, emb2_8 t r o]
  simp only [blk2_0 V c t, blk2_1 V c t, blk2_2 V c t, blk2_3 V c t, blk2_4 V c t, blk2_5 V c t, blk2_6 V c t, blk2_7 V c t]
  rfl

/-- An index of the array is in point `t`'s block iff each coordinate is in the block's range on its axis. -/
theorem mem_blk2 (t : Fin cfg2.N) (i : S16384x128.Idx) :
    i ∈ ((cfg2.win 8).blk t).view.set ↔ ∀ a : Fin 2, win2_8.index t a * S1024x128.size a ≤ (i a).val ∧ (i a).val < win2_8.index t a * S1024x128.size a + S1024x128.size a := by
  show i ∈ ((View.whole main_v32).slice (win2_8.rect t)).set ↔ _
  rw [View.set_slice_whole, Rect.mem_set_unit]
  exact Iff.rfl

/-- Every row of the array lies in the block of the point `row / 1024`. -/
theorem cover2 (i : S16384x128.Idx) : ∃ t : Fin cfg2.N, (cfg2.win 8).flush t = true ∧ i ∈ ((cfg2.win 8).blk t).view.set := by
  have hi0 : (i 0).val < 16384 := (i 0).isLt
  have hi1 : (i 1).val < 128 := (i 1).isLt
  let t : Fin cfg2.N := ⟨(i 0).val / 1024, by rw [show cfg2.N = 16 from N_2]; omega⟩
  obtain ⟨e0, e1, e2, e3, e4, e5, e6, e7, e8, e9, e10, e11, e12, e13, e14, e15, e16, e17, e18⟩ := idx_facts2 t
  have ht : t.val = (i 0).val / 1024 := rfl
  refine ⟨t, flush2_8 t, ?_⟩
  rw [mem_blk2]
  intro a
  match a with
  | ⟨0, _⟩ => show win2_8.index t (0 : Fin 2) * 1024 ≤ (i 0).val ∧ (i 0).val < win2_8.index t (0 : Fin 2) * 1024 + 1024; omega
  | ⟨1, _⟩ => show win2_8.index t (1 : Fin 2) * 128 ≤ (i 1).val ∧ (i 1).val < win2_8.index t (1 : Fin 2) * 128 + 128; omega

/-- The array region 2 leaves: the level function of the arrays at entry, whatever the output array held. -/
theorem final2 (c : Dev nD) : (dat2 V c).arrAt 8 cfg2.N
    = kstep (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 V c).arrAt_eq_of_cover 8 _ (fun t _ => flushed2_eq V c t) cover2

end Cert.KernelIdeal.Val

end
-- ==== Proof.KI.Body3.lean ====
/-
  Region 3's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region3
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v3_35_eq : v3_35 x0 x2 x3
    = kres3 (shapeCast (s := S1024x128) S1024x128 (View.ld x0 r3_x) shapeCasts_S1024x128_S1024x128) (View.ld x2 r3_w0) (View.ld x3 r3_b0) (View.ld x2 r3_w1) (View.ld x3 r3_b1) (View.ld x2 r3_w2) (View.ld x3 r3_b2) := rfl

theorem v3_69_eq : v3_69 x0 x2 x3 = kres3 (v3_35 x0 x2 x3) (View.ld x2 r3_w3) (View.ld x3 r3_b3) (View.ld x2 r3_w4) (View.ld x3 r3_b4) (View.ld x2 r3_w5) (View.ld x3 r3_b5) := rfl

theorem v3_116_eq : v3_116 x0 x1 x2 x3 x4 x5
    = klin0 (shapeCast (s := S1024x128) S1024x128 (View.ld x1 r3_x) shapeCasts_S1024x128_S1024x128)
        (kres3 (v3_69 x0 x2 x3) (View.ld x2 r3_w6) (View.ld x3 r3_b6) (View.ld x2 r3_w7) (View.ld x3 r3_b7) (View.ld x2 r3_w8) (View.ld x3 r3_b8)) (View.ld x4 r3_n) (View.ld x5 r3_c) := rfl

theorem v3_150_eq : v3_150 x0 x1 x2 x3 x4 x5 x6 x7 = kres3 (v3_116 x0 x1 x2 x3 x4 x5) (View.ld x6 r3_w0) (View.ld x7 r3_b0) (View.ld x6 r3_w1) (View.ld x7 r3_b1) (View.ld x6 r3_w2) (View.ld x7 r3_b2) := rfl

theorem v3_184_eq : v3_184 x0 x1 x2 x3 x4 x5 x6 x7 = kres3 (v3_150 x0 x1 x2 x3 x4 x5 x6 x7) (View.ld x6 r3_w3) (View.ld x7 r3_b3) (View.ld x6 r3_w4) (View.ld x7 r3_b4) (View.ld x6 r3_w5) (View.ld x7 r3_b5) := rfl

theorem pay3_eq : k3_pay1 (v3_184 x0 x1 x2 x3 x4 x5 x6 x7) (v3_194 x0 x1 x2 x3 x4 x5 x6 x7) (View.ld x6 r3_w7) (View.ld x7 r3_b7) (View.ld x6 r3_w8) (View.ld x7 r3_b8)
    = kres3 (v3_184 x0 x1 x2 x3 x4 x5 x6 x7) (View.ld x6 r3_w6) (View.ld x7 r3_b6) (View.ld x6 r3_w7) (View.ld x7 r3_b7) (View.ld x6 r3_w8) (View.ld x7 r3_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row3_35 : rowK (v3_35 (F := Ideal) x0 x2 x3) r = Cert.RowSpec.r2 (wOf x2) (bOf x3) (rowK x0 r) := by
  rw [v3_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row3_69 : rowK (v3_69 (F := Ideal) x0 x2 x3) r = Cert.RowSpec.r5 (wOf x2) (bOf x3) (rowK x0 r) := by
  rw [v3_69_eq]; unfold kres3
  rw [rowK_klin_ld _ x2 x3 5 5 rfl, rowK_addf, rowK_klin_ld _ x2 x3 4 4 rfl, rowK_klin_ld _ x2 x3 3 3 rfl, row3_35]
  rfl

theorem row3_116 : rowK (v3_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v3_116_eq, rowK_klin0]; unfold kres3
  rw [rowK_klin_ld _ x2 x3 8 8 rfl, rowK_addf, rowK_klin_ld _ x2 x3 7 7 rfl, rowK_klin_ld _ x2 x3 6 6 rfl, row3_69, shapeCast_self, View.ld_unit_zero (S := S1024x128) hz2, View.ld_unit_zero (S := S128x256) hz2, View.ld_unit_zero (S := S128) hz1]
  rfl

theorem row3_150 : rowK (v3_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v3_150_eq]; unfold kres3
  rw [rowK_klin_ld _ x6 x7 2 2 rfl, rowK_addf, rowK_klin_ld _ x6 x7 1 1 rfl, rowK_klin_ld _ x6 x7 0 0 rfl, row3_116]
  rfl

theorem row3_184 : rowK (v3_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v3_184_eq]; unfold kres3
  rw [rowK_klin_ld _ x6 x7 5 5 rfl, rowK_addf, rowK_klin_ld _ x6 x7 4 4 rfl, rowK_klin_ld _ x6 x7 3 3 rfl, row3_150]
  rfl

end Rows

/-- What region 3's body leaves in its output block, read at an index: the level function of row `r` of the messages
    block and row `r` of the next level's block. -/
theorem out3_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out3_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out3_8
  rw [View.canon_unit_zero (S := S1024x128) hz2, pay3_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row3_184]
  rfl

end Cert.KernelIdeal.Val

end
-- ==== Proof.KI.Array3.lean ====
/-
  Region 3's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region3
import proofs.«122000_j45174466019872_2_alg».proof.Proof.KI.Body3
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 3) = 0
    ∧ win3_2.index t (1 : Fin 3) = 0
    ∧ win3_2.index t (2 : Fin 3) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 1) = 0
    ∧ win3_6.index t (0 : Fin 3) = 0
    ∧ win3_6.index t (1 : Fin 3) = 0
    ∧ win3_6.index t (2 : Fin 3) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

theorem lt16_3 (t : Fin cfg3.N) : t.val < 16 := lt_of_lt_of_eq t.isLt N_3

/-- Row `r` of point `t`'s block is row `1024 t + r` of the array. -/
def rowAt3 (t : Fin cfg3.N) (r : Fin 1024) : Fin 16384 := ⟨t.val * 1024 + r.val, by have := lt16_3 t; have := r.isLt; omega⟩

theorem emb3_8 (t : Fin cfg3.N) (r : Fin 1024) (k : Fin 128) :
    ((cfg3.win 8).blk t).view.emb (ix2 r k) = ix2 (rowAt3 t r) k := by
  obtain ⟨e0, e1, e2, e3, e4, e5, e6, e7, e8, e9, e10, e11, e12, e13, e14, e15, e16, e17, e18⟩ := idx_facts3 t
  funext a; apply Fin.ext
  match a with
  | ⟨0, _⟩ => show win3_8.index t (0 : Fin 2) * 1024 + 1 * r.val = t.val * 1024 + r.val; omega
  | ⟨1, _⟩ => show win3_8.index t (1 : Fin 2) * 128 + 1 * k.val = k.val; omega

theorem emb3_0 (t : Fin cfg3.N) (r : Fin 1024) (k : Fin 128) :
    ((cfg3.win 0).blk t).view.emb (ix2 r k) = ix2 (rowAt3 t r) k := by
  obtain ⟨e0, e1, e2, e3, e4, e5, e6, e7, e8, e9, e10, e11, e12, e13, e14, e15, e16, e17, e18⟩ := idx_facts3 t
  funext a; apply Fin.ext
  match a with
  | ⟨0, _⟩ => show win3_0.index t (0 : Fin 2) * 1024 + 1 * r.val = t.val * 1024 + r.val; omega
  | ⟨1, _⟩ => show win3_0.index t (1 : Fin 2) * 128 + 1 * k.val = k.val; omega

theorem emb3_1 (t : Fin cfg3.N) (r : Fin 1024) (k : Fin 128) :
    ((cfg3.win 1).blk t).view.emb (ix2 r k) = ix2 (rowAt3 t r) k := by
  obtain ⟨e0, e1, e2, e3, e4, e5, e6, e7, e8, e9, e10, e11, e12, e13, e14, e15, e16, e17, e18⟩ := idx_facts3 t
  funext a; apply Fin.ext
  match a with
  | ⟨0, _⟩ => show win3_1.index t (0 : Fin 2) * 1024 + 1 * r.val = t.val * 1024 + r.val; omega
  | ⟨1, _⟩ => show win3_1.index t (1 : Fin 2) * 128 + 1 * k.val = k.val; omega

theorem emb3_2 (t : Fin cfg3.N) (l : Fin 9) (o k : Fin 128) :
    ((cfg3.win 2).blk t).view.emb (ix3 l o k) = ix3 l o k := by
  obtain ⟨e0, e1, e2, e3, e4, e5, e6, e7, e8, e9, e10, e11, e12, e13, e14, e15, e16, e17, e18⟩ := idx_facts3 t
  funext a; apply Fin.ext
  match a with
  | ⟨0, _⟩ => show win3_2.index t (0 : Fin 3) * 9 + 1 * l.val = l.val; omega
  | ⟨1, _⟩ => show win3_2.index t (1 : Fin 3) * 128 + 1 * o.val = o.val; omega
  | ⟨2, _⟩ => show win3_2.index t (2 : Fin 3) * 128 + 1 * k.val = k.val; omega

theorem emb3_3 (t : Fin cfg3.N) (l : Fin 9) (o : Fin 128) :
    ((cfg3.win 3).blk t).view.emb (ix2 l o) = ix2 l o := by
  obtain ⟨e0, e1, e2, e3, e4, e5, e6, e7, e8, e9, e10, e11, e12, e13, e14, e15, e16, e17, e18⟩ := idx_facts3 t
  funext a; apply Fin.ext
  match a with
  | ⟨0, _⟩ => show win3_3.index t (0 : Fin 2) * 9 + 1 * l.val = l.val; omega
  | ⟨1, _⟩ => show win3_3.index t (1 : Fin 2) * 128 + 1 * o.val = o.val; omega

theorem emb3_4 (t : Fin cfg3.N) (l : Fin 128) (o : Fin 256) :
    ((cfg3.win 4).blk t).view.emb (ix2 l o) = ix2 l o := by
  obtain ⟨e0, e1, e2, e3, e4, e5, e6, e7, e8, e9, e10, e11, e12, e13, e14, e15, e16, e17, e18⟩ := idx_facts3 t
  funext a; apply Fin.ext
  match a with
  | ⟨0, _⟩ => show win3_4.index t (0 : Fin 2) * 128 + 1 * l.val = l.val; omega
  | ⟨1, _⟩ => show win3_4.index t (1 : Fin 2) * 256 + 1 * o.val = o.val; omega

theorem emb3_5 (t : Fin cfg3.N) (o : Fin 128) :
    ((cfg3.win 5).blk t).view.emb (ix1 o) = ix1 o := by
  obtain ⟨e0, e1, e2, e3, e4, e5, e6, e7, e8, e9, e10, e11, e12, e13, e14, e15, e16, e17, e18⟩ := idx_facts3 t
  funext a; apply Fin.ext
  match a with
  | ⟨0, _⟩ => show win3_5.index t (0 : Fin 1) * 128 + 1 * o.val = o.val; omega

theorem emb3_6 (t : Fin cfg3.N) (l : Fin 9) (o k : Fin 128) :
    ((cfg3.win 6).blk t).view.emb (ix3 l o k) = ix3 l o k := by
  obtain ⟨e0, e1, e2, e3, e4, e5, e6, e7, e8, e9, e10, e11, e12, e13, e14, e15, e16, e17, e18⟩ := idx_facts3 t
  funext a; apply Fin.ext
  match a with
  | ⟨0, _⟩ => show win3_6.index t (0 : Fin 3) * 9 + 1 * l.val = l.val; omega
  | ⟨1, _⟩ => show win3_6.index t (1 : Fin 3) * 128 + 1 * o.val = o.val; omega
  | ⟨2, _⟩ => show win3_6.index t (2 : Fin 3) * 128 + 1 * k.val = k.val; omega

theorem emb3_7 (t : Fin cfg3.N) (l : Fin 9) (o : Fin 128) :
    ((cfg3.win 7).blk t).view.emb (ix2 l o) = ix2 l o := by
  obtain ⟨e0, e1, e2, e3, e4, e5, e6, e7, e8, e9, e10, e11, e12, e13, e14, e15, e16, e17, e18⟩ := idx_facts3 t
  funext a; apply Fin.ext
  match a with
  | ⟨0, _⟩ => show win3_7.index t (0 : Fin 2) * 9 + 1 * l.val = l.val; omega
  | ⟨1, _⟩ => show win3_7.index t (1 : Fin 2) * 128 + 1 * o.val = o.val; omega

set_option maxHeartbeats 1000000 in
/-- Window 0's block at point `t`, read at an index. -/
theorem blk3_0 (c : Dev nD) (t : Fin cfg3.N) (r : Fin 1024) (k : Fin 128) :
    iblk3 V c 0 t (ix2 r k) = (V c (Pipeline.arrRef spec3 0)) (ix2 (rowAt3 t r) k) := by
  show (V c (Pipeline.arrRef spec3 0)) (((cfg3.win 0).blk t).view.emb (ix2 r k)) = _
  rw [emb3_0 t r k]

set_option maxHeartbeats 1000000 in
/-- Window 1's block at point `t`, read at an index. -/
theorem blk3_1 (c : Dev nD) (t : Fin cfg3.N) (r : Fin 1024) (k : Fin 128) :
    iblk3 V c 1 t (ix2 r k) = (V c (Pipeline.arrRef spec3 1)) (ix2 (rowAt3 t r) k) := by
  show (V c (Pipeline.arrRef spec3 1)) (((cfg3.win 1).blk t).view.emb (ix2 r k)) = _
  rw [emb3_1 t r k]

set_option maxHeartbeats 1000000 in
/-- Window 2's block at point `t`, read at an index. -/
theorem blk3_2 (c : Dev nD) (t : Fin cfg3.N) (l : Fin 9) (o k : Fin 128) :
    iblk3 V c 2 t (ix3 l o k) = (V c (Pipeline.arrRef spec3 2)) (ix3 l o k) := by
  show (V c (Pipeline.arrRef spec3 2)) (((cfg3.win 2).blk t).view.emb (ix3 l o k)) = _
  rw [emb3_2 t l o k]

set_option maxHeartbeats 1000000 in
/-- Window 3's block at point `t`, read at an index. -/
theorem blk3_3 (c : Dev nD) (t : Fin cfg3.N) (l : Fin 9) (o : Fin 128) :
    iblk3 V c 3 t (ix2 l o) = (V c (Pipeline.arrRef spec3 3)) (ix2 l o) := by
  show (V c (Pipeline.arrRef spec3 3)) (((cfg3.win 3).blk t).view.emb (ix2 l o)) = _
  rw [emb3_3 t l o]

set_option maxHeartbeats 1000000 in
/-- Window 4's block at point `t`, read at an index. -/
theorem blk3_4 (c : Dev nD) (t : Fin cfg3.N) (l : Fin 128) (o : Fin 256) :
    iblk3 V c 4 t (ix2 l o) = (V c (Pipeline.arrRef spec3 4)) (ix2 l o) := by
  show (V c (Pipeline.arrRef spec3 4)) (((cfg3.win 4).blk t).view.emb (ix2 l o)) = _
  rw [emb3_4 t l o]

set_option maxHeartbeats 1000000 in
/-- Window 5's block at point `t`, read at an index. -/
theorem blk3_5 (c : Dev nD) (t : Fin cfg3.N) (o : Fin 128) :
    iblk3 V c 5 t (ix1 o) = (V c (Pipeline.arrRef spec3 5)) (ix1 o) := by
  show (V c (Pipeline.arrRef spec3 5)) (((cfg3.win 5).blk t).view.emb (ix1 o)) = _
  rw [emb3_5 t o]

set_option maxHeartbeats 1000000 in
/-- Window 6's block at point `t`, read at an index. -/
theorem blk3_6 (c : Dev nD) (t : Fin cfg3.N) (l : Fin 9) (o k : Fin 128) :
    iblk3 V c 6 t (ix3 l o k) = (V c (Pipeline.arrRef spec3 6)) (ix3 l o k) := by
  show (V c (Pipeline.arrRef spec3 6)) (((cfg3.win 6).blk t).view.emb (ix3 l o k)) = _
  rw [emb3_6 t l o k]

set_option maxHeartbeats 1000000 in
/-- Window 7's block at point `t`, read at an index. -/
theorem blk3_7 (c : Dev nD) (t : Fin cfg3.N) (l : Fin 9) (o : Fin 128) :
    iblk3 V c 7 t (ix2 l o) = (V c (Pipeline.arrRef spec3 7)) (ix2 l o) := by
  show (V c (Pipeline.arrRef spec3 7)) (((cfg3.win 7).blk t).view.emb (ix2 l o)) = _
  rw [emb3_7 t l o]

set_option maxHeartbeats 1000000 in
/-- What point `t` writes back is block `t` of the level function of the arrays the region finds. -/
theorem flushed3_eq (c : Dev nD) (t : Fin cfg3.N) :
    (dat3 V c).flushed 8 t = ((cfg3.win 8).blk t).view.read (Elt Ideal)
      (kstep (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  show (cfg3.win 8).cut (grid3.coords t) ((dat3 V c).after 8 t) = _
  rw [after3_8]
  funext j
  obtain ⟨r, o, rfl⟩ : ∃ (r : Fin 1024) (o : Fin 128), j = ix2 r o := ⟨j 0, j 1, eq_ix2 j⟩
  show out3_8 (iblk3 V c 0 t) (iblk3 V c 1 t) (iblk3 V c 2 t) (iblk3 V c 3 t) (iblk3 V c 4 t) (iblk3 V c 5 t) (iblk3 V c 6 t) (iblk3 V c 7 t) (ix2 r o) = _
  rw [out3_8_apply, View.read_apply, emb3_8 t r o]
  simp only [blk3_0 V c t, blk3_1 V c t, blk3_2 V c t, blk3_3 V c t, blk3_4 V c t, blk3_5 V c t, blk3_6 V c t, blk3_7 V c t]
  rfl

/-- An index of the array is in point `t`'s block iff each coordinate is in the block's range on its axis. -/
theorem mem_blk3 (t : Fin cfg3.N) (i : S16384x128.Idx) :
    i ∈ ((cfg3.win 8).blk t).view.set ↔ ∀ a : Fin 2, win3_8.index t a * S1024x128.size a ≤ (i a).val ∧ (i a).val < win3_8.index t a * S1024x128.size a + S1024x128.size a := by
  show i ∈ ((View.whole main_v45).slice (win3_8.rect t)).set ↔ _
  rw [View.set_slice_whole, Rect.mem_set_unit]
  exact Iff.rfl

/-- Every row of the array lies in the block of the point `row / 1024`. -/
theorem cover3 (i : S16384x128.Idx) : ∃ t : Fin cfg3.N, (cfg3.win 8).flush t = true ∧ i ∈ ((cfg3.win 8).blk t).view.set := by
  have hi0 : (i 0).val < 16384 := (i 0).isLt
  have hi1 : (i 1).val < 128 := (i 1).isLt
  let t : Fin cfg3.N := ⟨(i 0).val / 1024, by rw [show cfg3.N = 16 from N_3]; omega⟩
  obtain ⟨e0, e1, e2, e3, e4, e5, e6, e7, e8, e9, e10, e11, e12, e13, e14, e15, e16, e17, e18⟩ := idx_facts3 t
  have ht : t.val = (i 0).val / 1024 := rfl
  refine ⟨t, flush3_8 t, ?_⟩
  rw [mem_blk3]
  intro a
  match a with
  | ⟨0, _⟩ => show win3_8.index t (0 : Fin 2) * 1024 ≤ (i 0).val ∧ (i 0).val < win3_8.index t (0 : Fin 2) * 1024 + 1024; omega
  | ⟨1, _⟩ => show win3_8.index t (1 : Fin 2) * 128 ≤ (i 1).val ∧ (i 1).val < win3_8.index t (1 : Fin 2) * 128 + 128; omega

/-- The array region 3 leaves: the level function of the arrays at entry, whatever the output array held. -/
theorem final3 (c : Dev nD) : (dat3 V c).arrAt 8 cfg3.N
    = kstep (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 V c).arrAt_eq_of_cover 8 _ (fun t _ => flushed3_eq V c t) cover3

end Cert.KernelIdeal.Val

end
-- ==== Proof.KI.Body4.lean ====
/-
  Region 4's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region4
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v4_35_eq : v4_35 x0 x2 x3
    = kres3 (shapeCast (s := S1024x128) S1024x128 (View.ld x0 r4_x) shapeCasts_S1024x128_S1024x128) (View.ld x2 r4_w0) (View.ld x3 r4_b0) (View.ld x2 r4_w1) (View.ld x3 r4_b1) (View.ld x2 r4_w2) (View.ld x3 r4_b2) := rfl

theorem v4_69_eq : v4_69 x0 x2 x3 = kres3 (v4_35 x0 x2 x3) (View.ld x2 r4_w3) (View.ld x3 r4_b3) (View.ld x2 r4_w4) (View.ld x3 r4_b4) (View.ld x2 r4_w5) (View.ld x3 r4_b5) := rfl

theorem v4_116_eq : v4_116 x0 x1 x2 x3 x4 x5
    = klin0 (shapeCast (s := S1024x128) S1024x128 (View.ld x1 r4_x) shapeCasts_S1024x128_S1024x128)
        (kres3 (v4_69 x0 x2 x3) (View.ld x2 r4_w6) (View.ld x3 r4_b6) (View.ld x2 r4_w7) (View.ld x3 r4_b7) (View.ld x2 r4_w8) (View.ld x3 r4_b8)) (View.ld x4 r4_n) (View.ld x5 r4_c) := rfl

theorem v4_150_eq : v4_150 x0 x1 x2 x3 x4 x5 x6 x7 = kres3 (v4_116 x0 x1 x2 x3 x4 x5) (View.ld x6 r4_w0) (View.ld x7 r4_b0) (View.ld x6 r4_w1) (View.ld x7 r4_b1) (View.ld x6 r4_w2) (View.ld x7 r4_b2) := rfl

theorem v4_184_eq : v4_184 x0 x1 x2 x3 x4 x5 x6 x7 = kres3 (v4_150 x0 x1 x2 x3 x4 x5 x6 x7) (View.ld x6 r4_w3) (View.ld x7 r4_b3) (View.ld x6 r4_w4) (View.ld x7 r4_b4) (View.ld x6 r4_w5) (View.ld x7 r4_b5) := rfl

theorem pay4_eq : k4_pay1 (v4_184 x0 x1 x2 x3 x4 x5 x6 x7) (v4_194 x0 x1 x2 x3 x4 x5 x6 x7) (View.ld x6 r4_w7) (View.ld x7 r4_b7) (View.ld x6 r4_w8) (View.ld x7 r4_b8)
    = kres3 (v4_184 x0 x1 x2 x3 x4 x5 x6 x7) (View.ld x6 r4_w6) (View.ld x7 r4_b6) (View.ld x6 r4_w7) (View.ld x7 r4_b7) (View.ld x6 r4_w8) (View.ld x7 r4_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row4_35 : rowK (v4_35 (F := Ideal) x0 x2 x3) r = Cert.RowSpec.r2 (wOf x2) (bOf x3) (rowK x0 r) := by
  rw [v4_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row4_69 : rowK (v4_69 (F := Ideal) x0 x2 x3) r = Cert.RowSpec.r5 (wOf x2) (bOf x3) (rowK x0 r) := by
  rw [v4_69_eq]; unfold kres3
  rw [rowK_klin_ld _ x2 x3 5 5 rfl, rowK_addf, rowK_klin_ld _ x2 x3 4 4 rfl, rowK_klin_ld _ x2 x3 3 3 rfl, row4_35]
  rfl

theorem row4_116 : rowK (v4_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v4_116_eq, rowK_klin0]; unfold kres3
  rw [rowK_klin_ld _ x2 x3 8 8 rfl, rowK_addf, rowK_klin_ld _ x2 x3 7 7 rfl, rowK_klin_ld _ x2 x3 6 6 rfl, row4_69, shapeCast_self, View.ld_unit_zero (S := S1024x128) hz2, View.ld_unit_zero (S := S128x256) hz2, View.ld_unit_zero (S := S128) hz1]
  rfl

theorem row4_150 : rowK (v4_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v4_150_eq]; unfold kres3
  rw [rowK_klin_ld _ x6 x7 2 2 rfl, rowK_addf, rowK_klin_ld _ x6 x7 1 1 rfl, rowK_klin_ld _ x6 x7 0 0 rfl, row4_116]
  rfl

theorem row4_184 : rowK (v4_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v4_184_eq]; unfold kres3
  rw [rowK_klin_ld _ x6 x7 5 5 rfl, rowK_addf, rowK_klin_ld _ x6 x7 4 4 rfl, rowK_klin_ld _ x6 x7 3 3 rfl, row4_150]
  rfl

end Rows

/-- What region 4's body leaves in its output block, read at an index: the level function of row `r` of the messages
    block and row `r` of the next level's block. -/
theorem out4_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out4_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out4_8
  rw [View.canon_unit_zero (S := S1024x128) hz2, pay4_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row4_184]
  rfl

end Cert.KernelIdeal.Val

end
-- ==== Proof.KI.Array4.lean ====
/-
  Region 4's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region4
import proofs.«122000_j45174466019872_2_alg».proof.Proof.KI.Body4
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 3) = 0
    ∧ win4_2.index t (1 : Fin 3) = 0
    ∧ win4_2.index t (2 : Fin 3) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 1) = 0
    ∧ win4_6.index t (0 : Fin 3) = 0
    ∧ win4_6.index t (1 : Fin 3) = 0
    ∧ win4_6.index t (2 : Fin 3) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

theorem lt16_4 (t : Fin cfg4.N) : t.val < 16 := lt_of_lt_of_eq t.isLt N_4

/-- Row `r` of point `t`'s block is row `1024 t + r` of the array. -/
def rowAt4 (t : Fin cfg4.N) (r : Fin 1024) : Fin 16384 := ⟨t.val * 1024 + r.val, by have := lt16_4 t; have := r.isLt; omega⟩

theorem emb4_8 (t : Fin cfg4.N) (r : Fin 1024) (k : Fin 128) :
    ((cfg4.win 8).blk t).view.emb (ix2 r k) = ix2 (rowAt4 t r) k := by
  obtain ⟨e0, e1, e2, e3, e4, e5, e6, e7, e8, e9, e10, e11, e12, e13, e14, e15, e16, e17, e18⟩ := idx_facts4 t
  funext a; apply Fin.ext
  match a with
  | ⟨0, _⟩ => show win4_8.index t (0 : Fin 2) * 1024 + 1 * r.val = t.val * 1024 + r.val; omega
  | ⟨1, _⟩ => show win4_8.index t (1 : Fin 2) * 128 + 1 * k.val = k.val; omega

theorem emb4_0 (t : Fin cfg4.N) (r : Fin 1024) (k : Fin 128) :
    ((cfg4.win 0).blk t).view.emb (ix2 r k) = ix2 (rowAt4 t r) k := by
  obtain ⟨e0, e1, e2, e3, e4, e5, e6, e7, e8, e9, e10, e11, e12, e13, e14, e15, e16, e17, e18⟩ := idx_facts4 t
  funext a; apply Fin.ext
  match a with
  | ⟨0, _⟩ => show win4_0.index t (0 : Fin 2) * 1024 + 1 * r.val = t.val * 1024 + r.val; omega
  | ⟨1, _⟩ => show win4_0.index t (1 : Fin 2) * 128 + 1 * k.val = k.val; omega

theorem emb4_1 (t : Fin cfg4.N) (r : Fin 1024) (k : Fin 128) :
    ((cfg4.win 1).blk t).view.emb (ix2 r k) = ix2 (rowAt4 t r) k := by
  obtain ⟨e0, e1, e2, e3, e4, e5, e6, e7, e8, e9, e10, e11, e12, e13, e14, e15, e16, e17, e18⟩ := idx_facts4 t
  funext a; apply Fin.ext
  match a with
  | ⟨0, _⟩ => show win4_1.index t (0 : Fin 2) * 1024 + 1 * r.val = t.val * 1024 + r.val; omega
  | ⟨1, _⟩ => show win4_1.index t (1 : Fin 2) * 128 + 1 * k.val = k.val; omega

theorem emb4_2 (t : Fin cfg4.N) (l : Fin 9) (o k : Fin 128) :
    ((cfg4.win 2).blk t).view.emb (ix3 l o k) = ix3 l o k := by
  obtain ⟨e0, e1, e2, e3, e4, e5, e6, e7, e8, e9, e10, e11, e12, e13, e14, e15, e16, e17, e18⟩ := idx_facts4 t
  funext a; apply Fin.ext
  match a with
  | ⟨0, _⟩ => show win4_2.index t (0 : Fin 3) * 9 + 1 * l.val = l.val; omega
  | ⟨1, _⟩ => show win4_2.index t (1 : Fin 3) * 128 + 1 * o.val = o.val; omega
  | ⟨2, _⟩ => show win4_2.index t (2 : Fin 3) * 128 + 1 * k.val = k.val; omega

theorem emb4_3 (t : Fin cfg4.N) (l : Fin 9) (o : Fin 128) :
    ((cfg4.win 3).blk t).view.emb (ix2 l o) = ix2 l o := by
  obtain ⟨e0, e1, e2, e3, e4, e5, e6, e7, e8, e9, e10, e11, e12, e13, e14, e15, e16, e17, e18⟩ := idx_facts4 t
  funext a; apply Fin.ext
  match a with
  | ⟨0, _⟩ => show win4_3.index t (0 : Fin 2) * 9 + 1 * l.val = l.val; omega
  | ⟨1, _⟩ => show win4_3.index t (1 : Fin 2) * 128 + 1 * o.val = o.val; omega

theorem emb4_4 (t : Fin cfg4.N) (l : Fin 128) (o : Fin 256) :
    ((cfg4.win 4).blk t).view.emb (ix2 l o) = ix2 l o := by
  obtain ⟨e0, e1, e2, e3, e4, e5, e6, e7, e8, e9, e10, e11, e12, e13, e14, e15, e16, e17, e18⟩ := idx_facts4 t
  funext a; apply Fin.ext
  match a with
  | ⟨0, _⟩ => show win4_4.index t (0 : Fin 2) * 128 + 1 * l.val = l.val; omega
  | ⟨1, _⟩ => show win4_4.index t (1 : Fin 2) * 256 + 1 * o.val = o.val; omega

theorem emb4_5 (t : Fin cfg4.N) (o : Fin 128) :
    ((cfg4.win 5).blk t).view.emb (ix1 o) = ix1 o := by
  obtain ⟨e0, e1, e2, e3, e4, e5, e6, e7, e8, e9, e10, e11, e12, e13, e14, e15, e16, e17, e18⟩ := idx_facts4 t
  funext a; apply Fin.ext
  match a with
  | ⟨0, _⟩ => show win4_5.index t (0 : Fin 1) * 128 + 1 * o.val = o.val; omega

theorem emb4_6 (t : Fin cfg4.N) (l : Fin 9) (o k : Fin 128) :
    ((cfg4.win 6).blk t).view.emb (ix3 l o k) = ix3 l o k := by
  obtain ⟨e0, e1, e2, e3, e4, e5, e6, e7, e8, e9, e10, e11, e12, e13, e14, e15, e16, e17, e18⟩ := idx_facts4 t
  funext a; apply Fin.ext
  match a with
  | ⟨0, _⟩ => show win4_6.index t (0 : Fin 3) * 9 + 1 * l.val = l.val; omega
  | ⟨1, _⟩ => show win4_6.index t (1 : Fin 3) * 128 + 1 * o.val = o.val; omega
  | ⟨2, _⟩ => show win4_6.index t (2 : Fin 3) * 128 + 1 * k.val = k.val; omega

theorem emb4_7 (t : Fin cfg4.N) (l : Fin 9) (o : Fin 128) :
    ((cfg4.win 7).blk t).view.emb (ix2 l o) = ix2 l o := by
  obtain ⟨e0, e1, e2, e3, e4, e5, e6, e7, e8, e9, e10, e11, e12, e13, e14, e15, e16, e17, e18⟩ := idx_facts4 t
  funext a; apply Fin.ext
  match a with
  | ⟨0, _⟩ => show win4_7.index t (0 : Fin 2) * 9 + 1 * l.val = l.val; omega
  | ⟨1, _⟩ => show win4_7.index t (1 : Fin 2) * 128 + 1 * o.val = o.val; omega

set_option maxHeartbeats 1000000 in
/-- Window 0's block at point `t`, read at an index. -/
theorem blk4_0 (c : Dev nD) (t : Fin cfg4.N) (r : Fin 1024) (k : Fin 128) :
    iblk4 V c 0 t (ix2 r k) = (V c (Pipeline.arrRef spec4 0)) (ix2 (rowAt4 t r) k) := by
  show (V c (Pipeline.arrRef spec4 0)) (((cfg4.win 0).blk t).view.emb (ix2 r k)) = _
  rw [emb4_0 t r k]

set_option maxHeartbeats 1000000 in
/-- Window 1's block at point `t`, read at an index. -/
theorem blk4_1 (c : Dev nD) (t : Fin cfg4.N) (r : Fin 1024) (k : Fin 128) :
    iblk4 V c 1 t (ix2 r k) = (V c (Pipeline.arrRef spec4 1)) (ix2 (rowAt4 t r) k) := by
  show (V c (Pipeline.arrRef spec4 1)) (((cfg4.win 1).blk t).view.emb (ix2 r k)) = _
  rw [emb4_1 t r k]

set_option maxHeartbeats 1000000 in
/-- Window 2's block at point `t`, read at an index. -/
theorem blk4_2 (c : Dev nD) (t : Fin cfg4.N) (l : Fin 9) (o k : Fin 128) :
    iblk4 V c 2 t (ix3 l o k) = (V c (Pipeline.arrRef spec4 2)) (ix3 l o k) := by
  show (V c (Pipeline.arrRef spec4 2)) (((cfg4.win 2).blk t).view.emb (ix3 l o k)) = _
  rw [emb4_2 t l o k]

set_option maxHeartbeats 1000000 in
/-- Window 3's block at point `t`, read at an index. -/
theorem blk4_3 (c : Dev nD) (t : Fin cfg4.N) (l : Fin 9) (o : Fin 128) :
    iblk4 V c 3 t (ix2 l o) = (V c (Pipeline.arrRef spec4 3)) (ix2 l o) := by
  show (V c (Pipeline.arrRef spec4 3)) (((cfg4.win 3).blk t).view.emb (ix2 l o)) = _
  rw [emb4_3 t l o]

set_option maxHeartbeats 1000000 in
/-- Window 4's block at point `t`, read at an index. -/
theorem blk4_4 (c : Dev nD) (t : Fin cfg4.N) (l : Fin 128) (o : Fin 256) :
    iblk4 V c 4 t (ix2 l o) = (V c (Pipeline.arrRef spec4 4)) (ix2 l o) := by
  show (V c (Pipeline.arrRef spec4 4)) (((cfg4.win 4).blk t).view.emb (ix2 l o)) = _
  rw [emb4_4 t l o]

set_option maxHeartbeats 1000000 in
/-- Window 5's block at point `t`, read at an index. -/
theorem blk4_5 (c : Dev nD) (t : Fin cfg4.N) (o : Fin 128) :
    iblk4 V c 5 t (ix1 o) = (V c (Pipeline.arrRef spec4 5)) (ix1 o) := by
  show (V c (Pipeline.arrRef spec4 5)) (((cfg4.win 5).blk t).view.emb (ix1 o)) = _
  rw [emb4_5 t o]

set_option maxHeartbeats 1000000 in
/-- Window 6's block at point `t`, read at an index. -/
theorem blk4_6 (c : Dev nD) (t : Fin cfg4.N) (l : Fin 9) (o k : Fin 128) :
    iblk4 V c 6 t (ix3 l o k) = (V c (Pipeline.arrRef spec4 6)) (ix3 l o k) := by
  show (V c (Pipeline.arrRef spec4 6)) (((cfg4.win 6).blk t).view.emb (ix3 l o k)) = _
  rw [emb4_6 t l o k]

set_option maxHeartbeats 1000000 in
/-- Window 7's block at point `t`, read at an index. -/
theorem blk4_7 (c : Dev nD) (t : Fin cfg4.N) (l : Fin 9) (o : Fin 128) :
    iblk4 V c 7 t (ix2 l o) = (V c (Pipeline.arrRef spec4 7)) (ix2 l o) := by
  show (V c (Pipeline.arrRef spec4 7)) (((cfg4.win 7).blk t).view.emb (ix2 l o)) = _
  rw [emb4_7 t l o]

set_option maxHeartbeats 1000000 in
/-- What point `t` writes back is block `t` of the level function of the arrays the region finds. -/
theorem flushed4_eq (c : Dev nD) (t : Fin cfg4.N) :
    (dat4 V c).flushed 8 t = ((cfg4.win 8).blk t).view.read (Elt Ideal)
      (kstep (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7))) := by
  show (cfg4.win 8).cut (grid4.coords t) ((dat4 V c).after 8 t) = _
  rw [after4_8]
  funext j
  obtain ⟨r, o, rfl⟩ : ∃ (r : Fin 1024) (o : Fin 128), j = ix2 r o := ⟨j 0, j 1, eq_ix2 j⟩
  show out4_8 (iblk4 V c 0 t) (iblk4 V c 1 t) (iblk4 V c 2 t) (iblk4 V c 3 t) (iblk4 V c 4 t) (iblk4 V c 5 t) (iblk4 V c 6 t) (iblk4 V c 7 t) (ix2 r o) = _
  rw [out4_8_apply, View.read_apply, emb4_8 t r o]
  simp only [blk4_0 V c t, blk4_1 V c t, blk4_2 V c t, blk4_3 V c t, blk4_4 V c t, blk4_5 V c t, blk4_6 V c t, blk4_7 V c t]
  rfl

/-- An index of the array is in point `t`'s block iff each coordinate is in the block's range on its axis. -/
theorem mem_blk4 (t : Fin cfg4.N) (i : S16384x128.Idx) :
    i ∈ ((cfg4.win 8).blk t).view.set ↔ ∀ a : Fin 2, win4_8.index t a * S1024x128.size a ≤ (i a).val ∧ (i a).val < win4_8.index t a * S1024x128.size a + S1024x128.size a := by
  show i ∈ ((View.whole main_v58).slice (win4_8.rect t)).set ↔ _
  rw [View.set_slice_whole, Rect.mem_set_unit]
  exact Iff.rfl

/-- Every row of the array lies in the block of the point `row / 1024`. -/
theorem cover4 (i : S16384x128.Idx) : ∃ t : Fin cfg4.N, (cfg4.win 8).flush t = true ∧ i ∈ ((cfg4.win 8).blk t).view.set := by
  have hi0 : (i 0).val < 16384 := (i 0).isLt
  have hi1 : (i 1).val < 128 := (i 1).isLt
  let t : Fin cfg4.N := ⟨(i 0).val / 1024, by rw [show cfg4.N = 16 from N_4]; omega⟩
  obtain ⟨e0, e1, e2, e3, e4, e5, e6, e7, e8, e9, e10, e11, e12, e13, e14, e15, e16, e17, e18⟩ := idx_facts4 t
  have ht : t.val = (i 0).val / 1024 := rfl
  refine ⟨t, flush4_8 t, ?_⟩
  rw [mem_blk4]
  intro a
  match a with
  | ⟨0, _⟩ => show win4_8.index t (0 : Fin 2) * 1024 ≤ (i 0).val ∧ (i 0).val < win4_8.index t (0 : Fin 2) * 1024 + 1024; omega
  | ⟨1, _⟩ => show win4_8.index t (1 : Fin 2) * 128 ≤ (i 1).val ∧ (i 1).val < win4_8.index t (1 : Fin 2) * 128 + 128; omega

/-- The array region 4 leaves: the level function of the arrays at entry, whatever the output array held. -/
theorem final4 (c : Dev nD) : (dat4 V c).arrAt 8 cfg4.N
    = kstep (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) :=
  (dat4 V c).arrAt_eq_of_cover 8 _ (fun t _ => flushed4_eq V c t) cover4

end Cert.KernelIdeal.Val

end
-- ==== Proof.KI.Body5.lean ====
/-
  Region 5's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region5
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v5_35_eq : v5_35 x0 x2 x3
    = kres3 (shapeCast (s := S1024x128) S1024x128 (View.ld x0 r5_x) shapeCasts_S1024x128_S1024x128) (View.ld x2 r5_w0) (View.ld x3 r5_b0) (View.ld x2 r5_w1) (View.ld x3 r5_b1) (View.ld x2 r5_w2) (View.ld x3 r5_b2) := rfl

theorem v5_69_eq : v5_69 x0 x2 x3 = kres3 (v5_35 x0 x2 x3) (View.ld x2 r5_w3) (View.ld x3 r5_b3) (View.ld x2 r5_w4) (View.ld x3 r5_b4) (View.ld x2 r5_w5) (View.ld x3 r5_b5) := rfl

theorem v5_116_eq : v5_116 x0 x1 x2 x3 x4 x5
    = klin0 (shapeCast (s := S1024x128) S1024x128 (View.ld x1 r5_x) shapeCasts_S1024x128_S1024x128)
        (kres3 (v5_69 x0 x2 x3) (View.ld x2 r5_w6) (View.ld x3 r5_b6) (View.ld x2 r5_w7) (View.ld x3 r5_b7) (View.ld x2 r5_w8) (View.ld x3 r5_b8)) (View.ld x4 r5_n) (View.ld x5 r5_c) := rfl

theorem v5_150_eq : v5_150 x0 x1 x2 x3 x4 x5 x6 x7 = kres3 (v5_116 x0 x1 x2 x3 x4 x5) (View.ld x6 r5_w0) (View.ld x7 r5_b0) (View.ld x6 r5_w1) (View.ld x7 r5_b1) (View.ld x6 r5_w2) (View.ld x7 r5_b2) := rfl

theorem v5_184_eq : v5_184 x0 x1 x2 x3 x4 x5 x6 x7 = kres3 (v5_150 x0 x1 x2 x3 x4 x5 x6 x7) (View.ld x6 r5_w3) (View.ld x7 r5_b3) (View.ld x6 r5_w4) (View.ld x7 r5_b4) (View.ld x6 r5_w5) (View.ld x7 r5_b5) := rfl

theorem pay5_eq : k5_pay1 (v5_184 x0 x1 x2 x3 x4 x5 x6 x7) (v5_194 x0 x1 x2 x3 x4 x5 x6 x7) (View.ld x6 r5_w7) (View.ld x7 r5_b7) (View.ld x6 r5_w8) (View.ld x7 r5_b8)
    = kres3 (v5_184 x0 x1 x2 x3 x4 x5 x6 x7) (View.ld x6 r5_w6) (View.ld x7 r5_b6) (View.ld x6 r5_w7) (View.ld x7 r5_b7) (View.ld x6 r5_w8) (View.ld x7 r5_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row5_35 : rowK (v5_35 (F := Ideal) x0 x2 x3) r = Cert.RowSpec.r2 (wOf x2) (bOf x3) (rowK x0 r) := by
  rw [v5_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row5_69 : rowK (v5_69 (F := Ideal) x0 x2 x3) r = Cert.RowSpec.r5 (wOf x2) (bOf x3) (rowK x0 r) := by
  rw [v5_69_eq]; unfold kres3
  rw [rowK_klin_ld _ x2 x3 5 5 rfl, rowK_addf, rowK_klin_ld _ x2 x3 4 4 rfl, rowK_klin_ld _ x2 x3 3 3 rfl, row5_35]
  rfl

theorem row5_116 : rowK (v5_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v5_116_eq, rowK_klin0]; unfold kres3
  rw [rowK_klin_ld _ x2 x3 8 8 rfl, rowK_addf, rowK_klin_ld _ x2 x3 7 7 rfl, rowK_klin_ld _ x2 x3 6 6 rfl, row5_69, shapeCast_self, View.ld_unit_zero (S := S1024x128) hz2, View.ld_unit_zero (S := S128x256) hz2, View.ld_unit_zero (S := S128) hz1]
  rfl

theorem row5_150 : rowK (v5_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v5_150_eq]; unfold kres3
  rw [rowK_klin_ld _ x6 x7 2 2 rfl, rowK_addf, rowK_klin_ld _ x6 x7 1 1 rfl, rowK_klin_ld _ x6 x7 0 0 rfl, row5_116]
  rfl

theorem row5_184 : rowK (v5_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v5_184_eq]; unfold kres3
  rw [rowK_klin_ld _ x6 x7 5 5 rfl, rowK_addf, rowK_klin_ld _ x6 x7 4 4 rfl, rowK_klin_ld _ x6 x7 3 3 rfl, row5_150]
  rfl

end Rows

/-- What region 5's body leaves in its output block, read at an index: the level function of row `r` of the messages
    block and row `r` of the next level's block. -/
theorem out5_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out5_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out5_8
  rw [View.canon_unit_zero (S := S1024x128) hz2, pay5_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row5_184]
  rfl

end Cert.KernelIdeal.Val

end
-- ==== Proof.KI.Array5.lean ====
/-
  Region 5's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region5
import proofs.«122000_j45174466019872_2_alg».proof.Proof.KI.Body5
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 3) = 0
    ∧ win5_2.index t (1 : Fin 3) = 0
    ∧ win5_2.index t (2 : Fin 3) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 1) = 0
    ∧ win5_6.index t (0 : Fin 3) = 0
    ∧ win5_6.index t (1 : Fin 3) = 0
    ∧ win5_6.index t (2 : Fin 3) = 0
    ∧ win5_7.index t (0 : Fin 2) = 0
    ∧ win5_7.index t (1 : Fin 2) = 0
    ∧ win5_8.index t (0 : Fin 2) = t.val
    ∧ win5_8.index t (1 : Fin 2) = 0 :=
  (by decide +kernel : ∀ t : Fin grid5.N, _)

theorem lt16_5 (t : Fin cfg5.N) : t.val < 16 := lt_of_lt_of_eq t.isLt N_5

/-- Row `r` of point `t`'s block is row `1024 t + r` of the array. -/
def rowAt5 (t : Fin cfg5.N) (r : Fin 1024) : Fin 16384 := ⟨t.val * 1024 + r.val, by have := lt16_5 t; have := r.isLt; omega⟩

theorem emb5_8 (t : Fin cfg5.N) (r : Fin 1024) (k : Fin 128) :
    ((cfg5.win 8).blk t).view.emb (ix2 r k) = ix2 (rowAt5 t r) k := by
  obtain ⟨e0, e1, e2, e3, e4, e5, e6, e7, e8, e9, e10, e11, e12, e13, e14, e15, e16, e17, e18⟩ := idx_facts5 t
  funext a; apply Fin.ext
  match a with
  | ⟨0, _⟩ => show win5_8.index t (0 : Fin 2) * 1024 + 1 * r.val = t.val * 1024 + r.val; omega
  | ⟨1, _⟩ => show win5_8.index t (1 : Fin 2) * 128 + 1 * k.val = k.val; omega

theorem emb5_0 (t : Fin cfg5.N) (r : Fin 1024) (k : Fin 128) :
    ((cfg5.win 0).blk t).view.emb (ix2 r k) = ix2 (rowAt5 t r) k := by
  obtain ⟨e0, e1, e2, e3, e4, e5, e6, e7, e8, e9, e10, e11, e12, e13, e14, e15, e16, e17, e18⟩ := idx_facts5 t
  funext a; apply Fin.ext
  match a with
  | ⟨0, _⟩ => show win5_0.index t (0 : Fin 2) * 1024 + 1 * r.val = t.val * 1024 + r.val; omega
  | ⟨1, _⟩ => show win5_0.index t (1 : Fin 2) * 128 + 1 * k.val = k.val; omega

theorem emb5_1 (t : Fin cfg5.N) (r : Fin 1024) (k : Fin 128) :
    ((cfg5.win 1).blk t).view.emb (ix2 r k) = ix2 (rowAt5 t r) k := by
  obtain ⟨e0, e1, e2, e3, e4, e5, e6, e7, e8, e9, e10, e11, e12, e13, e14, e15, e16, e17, e18⟩ := idx_facts5 t
  funext a; apply Fin.ext
  match a with
  | ⟨0, _⟩ => show win5_1.index t (0 : Fin 2) * 1024 + 1 * r.val = t.val * 1024 + r.val; omega
  | ⟨1, _⟩ => show win5_1.index t (1 : Fin 2) * 128 + 1 * k.val = k.val; omega

theorem emb5_2 (t : Fin cfg5.N) (l : Fin 9) (o k : Fin 128) :
    ((cfg5.win 2).blk t).view.emb (ix3 l o k) = ix3 l o k := by
  obtain ⟨e0, e1, e2, e3, e4, e5, e6, e7, e8, e9, e10, e11, e12, e13, e14, e15, e16, e17, e18⟩ := idx_facts5 t
  funext a; apply Fin.ext
  match a with
  | ⟨0, _⟩ => show win5_2.index t (0 : Fin 3) * 9 + 1 * l.val = l.val; omega
  | ⟨1, _⟩ => show win5_2.index t (1 : Fin 3) * 128 + 1 * o.val = o.val; omega
  | ⟨2, _⟩ => show win5_2.index t (2 : Fin 3) * 128 + 1 * k.val = k.val; omega

theorem emb5_3 (t : Fin cfg5.N) (l : Fin 9) (o : Fin 128) :
    ((cfg5.win 3).blk t).view.emb (ix2 l o) = ix2 l o := by
  obtain ⟨e0, e1, e2, e3, e4, e5, e6, e7, e8, e9, e10, e11, e12, e13, e14, e15, e16, e17, e18⟩ := idx_facts5 t
  funext a; apply Fin.ext
  match a with
  | ⟨0, _⟩ => show win5_3.index t (0 : Fin 2) * 9 + 1 * l.val = l.val; omega
  | ⟨1, _⟩ => show win5_3.index t (1 : Fin 2) * 128 + 1 * o.val = o.val; omega

theorem emb5_4 (t : Fin cfg5.N) (l : Fin 128) (o : Fin 256) :
    ((cfg5.win 4).blk t).view.emb (ix2 l o) = ix2 l o := by
  obtain ⟨e0, e1, e2, e3, e4, e5, e6, e7, e8, e9, e10, e11, e12, e13, e14, e15, e16, e17, e18⟩ := idx_facts5 t
  funext a; apply Fin.ext
  match a with
  | ⟨0, _⟩ => show win5_4.index t (0 : Fin 2) * 128 + 1 * l.val = l.val; omega
  | ⟨1, _⟩ => show win5_4.index t (1 : Fin 2) * 256 + 1 * o.val = o.val; omega

theorem emb5_5 (t : Fin cfg5.N) (o : Fin 128) :
    ((cfg5.win 5).blk t).view.emb (ix1 o) = ix1 o := by
  obtain ⟨e0, e1, e2, e3, e4, e5, e6, e7, e8, e9, e10, e11, e12, e13, e14, e15, e16, e17, e18⟩ := idx_facts5 t
  funext a; apply Fin.ext
  match a with
  | ⟨0, _⟩ => show win5_5.index t (0 : Fin 1) * 128 + 1 * o.val = o.val; omega

theorem emb5_6 (t : Fin cfg5.N) (l : Fin 9) (o k : Fin 128) :
    ((cfg5.win 6).blk t).view.emb (ix3 l o k) = ix3 l o k := by
  obtain ⟨e0, e1, e2, e3, e4, e5, e6, e7, e8, e9, e10, e11, e12, e13, e14, e15, e16, e17, e18⟩ := idx_facts5 t
  funext a; apply Fin.ext
  match a with
  | ⟨0, _⟩ => show win5_6.index t (0 : Fin 3) * 9 + 1 * l.val = l.val; omega
  | ⟨1, _⟩ => show win5_6.index t (1 : Fin 3) * 128 + 1 * o.val = o.val; omega
  | ⟨2, _⟩ => show win5_6.index t (2 : Fin 3) * 128 + 1 * k.val = k.val; omega

theorem emb5_7 (t : Fin cfg5.N) (l : Fin 9) (o : Fin 128) :
    ((cfg5.win 7).blk t).view.emb (ix2 l o) = ix2 l o := by
  obtain ⟨e0, e1, e2, e3, e4, e5, e6, e7, e8, e9, e10, e11, e12, e13, e14, e15, e16, e17, e18⟩ := idx_facts5 t
  funext a; apply Fin.ext
  match a with
  | ⟨0, _⟩ => show win5_7.index t (0 : Fin 2) * 9 + 1 * l.val = l.val; omega
  | ⟨1, _⟩ => show win5_7.index t (1 : Fin 2) * 128 + 1 * o.val = o.val; omega

set_option maxHeartbeats 1000000 in
/-- Window 0's block at point `t`, read at an index. -/
theorem blk5_0 (c : Dev nD) (t : Fin cfg5.N) (r : Fin 1024) (k : Fin 128) :
    iblk5 V c 0 t (ix2 r k) = (V c (Pipeline.arrRef spec5 0)) (ix2 (rowAt5 t r) k) := by
  show (V c (Pipeline.arrRef spec5 0)) (((cfg5.win 0).blk t).view.emb (ix2 r k)) = _
  rw [emb5_0 t r k]

set_option maxHeartbeats 1000000 in
/-- Window 1's block at point `t`, read at an index. -/
theorem blk5_1 (c : Dev nD) (t : Fin cfg5.N) (r : Fin 1024) (k : Fin 128) :
    iblk5 V c 1 t (ix2 r k) = (V c (Pipeline.arrRef spec5 1)) (ix2 (rowAt5 t r) k) := by
  show (V c (Pipeline.arrRef spec5 1)) (((cfg5.win 1).blk t).view.emb (ix2 r k)) = _
  rw [emb5_1 t r k]

set_option maxHeartbeats 1000000 in
/-- Window 2's block at point `t`, read at an index. -/
theorem blk5_2 (c : Dev nD) (t : Fin cfg5.N) (l : Fin 9) (o k : Fin 128) :
    iblk5 V c 2 t (ix3 l o k) = (V c (Pipeline.arrRef spec5 2)) (ix3 l o k) := by
  show (V c (Pipeline.arrRef spec5 2)) (((cfg5.win 2).blk t).view.emb (ix3 l o k)) = _
  rw [emb5_2 t l o k]

set_option maxHeartbeats 1000000 in
/-- Window 3's block at point `t`, read at an index. -/
theorem blk5_3 (c : Dev nD) (t : Fin cfg5.N) (l : Fin 9) (o : Fin 128) :
    iblk5 V c 3 t (ix2 l o) = (V c (Pipeline.arrRef spec5 3)) (ix2 l o) := by
  show (V c (Pipeline.arrRef spec5 3)) (((cfg5.win 3).blk t).view.emb (ix2 l o)) = _
  rw [emb5_3 t l o]

set_option maxHeartbeats 1000000 in
/-- Window 4's block at point `t`, read at an index. -/
theorem blk5_4 (c : Dev nD) (t : Fin cfg5.N) (l : Fin 128) (o : Fin 256) :
    iblk5 V c 4 t (ix2 l o) = (V c (Pipeline.arrRef spec5 4)) (ix2 l o) := by
  show (V c (Pipeline.arrRef spec5 4)) (((cfg5.win 4).blk t).view.emb (ix2 l o)) = _
  rw [emb5_4 t l o]

set_option maxHeartbeats 1000000 in
/-- Window 5's block at point `t`, read at an index. -/
theorem blk5_5 (c : Dev nD) (t : Fin cfg5.N) (o : Fin 128) :
    iblk5 V c 5 t (ix1 o) = (V c (Pipeline.arrRef spec5 5)) (ix1 o) := by
  show (V c (Pipeline.arrRef spec5 5)) (((cfg5.win 5).blk t).view.emb (ix1 o)) = _
  rw [emb5_5 t o]

set_option maxHeartbeats 1000000 in
/-- Window 6's block at point `t`, read at an index. -/
theorem blk5_6 (c : Dev nD) (t : Fin cfg5.N) (l : Fin 9) (o k : Fin 128) :
    iblk5 V c 6 t (ix3 l o k) = (V c (Pipeline.arrRef spec5 6)) (ix3 l o k) := by
  show (V c (Pipeline.arrRef spec5 6)) (((cfg5.win 6).blk t).view.emb (ix3 l o k)) = _
  rw [emb5_6 t l o k]

set_option maxHeartbeats 1000000 in
/-- Window 7's block at point `t`, read at an index. -/
theorem blk5_7 (c : Dev nD) (t : Fin cfg5.N) (l : Fin 9) (o : Fin 128) :
    iblk5 V c 7 t (ix2 l o) = (V c (Pipeline.arrRef spec5 7)) (ix2 l o) := by
  show (V c (Pipeline.arrRef spec5 7)) (((cfg5.win 7).blk t).view.emb (ix2 l o)) = _
  rw [emb5_7 t l o]

set_option maxHeartbeats 1000000 in
/-- What point `t` writes back is block `t` of the level function of the arrays the region finds. -/
theorem flushed5_eq (c : Dev nD) (t : Fin cfg5.N) :
    (dat5 V c).flushed 8 t = ((cfg5.win 8).blk t).view.read (Elt Ideal)
      (kstep (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7))) := by
  show (cfg5.win 8).cut (grid5.coords t) ((dat5 V c).after 8 t) = _
  rw [after5_8]
  funext j
  obtain ⟨r, o, rfl⟩ : ∃ (r : Fin 1024) (o : Fin 128), j = ix2 r o := ⟨j 0, j 1, eq_ix2 j⟩
  show out5_8 (iblk5 V c 0 t) (iblk5 V c 1 t) (iblk5 V c 2 t) (iblk5 V c 3 t) (iblk5 V c 4 t) (iblk5 V c 5 t) (iblk5 V c 6 t) (iblk5 V c 7 t) (ix2 r o) = _
  rw [out5_8_apply, View.read_apply, emb5_8 t r o]
  simp only [blk5_0 V c t, blk5_1 V c t, blk5_2 V c t, blk5_3 V c t, blk5_4 V c t, blk5_5 V c t, blk5_6 V c t, blk5_7 V c t]
  rfl

/-- An index of the array is in point `t`'s block iff each coordinate is in the block's range on its axis. -/
theorem mem_blk5 (t : Fin cfg5.N) (i : S16384x128.Idx) :
    i ∈ ((cfg5.win 8).blk t).view.set ↔ ∀ a : Fin 2, win5_8.index t a * S1024x128.size a ≤ (i a).val ∧ (i a).val < win5_8.index t a * S1024x128.size a + S1024x128.size a := by
  show i ∈ ((View.whole main_v71).slice (win5_8.rect t)).set ↔ _
  rw [View.set_slice_whole, Rect.mem_set_unit]
  exact Iff.rfl

/-- Every row of the array lies in the block of the point `row / 1024`. -/
theorem cover5 (i : S16384x128.Idx) : ∃ t : Fin cfg5.N, (cfg5.win 8).flush t = true ∧ i ∈ ((cfg5.win 8).blk t).view.set := by
  have hi0 : (i 0).val < 16384 := (i 0).isLt
  have hi1 : (i 1).val < 128 := (i 1).isLt
  let t : Fin cfg5.N := ⟨(i 0).val / 1024, by rw [show cfg5.N = 16 from N_5]; omega⟩
  obtain ⟨e0, e1, e2, e3, e4, e5, e6, e7, e8, e9, e10, e11, e12, e13, e14, e15, e16, e17, e18⟩ := idx_facts5 t
  have ht : t.val = (i 0).val / 1024 := rfl
  refine ⟨t, flush5_8 t, ?_⟩
  rw [mem_blk5]
  intro a
  match a with
  | ⟨0, _⟩ => show win5_8.index t (0 : Fin 2) * 1024 ≤ (i 0).val ∧ (i 0).val < win5_8.index t (0 : Fin 2) * 1024 + 1024; omega
  | ⟨1, _⟩ => show win5_8.index t (1 : Fin 2) * 128 ≤ (i 1).val ∧ (i 1).val < win5_8.index t (1 : Fin 2) * 128 + 128; omega

/-- The array region 5 leaves: the level function of the arrays at entry, whatever the output array held. -/
theorem final5 (c : Dev nD) : (dat5 V c).arrAt 8 cfg5.N
    = kstep (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) :=
  (dat5 V c).arrAt_eq_of_cover 8 _ (fun t _ => flushed5_eq V c t) cover5

end Cert.KernelIdeal.Val

end
-- ==== Proof.KI.Body6.lean ====
/-
  Region 6's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region6
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v6_35_eq : v6_35 x0 x2 x3
    = kres3 (shapeCast (s := S1024x128) S1024x128 (View.ld x0 r6_x) shapeCasts_S1024x128_S1024x128) (View.ld x2 r6_w0) (View.ld x3 r6_b0) (View.ld x2 r6_w1) (View.ld x3 r6_b1) (View.ld x2 r6_w2) (View.ld x3 r6_b2) := rfl

theorem v6_69_eq : v6_69 x0 x2 x3 = kres3 (v6_35 x0 x2 x3) (View.ld x2 r6_w3) (View.ld x3 r6_b3) (View.ld x2 r6_w4) (View.ld x3 r6_b4) (View.ld x2 r6_w5) (View.ld x3 r6_b5) := rfl

theorem v6_116_eq : v6_116 x0 x1 x2 x3 x4 x5
    = klin0 (shapeCast (s := S1024x128) S1024x128 (View.ld x1 r6_x) shapeCasts_S1024x128_S1024x128)
        (kres3 (v6_69 x0 x2 x3) (View.ld x2 r6_w6) (View.ld x3 r6_b6) (View.ld x2 r6_w7) (View.ld x3 r6_b7) (View.ld x2 r6_w8) (View.ld x3 r6_b8)) (View.ld x4 r6_n) (View.ld x5 r6_c) := rfl

theorem v6_150_eq : v6_150 x0 x1 x2 x3 x4 x5 x6 x7 = kres3 (v6_116 x0 x1 x2 x3 x4 x5) (View.ld x6 r6_w0) (View.ld x7 r6_b0) (View.ld x6 r6_w1) (View.ld x7 r6_b1) (View.ld x6 r6_w2) (View.ld x7 r6_b2) := rfl

theorem v6_184_eq : v6_184 x0 x1 x2 x3 x4 x5 x6 x7 = kres3 (v6_150 x0 x1 x2 x3 x4 x5 x6 x7) (View.ld x6 r6_w3) (View.ld x7 r6_b3) (View.ld x6 r6_w4) (View.ld x7 r6_b4) (View.ld x6 r6_w5) (View.ld x7 r6_b5) := rfl

theorem pay6_eq : k6_pay1 (v6_184 x0 x1 x2 x3 x4 x5 x6 x7) (v6_194 x0 x1 x2 x3 x4 x5 x6 x7) (View.ld x6 r6_w7) (View.ld x7 r6_b7) (View.ld x6 r6_w8) (View.ld x7 r6_b8)
    = kres3 (v6_184 x0 x1 x2 x3 x4 x5 x6 x7) (View.ld x6 r6_w6) (View.ld x7 r6_b6) (View.ld x6 r6_w7) (View.ld x7 r6_b7) (View.ld x6 r6_w8) (View.ld x7 r6_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row6_35 : rowK (v6_35 (F := Ideal) x0 x2 x3) r = Cert.RowSpec.r2 (wOf x2) (bOf x3) (rowK x0 r) := by
  rw [v6_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row6_69 : rowK (v6_69 (F := Ideal) x0 x2 x3) r = Cert.RowSpec.r5 (wOf x2) (bOf x3) (rowK x0 r) := by
  rw [v6_69_eq]; unfold kres3
  rw [rowK_klin_ld _ x2 x3 5 5 rfl, rowK_addf, rowK_klin_ld _ x2 x3 4 4 rfl, rowK_klin_ld _ x2 x3 3 3 rfl, row6_35]
  rfl

theorem row6_116 : rowK (v6_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v6_116_eq, rowK_klin0]; unfold kres3
  rw [rowK_klin_ld _ x2 x3 8 8 rfl, rowK_addf, rowK_klin_ld _ x2 x3 7 7 rfl, rowK_klin_ld _ x2 x3 6 6 rfl, row6_69, shapeCast_self, View.ld_unit_zero (S := S1024x128) hz2, View.ld_unit_zero (S := S128x256) hz2, View.ld_unit_zero (S := S128) hz1]
  rfl

theorem row6_150 : rowK (v6_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v6_150_eq]; unfold kres3
  rw [rowK_klin_ld _ x6 x7 2 2 rfl, rowK_addf, rowK_klin_ld _ x6 x7 1 1 rfl, rowK_klin_ld _ x6 x7 0 0 rfl, row6_116]
  rfl

theorem row6_184 : rowK (v6_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v6_184_eq]; unfold kres3
  rw [rowK_klin_ld _ x6 x7 5 5 rfl, rowK_addf, rowK_klin_ld _ x6 x7 4 4 rfl, rowK_klin_ld _ x6 x7 3 3 rfl, row6_150]
  rfl

end Rows

/-- What region 6's body leaves in its output block, read at an index: the level function of row `r` of the messages
    block and row `r` of the next level's block. -/
theorem out6_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out6_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out6_8
  rw [View.canon_unit_zero (S := S1024x128) hz2, pay6_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row6_184]
  rfl

end Cert.KernelIdeal.Val

end
-- ==== Proof.KI.Array6.lean ====
/-
  Region 6's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region6
import proofs.«122000_j45174466019872_2_alg».proof.Proof.KI.Body6
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 3) = 0
    ∧ win6_2.index t (1 : Fin 3) = 0
    ∧ win6_2.index t (2 : Fin 3) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 1) = 0
    ∧ win6_6.index t (0 : Fin 3) = 0
    ∧ win6_6.index t (1 : Fin 3) = 0
    ∧ win6_6.index t (2 : Fin 3) = 0
    ∧ win6_7.index t (0 : Fin 2) = 0
    ∧ win6_7.index t (1 : Fin 2) = 0
    ∧ win6_8.index t (0 : Fin 2) = t.val
    ∧ win6_8.index t (1 : Fin 2) = 0 :=
  (by decide +kernel : ∀ t : Fin grid6.N, _)

theorem lt16_6 (t : Fin cfg6.N) : t.val < 16 := lt_of_lt_of_eq t.isLt N_6

/-- Row `r` of point `t`'s block is row `1024 t + r` of the array. -/
def rowAt6 (t : Fin cfg6.N) (r : Fin 1024) : Fin 16384 := ⟨t.val * 1024 + r.val, by have := lt16_6 t; have := r.isLt; omega⟩

theorem emb6_8 (t : Fin cfg6.N) (r : Fin 1024) (k : Fin 128) :
    ((cfg6.win 8).blk t).view.emb (ix2 r k) = ix2 (rowAt6 t r) k := by
  obtain ⟨e0, e1, e2, e3, e4, e5, e6, e7, e8, e9, e10, e11, e12, e13, e14, e15, e16, e17, e18⟩ := idx_facts6 t
  funext a; apply Fin.ext
  match a with
  | ⟨0, _⟩ => show win6_8.index t (0 : Fin 2) * 1024 + 1 * r.val = t.val * 1024 + r.val; omega
  | ⟨1, _⟩ => show win6_8.index t (1 : Fin 2) * 128 + 1 * k.val = k.val; omega

theorem emb6_0 (t : Fin cfg6.N) (r : Fin 1024) (k : Fin 128) :
    ((cfg6.win 0).blk t).view.emb (ix2 r k) = ix2 (rowAt6 t r) k := by
  obtain ⟨e0, e1, e2, e3, e4, e5, e6, e7, e8, e9, e10, e11, e12, e13, e14, e15, e16, e17, e18⟩ := idx_facts6 t
  funext a; apply Fin.ext
  match a with
  | ⟨0, _⟩ => show win6_0.index t (0 : Fin 2) * 1024 + 1 * r.val = t.val * 1024 + r.val; omega
  | ⟨1, _⟩ => show win6_0.index t (1 : Fin 2) * 128 + 1 * k.val = k.val; omega

theorem emb6_1 (t : Fin cfg6.N) (r : Fin 1024) (k : Fin 128) :
    ((cfg6.win 1).blk t).view.emb (ix2 r k) = ix2 (rowAt6 t r) k := by
  obtain ⟨e0, e1, e2, e3, e4, e5, e6, e7, e8, e9, e10, e11, e12, e13, e14, e15, e16, e17, e18⟩ := idx_facts6 t
  funext a; apply Fin.ext
  match a with
  | ⟨0, _⟩ => show win6_1.index t (0 : Fin 2) * 1024 + 1 * r.val = t.val * 1024 + r.val; omega
  | ⟨1, _⟩ => show win6_1.index t (1 : Fin 2) * 128 + 1 * k.val = k.val; omega

theorem emb6_2 (t : Fin cfg6.N) (l : Fin 9) (o k : Fin 128) :
    ((cfg6.win 2).blk t).view.emb (ix3 l o k) = ix3 l o k := by
  obtain ⟨e0, e1, e2, e3, e4, e5, e6, e7, e8, e9, e10, e11, e12, e13, e14, e15, e16, e17, e18⟩ := idx_facts6 t
  funext a; apply Fin.ext
  match a with
  | ⟨0, _⟩ => show win6_2.index t (0 : Fin 3) * 9 + 1 * l.val = l.val; omega
  | ⟨1, _⟩ => show win6_2.index t (1 : Fin 3) * 128 + 1 * o.val = o.val; omega
  | ⟨2, _⟩ => show win6_2.index t (2 : Fin 3) * 128 + 1 * k.val = k.val; omega

theorem emb6_3 (t : Fin cfg6.N) (l : Fin 9) (o : Fin 128) :
    ((cfg6.win 3).blk t).view.emb (ix2 l o) = ix2 l o := by
  obtain ⟨e0, e1, e2, e3, e4, e5, e6, e7, e8, e9, e10, e11, e12, e13, e14, e15, e16, e17, e18⟩ := idx_facts6 t
  funext a; apply Fin.ext
  match a with
  | ⟨0, _⟩ => show win6_3.index t (0 : Fin 2) * 9 + 1 * l.val = l.val; omega
  | ⟨1, _⟩ => show win6_3.index t (1 : Fin 2) * 128 + 1 * o.val = o.val; omega

theorem emb6_4 (t : Fin cfg6.N) (l : Fin 128) (o : Fin 256) :
    ((cfg6.win 4).blk t).view.emb (ix2 l o) = ix2 l o := by
  obtain ⟨e0, e1, e2, e3, e4, e5, e6, e7, e8, e9, e10, e11, e12, e13, e14, e15, e16, e17, e18⟩ := idx_facts6 t
  funext a; apply Fin.ext
  match a with
  | ⟨0, _⟩ => show win6_4.index t (0 : Fin 2) * 128 + 1 * l.val = l.val; omega
  | ⟨1, _⟩ => show win6_4.index t (1 : Fin 2) * 256 + 1 * o.val = o.val; omega

theorem emb6_5 (t : Fin cfg6.N) (o : Fin 128) :
    ((cfg6.win 5).blk t).view.emb (ix1 o) = ix1 o := by
  obtain ⟨e0, e1, e2, e3, e4, e5, e6, e7, e8, e9, e10, e11, e12, e13, e14, e15, e16, e17, e18⟩ := idx_facts6 t
  funext a; apply Fin.ext
  match a with
  | ⟨0, _⟩ => show win6_5.index t (0 : Fin 1) * 128 + 1 * o.val = o.val; omega

theorem emb6_6 (t : Fin cfg6.N) (l : Fin 9) (o k : Fin 128) :
    ((cfg6.win 6).blk t).view.emb (ix3 l o k) = ix3 l o k := by
  obtain ⟨e0, e1, e2, e3, e4, e5, e6, e7, e8, e9, e10, e11, e12, e13, e14, e15, e16, e17, e18⟩ := idx_facts6 t
  funext a; apply Fin.ext
  match a with
  | ⟨0, _⟩ => show win6_6.index t (0 : Fin 3) * 9 + 1 * l.val = l.val; omega
  | ⟨1, _⟩ => show win6_6.index t (1 : Fin 3) * 128 + 1 * o.val = o.val; omega
  | ⟨2, _⟩ => show win6_6.index t (2 : Fin 3) * 128 + 1 * k.val = k.val; omega

theorem emb6_7 (t : Fin cfg6.N) (l : Fin 9) (o : Fin 128) :
    ((cfg6.win 7).blk t).view.emb (ix2 l o) = ix2 l o := by
  obtain ⟨e0, e1, e2, e3, e4, e5, e6, e7, e8, e9, e10, e11, e12, e13, e14, e15, e16, e17, e18⟩ := idx_facts6 t
  funext a; apply Fin.ext
  match a with
  | ⟨0, _⟩ => show win6_7.index t (0 : Fin 2) * 9 + 1 * l.val = l.val; omega
  | ⟨1, _⟩ => show win6_7.index t (1 : Fin 2) * 128 + 1 * o.val = o.val; omega

set_option maxHeartbeats 1000000 in
/-- Window 0's block at point `t`, read at an index. -/
theorem blk6_0 (c : Dev nD) (t : Fin cfg6.N) (r : Fin 1024) (k : Fin 128) :
    iblk6 V c 0 t (ix2 r k) = (V c (Pipeline.arrRef spec6 0)) (ix2 (rowAt6 t r) k) := by
  show (V c (Pipeline.arrRef spec6 0)) (((cfg6.win 0).blk t).view.emb (ix2 r k)) = _
  rw [emb6_0 t r k]

set_option maxHeartbeats 1000000 in
/-- Window 1's block at point `t`, read at an index. -/
theorem blk6_1 (c : Dev nD) (t : Fin cfg6.N) (r : Fin 1024) (k : Fin 128) :
    iblk6 V c 1 t (ix2 r k) = (V c (Pipeline.arrRef spec6 1)) (ix2 (rowAt6 t r) k) := by
  show (V c (Pipeline.arrRef spec6 1)) (((cfg6.win 1).blk t).view.emb (ix2 r k)) = _
  rw [emb6_1 t r k]

set_option maxHeartbeats 1000000 in
/-- Window 2's block at point `t`, read at an index. -/
theorem blk6_2 (c : Dev nD) (t : Fin cfg6.N) (l : Fin 9) (o k : Fin 128) :
    iblk6 V c 2 t (ix3 l o k) = (V c (Pipeline.arrRef spec6 2)) (ix3 l o k) := by
  show (V c (Pipeline.arrRef spec6 2)) (((cfg6.win 2).blk t).view.emb (ix3 l o k)) = _
  rw [emb6_2 t l o k]

set_option maxHeartbeats 1000000 in
/-- Window 3's block at point `t`, read at an index. -/
theorem blk6_3 (c : Dev nD) (t : Fin cfg6.N) (l : Fin 9) (o : Fin 128) :
    iblk6 V c 3 t (ix2 l o) = (V c (Pipeline.arrRef spec6 3)) (ix2 l o) := by
  show (V c (Pipeline.arrRef spec6 3)) (((cfg6.win 3).blk t).view.emb (ix2 l o)) = _
  rw [emb6_3 t l o]

set_option maxHeartbeats 1000000 in
/-- Window 4's block at point `t`, read at an index. -/
theorem blk6_4 (c : Dev nD) (t : Fin cfg6.N) (l : Fin 128) (o : Fin 256) :
    iblk6 V c 4 t (ix2 l o) = (V c (Pipeline.arrRef spec6 4)) (ix2 l o) := by
  show (V c (Pipeline.arrRef spec6 4)) (((cfg6.win 4).blk t).view.emb (ix2 l o)) = _
  rw [emb6_4 t l o]

set_option maxHeartbeats 1000000 in
/-- Window 5's block at point `t`, read at an index. -/
theorem blk6_5 (c : Dev nD) (t : Fin cfg6.N) (o : Fin 128) :
    iblk6 V c 5 t (ix1 o) = (V c (Pipeline.arrRef spec6 5)) (ix1 o) := by
  show (V c (Pipeline.arrRef spec6 5)) (((cfg6.win 5).blk t).view.emb (ix1 o)) = _
  rw [emb6_5 t o]

set_option maxHeartbeats 1000000 in
/-- Window 6's block at point `t`, read at an index. -/
theorem blk6_6 (c : Dev nD) (t : Fin cfg6.N) (l : Fin 9) (o k : Fin 128) :
    iblk6 V c 6 t (ix3 l o k) = (V c (Pipeline.arrRef spec6 6)) (ix3 l o k) := by
  show (V c (Pipeline.arrRef spec6 6)) (((cfg6.win 6).blk t).view.emb (ix3 l o k)) = _
  rw [emb6_6 t l o k]

set_option maxHeartbeats 1000000 in
/-- Window 7's block at point `t`, read at an index. -/
theorem blk6_7 (c : Dev nD) (t : Fin cfg6.N) (l : Fin 9) (o : Fin 128) :
    iblk6 V c 7 t (ix2 l o) = (V c (Pipeline.arrRef spec6 7)) (ix2 l o) := by
  show (V c (Pipeline.arrRef spec6 7)) (((cfg6.win 7).blk t).view.emb (ix2 l o)) = _
  rw [emb6_7 t l o]

set_option maxHeartbeats 1000000 in
/-- What point `t` writes back is block `t` of the level function of the arrays the region finds. -/
theorem flushed6_eq (c : Dev nD) (t : Fin cfg6.N) :
    (dat6 V c).flushed 8 t = ((cfg6.win 8).blk t).view.read (Elt Ideal)
      (kstep (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7))) := by
  show (cfg6.win 8).cut (grid6.coords t) ((dat6 V c).after 8 t) = _
  rw [after6_8]
  funext j
  obtain ⟨r, o, rfl⟩ : ∃ (r : Fin 1024) (o : Fin 128), j = ix2 r o := ⟨j 0, j 1, eq_ix2 j⟩
  show out6_8 (iblk6 V c 0 t) (iblk6 V c 1 t) (iblk6 V c 2 t) (iblk6 V c 3 t) (iblk6 V c 4 t) (iblk6 V c 5 t) (iblk6 V c 6 t) (iblk6 V c 7 t) (ix2 r o) = _
  rw [out6_8_apply, View.read_apply, emb6_8 t r o]
  simp only [blk6_0 V c t, blk6_1 V c t, blk6_2 V c t, blk6_3 V c t, blk6_4 V c t, blk6_5 V c t, blk6_6 V c t, blk6_7 V c t]
  rfl

/-- An index of the array is in point `t`'s block iff each coordinate is in the block's range on its axis. -/
theorem mem_blk6 (t : Fin cfg6.N) (i : S16384x128.Idx) :
    i ∈ ((cfg6.win 8).blk t).view.set ↔ ∀ a : Fin 2, win6_8.index t a * S1024x128.size a ≤ (i a).val ∧ (i a).val < win6_8.index t a * S1024x128.size a + S1024x128.size a := by
  show i ∈ ((View.whole main_v84).slice (win6_8.rect t)).set ↔ _
  rw [View.set_slice_whole, Rect.mem_set_unit]
  exact Iff.rfl

/-- Every row of the array lies in the block of the point `row / 1024`. -/
theorem cover6 (i : S16384x128.Idx) : ∃ t : Fin cfg6.N, (cfg6.win 8).flush t = true ∧ i ∈ ((cfg6.win 8).blk t).view.set := by
  have hi0 : (i 0).val < 16384 := (i 0).isLt
  have hi1 : (i 1).val < 128 := (i 1).isLt
  let t : Fin cfg6.N := ⟨(i 0).val / 1024, by rw [show cfg6.N = 16 from N_6]; omega⟩
  obtain ⟨e0, e1, e2, e3, e4, e5, e6, e7, e8, e9, e10, e11, e12, e13, e14, e15, e16, e17, e18⟩ := idx_facts6 t
  have ht : t.val = (i 0).val / 1024 := rfl
  refine ⟨t, flush6_8 t, ?_⟩
  rw [mem_blk6]
  intro a
  match a with
  | ⟨0, _⟩ => show win6_8.index t (0 : Fin 2) * 1024 ≤ (i 0).val ∧ (i 0).val < win6_8.index t (0 : Fin 2) * 1024 + 1024; omega
  | ⟨1, _⟩ => show win6_8.index t (1 : Fin 2) * 128 ≤ (i 1).val ∧ (i 1).val < win6_8.index t (1 : Fin 2) * 128 + 128; omega

/-- The array region 6 leaves: the level function of the arrays at entry, whatever the output array held. -/
theorem final6 (c : Dev nD) : (dat6 V c).arrAt 8 cfg6.N
    = kstep (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) :=
  (dat6 V c).arrAt_eq_of_cover 8 _ (fun t _ => flushed6_eq V c t) cover6

end Cert.KernelIdeal.Val

end
-- ==== Proof.KI.Body7.lean ====
/-
  Region 7's body read at an index: what the level kernel leaves in its output block is, entry by entry, the level
  function `RowSpec.step` of the corresponding rows of its two input blocks.

  Each stage of the body is three of the kernel's dense layers with the stage's input added back before the third
  (by unfolding); rows go through a layer as `RowSpec.lin`, so the stages are `r2`, `r5`, the whole message chain under
  the 256-wide layer, and again `r2`, `r5` and the whole chain for the node stack.
-/
import proofs.«122000_j45174466019872_2_alg».proof.Proof.KI.Region7
import proofs.«122000_j45174466019872_2_alg».proof.Proof.KI.Layer

noncomputable section

namespace Cert.KernelIdeal.Val

open Cert.KernelIdeal Cert.KernelIdeal.Gen Cert.KernelIdeal.Hand
open Idealize.ShloMosaic Idealize.ShloMosaic.ValueIdx

/-! ## The stages as compositions of the kernel's layer (any float values) -/

section Stages
variable {F : FTy → Type} [FloatOps F]
variable (x0 x1 : Vec F S1024x128 .f32) (x2 : Vec F S9x128x128 .bf16) (x3 : Vec F S9x128 .f32)
  (x4 : Vec F S128x256 .bf16) (x5 : Vec F S128 .f32) (x6 : Vec F S9x128x128 .bf16) (x7 : Vec F S9x128 .f32)

theorem v7_35_eq : v7_35 x0 x2 x3
    = kres3 (shapeCast (s := S1024x128) S1024x128 (View.ld x0 r7_x) shapeCasts_S1024x128_S1024x128) (View.ld x2 r7_w0) (View.ld x3 r7_b0) (View.ld x2 r7_w1) (View.ld x3 r7_b1) (View.ld x2 r7_w2) (View.ld x3 r7_b2) := rfl

theorem v7_69_eq : v7_69 x0 x2 x3 = kres3 (v7_35 x0 x2 x3) (View.ld x2 r7_w3) (View.ld x3 r7_b3) (View.ld x2 r7_w4) (View.ld x3 r7_b4) (View.ld x2 r7_w5) (View.ld x3 r7_b5) := rfl

theorem v7_116_eq : v7_116 x0 x1 x2 x3 x4 x5
    = klin0 (shapeCast (s := S1024x128) S1024x128 (View.ld x1 r7_x) shapeCasts_S1024x128_S1024x128)
        (kres3 (v7_69 x0 x2 x3) (View.ld x2 r7_w6) (View.ld x3 r7_b6) (View.ld x2 r7_w7) (View.ld x3 r7_b7) (View.ld x2 r7_w8) (View.ld x3 r7_b8)) (View.ld x4 r7_n) (View.ld x5 r7_c) := rfl

theorem v7_150_eq : v7_150 x0 x1 x2 x3 x4 x5 x6 x7 = kres3 (v7_116 x0 x1 x2 x3 x4 x5) (View.ld x6 r7_w0) (View.ld x7 r7_b0) (View.ld x6 r7_w1) (View.ld x7 r7_b1) (View.ld x6 r7_w2) (View.ld x7 r7_b2) := rfl

theorem v7_184_eq : v7_184 x0 x1 x2 x3 x4 x5 x6 x7 = kres3 (v7_150 x0 x1 x2 x3 x4 x5 x6 x7) (View.ld x6 r7_w3) (View.ld x7 r7_b3) (View.ld x6 r7_w4) (View.ld x7 r7_b4) (View.ld x6 r7_w5) (View.ld x7 r7_b5) := rfl

theorem pay7_eq : k7_pay1 (v7_184 x0 x1 x2 x3 x4 x5 x6 x7) (v7_194 x0 x1 x2 x3 x4 x5 x6 x7) (View.ld x6 r7_w7) (View.ld x7 r7_b7) (View.ld x6 r7_w8) (View.ld x7 r7_b8)
    = kres3 (v7_184 x0 x1 x2 x3 x4 x5 x6 x7) (View.ld x6 r7_w6) (View.ld x7 r7_b6) (View.ld x6 r7_w7) (View.ld x7 r7_b7) (View.ld x6 r7_w8) (View.ld x7 r7_b8) := rfl

end Stages

/-! ## Rows, on the extended reals -/

section Rows
variable (x0 x1 : Vec Ideal S1024x128 .f32) (x2 : Vec Ideal S9x128x128 .bf16) (x3 : Vec Ideal S9x128 .f32)
  (x4 : Vec Ideal S128x256 .bf16) (x5 : Vec Ideal S128 .f32) (x6 : Vec Ideal S9x128x128 .bf16) (x7 : Vec Ideal S9x128 .f32)
  (r : Fin 1024)

theorem row7_35 : rowK (v7_35 (F := Ideal) x0 x2 x3) r = Cert.RowSpec.r2 (wOf x2) (bOf x3) (rowK x0 r) := by
  rw [v7_35_eq]; unfold kres3
  rw [rowK_klin_ld _ x2 x3 2 2 rfl, rowK_addf, rowK_klin_ld _ x2 x3 1 1 rfl, rowK_klin_ld _ x2 x3 0 0 rfl, shapeCast_self, View.ld_unit_zero (S := S1024x128) hz2]
  rfl

theorem row7_69 : rowK (v7_69 (F := Ideal) x0 x2 x3) r = Cert.RowSpec.r5 (wOf x2) (bOf x3) (rowK x0 r) := by
  rw [v7_69_eq]; unfold kres3
  rw [rowK_klin_ld _ x2 x3 5 5 rfl, rowK_addf, rowK_klin_ld _ x2 x3 4 4 rfl, rowK_klin_ld _ x2 x3 3 3 rfl, row7_35]
  rfl

theorem row7_116 : rowK (v7_116 (F := Ideal) x0 x1 x2 x3 x4 x5) r
    = Cert.RowSpec.lin0 (fun o k => x4 (ix2 o k)) (fun o => x5 (ix1 o)) (rowK x1 r)
        (Cert.RowSpec.chain9 (wOf x2) (bOf x3) (rowK x0 r)) := by
  rw [v7_116_eq, rowK_klin0]; unfold kres3
  rw [rowK_klin_ld _ x2 x3 8 8 rfl, rowK_addf, rowK_klin_ld _ x2 x3 7 7 rfl, rowK_klin_ld _ x2 x3 6 6 rfl, row7_69, shapeCast_self, View.ld_unit_zero (S := S1024x128) hz2, View.ld_unit_zero (S := S128x256) hz2, View.ld_unit_zero (S := S128) hz1]
  rfl

theorem row7_150 : rowK (v7_150 (F := Ideal) x0 x1 x2 x3 x4 x5 x6 x7) r
    = Cert.RowSpec.r2 (wOf x6) (bOf x7) (Cert.RowSpec.lin0 (fun o k => x4 (ix2 o k)) (fun o => x5 (ix1 o)) (rowK x1 r)
        (Cert.RowSpec.chain9 (wOf x2) (bOf x3) (rowK x0 r))) := by
  rw [v7_150_eq]; unfold kres3
  rw [rowK_klin_ld _ x6 x7 2 2 rfl, rowK_addf, rowK_klin_ld _ x6 x7 1 1 rfl, rowK_klin_ld _ x6 x7 0 0 rfl, row7_116]
  rfl

theorem row7_184 : rowK (v7_184 (F := Ideal) x0 x1 x2 x3 x4 x5 x6 x7) r
    = Cert.RowSpec.r5 (wOf x6) (bOf x7) (Cert.RowSpec.lin0 (fun o k => x4 (ix2 o k)) (fun o => x5 (ix1 o)) (rowK x1 r)
        (Cert.RowSpec.chain9 (wOf x2) (bOf x3) (rowK x0 r))) := by
  rw [v7_184_eq]; unfold kres3
  rw [rowK_klin_ld _ x6 x7 5 5 rfl, rowK_addf, rowK_klin_ld _ x6 x7 4 4 rfl, rowK_klin_ld _ x6 x7 3 3 rfl, row7_150]
  rfl

end Rows

/-- What region 7's body leaves in its output block, read at an index: the level function of row `r` of the messages
    block and row `r` of the next level's block. -/
theorem out7_8_apply (x0 x1 : Vec Ideal S1024x128 .f32) (x2 : Vec Ideal S9x128x128 .bf16) (x3 : Vec Ideal S9x128 .f32)
    (x4 : Vec Ideal S128x256 .bf16) (x5 : Vec Ideal S128 .f32) (x6 : Vec Ideal S9x128x128 .bf16) (x7 : Vec Ideal S9x128 .f32)
    (r : Fin 1024) (o : Fin 128) :
    out7_8 (F := Ideal) x0 x1 x2 x3 x4 x5 x6 x7 (ValueIdx.ix2 r o)
      = Cert.RowSpec.step (fun l o k => x2 (ValueIdx.ix3 l o k)) (fun l o => x3 (ValueIdx.ix2 l o))
          (fun o k => x4 (ValueIdx.ix2 o k)) (fun o => x5 (ValueIdx.ix1 o))
          (fun l o k => x6 (ValueIdx.ix3 l o k)) (fun l o => x7 (ValueIdx.ix2 l o))
          (fun k => x0 (ValueIdx.ix2 r k)) (fun k => x1 (ValueIdx.ix2 r k)) o := by
  unfold out7_8
  rw [View.canon_unit_zero (S := S1024x128) hz2, pay7_eq]
  show rowK (kres3 _ _ _ _ _ _ _) r o = _
  unfold kres3
  rw [rowK_klin_ld _ x6 x7 8 8 rfl, rowK_addf, rowK_klin_ld _ x6 x7 7 7 rfl, rowK_klin_ld _ x6 x7 6 6 rfl, row7_184]
  rfl

end Cert.KernelIdeal.Val

end
-- ==== Proof.KI.Array7.lean ====
/-
  Region 7's output array after its run, as one function of the arrays the region finds.

  Point `t` of the grid works on rows `1024 t … 1024 t + 1023` of the summed messages and of the next level's
  embeddings and on the whole weight and bias arrays; by the body's row form, what it writes back is rows
  `1024 t …` of the level function `kstep` of those arrays. The sixteen blocks tile the [16384,128] array, so
  after the run the array IS `kstep` of the arrays at entry.
-/
import proofs.«122000_j45174466019872_2_alg».proof.Proof.KI.Region7
import proofs.«122000_j45174466019872_2_alg».proof.Proof.KI.Body7
import proofs.«122000_j45174466019872_2_alg».proof.Proof.KI.KStep
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the two row-blocked inputs move with the output; every other block index is 0. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 3) = 0
    ∧ win7_2.index t (1 : Fin 3) = 0
    ∧ win7_2.index t (2 : Fin 3) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 1) = 0
    ∧ win7_6.index t (0 : Fin 3) = 0
    ∧ win7_6.index t (1 : Fin 3) = 0
    ∧ win7_6.index t (2 : Fin 3) = 0
    ∧ win7_7.index t (0 : Fin 2) = 0
    ∧ win7_7.index t (1 : Fin 2) = 0
    ∧ win7_8.index t (0 : Fin 2) = t.val
    ∧ win7_8.index t (1 : Fin 2) = 0 :=
  (by decide +kernel : ∀ t : Fin grid7.N, _)

theorem lt16_7 (t : Fin cfg7.N) : t.val < 16 := lt_of_lt_of_eq t.isLt N_7

/-- Row `r` of point `t`'s block is row `1024 t + r` of the array. -/
def rowAt7 (t : Fin cfg7.N) (r : Fin 1024) : Fin 16384 := ⟨t.val * 1024 + r.val, by have := lt16_7 t; have := r.isLt; omega⟩

theorem emb7_8 (t : Fin cfg7.N) (r : Fin 1024) (k : Fin 128) :
    ((cfg7.win 8).blk t).view.emb (ix2 r k) = ix2 (rowAt7 t r) k := by
  obtain ⟨e0, e1, e2, e3, e4, e5, e6, e7, e8, e9, e10, e11, e12, e13, e14, e15, e16, e17, e18⟩ := idx_facts7 t
  funext a; apply Fin.ext
  match a with
  | ⟨0, _⟩ => show win7_8.index t (0 : Fin 2) * 1024 + 1 * r.val = t.val * 1024 + r.val; omega
  | ⟨1, _⟩ => show win7_8.index t (1 : Fin 2) * 128 + 1 * k.val = k.val; omega

theorem emb7_0 (t : Fin cfg7.N) (r : Fin 1024) (k : Fin 128) :
    ((cfg7.win 0).blk t).view.emb (ix2 r k) = ix2 (rowAt7 t r) k := by
  obtain ⟨e0, e1, e2, e3, e4, e5, e6, e7, e8, e9, e10, e11, e12, e13, e14, e15, e16, e17, e18⟩ := idx_facts7 t
  funext a; apply Fin.ext
  match a with
  | ⟨0, _⟩ => show win7_0.index t (0 : Fin 2) * 1024 + 1 * r.val = t.val * 1024 + r.val; omega
  | ⟨1, _⟩ => show win7_0.index t (1 : Fin 2) * 128 + 1 * k.val = k.val; omega

theorem emb7_1 (t : Fin cfg7.N) (r : Fin 1024) (k : Fin 128) :
    ((cfg7.win 1).blk t).view.emb (ix2 r k) = ix2 (rowAt7 t r) k := by
  obtain ⟨e0, e1, e2, e3, e4, e5, e6, e7, e8, e9, e10, e11, e12, e13, e14, e15, e16, e17, e18⟩ := idx_facts7 t
  funext a; apply Fin.ext
  match a with
  | ⟨0, _⟩ => show win7_1.index t (0 : Fin 2) * 1024 + 1 * r.val = t.val * 1024 + r.val; omega
  | ⟨1, _⟩ => show win7_1.index t (1 : Fin 2) * 128 + 1 * k.val = k.val; omega

theorem emb7_2 (t : Fin cfg7.N) (l : Fin 9) (o k : Fin 128) :
    ((cfg7.win 2).blk t).view.emb (ix3 l o k) = ix3 l o k := by
  obtain ⟨e0, e1, e2, e3, e4, e5, e6, e7, e8, e9, e10, e11, e12, e13, e14, e15, e16, e17, e18⟩ := idx_facts7 t
  funext a; apply Fin.ext
  match a with
  | ⟨0, _⟩ => show win7_2.index t (0 : Fin 3) * 9 + 1 * l.val = l.val; omega
  | ⟨1, _⟩ => show win7_2.index t (1 : Fin 3) * 128 + 1 * o.val = o.val; omega
  | ⟨2, _⟩ => show win7_2.index t (2 : Fin 3) * 128 + 1 * k.val = k.val; omega

theorem emb7_3 (t : Fin cfg7.N) (l : Fin 9) (o : Fin 128) :
    ((cfg7.win 3).blk t).view.emb (ix2 l o) = ix2 l o := by
  obtain ⟨e0, e1, e2, e3, e4, e5, e6, e7, e8, e9, e10, e11, e12, e13, e14, e15, e16, e17, e18⟩ := idx_facts7 t
  funext a; apply Fin.ext
  match a with
  | ⟨0, _⟩ => show win7_3.index t (0 : Fin 2) * 9 + 1 * l.val = l.val; omega
  | ⟨1, _⟩ => show win7_3.index t (1 : Fin 2) * 128 + 1 * o.val = o.val; omega

theorem emb7_4 (t : Fin cfg7.N) (l : Fin 128) (o : Fin 256) :
    ((cfg7.win 4).blk t).view.emb (ix2 l o) = ix2 l o := by
  obtain ⟨e0, e1, e2, e3, e4, e5, e6, e7, e8, e9, e10, e11, e12, e13, e14, e15, e16, e17, e18⟩ := idx_facts7 t
  funext a; apply Fin.ext
  match a with
  | ⟨0, _⟩ => show win7_4.index t (0 : Fin 2) * 128 + 1 * l.val = l.val; omega
  | ⟨1, _⟩ => show win7_4.index t (1 : Fin 2) * 256 + 1 * o.val = o.val; omega

theorem emb7_5 (t : Fin cfg7.N) (o : Fin 128) :
    ((cfg7.win 5).blk t).view.emb (ix1 o) = ix1 o := by
  obtain ⟨e0, e1, e2, e3, e4, e5, e6, e7, e8, e9, e10, e11, e12, e13, e14, e15, e16, e17, e18⟩ := idx_facts7 t
  funext a; apply Fin.ext
  match a with
  | ⟨0, _⟩ => show win7_5.index t (0 : Fin 1) * 128 + 1 * o.val = o.val; omega

theorem emb7_6 (t : Fin cfg7.N) (l : Fin 9) (o k : Fin 128) :
    ((cfg7.win 6).blk t).view.emb (ix3 l o k) = ix3 l o k := by
  obtain ⟨e0, e1, e2, e3, e4, e5, e6, e7, e8, e9, e10, e11, e12, e13, e14, e15, e16, e17, e18⟩ := idx_facts7 t
  funext a; apply Fin.ext
  match a with
  | ⟨0, _⟩ => show win7_6.index t (0 : Fin 3) * 9 + 1 * l.val = l.val; omega
  | ⟨1, _⟩ => show win7_6.index t (1 : Fin 3) * 128 + 1 * o.val = o.val; omega
  | ⟨2, _⟩ => show win7_6.index t (2 : Fin 3) * 128 + 1 * k.val = k.val; omega

theorem emb7_7 (t : Fin cfg7.N) (l : Fin 9) (o : Fin 128) :
    ((cfg7.win 7).blk t).view.emb (ix2 l o) = ix2 l o := by
  obtain ⟨e0, e1, e2, e3, e4, e5, e6, e7, e8, e9, e10, e11, e12, e13, e14, e15, e16, e17, e18⟩ := idx_facts7 t
  funext a; apply Fin.ext
  match a with
  | ⟨0, _⟩ => show win7_7.index t (0 : Fin 2) * 9 + 1 * l.val = l.val; omega
  | ⟨1, _⟩ => show win7_7.index t (1 : Fin 2) * 128 + 1 * o.val = o.val; omega

set_option maxHeartbeats 1000000 in
/-- Window 0's block at point `t`, read at an index. -/
theorem blk7_0 (c : Dev nD) (t : Fin cfg7.N) (r : Fin 1024) (k : Fin 128) :
    iblk7 V c 0 t (ix2 r k) = (V c (Pipeline.arrRef spec7 0)) (ix2 (rowAt7 t r) k) := by
  show (V c (Pipeline.arrRef spec7 0)) (((cfg7.win 0).blk t).view.emb (ix2 r k)) = _
  rw [emb7_0 t r k]

set_option maxHeartbeats 1000000 in
/-- Window 1's block at point `t`, read at an index. -/
theorem blk7_1 (c : Dev nD) (t : Fin cfg7.N) (r : Fin 1024) (k : Fin 128) :
    iblk7 V c 1 t (ix2 r k) = (V c (Pipeline.arrRef spec7 1)) (ix2 (rowAt7 t r) k) := by
  show (V c (Pipeline.arrRef spec7 1)) (((cfg7.win 1).blk t).view.emb (ix2 r k)) = _
  rw [emb7_1 t r k]

set_option maxHeartbeats 1000000 in
/-- Window 2's block at point `t`, read at an index. -/
theorem blk7_2 (c : Dev nD) (t : Fin cfg7.N) (l : Fin 9) (o k : Fin 128) :
    iblk7 V c 2 t (ix3 l o k) = (V c (Pipeline.arrRef spec7 2)) (ix3 l o k) := by
  show (V c (Pipeline.arrRef spec7 2)) (((cfg7.win 2).blk t).view.emb (ix3 l o k)) = _
  rw [emb7_2 t l o k]

set_option maxHeartbeats 1000000 in
/-- Window 3's block at point `t`, read at an index. -/
theorem blk7_3 (c : Dev nD) (t : Fin cfg7.N) (l : Fin 9) (o : Fin 128) :
    iblk7 V c 3 t (ix2 l o) = (V c (Pipeline.arrRef spec7 3)) (ix2 l o) := by
  show (V c (Pipeline.arrRef spec7 3)) (((cfg7.win 3).blk t).view.emb (ix2 l o)) = _
  rw [emb7_3 t l o]

set_option maxHeartbeats 1000000 in
/-- Window 4's block at point `t`, read at an index. -/
theorem blk7_4 (c : Dev nD) (t : Fin cfg7.N) (l : Fin 128) (o : Fin 256) :
    iblk7 V c 4 t (ix2 l o) = (V c (Pipeline.arrRef spec7 4)) (ix2 l o) := by
  show (V c (Pipeline.arrRef spec7 4)) (((cfg7.win 4).blk t).view.emb (ix2 l o)) = _
  rw [emb7_4 t l o]

set_option maxHeartbeats 1000000 in
/-- Window 5's block at point `t`, read at an index. -/
theorem blk7_5 (c : Dev nD) (t : Fin cfg7.N) (o : Fin 128) :
    iblk7 V c 5 t (ix1 o) = (V c (Pipeline.arrRef spec7 5)) (ix1 o) := by
  show (V c (Pipeline.arrRef spec7 5)) (((cfg7.win 5).blk t).view.emb (ix1 o)) = _
  rw [emb7_5 t o]

set_option maxHeartbeats 1000000 in
/-- Window 6's block at point `t`, read at an index. -/
theorem blk7_6 (c : Dev nD) (t : Fin cfg7.N) (l : Fin 9) (o k : Fin 128) :
    iblk7 V c 6 t (ix3 l o k) = (V c (Pipeline.arrRef spec7 6)) (ix3 l o k) := by
  show (V c (Pipeline.arrRef spec7 6)) (((cfg7.win 6).blk t).view.emb (ix3 l o k)) = _
  rw [emb7_6 t l o k]

set_option maxHeartbeats 1000000 in
/-- Window 7's block at point `t`, read at an index. -/
theorem blk7_7 (c : Dev nD) (t : Fin cfg7.N) (l : Fin 9) (o : Fin 128) :
    iblk7 V c 7 t (ix2 l o) = (V c (Pipeline.arrRef spec7 7)) (ix2 l o) := by
  show (V c (Pipeline.arrRef spec7 7)) (((cfg7.win 7).blk t).view.emb (ix2 l o)) = _
  rw [emb7_7 t l o]

set_option maxHeartbeats 1000000 in
/-- What point `t` writes back is block `t` of the level function of the arrays the region finds. -/
theorem flushed7_eq (c : Dev nD) (t : Fin cfg7.N) :
    (dat7 V c).flushed 8 t = ((cfg7.win 8).blk t).view.read (Elt Ideal)
      (kstep (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7))) := by
  show (cfg7.win 8).cut (grid7.coords t) ((dat7 V c).after 8 t) = _
  rw [after7_8]
  funext j
  obtain ⟨r, o, rfl⟩ : ∃ (r : Fin 1024) (o : Fin 128), j = ix2 r o := ⟨j 0, j 1, eq_ix2 j⟩
  show out7_8 (iblk7 V c 0 t) (iblk7 V c 1 t) (iblk7 V c 2 t) (iblk7 V c 3 t) (iblk7 V c 4 t) (iblk7 V c 5 t) (iblk7 V c 6 t) (iblk7 V c 7 t) (ix2 r o) = _
  rw [out7_8_apply, View.read_apply, emb7_8 t r o]
  simp only [blk7_0 V c t, blk7_1 V c t, blk7_2 V c t, blk7_3 V c t, blk7_4 V c t, blk7_5 V c t, blk7_6 V c t, blk7_7 V c t]
  rfl

/-- An index of the array is in point `t`'s block iff each coordinate is in the block's range on its axis. -/
theorem mem_blk7 (t : Fin cfg7.N) (i : S16384x128.Idx) :
    i ∈ ((cfg7.win 8).blk t).view.set ↔ ∀ a : Fin 2, win7_8.index t a * S1024x128.size a ≤ (i a).val ∧ (i a).val < win7_8.index t a * S1024x128.size a + S1024x128.size a := by
  show i ∈ ((View.whole main_v97).slice (win7_8.rect t)).set ↔ _
  rw [View.set_slice_whole, Rect.mem_set_unit]
  exact Iff.rfl

/-- Every row of the array lies in the block of the point `row / 1024`. -/
theorem cover7 (i : S16384x128.Idx) : ∃ t : Fin cfg7.N, (cfg7.win 8).flush t = true ∧ i ∈ ((cfg7.win 8).blk t).view.set := by
  have hi0 : (i 0).val < 16384 := (i 0).isLt
  have hi1 : (i 1).val < 128 := (i 1).isLt
  let t : Fin cfg7.N := ⟨(i 0).val / 1024, by rw [show cfg7.N = 16 from N_7]; omega⟩
  obtain ⟨e0, e1, e2, e3, e4, e5, e6, e7, e8, e9, e10, e11, e12, e13, e14, e15, e16, e17, e18⟩ := idx_facts7 t
  have ht : t.val = (i 0).val / 1024 := rfl
  refine ⟨t, flush7_8 t, ?_⟩
  rw [mem_blk7]
  intro a
  match a with
  | ⟨0, _⟩ => show win7_8.index t (0 : Fin 2) * 1024 ≤ (i 0).val ∧ (i 0).val < win7_8.index t (0 : Fin 2) * 1024 + 1024; omega
  | ⟨1, _⟩ => show win7_8.index t (1 : Fin 2) * 128 ≤ (i 1).val ∧ (i 1).val < win7_8.index t (1 : Fin 2) * 128 + 128; omega

/-- The array region 7 leaves: the level function of the arrays at entry, whatever the output array held. -/
theorem final7 (c : Dev nD) : (dat7 V c).arrAt 8 cfg7.N
    = kstep (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) :=
  (dat7 V c).arrAt_eq_of_cover 8 _ (fun t _ => flushed7_eq V c t) cover7

end Cert.KernelIdeal.Val

end
-- ==== Proof.Ref.Spec.lean ====
/-
  The reference computation as plain functions on the extended reals: each definition is the composition of the
  printed operations' functions, in the printed order, with the buffers as arguments.

  A dense layer is `tanh (x · Wᵀ + b)` with `W` one [1,128,128] slice of a [9,128,128] stack and `b` one [1,128]
  slice of a [9,128] stack; nine layers with the residual sums before the third, sixth and ninth make a chain; a
  level is the message chain on the summed gathered rows, the 256-wide layer on the next level's rows beside the
  chain's result, and the node chain. The whole result is the eight levels one after another.
-/
import proofs.«122000_j45174466019872_2_alg».proof.ReferenceIdeal
import Idealize.ShloMosaic.PureOps.Ideal

noncomputable section

namespace Cert.RefSpec

open Idealize.ShloMosaic Cert.ReferenceIdeal Cert.ReferenceIdeal.Facts₀

variable [Cert.ReferenceIdeal.Facts₀]

/-- The embedding of all nodes: `tanh (x · Weᵀ + be)` on [131072,32] features. -/
def refEmbed (a0 : FVec Ideal S131072x32 .f32) (a1 : FVec Ideal S128x32 .f32) (a2 : FVec Ideal S128 .f32) :
    FVec Ideal S131072x128 .f32 :=
  Host.tanh (F := Ideal) (addf (F := Ideal) (Host.dotGeneral (F := Ideal) dot_S131072x32_S32x128_S131072x128_1_0_0_1_n_n none a0 (transpose S32x128 [1, 0] a1 transposes_S128x32_S32x128_1_0)) (broadcastInDim S131072x128 ![0, 1] bcast_S1x128_S131072x128_0_1 (broadcastInDim S1x128 ![1] bcast_S128_S1x128_1 a2)))

/-- The embeddings as eight levels of 16384 rows. -/
def lvAll (E : FVec Ideal S131072x128 .f32) : FVec Ideal S8x16384x128 .f32 :=
  shapeCast S8x16384x128 E shapeCasts_S131072x128_S8x16384x128

/-- Level 0 of the embeddings: rows 0·16384 … of the [131072,128] array. -/
def lv0 (E : FVec Ideal S131072x128 .f32) : FVec Ideal S16384x128 .f32 :=
  shapeCast S16384x128 (extractStridedSlice S1x16384x128 ![0, 0, 0] (lvAll E) slices_S8x16384x128_S1x16384x128_0_0_0) shapeCasts_S1x16384x128_S16384x128

/-- Level 1 of the embeddings: rows 1·16384 … of the [131072,128] array. -/
def lv1 (E : FVec Ideal S131072x128 .f32) : FVec Ideal S16384x128 .f32 :=
  shapeCast S16384x128 (extractStridedSlice S1x16384x128 ![1, 0, 0] (lvAll E) slices_S8x16384x128_S1x16384x128_1_0_0) shapeCasts_S1x16384x128_S16384x128

/-- Level 2 of the embeddings: rows 2·16384 … of the [131072,128] array. -/
def lv2 (E : FVec Ideal S131072x128 .f32) : FVec Ideal S16384x128 .f32 :=
  shapeCast S16384x128 (extractStridedSlice S1x16384x128 ![2, 0, 0] (lvAll E) slices_S8x16384x128_S1x16384x128_2_0_0) shapeCasts_S1x16384x128_S16384x128

/-- Level 3 of the embeddings: rows 3·16384 … of the [131072,128] array. -/
def lv3 (E : FVec Ideal S131072x128 .f32) : FVec Ideal S16384x128 .f32 :=
  shapeCast S16384x128 (extractStridedSlice S1x16384x128 ![3, 0, 0] (lvAll E) slices_S8x16384x128_S1x16384x128_3_0_0) shapeCasts_S1x16384x128_S16384x128

/-- Level 4 of the embeddings: rows 4·16384 … of the [131072,128] array. -/
def lv4 (E : FVec Ideal S131072x128 .f32) : FVec Ideal S16384x128 .f32 :=
  shapeCast S16384x128 (extractStridedSlice S1x16384x128 ![4, 0, 0] (lvAll E) slices_S8x16384x128_S1x16384x128_4_0_0) shapeCasts_S1x16384x128_S16384x128

/-- Level 5 of the embeddings: rows 5·16384 … of the [131072,128] array. -/
def lv5 (E : FVec Ideal S131072x128 .f32) : FVec Ideal S16384x128 .f32 :=
  shapeCast S16384x128 (extractStridedSlice S1x16384x128 ![5, 0, 0] (lvAll E) slices_S8x16384x128_S1x16384x128_5_0_0) shapeCasts_S1x16384x128_S16384x128

/-- Level 6 of the embeddings: rows 6·16384 … of the [131072,128] array. -/
def lv6 (E : FVec Ideal S131072x128 .f32) : FVec Ideal S16384x128 .f32 :=
  shapeCast S16384x128 (extractStridedSlice S1x16384x128 ![6, 0, 0] (lvAll E) slices_S8x16384x128_S1x16384x128_6_0_0) shapeCasts_S1x16384x128_S16384x128

/-- Level 7 of the embeddings: rows 7·16384 … of the [131072,128] array. -/
def lv7 (E : FVec Ideal S131072x128 .f32) : FVec Ideal S16384x128 .f32 :=
  shapeCast S16384x128 (extractStridedSlice S1x16384x128 ![7, 0, 0] (lvAll E) slices_S8x16384x128_S1x16384x128_7_0_0) shapeCasts_S1x16384x128_S16384x128

/-- A predecessor table made ready for the gather: a negative entry moved up by 16384, then a trailing unit axis. -/
def normIdx (p : IVec S16384x16 32) : IVec S16384x16x1 32 :=
  broadcastInDim S16384x16x1 ![0, 1] bcast_S16384x16_S16384x16x1_0_1 (select (cmpi .slt p (broadcastInDim S16384x16 ![] bcast_S_S16384x16 (constantI S_ 32 0#32))) (addi p (broadcastInDim S16384x16 ![] bcast_S_S16384x16 (constantI S_ 32 16384#32))) p)

/-- Level 1's predecessor table, as the gather reads it: slice 0 of the tables, a negative entry moved up by
    16384, a trailing unit axis. -/
def idx0 (P : IVec S7x16384x16 32) : IVec S16384x16x1 32 :=
  normIdx (shapeCast S16384x16 (extractStridedSlice S1x16384x16 ![0, 0, 0] P slices_S7x16384x16_S1x16384x16_0_0_0) shapeCasts_S1x16384x16_S16384x16)

/-- Level 2's predecessor table, as the gather reads it: slice 1 of the tables, a negative entry moved up by
    16384, a trailing unit axis. -/
def idx1 (P : IVec S7x16384x16 32) : IVec S16384x16x1 32 :=
  normIdx (shapeCast S16384x16 (extractStridedSlice S1x16384x16 ![1, 0, 0] P slices_S7x16384x16_S1x16384x16_1_0_0) shapeCasts_S1x16384x16_S16384x16)

/-- Level 3's predecessor table, as the gather reads it: slice 2 of the tables, a negative entry moved up by
    16384, a trailing unit axis. -/
def idx2 (P : IVec S7x16384x16 32) : IVec S16384x16x1 32 :=
  normIdx (shapeCast S16384x16 (extractStridedSlice S1x16384x16 ![2, 0, 0] P slices_S7x16384x16_S1x16384x16_2_0_0) shapeCasts_S1x16384x16_S16384x16)

/-- Level 4's predecessor table, as the gather reads it: slice 3 of the tables, a negative entry moved up by
    16384, a trailing unit axis. -/
def idx3 (P : IVec S7x16384x16 32) : IVec S16384x16x1 32 :=
  normIdx (shapeCast S16384x16 (extractStridedSlice S1x16384x16 ![3, 0, 0] P slices_S7x16384x16_S1x16384x16_3_0_0) shapeCasts_S1x16384x16_S16384x16)

/-- Level 5's predecessor table, as the gather reads it: slice 4 of the tables, a negative entry moved up by
    16384, a trailing unit axis. -/
def idx4 (P : IVec S7x16384x16 32) : IVec S16384x16x1 32 :=
  normIdx (shapeCast S16384x16 (extractStridedSlice S1x16384x16 ![4, 0, 0] P slices_S7x16384x16_S1x16384x16_4_0_0) shapeCasts_S1x16384x16_S16384x16)

/-- Level 6's predecessor table, as the gather reads it: slice 5 of the tables, a negative entry moved up by
    16384, a trailing unit axis. -/
def idx5 (P : IVec S7x16384x16 32) : IVec S16384x16x1 32 :=
  normIdx (shapeCast S16384x16 (extractStridedSlice S1x16384x16 ![5, 0, 0] P slices_S7x16384x16_S1x16384x16_5_0_0) shapeCasts_S1x16384x16_S16384x16)

/-- Level 7's predecessor table, as the gather reads it: slice 6 of the tables, a negative entry moved up by
    16384, a trailing unit axis. -/
def idx6 (P : IVec S7x16384x16 32) : IVec S16384x16x1 32 :=
  normIdx (shapeCast S16384x16 (extractStridedSlice S1x16384x16 ![6, 0, 0] P slices_S7x16384x16_S1x16384x16_6_0_0) shapeCasts_S1x16384x16_S16384x16)

/-- The summed messages of a level: the 16 gathered rows of the previous level, added up. -/
def msgs (prev : FVec Ideal S16384x128 .f32) (idx : IVec S16384x16x1 32) : FVec Ideal S16384x128 .f32 :=
  Host.reduceAdd (F := Ideal) (Host.gather gather_S16384x128_S16384x16x1_S16384x16x128_2_0_n_n_0_2_1128 prev idx) (constant (F := Ideal) S_ .f32 0x00000000#32) reducesTo_S16384x16x128_S16384x128_d1 h_S_

/-- One dense layer with `tanh`: `tanh (x · Wᵀ + b)`, the weights a [1,128,128] slice and the bias a [1,128] slice. -/
def refLin (x : FVec Ideal S16384x128 .f32) (Ws : FVec Ideal S1x128x128 .f32) (bs : FVec Ideal S1x128 .f32) :
    FVec Ideal S16384x128 .f32 :=
  Host.tanh (F := Ideal) (addf (F := Ideal) (Host.dotGeneral (F := Ideal) dot_S16384x128_S128x128_S16384x128_1_0_0_1_n_n none x (transpose S128x128 [1, 0] (shapeCast S128x128 Ws shapeCasts_S1x128x128_S128x128) transposes_S128x128_S128x128_1_0)) (broadcastInDim S16384x128 ![0, 1] bcast_S1x128_S16384x128_0_1 (broadcastInDim S1x128 ![1] bcast_S128_S1x128_1 (shapeCast S128 bs shapeCasts_S1x128_S128))))

/-- Layers 0, 1, 2 of a nine-layer chain; the input is added back before layer 2. -/
def refR2 (x : FVec Ideal S16384x128 .f32) (W : FVec Ideal S9x128x128 .f32) (b : FVec Ideal S9x128 .f32) :
    FVec Ideal S16384x128 .f32 :=
  refLin (addf (F := Ideal) (refLin (refLin x (extractStridedSlice S1x128x128 ![0, 0, 0] W slices_S9x128x128_S1x128x128_0_0_0) (extractStridedSlice S1x128 ![0, 0] b slices_S9x128_S1x128_0_0)) (extractStridedSlice S1x128x128 ![1, 0, 0] W slices_S9x128x128_S1x128x128_1_0_0) (extractStridedSlice S1x128 ![1, 0] b slices_S9x128_S1x128_1_0)) x) (extractStridedSlice S1x128x128 ![2, 0, 0] W slices_S9x128x128_S1x128x128_2_0_0) (extractStridedSlice S1x128 ![2, 0] b slices_S9x128_S1x128_2_0)

/-- Layers 3, 4, 5; the result of layer 2 is added back before layer 5. -/
def refR5 (x : FVec Ideal S16384x128 .f32) (W : FVec Ideal S9x128x128 .f32) (b : FVec Ideal S9x128 .f32) :
    FVec Ideal S16384x128 .f32 :=
  refLin (addf (F := Ideal) (refLin (refLin (refR2 x W b) (extractStridedSlice S1x128x128 ![3, 0, 0] W slices_S9x128x128_S1x128x128_3_0_0) (extractStridedSlice S1x128 ![3, 0] b slices_S9x128_S1x128_3_0)) (extractStridedSlice S1x128x128 ![4, 0, 0] W slices_S9x128x128_S1x128x128_4_0_0) (extractStridedSlice S1x128 ![4, 0] b slices_S9x128_S1x128_4_0)) (refR2 x W b)) (extractStridedSlice S1x128x128 ![5, 0, 0] W slices_S9x128x128_S1x128x128_5_0_0) (extractStridedSlice S1x128 ![5, 0] b slices_S9x128_S1x128_5_0)

/-- Layers 6, 7, 8; the result of layer 5 is added back before layer 8: the whole nine-layer chain. -/
def refChain (x : FVec Ideal S16384x128 .f32) (W : FVec Ideal S9x128x128 .f32) (b : FVec Ideal S9x128 .f32) :
    FVec Ideal S16384x128 .f32 :=
  refLin (addf (F := Ideal) (refLin (refLin (refR5 x W b) (extractStridedSlice S1x128x128 ![6, 0, 0] W slices_S9x128x128_S1x128x128_6_0_0) (extractStridedSlice S1x128 ![6, 0] b slices_S9x128_S1x128_6_0)) (extractStridedSlice S1x128x128 ![7, 0, 0] W slices_S9x128x128_S1x128x128_7_0_0) (extractStridedSlice S1x128 ![7, 0] b slices_S9x128_S1x128_7_0)) (refR5 x W b)) (extractStridedSlice S1x128x128 ![8, 0, 0] W slices_S9x128x128_S1x128x128_8_0_0) (extractStridedSlice S1x128 ![8, 0] b slices_S9x128_S1x128_8_0)

/-- The node chain's first layer: `tanh ([next | redux] · W0ᵀ + b0)` over the 256 columns of the two arrays side by
    side. -/
def refLin0 (next redux : FVec Ideal S16384x128 .f32) (a5 : FVec Ideal S128x256 .f32) (a6 : FVec Ideal S128 .f32) :
    FVec Ideal S16384x128 .f32 :=
  Host.tanh (F := Ideal) (addf (F := Ideal) (Host.dotGeneral (F := Ideal) dot_S16384x256_S256x128_S16384x128_1_0_0_1_n_n none (concatenate S16384x256 1 [⟨S16384x128, next⟩, ⟨S16384x128, redux⟩] concatenates_S16384x128_S16384x128_S16384x256_d1) (transpose S256x128 [1, 0] a5 transposes_S128x256_S256x128_1_0)) (broadcastInDim S16384x128 ![0, 1] bcast_S1x128_S16384x128_0_1 (broadcastInDim S1x128 ![1] bcast_S128_S1x128_1 a6)))

/-- One level transition: the message chain on the summed messages, the 256-wide layer, the node chain. -/
def refStep (ms next : FVec Ideal S16384x128 .f32) (a3 : FVec Ideal S9x128x128 .f32) (a4 : FVec Ideal S9x128 .f32)
    (a5 : FVec Ideal S128x256 .f32) (a6 : FVec Ideal S128 .f32) (a7 : FVec Ideal S9x128x128 .f32)
    (a8 : FVec Ideal S9x128 .f32) : FVec Ideal S16384x128 .f32 :=
  refChain (refLin0 next (refChain ms a3 a4) a5 a6) a7 a8

section G
variable (a0 : FVec Ideal S131072x32 .f32) (a1 : FVec Ideal S128x32 .f32) (a2 : FVec Ideal S128 .f32)
  (a3 : FVec Ideal S9x128x128 .f32) (a4 : FVec Ideal S9x128 .f32) (a5 : FVec Ideal S128x256 .f32)
  (a6 : FVec Ideal S128 .f32) (a7 : FVec Ideal S9x128x128 .f32) (a8 : FVec Ideal S9x128 .f32)
  (a9 : IVec S7x16384x16 32)

/-- Level 1's result. -/
def o1 : FVec Ideal S16384x128 .f32 :=
  refStep (msgs (lv0 (refEmbed a0 a1 a2)) (idx0 a9)) (lv1 (refEmbed a0 a1 a2)) a3 a4 a5 a6 a7 a8
/-- Level 2's result. -/
def o2 : FVec Ideal S16384x128 .f32 :=
  refStep (msgs (o1 a0 a1 a2 a3 a4 a5 a6 a7 a8 a9) (idx1 a9)) (lv2 (refEmbed a0 a1 a2)) a3 a4 a5 a6 a7 a8
/-- Level 3's result. -/
def o3 : FVec Ideal S16384x128 .f32 :=
  refStep (msgs (o2 a0 a1 a2 a3 a4 a5 a6 a7 a8 a9) (idx2 a9)) (lv3 (refEmbed a0 a1 a2)) a3 a4 a5 a6 a7 a8
/-- Level 4's result. -/
def o4 : FVec Ideal S16384x128 .f32 :=
  refStep (msgs (o3 a0 a1 a2 a3 a4 a5 a6 a7 a8 a9) (idx3 a9)) (lv4 (refEmbed a0 a1 a2)) a3 a4 a5 a6 a7 a8
/-- Level 5's result. -/
def o5 : FVec Ideal S16384x128 .f32 :=
  refStep (msgs (o4 a0 a1 a2 a3 a4 a5 a6 a7 a8 a9) (idx4 a9)) (lv5 (refEmbed a0 a1 a2)) a3 a4 a5 a6 a7 a8
/-- Level 6's result. -/
def o6 : FVec Ideal S16384x128 .f32 :=
  refStep (msgs (o5 a0 a1 a2 a3 a4 a5 a6 a7 a8 a9) (idx5 a9)) (lv6 (refEmbed a0 a1 a2)) a3 a4 a5 a6 a7 a8
/-- Level 7's result. -/
def o7 : FVec Ideal S16384x128 .f32 :=
  refStep (msgs (o6 a0 a1 a2 a3 a4 a5 a6 a7 a8 a9) (idx6 a9)) (lv7 (refEmbed a0 a1 a2)) a3 a4 a5 a6 a7 a8

/-- The reference's result: the eight levels' rows, one level after another. -/
def G : FVec Ideal S131072x128 .f32 :=
  concatenate S131072x128 0 [⟨S16384x128, lv0 (refEmbed a0 a1 a2)⟩, ⟨S16384x128, o1 a0 a1 a2 a3 a4 a5 a6 a7 a8 a9⟩, ⟨S16384x128, o2 a0 a1 a2 a3 a4 a5 a6 a7 a8 a9⟩, ⟨S16384x128, o3 a0 a1 a2 a3 a4 a5 a6 a7 a8 a9⟩, ⟨S16384x128, o4 a0 a1 a2 a3 a4 a5 a6 a7 a8 a9⟩, ⟨S16384x128, o5 a0 a1 a2 a3 a4 a5 a6 a7 a8 a9⟩, ⟨S16384x128, o6 a0 a1 a2 a3 a4 a5 a6 a7 a8 a9⟩, ⟨S16384x128, o7 a0 a1 a2 a3 a4 a5 a6 a7 a8 a9⟩] concatenates_S16384x128_S16384x128_S16384x128_S16384x128_S16384x128_S16384x128_S16384x128_S16384x128_S131072x128_d0

end G

end Cert.RefSpec

end
-- ==== Proof.Ref.Rows.lean ====
/-
  The reference's level function and embedding read at an index, against the row mathematics of `RowSpec.lean`.

  A host product against a transposed weight matrix is, at (r, o), the sum over k of x[r,k] · W[o,k]; a bias vector
  laid along every row is b[o] there; slice i of a stack, reshaped, is the stack at (i, ·, ·); two arrays side by side
  are, row by row, one row after the other. Row r of a layer's result is therefore the row function `lin` of row r of
  its input, and so on up the nine-layer chain and the level.
-/
import Idealize.ShloMosaic.Lib.KernelVsHost
import Idealize.ShloMosaic.Lib.StackMember
import Idealize.ShloMosaic.Lib.ValueLayout
import Idealize.ShloMosaic.Lib.ValueIdx
import Idealize.ShloMosaic.PureOps.Ideal.Laws
import proofs.«122000_j45174466019872_2_alg».proof.Proof.RowSpec
import proofs.«122000_j45174466019872_2_alg».proof.Proof.Ref.Spec

noncomputable section

namespace Cert.RefSpec

open Idealize.ShloMosaic Idealize.ShloMosaic.ValueIdx Idealize.ShloMosaic.StackMember
open Cert.ReferenceIdeal Cert.ReferenceIdeal.Facts₀

variable [Cert.ReferenceIdeal.Facts₀]

/-! ## Layout and product lemmas at literal-size indices -/

/-- A vector laid along every row through a one-row matrix, read at (r, o), is the vector at o. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (r : Fin m) (o : Fin n) :
    broadcastInDim ⟨2, ![m, n]⟩ ![0, 1] h2 (broadcastInDim ⟨2, ![1, n]⟩ ![1] h1 v) (ix2 r o) = v (ix1 o) := by
  rw [broadcastInDim_oneRow_apply h2]
  refine broadcastInDim_apply ![1] h1 v (ix2 (0 : Fin 1) o) (ix1 o) ?_
  intro a
  match a with
  | ⟨0, _⟩ =>
    show o.val = if n = 1 then 0 else o.val
    split_ifs with hn
    · have := o.isLt; omega
    · rfl

/-- A matrix product `A · Bᵀ` (the host's product against the transposed [n,k] matrix), read at (a, b). -/
theorem dotT_apply {m k n : Nat} (w : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (A : FVec Ideal ⟨2, ![m, k]⟩ .f32) (B : FVec Ideal ⟨2, ![n, k]⟩ .f32) (a : Fin m) (b : Fin n) :
    Host.dotGeneral (F := Ideal) (⟨[1], [0], [0], [1], [], [], w⟩ : DotDims _ _ _) none A (transpose ⟨2, ![k, n]⟩ [1, 0] B ht) (ix2 a b)
      = ∑ c : Fin k, A (ix2 a c) * B (ix2 b c) := by
  have e := dotGeneral_plain_apply (m := m) (n := n) (k := k) none A (transpose ⟨2, ![k, n]⟩ [1, 0] B ht) a b
  refine Eq.trans ?_ (e.trans (Finset.sum_congr rfl fun c _ => ?_))
  · rfl
  · rw [transpose_ix2_apply]

/-- Slice `n` of a [9,128,128] stack, read at (0, o, k). -/
theorem wslice_apply (W : FVec Ideal S9x128x128 .f32) (i : Fin 9) (n : Nat) (hn : i.val = n)
    (h : S9x128x128.Slices ![n, 0, 0] S1x128x128) (o k : Fin 128) :
    extractStridedSlice S1x128x128 ![n, 0, 0] W h (ix3 (0 : Fin 1) o k) = W (ix3 i o k) :=
  extractStridedSlice_apply _ _ _ _ _ (fun ax => by
    match ax with
    | ⟨0, _⟩ => show i.val = n + 0; omega
    | ⟨1, _⟩ => show o.val = 0 + o.val; omega
    | ⟨2, _⟩ => show k.val = 0 + k.val; omega)

/-- Slice `n` of a [9,128] stack, read at (0, o). -/
theorem bslice_apply (b : FVec Ideal S9x128 .f32) (i : Fin 9) (n : Nat) (hn : i.val = n)
    (h : S9x128.Slices ![n, 0] S1x128) (o : Fin 128) :
    extractStridedSlice S1x128 ![n, 0] b h (ix2 (0 : Fin 1) o) = b (ix2 i o) :=
  extractStridedSlice_apply _ _ _ _ _ (fun ax => by
    match ax with
    | ⟨0, _⟩ => show i.val = n + 0; omega
    | ⟨1, _⟩ => show o.val = 0 + o.val; omega)

/-! ## Rows -/

/-- Row `r` of a [16384,128] array. -/
abbrev rowOf (x : FVec Ideal S16384x128 .f32) (r : Fin 16384) : Cert.RowSpec.Row := fun k => x (ix2 r k)
/-- A [9,128,128] stack as a family of matrices. -/
abbrev wOf (W : FVec Ideal S9x128x128 .f32) : Fin 9 → Fin 128 → Fin 128 → EReal := fun l o k => W (ix3 l o k)
/-- A [9,128] stack as a family of rows. -/
abbrev bOf (b : FVec Ideal S9x128 .f32) : Fin 9 → Cert.RowSpec.Row := fun l o => b (ix2 l o)

/-- One dense layer read at an index: `tanh (∑ k, x[r,k] · W[0,o,k] + b[0,o])`. -/
theorem refLin_apply (x : FVec Ideal S16384x128 .f32) (Ws : FVec Ideal S1x128x128 .f32) (bs : FVec Ideal S1x128 .f32)
    (r : Fin 16384) (o : Fin 128) :
    refLin x Ws bs (ix2 r o)
      = Ideal.tanh ((∑ k : Fin 128, x (ix2 r k) * Ws (ix3 (0 : Fin 1) o k)) + bs (ix2 (0 : Fin 1) o)) := by
  unfold refLin
  show Ideal.tanh (_ + _) = _
  congr 2
  · refine (dotT_apply dot_S16384x128_S128x128_S16384x128_1_0_0_1_n_n_wf transposes_S128x128_S128x128_1_0 x _ r o).trans ?_
    refine Finset.sum_congr rfl fun c _ => ?_
    rw [shapeCast_1ab_ab_apply]
  · refine (bias_apply bcast_S128_S1x128_1 bcast_S1x128_S16384x128_0_1 _ r o).trans ?_
    exact shapeCast_1a_a_apply _ _ o

/-- Layer `i` of a stack, on rows. -/
theorem rowOf_refLin (x : FVec Ideal S16384x128 .f32) (W : FVec Ideal S9x128x128 .f32) (b : FVec Ideal S9x128 .f32)
    (i : Fin 9) (n : Nat) (hn : i.val = n) (hW : S9x128x128.Slices ![n, 0, 0] S1x128x128)
    (hb : S9x128.Slices ![n, 0] S1x128) (r : Fin 16384) :
    rowOf (refLin x (extractStridedSlice S1x128x128 ![n, 0, 0] W hW) (extractStridedSlice S1x128 ![n, 0] b hb)) r
      = Cert.RowSpec.lin (wOf W i) (bOf b i) (rowOf x r) := by
  funext o
  show refLin x _ _ (ix2 r o) = _
  rw [refLin_apply, bslice_apply b i n hn hb o]
  unfold Cert.RowSpec.lin
  congr 2
  refine Finset.sum_congr rfl fun k _ => ?_
  rw [wslice_apply W i n hn hW o k]

theorem rowOf_addf (a b : FVec Ideal S16384x128 .f32) (r : Fin 16384) :
    rowOf (addf (F := Ideal) a b) r = Cert.RowSpec.radd (rowOf a r) (rowOf b r) := rfl

theorem rowOf_refR2 (x : FVec Ideal S16384x128 .f32) (W : FVec Ideal S9x128x128 .f32) (b : FVec Ideal S9x128 .f32)
    (r : Fin 16384) : rowOf (refR2 x W b) r = Cert.RowSpec.r2 (wOf W) (bOf b) (rowOf x r) := by
  unfold refR2 Cert.RowSpec.r2
  rw [rowOf_refLin _ W b 2 2 rfl, rowOf_addf, rowOf_refLin _ W b 1 1 rfl, rowOf_refLin _ W b 0 0 rfl]

theorem rowOf_refR5 (x : FVec Ideal S16384x128 .f32) (W : FVec Ideal S9x128x128 .f32) (b : FVec Ideal S9x128 .f32)
    (r : Fin 16384) : rowOf (refR5 x W b) r = Cert.RowSpec.r5 (wOf W) (bOf b) (rowOf x r) := by
  unfold refR5 Cert.RowSpec.r5
  rw [rowOf_refLin _ W b 5 5 rfl, rowOf_addf, rowOf_refLin _ W b 4 4 rfl, rowOf_refLin _ W b 3 3 rfl, rowOf_refR2]

theorem rowOf_refChain (x : FVec Ideal S16384x128 .f32) (W : FVec Ideal S9x128x128 .f32) (b : FVec Ideal S9x128 .f32)
    (r : Fin 16384) : rowOf (refChain x W b) r = Cert.RowSpec.chain9 (wOf W) (bOf b) (rowOf x r) := by
  unfold refChain Cert.RowSpec.chain9
  rw [rowOf_refLin _ W b 8 8 rfl, rowOf_addf, rowOf_refLin _ W b 7 7 rfl, rowOf_refLin _ W b 6 6 rfl, rowOf_refR5]

/-- Two [16384,128] arrays side by side, read at (r, c): row `r` of the first then row `r` of the second. -/
theorem concat_apply (next redux : FVec Ideal S16384x128 .f32) (r : Fin 16384) (c : Fin 256) :
    concatenate S16384x256 1 [⟨S16384x128, next⟩, ⟨S16384x128, redux⟩] concatenates_S16384x128_S16384x128_S16384x256_d1 (ix2 r c)
      = Cert.RowSpec.cat (rowOf next r) (rowOf redux r) c := by
  unfold Cert.RowSpec.cat
  by_cases h : c.val < 128
  · rw [dif_pos h]
    exact concatenate_pair_apply_left (t := S16384x256) (s₁ := S16384x128) (s₂ := S16384x128) 1 next redux _ (ix2 r c) rfl
      (ix2 r (⟨c.val, h⟩ : Fin 128)) (fun b => by
        match b with
        | ⟨0, _⟩ => rfl
        | ⟨1, _⟩ => rfl)
  · rw [dif_neg h]
    exact concatenate_pair_apply_right (t := S16384x256) (s₁ := S16384x128) (s₂ := S16384x128) 1 next redux _ (ix2 r c) rfl rfl
      (ix2 r (⟨c.val - 128, by have := c.isLt; omega⟩ : Fin 128)) (fun b hb => by
        match b with
        | ⟨0, _⟩ => rfl
        | ⟨1, _⟩ => exact absurd rfl hb) (by
        show (c.val - 128) + 128 = c.val
        omega)

/-- The 256-wide layer, on rows. -/
theorem rowOf_refLin0 (next redux : FVec Ideal S16384x128 .f32) (a5 : FVec Ideal S128x256 .f32) (a6 : FVec Ideal S128 .f32)
    (r : Fin 16384) :
    rowOf (refLin0 next redux a5 a6) r
      = Cert.RowSpec.lin0 (fun o k => a5 (ix2 o k)) (fun o => a6 (ix1 o)) (rowOf next r) (rowOf redux r) := by
  funext o
  show refLin0 next redux a5 a6 (ix2 r o) = _
  unfold refLin0 Cert.RowSpec.lin0
  show Ideal.tanh (_ + _) = _
  congr 2
  · refine (dotT_apply dot_S16384x256_S256x128_S16384x128_1_0_0_1_n_n_wf transposes_S128x256_S256x128_1_0 _ a5 r o).trans ?_
    refine Finset.sum_congr rfl fun c _ => ?_
    rw [concat_apply]
  · exact bias_apply bcast_S128_S1x128_1 bcast_S1x128_S16384x128_0_1 a6 r o

/-- One level transition read at an index: the level function of row `r` of the summed messages and row `r` of
    the next level's embeddings. -/
theorem refStep_apply (msgs next : FVec Ideal S16384x128 .f32) (a3 : FVec Ideal S9x128x128 .f32) (a4 : FVec Ideal S9x128 .f32)
    (a5 : FVec Ideal S128x256 .f32) (a6 : FVec Ideal S128 .f32) (a7 : FVec Ideal S9x128x128 .f32)
    (a8 : FVec Ideal S9x128 .f32) (r : Fin 16384) (o : Fin 128) :
    Cert.RefSpec.refStep msgs next a3 a4 a5 a6 a7 a8 (ValueIdx.ix2 r o)
      = Cert.RowSpec.step (fun l o k => a3 (ValueIdx.ix3 l o k)) (fun l o => a4 (ValueIdx.ix2 l o))
          (fun o k => a5 (ValueIdx.ix2 o k)) (fun o => a6 (ValueIdx.ix1 o))
          (fun l o k => a7 (ValueIdx.ix3 l o k)) (fun l o => a8 (ValueIdx.ix2 l o))
          (fun k => msgs (ValueIdx.ix2 r k)) (fun k => next (ValueIdx.ix2 r k)) o := by
  show rowOf (refStep msgs next a3 a4 a5 a6 a7 a8) r o = _
  unfold refStep Cert.RowSpec.step
  rw [rowOf_refChain, rowOf_refLin0, rowOf_refChain]

/-- The embedding read at an index: one layer over the 32 features of node `r`. -/
theorem refEmbed_apply (a0 : FVec Ideal S131072x32 .f32) (a1 : FVec Ideal S128x32 .f32) (a2 : FVec Ideal S128 .f32)
    (r : Fin 131072) (o : Fin 128) :
    Cert.RefSpec.refEmbed a0 a1 a2 (ValueIdx.ix2 r o)
      = Cert.RowSpec.embedRow (fun o k => a1 (ValueIdx.ix2 o k)) (fun o => a2 (ValueIdx.ix1 o))
          (fun k => a0 (ValueIdx.ix2 r k)) o := by
  unfold refEmbed Cert.RowSpec.embedRow
  show Ideal.tanh (_ + _) = _
  congr 2
  · exact dotT_apply dot_S131072x32_S32x128_S131072x128_1_0_0_1_n_n_wf transposes_S128x32_S32x128_1_0 a0 a1 r o
  · exact bias_apply bcast_S128_S1x128_1 bcast_S1x128_S131072x128_0_1 a2 r o

end Cert.RefSpec

end
-- ==== Proof.KI.Values.lean ====
/-
  What each buffer holds at each boundary of the kernel program's run, as the reference's functions of the
  argument arrays.

  Region 0 leaves the embedding of the feature array. A host stretch reshapes it into eight levels, takes level 0
  and the next level, and sums, for every node of the next level, the sixteen gathered rows of the level before;
  region K turns the sums and the next level's embeddings into level K's result, which by the body's row form and
  the tiling of the blocks is the reference's level function of those two arrays and the weights. The weights
  reach every region through a change of float format, which is the identity on the extended reals. A buffer
  nobody writes between two boundaries holds the same contents at both (`walk_back`). The last stretch lays the
  eight levels one after another: the reference's result `G` of the argument arrays.
-/
import proofs.«122000_j45174466019872_2_alg».proof.Proof.KI.Frame
import proofs.«122000_j45174466019872_2_alg».proof.Proof.KI.Array0
import proofs.«122000_j45174466019872_2_alg».proof.Proof.KI.Array1
import proofs.«122000_j45174466019872_2_alg».proof.Proof.KI.Array2
import proofs.«122000_j45174466019872_2_alg».proof.Proof.KI.Array3
import proofs.«122000_j45174466019872_2_alg».proof.Proof.KI.Array4
import proofs.«122000_j45174466019872_2_alg».proof.Proof.KI.Array5
import proofs.«122000_j45174466019872_2_alg».proof.Proof.KI.Array6
import proofs.«122000_j45174466019872_2_alg».proof.Proof.KI.Array7
import proofs.«122000_j45174466019872_2_alg».proof.Proof.Ref.Spec
import proofs.«122000_j45174466019872_2_alg».proof.Proof.Ref.Rows
import Idealize.ShloMosaic.Lib.StableHlo.Run

set_option maxHeartbeats 1000000

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.RefSpec

variable [Cert.ReferenceIdeal.Facts₀]

/-- The level function on whole arrays is the reference's level function (both are the row function of each row). -/
theorem kstep_eq_refStep (x0 x1 : S16384x128.Idx → EReal) (x2 : S9x128x128.Idx → EReal) (x3 : S9x128.Idx → EReal)
    (x4 : S128x256.Idx → EReal) (x5 : S128.Idx → EReal) (x6 : S9x128x128.Idx → EReal) (x7 : S9x128.Idx → EReal) :
    kstep x0 x1 x2 x3 x4 x5 x6 x7 = refStep x0 x1 x2 x3 x4 x5 x6 x7 := by
  funext i
  obtain ⟨r, o, rfl⟩ : ∃ (r : Fin 16384) (o : Fin 128), i = ix2 r o := ⟨i 0, i 1, eq_ix2 i⟩
  rw [refStep_apply]
  rfl

/-- The embedding on whole arrays is the reference's embedding. -/
theorem kembed_eq_refEmbed (x0 : S131072x32.Idx → EReal) (x1 : S128x32.Idx → EReal) (x2 : S128.Idx → EReal) :
    kembed x0 x1 x2 = refEmbed x0 x1 x2 := by
  funext i
  obtain ⟨r, o, rfl⟩ : ∃ (r : Fin 131072) (o : Fin 128), i = ix2 r o := ⟨i 0, i 1, eq_ix2 i⟩
  rw [refEmbed_apply]
  rfl

variable (m : (ℓ : Loc nD τ sig) → Buf (Elt Ideal) ℓ) (ρ : Dev nD → PrngReg) (c : Dev nD)

/-- A buffer's contents walked back through the boundaries at which nobody writes it. -/
macro "walk_back" : tactic => `(tactic| repeat (first
    | (rw [W16_of]; rotate_left; decide)
    | (rw [W15_other]; rotate_left; decide)
    | (rw [W14_of]; rotate_left; decide)
    | (rw [W13_other]; rotate_left; decide)
    | (rw [W12_of]; rotate_left; decide)
    | (rw [W11_other]; rotate_left; decide)
    | (rw [W10_of]; rotate_left; decide)
    | (rw [W9_other]; rotate_left; decide)
    | (rw [W8_of]; rotate_left; decide)
    | (rw [W7_other]; rotate_left; decide)
    | (rw [W6_of]; rotate_left; decide)
    | (rw [W5_other]; rotate_left; decide)
    | (rw [W4_of]; rotate_left; decide)
    | (rw [W3_other]; rotate_left; decide)
    | (rw [W2_of]; rotate_left; decide)
    | (rw [W1_other]; rotate_left; decide)))

/-- The argument arrays at launch. -/
abbrev a0 : S131072x32.Idx → EReal := m ((c.tc : Thread nD τ).loc main_arg0)
abbrev a1 : S128x32.Idx → EReal := m ((c.tc : Thread nD τ).loc main_arg1)
abbrev a2 : S128.Idx → EReal := m ((c.tc : Thread nD τ).loc main_arg2)
abbrev a3 : S9x128x128.Idx → EReal := m ((c.tc : Thread nD τ).loc main_arg3)
abbrev a4 : S9x128.Idx → EReal := m ((c.tc : Thread nD τ).loc main_arg4)
abbrev a5 : S128x256.Idx → EReal := m ((c.tc : Thread nD τ).loc main_arg5)
abbrev a6 : S128.Idx → EReal := m ((c.tc : Thread nD τ).loc main_arg6)
abbrev a7 : S9x128x128.Idx → EReal := m ((c.tc : Thread nD τ).loc main_arg7)
abbrev a8 : S9x128.Idx → EReal := m ((c.tc : Thread nD τ).loc main_arg8)
abbrev a9 : S7x16384x16.Idx → BitVec 32 := m ((c.tc : Thread nD τ).loc main_arg9)

/-- The embeddings of all nodes. -/
abbrev EE : S131072x128.Idx → EReal := refEmbed (a0 m c) (a1 m c) (a2 m c)

/-! ## Region 0 and the first stretch -/

theorem w1_v0 : W1 m ρ c (Proc.devRef .tc main_v0) = EE m c := by
  rw [W1_out, final0 (B0 m ρ) c, kembed_eq_refEmbed]

theorem w2_v1 : W2 m ρ c (Proc.devRef .tc main_v1) = lvAll (EE m c) := by
  unfold W2 hostOps1
  after_results
  rw [w1_v0]
  rfl

theorem w2_v2 : W2 m ρ c (Proc.devRef .tc main_v2) = a3 m c := by
  unfold W2 hostOps1
  after_results
  walk_back
  rfl

theorem w2_v3 : W2 m ρ c (Proc.devRef .tc main_v3) = a5 m c := by
  unfold W2 hostOps1
  after_results
  walk_back
  rfl

theorem w2_v4 : W2 m ρ c (Proc.devRef .tc main_v4) = a7 m c := by
  unfold W2 hostOps1
  after_results
  walk_back
  rfl

theorem w2_v6 : W2 m ρ c (Proc.devRef .tc main_v6) = lv0 (EE m c) := by
  unfold W2 hostOps1
  after_results
  rw [w1_v0]
  rfl

theorem w2_v16 : W2 m ρ c (Proc.devRef .tc main_v16) = msgs (lv0 (EE m c)) (idx0 (a9 m c)) := by
  unfold W2 hostOps1
  after_results
  rw [w1_v0]
  walk_back
  rfl

theorem w2_v18 : W2 m ρ c (Proc.devRef .tc main_v18) = lv1 (EE m c) := by
  unfold W2 hostOps1
  after_results
  rw [w1_v0]
  rfl

/-! ## Level 1 -/

theorem w3_v19 : W3 m ρ c (Proc.devRef .tc main_v19)
    = o1 (a0 m c) (a1 m c) (a2 m c) (a3 m c) (a4 m c) (a5 m c) (a6 m c) (a7 m c) (a8 m c) (a9 m c) := by
  rw [W3_out, final1 (B2 m ρ) c]
  have e0 : B2 m ρ c (Pipeline.arrRef spec1 0) = msgs (lv0 (EE m c)) (idx0 (a9 m c)) := w2_v16 m ρ c
  have e1 : B2 m ρ c (Pipeline.arrRef spec1 1) = lv1 (EE m c) := w2_v18 m ρ c
  have e2 : B2 m ρ c (Pipeline.arrRef spec1 2) = a3 m c := by
    show W2 m ρ c (Proc.devRef .tc main_v2) = _
    walk_back
    exact w2_v2 m ρ c
  have e3 : B2 m ρ c (Pipeline.arrRef spec1 3) = a4 m c := by
    show W2 m ρ c (Proc.devRef .tc main_arg4) = _
    walk_back
  have e4 : B2 m ρ c (Pipeline.arrRef spec1 4) = a5 m c := by
    show W2 m ρ c (Proc.devRef .tc main_v3) = _
    walk_back
    exact w2_v3 m ρ c
  have e5 : B2 m ρ c (Pipeline.arrRef spec1 5) = a6 m c := by
    show W2 m ρ c (Proc.devRef .tc main_arg6) = _
    walk_back
  have e6 : B2 m ρ c (Pipeline.arrRef spec1 6) = a7 m c := by
    show W2 m ρ c (Proc.devRef .tc main_v4) = _
    walk_back
    exact w2_v4 m ρ c
  have e7 : B2 m ρ c (Pipeline.arrRef spec1 7) = a8 m c := by
    show W2 m ρ c (Proc.devRef .tc main_arg8) = _
    walk_back
  rw [e0, e1, e2, e3, e4, e5, e6, e7, kstep_eq_refStep]
  rfl

/-! ## Level 2 -/

theorem w4_v29 : W4 m ρ c (Proc.devRef .tc main_v29) = msgs (o1 (a0 m c) (a1 m c) (a2 m c) (a3 m c) (a4 m c) (a5 m c) (a6 m c) (a7 m c) (a8 m c) (a9 m c)) (idx1 (a9 m c)) := by
  unfold W4 hostOps2
  after_results
  rw [w3_v19]
  walk_back
  rfl

theorem w4_v31 : W4 m ρ c (Proc.devRef .tc main_v31) = lv2 (EE m c) := by
  unfold W4 hostOps2
  after_results
  walk_back
  rw [w2_v1]
  rfl

theorem w5_v32 : W5 m ρ c (Proc.devRef .tc main_v32)
    = o2 (a0 m c) (a1 m c) (a2 m c) (a3 m c) (a4 m c) (a5 m c) (a6 m c) (a7 m c) (a8 m c) (a9 m c) := by
  rw [W5_out, final2 (B4 m ρ) c]
  have e0 : B4 m ρ c (Pipeline.arrRef spec2 0) = msgs (o1 (a0 m c) (a1 m c) (a2 m c) (a3 m c) (a4 m c) (a5 m c) (a6 m c) (a7 m c) (a8 m c) (a9 m c)) (idx1 (a9 m c)) := w4_v29 m ρ c
  have e1 : B4 m ρ c (Pipeline.arrRef spec2 1) = lv2 (EE m c) := w4_v31 m ρ c
  have e2 : B4 m ρ c (Pipeline.arrRef spec2 2) = a3 m c := by
    show W4 m ρ c (Proc.devRef .tc main_v2) = _
    walk_back
    exact w2_v2 m ρ c
  have e3 : B4 m ρ c (Pipeline.arrRef spec2 3) = a4 m c := by
    show W4 m ρ c (Proc.devRef .tc main_arg4) = _
    walk_back
  have e4 : B4 m ρ c (Pipeline.arrRef spec2 4) = a5 m c := by
    show W4 m ρ c (Proc.devRef .tc main_v3) = _
    walk_back
    exact w2_v3 m ρ c
  have e5 : B4 m ρ c (Pipeline.arrRef spec2 5) = a6 m c := by
    show W4 m ρ c (Proc.devRef .tc main_arg6) = _
    walk_back
  have e6 : B4 m ρ c (Pipeline.arrRef spec2 6) = a7 m c := by
    show W4 m ρ c (Proc.devRef .tc main_v4) = _
    walk_back
    exact w2_v4 m ρ c
  have e7 : B4 m ρ c (Pipeline.arrRef spec2 7) = a8 m c := by
    show W4 m ρ c (Proc.devRef .tc main_arg8) = _
    walk_back
  rw [e0, e1, e2, e3, e4, e5, e6, e7, kstep_eq_refStep]
  rfl

/-! ## Level 3 -/

theorem w6_v42 : W6 m ρ c (Proc.devRef .tc main_v42) = msgs (o2 (a0 m c) (a1 m c) (a2 m c) (a3 m c) (a4 m c) (a5 m c) (a6 m c) (a7 m c) (a8 m c) (a9 m c)) (idx2 (a9 m c)) := by
  unfold W6 hostOps3
  after_results
  rw [w5_v32]
  walk_back
  rfl

theorem w6_v44 : W6 m ρ c (Proc.devRef .tc main_v44) = lv3 (EE m c) := by
  unfold W6 hostOps3
  after_results
  walk_back
  rw [w2_v1]
  rfl

theorem w7_v45 : W7 m ρ c (Proc.devRef .tc main_v45)
    = o3 (a0 m c) (a1 m c) (a2 m c) (a3 m c) (a4 m c) (a5 m c) (a6 m c) (a7 m c) (a8 m c) (a9 m c) := by
  rw [W7_out, final3 (B6 m ρ) c]
  have e0 : B6 m ρ c (Pipeline.arrRef spec3 0) = msgs (o2 (a0 m c) (a1 m c) (a2 m c) (a3 m c) (a4 m c) (a5 m c) (a6 m c) (a7 m c) (a8 m c) (a9 m c)) (idx2 (a9 m c)) := w6_v42 m ρ c
  have e1 : B6 m ρ c (Pipeline.arrRef spec3 1) = lv3 (EE m c) := w6_v44 m ρ c
  have e2 : B6 m ρ c (Pipeline.arrRef spec3 2) = a3 m c := by
    show W6 m ρ c (Proc.devRef .tc main_v2) = _
    walk_back
    exact w2_v2 m ρ c
  have e3 : B6 m ρ c (Pipeline.arrRef spec3 3) = a4 m c := by
    show W6 m ρ c (Proc.devRef .tc main_arg4) = _
    walk_back
  have e4 : B6 m ρ c (Pipeline.arrRef spec3 4) = a5 m c := by
    show W6 m ρ c (Proc.devRef .tc main_v3) = _
    walk_back
    exact w2_v3 m ρ c
  have e5 : B6 m ρ c (Pipeline.arrRef spec3 5) = a6 m c := by
    show W6 m ρ c (Proc.devRef .tc main_arg6) = _
    walk_back
  have e6 : B6 m ρ c (Pipeline.arrRef spec3 6) = a7 m c := by
    show W6 m ρ c (Proc.devRef .tc main_v4) = _
    walk_back
    exact w2_v4 m ρ c
  have e7 : B6 m ρ c (Pipeline.arrRef spec3 7) = a8 m c := by
    show W6 m ρ c (Proc.devRef .tc main_arg8) = _
    walk_back
  rw [e0, e1, e2, e3, e4, e5, e6, e7, kstep_eq_refStep]
  rfl

/-! ## Level 4 -/

theorem w8_v55 : W8 m ρ c (Proc.devRef .tc main_v55) = msgs (o3 (a0 m c) (a1 m c) (a2 m c) (a3 m c) (a4 m c) (a5 m c) (a6 m c) (a7 m c) (a8 m c) (a9 m c)) (idx3 (a9 m c)) := by
  unfold W8 hostOps4
  after_results
  rw [w7_v45]
  walk_back
  rfl

theorem w8_v57 : W8 m ρ c (Proc.devRef .tc main_v57) = lv4 (EE m c) := by
  unfold W8 hostOps4
  after_results
  walk_back
  rw [w2_v1]
  rfl

theorem w9_v58 : W9 m ρ c (Proc.devRef .tc main_v58)
    = o4 (a0 m c) (a1 m c) (a2 m c) (a3 m c) (a4 m c) (a5 m c) (a6 m c) (a7 m c) (a8 m c) (a9 m c) := by
  rw [W9_out, final4 (B8 m ρ) c]
  have e0 : B8 m ρ c (Pipeline.arrRef spec4 0) = msgs (o3 (a0 m c) (a1 m c) (a2 m c) (a3 m c) (a4 m c) (a5 m c) (a6 m c) (a7 m c) (a8 m c) (a9 m c)) (idx3 (a9 m c)) := w8_v55 m ρ c
  have e1 : B8 m ρ c (Pipeline.arrRef spec4 1) = lv4 (EE m c) := w8_v57 m ρ c
  have e2 : B8 m ρ c (Pipeline.arrRef spec4 2) = a3 m c := by
    show W8 m ρ c (Proc.devRef .tc main_v2) = _
    walk_back
    exact w2_v2 m ρ c
  have e3 : B8 m ρ c (Pipeline.arrRef spec4 3) = a4 m c := by
    show W8 m ρ c (Proc.devRef .tc main_arg4) = _
    walk_back
  have e4 : B8 m ρ c (Pipeline.arrRef spec4 4) = a5 m c := by
    show W8 m ρ c (Proc.devRef .tc main_v3) = _
    walk_back
    exact w2_v3 m ρ c
  have e5 : B8 m ρ c (Pipeline.arrRef spec4 5) = a6 m c := by
    show W8 m ρ c (Proc.devRef .tc main_arg6) = _
    walk_back
  have e6 : B8 m ρ c (Pipeline.arrRef spec4 6) = a7 m c := by
    show W8 m ρ c (Proc.devRef .tc main_v4) = _
    walk_back
    exact w2_v4 m ρ c
  have e7 : B8 m ρ c (Pipeline.arrRef spec4 7) = a8 m c := by
    show W8 m ρ c (Proc.devRef .tc main_arg8) = _
    walk_back
  rw [e0, e1, e2, e3, e4, e5, e6, e7, kstep_eq_refStep]
  rfl

/-! ## Level 5 -/

theorem w10_v68 : W10 m ρ c (Proc.devRef .tc main_v68) = msgs (o4 (a0 m c) (a1 m c) (a2 m c) (a3 m c) (a4 m c) (a5 m c) (a6 m c) (a7 m c) (a8 m c) (a9 m c)) (idx4 (a9 m c)) := by
  unfold W10 hostOps5
  after_results
  rw [w9_v58]
  walk_back
  rfl

theorem w10_v70 : W10 m ρ c (Proc.devRef .tc main_v70) = lv5 (EE m c) := by
  unfold W10 hostOps5
  after_results
  walk_back
  rw [w2_v1]
  rfl

theorem w11_v71 : W11 m ρ c (Proc.devRef .tc main_v71)
    = o5 (a0 m c) (a1 m c) (a2 m c) (a3 m c) (a4 m c) (a5 m c) (a6 m c) (a7 m c) (a8 m c) (a9 m c) := by
  rw [W11_out, final5 (B10 m ρ) c]
  have e0 : B10 m ρ c (Pipeline.arrRef spec5 0) = msgs (o4 (a0 m c) (a1 m c) (a2 m c) (a3 m c) (a4 m c) (a5 m c) (a6 m c) (a7 m c) (a8 m c) (a9 m c)) (idx4 (a9 m c)) := w10_v68 m ρ c
  have e1 : B10 m ρ c (Pipeline.arrRef spec5 1) = lv5 (EE m c) := w10_v70 m ρ c
  have e2 : B10 m ρ c (Pipeline.arrRef spec5 2) = a3 m c := by
    show W10 m ρ c (Proc.devRef .tc main_v2) = _
    walk_back
    exact w2_v2 m ρ c
  have e3 : B10 m ρ c (Pipeline.arrRef spec5 3) = a4 m c := by
    show W10 m ρ c (Proc.devRef .tc main_arg4) = _
    walk_back
  have e4 : B10 m ρ c (Pipeline.arrRef spec5 4) = a5 m c := by
    show W10 m ρ c (Proc.devRef .tc main_v3) = _
    walk_back
    exact w2_v3 m ρ c
  have e5 : B10 m ρ c (Pipeline.arrRef spec5 5) = a6 m c := by
    show W10 m ρ c (Proc.devRef .tc main_arg6) = _
    walk_back
  have e6 : B10 m ρ c (Pipeline.arrRef spec5 6) = a7 m c := by
    show W10 m ρ c (Proc.devRef .tc main_v4) = _
    walk_back
    exact w2_v4 m ρ c
  have e7 : B10 m ρ c (Pipeline.arrRef spec5 7) = a8 m c := by
    show W10 m ρ c (Proc.devRef .tc main_arg8) = _
    walk_back
  rw [e0, e1, e2, e3, e4, e5, e6, e7, kstep_eq_refStep]
  rfl

/-! ## Level 6 -/

theorem w12_v81 : W12 m ρ c (Proc.devRef .tc main_v81) = msgs (o5 (a0 m c) (a1 m c) (a2 m c) (a3 m c) (a4 m c) (a5 m c) (a6 m c) (a7 m c) (a8 m c) (a9 m c)) (idx5 (a9 m c)) := by
  unfold W12 hostOps6
  after_results
  rw [w11_v71]
  walk_back
  rfl

theorem w12_v83 : W12 m ρ c (Proc.devRef .tc main_v83) = lv6 (EE m c) := by
  unfold W12 hostOps6
  after_results
  walk_back
  rw [w2_v1]
  rfl

theorem w13_v84 : W13 m ρ c (Proc.devRef .tc main_v84)
    = o6 (a0 m c) (a1 m c) (a2 m c) (a3 m c) (a4 m c) (a5 m c) (a6 m c) (a7 m c) (a8 m c) (a9 m c) := by
  rw [W13_out, final6 (B12 m ρ) c]
  have e0 : B12 m ρ c (Pipeline.arrRef spec6 0) = msgs (o5 (a0 m c) (a1 m c) (a2 m c) (a3 m c) (a4 m c) (a5 m c) (a6 m c) (a7 m c) (a8 m c) (a9 m c)) (idx5 (a9 m c)) := w12_v81 m ρ c
  have e1 : B12 m ρ c (Pipeline.arrRef spec6 1) = lv6 (EE m c) := w12_v83 m ρ c
  have e2 : B12 m ρ c (Pipeline.arrRef spec6 2) = a3 m c := by
    show W12 m ρ c (Proc.devRef .tc main_v2) = _
    walk_back
    exact w2_v2 m ρ c
  have e3 : B12 m ρ c (Pipeline.arrRef spec6 3) = a4 m c := by
    show W12 m ρ c (Proc.devRef .tc main_arg4) = _
    walk_back
  have e4 : B12 m ρ c (Pipeline.arrRef spec6 4) = a5 m c := by
    show W12 m ρ c (Proc.devRef .tc main_v3) = _
    walk_back
    exact w2_v3 m ρ c
  have e5 : B12 m ρ c (Pipeline.arrRef spec6 5) = a6 m c := by
    show W12 m ρ c (Proc.devRef .tc main_arg6) = _
    walk_back
  have e6 : B12 m ρ c (Pipeline.arrRef spec6 6) = a7 m c := by
    show W12 m ρ c (Proc.devRef .tc main_v4) = _
    walk_back
    exact w2_v4 m ρ c
  have e7 : B12 m ρ c (Pipeline.arrRef spec6 7) = a8 m c := by
    show W12 m ρ c (Proc.devRef .tc main_arg8) = _
    walk_back
  rw [e0, e1, e2, e3, e4, e5, e6, e7, kstep_eq_refStep]
  rfl

/-! ## Level 7 -/

theorem w14_v94 : W14 m ρ c (Proc.devRef .tc main_v94) = msgs (o6 (a0 m c) (a1 m c) (a2 m c) (a3 m c) (a4 m c) (a5 m c) (a6 m c) (a7 m c) (a8 m c) (a9 m c)) (idx6 (a9 m c)) := by
  unfold W14 hostOps7
  after_results
  rw [w13_v84]
  walk_back
  rfl

theorem w14_v96 : W14 m ρ c (Proc.devRef .tc main_v96) = lv7 (EE m c) := by
  unfold W14 hostOps7
  after_results
  walk_back
  rw [w2_v1]
  rfl

theorem w15_v97 : W15 m ρ c (Proc.devRef .tc main_v97)
    = o7 (a0 m c) (a1 m c) (a2 m c) (a3 m c) (a4 m c) (a5 m c) (a6 m c) (a7 m c) (a8 m c) (a9 m c) := by
  rw [W15_out, final7 (B14 m ρ) c]
  have e0 : B14 m ρ c (Pipeline.arrRef spec7 0) = msgs (o6 (a0 m c) (a1 m c) (a2 m c) (a3 m c) (a4 m c) (a5 m c) (a6 m c) (a7 m c) (a8 m c) (a9 m c)) (idx6 (a9 m c)) := w14_v94 m ρ c
  have e1 : B14 m ρ c (Pipeline.arrRef spec7 1) = lv7 (EE m c) := w14_v96 m ρ c
  have e2 : B14 m ρ c (Pipeline.arrRef spec7 2) = a3 m c := by
    show W14 m ρ c (Proc.devRef .tc main_v2) = _
    walk_back
    exact w2_v2 m ρ c
  have e3 : B14 m ρ c (Pipeline.arrRef spec7 3) = a4 m c := by
    show W14 m ρ c (Proc.devRef .tc main_arg4) = _
    walk_back
  have e4 : B14 m ρ c (Pipeline.arrRef spec7 4) = a5 m c := by
    show W14 m ρ c (Proc.devRef .tc main_v3) = _
    walk_back
    exact w2_v3 m ρ c
  have e5 : B14 m ρ c (Pipeline.arrRef spec7 5) = a6 m c := by
    show W14 m ρ c (Proc.devRef .tc main_arg6) = _
    walk_back
  have e6 : B14 m ρ c (Pipeline.arrRef spec7 6) = a7 m c := by
    show W14 m ρ c (Proc.devRef .tc main_v4) = _
    walk_back
    exact w2_v4 m ρ c
  have e7 : B14 m ρ c (Pipeline.arrRef spec7 7) = a8 m c := by
    show W14 m ρ c (Proc.devRef .tc main_arg8) = _
    walk_back
  rw [e0, e1, e2, e3, e4, e5, e6, e7, kstep_eq_refStep]
  rfl

/-! ## The last stretch -/

/-- THE RESULT of the kernel program's run: the reference's function `G` of the argument arrays. -/
theorem w16_v98 : W16 m ρ c (Proc.devRef .tc main_v98)
    = G (a0 m c) (a1 m c) (a2 m c) (a3 m c) (a4 m c) (a5 m c) (a6 m c) (a7 m c) (a8 m c) (a9 m c) := by
  have h6 : W15 m ρ c (Proc.devRef .tc main_v6) = lv0 (EE m c) := by
    walk_back
    exact w2_v6 m ρ c
  have h19 : W15 m ρ c (Proc.devRef .tc main_v19) = o1 (a0 m c) (a1 m c) (a2 m c) (a3 m c) (a4 m c) (a5 m c) (a6 m c) (a7 m c) (a8 m c) (a9 m c) := by
    walk_back
    exact w3_v19 m ρ c
  have h32 : W15 m ρ c (Proc.devRef .tc main_v32) = o2 (a0 m c) (a1 m c) (a2 m c) (a3 m c) (a4 m c) (a5 m c) (a6 m c) (a7 m c) (a8 m c) (a9 m c) := by
    walk_back
    exact w5_v32 m ρ c
  have h45 : W15 m ρ c (Proc.devRef .tc main_v45) = o3 (a0 m c) (a1 m c) (a2 m c) (a3 m c) (a4 m c) (a5 m c) (a6 m c) (a7 m c) (a8 m c) (a9 m c) := by
    walk_back
    exact w7_v45 m ρ c
  have h58 : W15 m ρ c (Proc.devRef .tc main_v58) = o4 (a0 m c) (a1 m c) (a2 m c) (a3 m c) (a4 m c) (a5 m c) (a6 m c) (a7 m c) (a8 m c) (a9 m c) := by
    walk_back
    exact w9_v58 m ρ c
  have h71 : W15 m ρ c (Proc.devRef .tc main_v71) = o5 (a0 m c) (a1 m c) (a2 m c) (a3 m c) (a4 m c) (a5 m c) (a6 m c) (a7 m c) (a8 m c) (a9 m c) := by
    walk_back
    exact w11_v71 m ρ c
  have h84 : W15 m ρ c (Proc.devRef .tc main_v84) = o6 (a0 m c) (a1 m c) (a2 m c) (a3 m c) (a4 m c) (a5 m c) (a6 m c) (a7 m c) (a8 m c) (a9 m c) := by
    walk_back
    exact w13_v84 m ρ c
  have h97 : W15 m ρ c (Proc.devRef .tc main_v97) = o7 (a0 m c) (a1 m c) (a2 m c) (a3 m c) (a4 m c) (a5 m c) (a6 m c) (a7 m c) (a8 m c) (a9 m c) := by
    walk_back
    exact w15_v97 m ρ c
  unfold W16 hostOps8
  simp only [after_cons, after_nil]
  rw [nary_result]
  show concatenate S131072x128 0 [⟨S16384x128, W15 m ρ c (Proc.devRef .tc main_v6)⟩, ⟨S16384x128, W15 m ρ c (Proc.devRef .tc main_v19)⟩,
    ⟨S16384x128, W15 m ρ c (Proc.devRef .tc main_v32)⟩, ⟨S16384x128, W15 m ρ c (Proc.devRef .tc main_v45)⟩,
    ⟨S16384x128, W15 m ρ c (Proc.devRef .tc main_v58)⟩, ⟨S16384x128, W15 m ρ c (Proc.devRef .tc main_v71)⟩,
    ⟨S16384x128, W15 m ρ c (Proc.devRef .tc main_v84)⟩, ⟨S16384x128, W15 m ρ c (Proc.devRef .tc main_v97)⟩] _ = _
  rw [h6, h19, h32, h45, h58, h71, h84, h97]
  rfl

end Cert.KernelIdeal.Val

end
-- ==== Proof.Ref.Run.lean ====
/-
  The reference's run, read as the plain functions of `Ref/Spec.lean`: every named intermediate of the generated run
  is the corresponding function of the arguments' launch contents (the same operations in the same order, so each
  step is an unfolding), and so the result buffer ends at `G` of the arguments.
-/
import proofs.«122000_j45174466019872_2_alg».proof.Proof.Ref.GenRun
import proofs.«122000_j45174466019872_2_alg».proof.Proof.Ref.Spec

noncomputable section

namespace Cert.RefSpec

open Idealize.ShloMosaic Idealize.ShloMosaic.TcCoe Idealize.SL.Sem Idealize.ShloMosaic.StableHlo
open Cert.ReferenceIdeal Cert.ReferenceIdeal.Value

section Terms
variable (V0 : Valuation τ sig (Elt Ideal))

/-- Argument 0's contents. -/
abbrev A0 : FVec Ideal S131072x32 .f32 := V0 (Proc.devRef .tc main_arg0)
/-- Argument 1's contents. -/
abbrev A1 : FVec Ideal S128x32 .f32 := V0 (Proc.devRef .tc main_arg1)
/-- Argument 2's contents. -/
abbrev A2 : FVec Ideal S128 .f32 := V0 (Proc.devRef .tc main_arg2)
/-- Argument 3's contents. -/
abbrev A3 : FVec Ideal S9x128x128 .f32 := V0 (Proc.devRef .tc main_arg3)
/-- Argument 4's contents. -/
abbrev A4 : FVec Ideal S9x128 .f32 := V0 (Proc.devRef .tc main_arg4)
/-- Argument 5's contents. -/
abbrev A5 : FVec Ideal S128x256 .f32 := V0 (Proc.devRef .tc main_arg5)
/-- Argument 6's contents. -/
abbrev A6 : FVec Ideal S128 .f32 := V0 (Proc.devRef .tc main_arg6)
/-- Argument 7's contents. -/
abbrev A7 : FVec Ideal S9x128x128 .f32 := V0 (Proc.devRef .tc main_arg7)
/-- Argument 8's contents. -/
abbrev A8 : FVec Ideal S9x128 .f32 := V0 (Proc.devRef .tc main_arg8)
/-- Argument 9's contents (the predecessor tables). -/
abbrev A9 : IVec S7x16384x16 32 := V0 (Proc.devRef .tc main_arg9)
/-- The embeddings of all nodes. -/
abbrev E : FVec Ideal S131072x128 .f32 := refEmbed (A0 V0) (A1 V0) (A2 V0)

theorem res6_eq : res_main_v6 (F := Ideal) V0 = lvAll (E V0) := rfl
theorem res8_eq : res_main_v8 (F := Ideal) V0 = lv0 (E V0) := by
  unfold res_main_v8; rw [res6_eq V0]; rfl

/-- Level 1's summed messages. -/
abbrev MS0 : FVec Ideal S16384x128 .f32 := msgs (lv0 (E V0)) (idx0 (A9 V0))
/-- Level 1's 256-wide layer. -/
abbrev X0 : FVec Ideal S16384x128 .f32 := refLin0 (lv1 (E V0)) (refChain (MS0 V0) (A3 V0) (A4 V0)) (A5 V0) (A6 V0)
/-- Level 1's result. -/
abbrev O1 : FVec Ideal S16384x128 .f32 := o1 (A0 V0) (A1 V0) (A2 V0) (A3 V0) (A4 V0) (A5 V0) (A6 V0) (A7 V0) (A8 V0) (A9 V0)
theorem res18_eq : res_main_v18 (F := Ideal) V0 = (MS0 V0) := by
  unfold res_main_v18; rw [res8_eq V0]; rfl
theorem res49_eq : res_main_v49 (F := Ideal) V0 = refR2 (MS0 V0) (A3 V0) (A4 V0) := by
  unfold res_main_v49; rw [res18_eq V0]; rfl
theorem res80_eq : res_main_v80 (F := Ideal) V0 = refR5 (MS0 V0) (A3 V0) (A4 V0) := by
  unfold res_main_v80; rw [res49_eq V0]; rfl
theorem res120_eq : res_main_v120 (F := Ideal) V0 = (X0 V0) := by
  unfold res_main_v120; rw [res6_eq V0, res80_eq V0]; rfl
theorem res151_eq : res_main_v151 (F := Ideal) V0 = refR2 (X0 V0) (A7 V0) (A8 V0) := by
  unfold res_main_v151; rw [res120_eq V0]; rfl
theorem res182_eq : res_main_v182 (F := Ideal) V0 = refR5 (X0 V0) (A7 V0) (A8 V0) := by
  unfold res_main_v182; rw [res151_eq V0]; rfl
theorem res213_eq : res_main_v213 (F := Ideal) V0 = O1 V0 := by
  unfold res_main_v213; rw [res182_eq V0]; rfl

/-- Level 2's summed messages. -/
abbrev MS1 : FVec Ideal S16384x128 .f32 := msgs (O1 V0) (idx1 (A9 V0))
/-- Level 2's 256-wide layer. -/
abbrev X1 : FVec Ideal S16384x128 .f32 := refLin0 (lv2 (E V0)) (refChain (MS1 V0) (A3 V0) (A4 V0)) (A5 V0) (A6 V0)
/-- Level 2's result. -/
abbrev O2 : FVec Ideal S16384x128 .f32 := o2 (A0 V0) (A1 V0) (A2 V0) (A3 V0) (A4 V0) (A5 V0) (A6 V0) (A7 V0) (A8 V0) (A9 V0)
theorem res223_eq : res_main_v223 (F := Ideal) V0 = (MS1 V0) := by
  unfold res_main_v223; rw [res213_eq V0]; rfl
theorem res254_eq : res_main_v254 (F := Ideal) V0 = refR2 (MS1 V0) (A3 V0) (A4 V0) := by
  unfold res_main_v254; rw [res223_eq V0]; rfl
theorem res285_eq : res_main_v285 (F := Ideal) V0 = refR5 (MS1 V0) (A3 V0) (A4 V0) := by
  unfold res_main_v285; rw [res254_eq V0]; rfl
theorem res325_eq : res_main_v325 (F := Ideal) V0 = (X1 V0) := by
  unfold res_main_v325; rw [res6_eq V0, res285_eq V0]; rfl
theorem res356_eq : res_main_v356 (F := Ideal) V0 = refR2 (X1 V0) (A7 V0) (A8 V0) := by
  unfold res_main_v356; rw [res325_eq V0]; rfl
theorem res387_eq : res_main_v387 (F := Ideal) V0 = refR5 (X1 V0) (A7 V0) (A8 V0) := by
  unfold res_main_v387; rw [res356_eq V0]; rfl
theorem res418_eq : res_main_v418 (F := Ideal) V0 = O2 V0 := by
  unfold res_main_v418; rw [res387_eq V0]; rfl

/-- Level 3's summed messages. -/
abbrev MS2 : FVec Ideal S16384x128 .f32 := msgs (O2 V0) (idx2 (A9 V0))
/-- Level 3's 256-wide layer. -/
abbrev X2 : FVec Ideal S16384x128 .f32 := refLin0 (lv3 (E V0)) (refChain (MS2 V0) (A3 V0) (A4 V0)) (A5 V0) (A6 V0)
/-- Level 3's result. -/
abbrev O3 : FVec Ideal S16384x128 .f32 := o3 (A0 V0) (A1 V0) (A2 V0) (A3 V0) (A4 V0) (A5 V0) (A6 V0) (A7 V0) (A8 V0) (A9 V0)
theorem res428_eq : res_main_v428 (F := Ideal) V0 = (MS2 V0) := by
  unfold res_main_v428; rw [res418_eq V0]; rfl
theorem res459_eq : res_main_v459 (F := Ideal) V0 = refR2 (MS2 V0) (A3 V0) (A4 V0) := by
  unfold res_main_v459; rw [res428_eq V0]; rfl
theorem res490_eq : res_main_v490 (F := Ideal) V0 = refR5 (MS2 V0) (A3 V0) (A4 V0) := by
  unfold res_main_v490; rw [res459_eq V0]; rfl
theorem res530_eq : res_main_v530 (F := Ideal) V0 = (X2 V0) := by
  unfold res_main_v530; rw [res6_eq V0, res490_eq V0]; rfl
theorem res561_eq : res_main_v561 (F := Ideal) V0 = refR2 (X2 V0) (A7 V0) (A8 V0) := by
  unfold res_main_v561; rw [res530_eq V0]; rfl
theorem res592_eq : res_main_v592 (F := Ideal) V0 = refR5 (X2 V0) (A7 V0) (A8 V0) := by
  unfold res_main_v592; rw [res561_eq V0]; rfl
theorem res623_eq : res_main_v623 (F := Ideal) V0 = O3 V0 := by
  unfold res_main_v623; rw [res592_eq V0]; rfl

/-- Level 4's summed messages. -/
abbrev MS3 : FVec Ideal S16384x128 .f32 := msgs (O3 V0) (idx3 (A9 V0))
/-- Level 4's 256-wide layer. -/
abbrev X3 : FVec Ideal S16384x128 .f32 := refLin0 (lv4 (E V0)) (refChain (MS3 V0) (A3 V0) (A4 V0)) (A5 V0) (A6 V0)
/-- Level 4's result. -/
abbrev O4 : FVec Ideal S16384x128 .f32 := o4 (A0 V0) (A1 V0) (A2 V0) (A3 V0) (A4 V0) (A5 V0) (A6 V0) (A7 V0) (A8 V0) (A9 V0)
theorem res633_eq : res_main_v633 (F := Ideal) V0 = (MS3 V0) := by
  unfold res_main_v633; rw [res623_eq V0]; rfl
theorem res664_eq : res_main_v664 (F := Ideal) V0 = refR2 (MS3 V0) (A3 V0) (A4 V0) := by
  unfold res_main_v664; rw [res633_eq V0]; rfl
theorem res695_eq : res_main_v695 (F := Ideal) V0 = refR5 (MS3 V0) (A3 V0) (A4 V0) := by
  unfold res_main_v695; rw [res664_eq V0]; rfl
theorem res735_eq : res_main_v735 (F := Ideal) V0 = (X3 V0) := by
  unfold res_main_v735; rw [res6_eq V0, res695_eq V0]; rfl
theorem res766_eq : res_main_v766 (F := Ideal) V0 = refR2 (X3 V0) (A7 V0) (A8 V0) := by
  unfold res_main_v766; rw [res735_eq V0]; rfl
theorem res797_eq : res_main_v797 (F := Ideal) V0 = refR5 (X3 V0) (A7 V0) (A8 V0) := by
  unfold res_main_v797; rw [res766_eq V0]; rfl
theorem res828_eq : res_main_v828 (F := Ideal) V0 = O4 V0 := by
  unfold res_main_v828; rw [res797_eq V0]; rfl

/-- Level 5's summed messages. -/
abbrev MS4 : FVec Ideal S16384x128 .f32 := msgs (O4 V0) (idx4 (A9 V0))
/-- Level 5's 256-wide layer. -/
abbrev X4 : FVec Ideal S16384x128 .f32 := refLin0 (lv5 (E V0)) (refChain (MS4 V0) (A3 V0) (A4 V0)) (A5 V0) (A6 V0)
/-- Level 5's result. -/
abbrev O5 : FVec Ideal S16384x128 .f32 := o5 (A0 V0) (A1 V0) (A2 V0) (A3 V0) (A4 V0) (A5 V0) (A6 V0) (A7 V0) (A8 V0) (A9 V0)
theorem res838_eq : res_main_v838 (F := Ideal) V0 = (MS4 V0) := by
  unfold res_main_v838; rw [res828_eq V0]; rfl
theorem res869_eq : res_main_v869 (F := Ideal) V0 = refR2 (MS4 V0) (A3 V0) (A4 V0) := by
  unfold res_main_v869; rw [res838_eq V0]; rfl
theorem res900_eq : res_main_v900 (F := Ideal) V0 = refR5 (MS4 V0) (A3 V0) (A4 V0) := by
  unfold res_main_v900; rw [res869_eq V0]; rfl
theorem res940_eq : res_main_v940 (F := Ideal) V0 = (X4 V0) := by
  unfold res_main_v940; rw [res6_eq V0, res900_eq V0]; rfl
theorem res971_eq : res_main_v971 (F := Ideal) V0 = refR2 (X4 V0) (A7 V0) (A8 V0) := by
  unfold res_main_v971; rw [res940_eq V0]; rfl
theorem res1002_eq : res_main_v1002 (F := Ideal) V0 = refR5 (X4 V0) (A7 V0) (A8 V0) := by
  unfold res_main_v1002; rw [res971_eq V0]; rfl
theorem res1033_eq : res_main_v1033 (F := Ideal) V0 = O5 V0 := by
  unfold res_main_v1033; rw [res1002_eq V0]; rfl

/-- Level 6's summed messages. -/
abbrev MS5 : FVec Ideal S16384x128 .f32 := msgs (O5 V0) (idx5 (A9 V0))
/-- Level 6's 256-wide layer. -/
abbrev X5 : FVec Ideal S16384x128 .f32 := refLin0 (lv6 (E V0)) (refChain (MS5 V0) (A3 V0) (A4 V0)) (A5 V0) (A6 V0)
/-- Level 6's result. -/
abbrev O6 : FVec Ideal S16384x128 .f32 := o6 (A0 V0) (A1 V0) (A2 V0) (A3 V0) (A4 V0) (A5 V0) (A6 V0) (A7 V0) (A8 V0) (A9 V0)
theorem res1043_eq : res_main_v1043 (F := Ideal) V0 = (MS5 V0) := by
  unfold res_main_v1043; rw [res1033_eq V0]; rfl
theorem res1074_eq : res_main_v1074 (F := Ideal) V0 = refR2 (MS5 V0) (A3 V0) (A4 V0) := by
  unfold res_main_v1074; rw [res1043_eq V0]; rfl
theorem res1105_eq : res_main_v1105 (F := Ideal) V0 = refR5 (MS5 V0) (A3 V0) (A4 V0) := by
  unfold res_main_v1105; rw [res1074_eq V0]; rfl
theorem res1145_eq : res_main_v1145 (F := Ideal) V0 = (X5 V0) := by
  unfold res_main_v1145; rw [res6_eq V0, res1105_eq V0]; rfl
theorem res1176_eq : res_main_v1176 (F := Ideal) V0 = refR2 (X5 V0) (A7 V0) (A8 V0) := by
  unfold res_main_v1176; rw [res1145_eq V0]; rfl
theorem res1207_eq : res_main_v1207 (F := Ideal) V0 = refR5 (X5 V0) (A7 V0) (A8 V0) := by
  unfold res_main_v1207; rw [res1176_eq V0]; rfl
theorem res1238_eq : res_main_v1238 (F := Ideal) V0 = O6 V0 := by
  unfold res_main_v1238; rw [res1207_eq V0]; rfl

/-- Level 7's summed messages. -/
abbrev MS6 : FVec Ideal S16384x128 .f32 := msgs (O6 V0) (idx6 (A9 V0))
/-- Level 7's 256-wide layer. -/
abbrev X6 : FVec Ideal S16384x128 .f32 := refLin0 (lv7 (E V0)) (refChain (MS6 V0) (A3 V0) (A4 V0)) (A5 V0) (A6 V0)
/-- Level 7's result. -/
abbrev O7 : FVec Ideal S16384x128 .f32 := o7 (A0 V0) (A1 V0) (A2 V0) (A3 V0) (A4 V0) (A5 V0) (A6 V0) (A7 V0) (A8 V0) (A9 V0)
theorem res1248_eq : res_main_v1248 (F := Ideal) V0 = (MS6 V0) := by
  unfold res_main_v1248; rw [res1238_eq V0]; rfl
theorem res1279_eq : res_main_v1279 (F := Ideal) V0 = refR2 (MS6 V0) (A3 V0) (A4 V0) := by
  unfold res_main_v1279; rw [res1248_eq V0]; rfl
theorem res1310_eq : res_main_v1310 (F := Ideal) V0 = refR5 (MS6 V0) (A3 V0) (A4 V0) := by
  unfold res_main_v1310; rw [res1279_eq V0]; rfl
theorem res1350_eq : res_main_v1350 (F := Ideal) V0 = (X6 V0) := by
  unfold res_main_v1350; rw [res6_eq V0, res1310_eq V0]; rfl
theorem res1381_eq : res_main_v1381 (F := Ideal) V0 = refR2 (X6 V0) (A7 V0) (A8 V0) := by
  unfold res_main_v1381; rw [res1350_eq V0]; rfl
theorem res1412_eq : res_main_v1412 (F := Ideal) V0 = refR5 (X6 V0) (A7 V0) (A8 V0) := by
  unfold res_main_v1412; rw [res1381_eq V0]; rfl

set_option maxRecDepth 8192 in
/-- The result buffer's composed term is `G` of the arguments' launch contents. -/
theorem result_eq : val25 (F := Ideal) V0 (Proc.devRef .tc main_v1444)
    = G (A0 V0) (A1 V0) (A2 V0) (A3 V0) (A4 V0) (A5 V0) (A6 V0) (A7 V0) (A8 V0) (A9 V0) :=
  (val25_main_v1444 V0).trans (by
    rw [res8_eq V0, res213_eq V0, res418_eq V0, res623_eq V0, res828_eq V0, res1033_eq V0, res1238_eq V0, res1412_eq V0]
    rfl)

end Terms

/-- On every device, from any memory with zero counters: every weakly fair execution of the reference terminates
    with its result buffer at `G` of the arguments' launch contents, the arguments unchanged. -/
theorem run_G (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread nD τ).loc main_v1444) = G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)) :=
  (θ_run (Cert.ReferenceIdeal.defs (F := Ideal)) _ _).mono
    (fun _ h c => ⟨(h c).1.trans ((val25_main_v1444 (launchContents m' c)).symm.trans (result_eq (launchContents m' c))), (h c).2⟩)
    (Cert.ReferenceIdeal.Value.run m' ρ')

end Cert.RefSpec

end
-- ==== Proof.lean ====
/-
  The certificate: three frames, the idealization's ledger (empty), and the value claim.

  The kernel program embeds every node (one dense layer with tanh over its 32 features), cuts the embeddings into
  eight levels of 16384 nodes and, level after level, sums for each node the sixteen gathered rows of the level
  before and sends the sum through a nine-layer chain, a 256-wide layer beside the node's own embedding and
  another nine-layer chain; the result is the eight levels one after another. The reference does the same with
  host operations on whole arrays. On the extended reals a change of float format is the identity and a matrix
  product is the plain sum over the shared channels in both programs, so row by row both compute the same
  function (`RowSpec`): the kernel program's result array (read off its run through its sixteen boundaries) and
  the reference's (its generated run, read back) are both `RefSpec.G` of the argument arrays. No finiteness of the
  inputs is used.
-/
import proofs.«122000_j45174466019872_2_alg».proof.Defs
import proofs.«122000_j45174466019872_2_alg».proof.Proof.Gen.Kernel
import proofs.«122000_j45174466019872_2_alg».proof.Proof.Gen.KernelIdeal
import proofs.«122000_j45174466019872_2_alg».proof.Proof.Gen.ReferenceIdeal
import proofs.«122000_j45174466019872_2_alg».proof.Proof.Ref.GenRun
import proofs.«122000_j45174466019872_2_alg».proof.Proof.Gen.Pre_finite_inputs
import proofs.«122000_j45174466019872_2_alg».proof.Proof.K.Frame
import proofs.«122000_j45174466019872_2_alg».proof.Proof.KI.Frame
import proofs.«122000_j45174466019872_2_alg».proof.Proof.KI.Values
import proofs.«122000_j45174466019872_2_alg».proof.Proof.Ref.Run
import Idealize.ShloMosaic.Adequacy
import Idealize.ShloMosaic.Init

set_option maxHeartbeats 1000000

noncomputable section

namespace Cert.Proof

open Idealize.ShloMosaic Idealize.ShloMosaic.TcCoe Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- The same of the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at `RefSpec.G` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RefSpec.G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)), ?_,
    Cert.RefSpec.run_G m' ρ'⟩
  refine (θ_run Cert.KernelIdeal.defs _ _).mono (fun r h c => ?_) (Cert.KernelIdeal.Hand.run_all m ρ)
  obtain ⟨g0, g1, g2, g3, g4, g5, g6, g7, g8, g9⟩ := hagree c
  refine ⟨?_, ?_⟩
  · dsimp only
    rw [g0, g1, g2, g3, g4, g5, g6, g7, g8, g9]
    exact (h c _ (Cert.KernelIdeal.Hand.mem_uc Cert.KernelIdeal.main_v98 (by decide))).trans (Cert.KernelIdeal.Val.w16_v98 m ρ c)
  · exact ⟨(h c _ (Cert.KernelIdeal.Hand.mem_uc Cert.KernelIdeal.main_arg0 (by decide))).trans (Cert.KernelIdeal.Hand.W16_main_arg0 m ρ c),
      (h c _ (Cert.KernelIdeal.Hand.mem_uc Cert.KernelIdeal.main_arg1 (by decide))).trans (Cert.KernelIdeal.Hand.W16_main_arg1 m ρ c),
      (h c _ (Cert.KernelIdeal.Hand.mem_uc Cert.KernelIdeal.main_arg2 (by decide))).trans (Cert.KernelIdeal.Hand.W16_main_arg2 m ρ c),
      (h c _ (Cert.KernelIdeal.Hand.mem_uc Cert.KernelIdeal.main_arg3 (by decide))).trans (Cert.KernelIdeal.Hand.W16_main_arg3 m ρ c),
      (h c _ (Cert.KernelIdeal.Hand.mem_uc Cert.KernelIdeal.main_arg4 (by decide))).trans (Cert.KernelIdeal.Hand.W16_main_arg4 m ρ c),
      (h c _ (Cert.KernelIdeal.Hand.mem_uc Cert.KernelIdeal.main_arg5 (by decide))).trans (Cert.KernelIdeal.Hand.W16_main_arg5 m ρ c),
      (h c _ (Cert.KernelIdeal.Hand.mem_uc Cert.KernelIdeal.main_arg6 (by decide))).trans (Cert.KernelIdeal.Hand.W16_main_arg6 m ρ c),
      (h c _ (Cert.KernelIdeal.Hand.mem_uc Cert.KernelIdeal.main_arg7 (by decide))).trans (Cert.KernelIdeal.Hand.W16_main_arg7 m ρ c),
      (h c _ (Cert.KernelIdeal.Hand.mem_uc Cert.KernelIdeal.main_arg8 (by decide))).trans (Cert.KernelIdeal.Hand.W16_main_arg8 m ρ c),
      (h c _ (Cert.KernelIdeal.Hand.mem_uc Cert.KernelIdeal.main_arg9 (by decide))).trans (Cert.KernelIdeal.Hand.W16_main_arg9 m ρ c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
